-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x256 : Shape := ⟨3, ![4, 512, 256]⟩
abbrev S4x512 : Shape := ⟨2, ![4, 512]⟩
abbrev S512x512 : Shape := ⟨2, ![512, 512]⟩
abbrev S256x256 : Shape := ⟨2, ![256, 256]⟩
abbrev S256 : Shape := ⟨1, ![256]⟩
abbrev S256x2 : Shape := ⟨2, ![256, 2]⟩
abbrev S1x256 : Shape := ⟨2, ![1, 256]⟩
abbrev S1 : Shape := ⟨1, ![1]⟩
abbrev S_ : Shape := ⟨0, ![]⟩

class Facts : Prop where
  bcast_S_S4x512x256 : S_.BroadcastsInDim S4x512x256 (![] : Fin 0 → Fin S4x512x256.rank)
  reducesTo_S4x512x256_S_d0_1_2 : S4x512x256.ReducesTo [0, 1, 2] S_
  h_S_ : 0 < S_.numel
  bcast_S_S4x512 : S_.BroadcastsInDim S4x512 (![] : Fin 0 → Fin S4x512.rank)
  reducesTo_S4x512_S_d0_1 : S4x512.ReducesTo [0, 1] S_
  bcast_S_S512x512 : S_.BroadcastsInDim S512x512 (![] : Fin 0 → Fin S512x512.rank)
  reducesTo_S512x512_S_d0_1 : S512x512.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  main_v103

def fn_part5 {F : FTy → Type} [FloatOps F] (main_arg18 : FVec F S256 .f32) (main_arg19 : FVec F S256 .f32) (main_arg20 : FVec F S256 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg19
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256 .f32 := Host.absf main_arg20
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_v98 main_v101 main_c_39

def fn_part4 {F : FTy → Type} [FloatOps F] (main_arg14 : FVec F S256 .f32) (main_arg15 : FVec F S256 .f32) (main_arg16 : FVec F S256 .f32) (main_arg17 : FVec F S256 .f32) (main_arg18 : FVec F S256 .f32) (main_arg19 : FVec F S256 .f32) (main_arg20 : FVec F S256 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S1x256 .f32) (main_arg12 : FVec F S1 .f32) (main_arg13 : FVec F S256x256 .f32) (main_arg14 : FVec F S256 .f32) (main_arg15 : FVec F S256 .f32) (main_arg16 : FVec F S256 .f32) (main_arg17 : FVec F S256 .f32) (main_arg18 : FVec F S256 .f32) (main_arg19 : FVec F S256 .f32) (main_arg20 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S1x256 .f32 := Host.absf main_arg11
  let main_cst_20 : FVec F S_ .f32 := constant S_ .f32 0x7F800000#32
  let main_v55 : FVec F S1x256 .f32 := broadcastInDim S1x256 ![] bcast_S_S1x256 main_cst_20
  let main_v56 : IVec S1x256 1 := cmpf .olt main_v54 main_v55
  let main_c_21 : IVec S_ 1 := constantI S_ 1 1#1
  let main_v57 : IVec S_ 1 := (fun x v => Host.reduce IntOp.andi x v reducesTo_S1x256_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S256x256 .f32) (main_arg8 : FVec F S256 .f32) (main_arg9 : FVec F S256x2 .f32) (main_arg10 : FVec F S256 .f32) (main_arg11 : FVec F S1x256 .f32) (main_arg12 : FVec F S1 .f32) (main_arg13 : FVec F S256x256 .f32) (main_arg14 : FVec F S256 .f32) (main_arg15 : FVec F S256 .f32) (main_arg16 : FVec F S256 .f32) (main_arg17 : FVec F S256 .f32) (main_arg18 : FVec F S256 .f32) (main_arg19 : FVec F S256 .f32) (main_arg20 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x2 .f32 := Host.absf main_arg9
  let main_cst_16 : FVec F S_ .f32 := constant S_ .f32 0x7F800000#32
  let main_v45 : FVec F S256x2 .f32 := broadcastInDim S256x2 ![] bcast_S_S256x2 main_cst_16
  let main_v46 : IVec S256x2 1 := cmpf .olt main_v44 main_v45
  let main_c_17 : IVec S_ 1 := constantI S_ 1 1#1
  let main_v47 : IVec S_ 1 := (fun x v => Host.reduce IntOp.andi x v reducesTo_S256x2_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256x2 .f32) (main_arg10 : FVec F S256 .f32) (main_arg11 : FVec F S1x256 .f32) (main_arg12 : FVec F S1 .f32) (main_arg13 : FVec F S256x256 .f32) (main_arg14 : FVec F S256 .f32) (main_arg15 : FVec F S256 .f32) (main_arg16 : FVec F S256 .f32) (main_arg17 : FVec F S256 .f32) (main_arg18 : FVec F S256 .f32) (main_arg19 : FVec F S256 .f32) (main_arg20 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S4x512x256 .f32) (main_arg1 : FVec F S4x512 .f32) (main_arg2 : FVec F S512x512 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x2 .f32) (main_arg10 : FVec F S256 .f32) (main_arg11 : FVec F S1x256 .f32) (main_arg12 : FVec F S1 .f32) (main_arg13 : FVec F S256x256 .f32) (main_arg14 : FVec F S256 .f32) (main_arg15 : FVec F S256 .f32) (main_arg16 : FVec F S256 .f32) (main_arg17 : FVec F S256 .f32) (main_arg18 : FVec F S256 .f32) (main_arg19 : FVec F S256 .f32) (main_arg20 : FVec F S256 .f32) : IVec S_ 1 :=
  let main_v0 : FVec F S4x512x256 .f32 := Host.absf main_arg0
  let main_cst : FVec F S_ .f32 := constant S_ .f32 0x7F800000#32
  let main_v1 : FVec F S4x512x256 .f32 := broadcastInDim S4x512x256 ![] bcast_S_S4x512x256 main_cst
  let main_v2 : IVec S4x512x256 1 := cmpf .olt main_v0 main_v1
  let main_c : IVec S_ 1 := constantI S_ 1 1#1
  let main_v3 : IVec S_ 1 := (fun x v => Host.reduce IntOp.andi x v reducesTo_S4x512x256_S_d0_1_2 h_S_) main_v2 main_c
  let main_v4 : FVec F S4x512 .f32 := Host.absf main_arg1
  let main_cst_0 : FVec F S_ .f32 := constant S_ .f32 0x7F800000#32
  let main_v5 : FVec F S4x512 .f32 := broadcastInDim S4x512 ![] bcast_S_S4x512 main_cst_0
  let main_v6 : IVec S4x512 1 := cmpf .olt main_v4 main_v5
  let main_c_1 : IVec S_ 1 := constantI S_ 1 1#1
  let main_v7 : IVec S_ 1 := (fun x v => Host.reduce IntOp.andi x v reducesTo_S4x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S4x512x256 : Shape := ⟨3, ![4, 512, 256]⟩
abbrev S4x512 : Shape := ⟨2, ![4, 512]⟩
abbrev S512x512 : Shape := ⟨2, ![512, 512]⟩
abbrev S256x256 : Shape := ⟨2, ![256, 256]⟩
abbrev S256 : Shape := ⟨1, ![256]⟩
abbrev S256x2 : Shape := ⟨2, ![256, 2]⟩
abbrev S1x256 : Shape := ⟨2, ![1, 256]⟩
abbrev S1 : Shape := ⟨1, ![1]⟩
abbrev S4x512x1 : Shape := ⟨3, ![4, 512, 1]⟩
abbrev S1x32x256 : Shape := ⟨3, ![1, 32, 256]⟩
abbrev S1x128x256 : Shape := ⟨3, ![1, 128, 256]⟩
abbrev S1x32x1 : Shape := ⟨3, ![1, 32, 1]⟩
abbrev S32x128 : Shape := ⟨2, ![32, 128]⟩
abbrev S32x1 : Shape := ⟨2, ![32, 1]⟩
abbrev S32x256 : Shape := ⟨2, ![32, 256]⟩
abbrev S128x256 : Shape := ⟨2, ![128, 256]⟩
abbrev S256x128 : Shape := ⟨2, ![256, 128]⟩
abbrev S256x1 : Shape := ⟨2, ![256, 1]⟩
abbrev S1x8x1 : Shape := ⟨3, ![1, 8, 1]⟩
abbrev S8x1 : Shape := ⟨2, ![8, 1]⟩
abbrev S8x128 : Shape := ⟨2, ![8, 128]⟩
abbrev S8x1x1 : Shape := ⟨3, ![8, 1, 1]⟩
abbrev S1x1x256 : Shape := ⟨3, ![1, 1, 256]⟩
abbrev S8x1x256 : Shape := ⟨3, ![8, 1, 256]⟩
abbrev S8x128x1 : Shape := ⟨3, ![8, 128, 1]⟩
abbrev S8x128x256 : Shape := ⟨3, ![8, 128, 256]⟩
abbrev S32 : Shape := ⟨1, ![32]⟩

abbrev nBuf : Space → Nat
  | .hbm => 23
  | .vmem => 32
  | .smem => 0
  | _ => 0

abbrev bufTy : (tb : Table) → Fin (tcTables nBuf tb) → BufTy
  | .hbm, ⟨0, _⟩ => ⟨S4x512x256, .f32⟩
  | .hbm, ⟨1, _⟩ => ⟨S4x512, .f32⟩
  | .hbm, ⟨2, _⟩ => ⟨S512x512, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x2, .f32⟩
  | .hbm, ⟨10, _⟩ => ⟨S256, .f32⟩
  | .hbm, ⟨11, _⟩ => ⟨S1x256, .f32⟩
  | .hbm, ⟨12, _⟩ => ⟨S1, .f32⟩
  | .hbm, ⟨13, _⟩ => ⟨S256x256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S4x512x1, .f32⟩
  | .hbm, ⟨22, _⟩ => ⟨S4x512x256, .f32⟩
  | .local _ .vmem, ⟨0, _⟩ => ⟨S1x32x256, .f32⟩
  | .local _ .vmem, ⟨1, _⟩ => ⟨S1x32x256, .f32⟩
  | .local _ .vmem, ⟨2, _⟩ => ⟨S1x128x256, .f32⟩
  | .local _ .vmem, ⟨3, _⟩ => ⟨S1x128x256, .f32⟩
  | .local _ .vmem, ⟨4, _⟩ => ⟨S1x32x1, .f32⟩
  | .local _ .vmem, ⟨5, _⟩ => ⟨S1x32x1, .f32⟩
  | .local _ .vmem, ⟨6, _⟩ => ⟨S32x128, .f32⟩
  | .local _ .vmem, ⟨7, _⟩ => ⟨S32x128, .f32⟩
  | .local _ .vmem, ⟨8, _⟩ => ⟨S256x256, .f32⟩
  | .local _ .vmem, ⟨9, _⟩ => ⟨S256, .f32⟩
  | .local _ .vmem, ⟨10, _⟩ => ⟨S256x256, .f32⟩
  | .local _ .vmem, ⟨11, _⟩ => ⟨S256, .f32⟩
  | .local _ .vmem, ⟨12, _⟩ => ⟨S256x256, .f32⟩
  | .local _ .vmem, ⟨13, _⟩ => ⟨S256, .f32⟩
  | .local _ .vmem, ⟨14, _⟩ => ⟨S256x2, .f32⟩
  | .local _ .vmem, ⟨15, _⟩ => ⟨S256, .f32⟩
  | .local _ .vmem, ⟨16, _⟩ => ⟨S1x256, .f32⟩
  | .local _ .vmem, ⟨17, _⟩ => ⟨S1, .f32⟩
  | .local _ .vmem, ⟨18, _⟩ => ⟨S256x256, .f32⟩
  | .local _ .vmem, ⟨19, _⟩ => ⟨S256, .f32⟩
  | .local _ .vmem, ⟨20, _⟩ => ⟨S256, .f32⟩
  | .local _ .vmem, ⟨21, _⟩ => ⟨S256, .f32⟩
  | .local _ .vmem, ⟨22, _⟩ => ⟨S256, .f32⟩
  | .local _ .vmem, ⟨23, _⟩ => ⟨S256, .f32⟩
  | .local _ .vmem, ⟨24, _⟩ => ⟨S256, .f32⟩
  | .local _ .vmem, ⟨25, _⟩ => ⟨S256, .f32⟩
  | .local _ .vmem, ⟨26, _⟩ => ⟨S1x32x256, .f32⟩
  | .local _ .vmem, ⟨27, _⟩ => ⟨S1x32x256, .f32⟩
  | .local _ .vmem, ⟨28, _⟩ => ⟨S32x1, .f32⟩
  | .local _ .vmem, ⟨29, _⟩ => ⟨S32x1, .f32⟩
  | .local _ .vmem, ⟨30, _⟩ => ⟨S32x256, .f32⟩
  | .local _ .vmem, ⟨31, _⟩ => ⟨S32x128, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg22_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem22_1 : DmaSem sig := 27

abbrev nD : Nat := 1
abbrev τ : Topo := Topo.v7x

variable {F : FTy → Type} [FloatOps F]

abbrev grid0 : Pipeline.Grid := ⟨3, ![4, 16, 4], ![false, false, false]⟩

@[reducible] def k0_t1_loop : Scf.Loop 32 :=
  let c0_i32_25 : BitVec 32 := 0#32
  let c4_i32 : BitVec 32 := 4#32
  let v49 : BitVec 32 := Scalar.addi c0_i32_25 c4_i32
  let c1_i32 : BitVec 32 := 1#32
  ⟨c0_i32_25, v49, c1_i32⟩
def k0_mult1 (k0_t1 : Fin k0_t1_loop.trips) : BitVec 32 :=
  let c0_i32_25 : BitVec 32 := 0#32
  let c1_i32 : BitVec 32 := 1#32
  let arg30 : BitVec 32 := Scf.iv c0_i32_25 c1_i32 k0_t1
  let c8_i32 : BitVec 32 := 8#32
  let v86 : BitVec 32 := Scalar.muli arg30 c8_i32
  v86
def k0_off1 (k0_t1 : Fin k0_t1_loop.trips) : Fin 3 → Nat :=
  let c0_45 : Index := 0#32
  let c0_i32_25 : BitVec 32 := 0#32
  let c1_i32 : BitVec 32 := 1#32
  let arg30 : BitVec 32 := Scf.iv c0_i32_25 c1_i32 k0_t1
  let c8_i32 : BitVec 32 := 8#32
  let v86 : BitVec 32 := Scalar.muli arg30 c8_i32
  let v87 : BitVec 32 := v86
  let v88 : Index := Scalar.indexCast v87
  let c0_46 : Index := 0#32
  ![0, v88.toNat, 0]
def k0_off2 (k0_t1 : Fin k0_t1_loop.trips) : Fin 2 → Nat :=
  let c0_i32_25 : BitVec 32 := 0#32
  let c1_i32 : BitVec 32 := 1#32
  let arg30 : BitVec 32 := Scf.iv c0_i32_25 c1_i32 k0_t1
  let c8_i32 : BitVec 32 := 8#32
  let v86 : BitVec 32 := Scalar.muli arg30 c8_i32
  let v87 : BitVec 32 := v86
  let v91 : Index := Scalar.indexCast v87
  let c0_47 : Index := 0#32
  ![v91.toNat, 0]
def k0_cond2 (i : grid0.Coords) : BitVec 1 :=
  let arg2 : BitVec 32 := BitVec.ofNat 32 (i 2).val
  let c3_i32 : BitVec 32 := 3#32
  let v83 : BitVec 1 := Scalar.cmpi .eq arg2 c3_i32
  let v84 : BitVec 32 := Scalar.extui v83
  let c0_i32_44 : BitVec 32 := 0#32
  let v85 : BitVec 1 := Scalar.cmpi .ne v84 c0_i32_44
  v85

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_18 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_19 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_20 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_21 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_22 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S256x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 1 → Memref sig .tc .vmem S256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false, false]

abbrev stage0_15 : Fin 1 → Memref sig .tc .vmem S256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false, false]

abbrev stage0_16 : Fin 1 → Memref sig .tc .vmem S256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false, false]

abbrev stage0_17 : Fin 1 → Memref sig .tc .vmem S256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false, false]

abbrev stage0_18 : Fin 1 → Memref sig .tc .vmem S256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false, false]

abbrev stage0_19 : Fin 1 → Memref sig .tc .vmem S256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false, false]

abbrev stage0_20 : Fin 1 → Memref sig .tc .vmem S256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false, false]

abbrev stage0_21 : Fin 1 → Memref sig .tc .vmem S256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false, false]

abbrev stage0_22 : Fin 2 → Memref sig .tc .vmem S1x32x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true, false]

class Facts₀ : Prop where
  bcast_S4x512_S4x512x1_0_1 : S4x512.BroadcastsInDim S4x512x1 (![0, 1] : Fin 2 → Fin S4x512x1.rank)
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  bitsLt_bf16_f32 : FTy.bits .bf16 < FTy.bits .f32
  transposes_S256x256_p1_0_S256x256 : S256x256.Transposes [1, 0] S256x256
  shapeCasts_S256_S1x256 : S256.ShapeCasts S1x256
  broadcasts_S1x256_S32x256 : S1x256.Broadcasts S32x256
  broadcasts_S1x256_S128x256 : S1x256.Broadcasts S128x256
  transposes_S128x256_p1_0_S256x128 : S128x256.Transposes [1, 0] S256x128
  inb_S256x2_S256x2_0_0 : ∀ a, (![0, 0] : Fin 2 → Nat) a + S256x2.size a ≤ S256x2.size a
  h_S256x2 : 0 < S256x2.numel
  slices_S256x2_o0_0_S256x1 : S256x2.Slices ![0, 0] S256x1
  shapeCasts_S256x1_S256 : S256x1.ShapeCasts S256
  slices_S256x2_o0_1_S256x1 : S256x2.Slices ![0, 1] S256x1
  inb_S1x256_S1x256_0_0 : ∀ a, (![0, 0] : Fin 2 → Nat) a + S1x256.size a ≤ S1x256.size a
  h_S1x256 : 0 < S1x256.numel
  inb_S1_S1_0 : ∀ a, (![0] : Fin 1 → Nat) a + S1.size a ≤ S1.size a
  h_S1 : 0 < S1.numel
  shapeCasts_S1x256_S256 : S1x256.ShapeCasts S256
  inpos_S1_p0 : ∀ a, (![0] : Fin 1 → Nat) a < S1.size a
  h_S1x8x1 : 0 < S1x8x1.numel
  shapeCasts_S1x8x1_S8x1 : S1x8x1.ShapeCasts S8x1
  h_S8x128 : 0 < S8x128.numel
  shapeCasts_S8x1_S8x1x1 : S8x1.ShapeCasts S8x1x1
  shapeCasts_S256_S1x1x256 : S256.ShapeCasts S1x1x256
  broadcasts_S8x1x1_S8x1x256 : S8x1x1.Broadcasts S8x1x256
  broadcasts_S1x1x256_S8x1x256 : S1x1x256.Broadcasts S8x1x256
  shapeCasts_S8x128_S8x128x1 : S8x128.ShapeCasts S8x128x1
  broadcasts_S8x128x1_S8x128x256 : S8x128x1.Broadcasts S8x128x256
  broadcasts_S1x1x256_S8x128x256 : S1x1x256.Broadcasts S8x128x256
  broadcasts_S8x1x256_S8x128x256 : S8x1x256.Broadcasts S8x128x256
  reduces_S8x128x256_S8x128 : S8x128x256.Reduces [2] S8x128
  shapeCasts_S8x128_S8x128 : S8x128.ShapeCasts S8x128
  inb_S32x128_S32x128_0_0 : ∀ a, (![0, 0] : Fin 2 → Nat) a + S32x128.size a ≤ S32x128.size a
  h_S32x128 : 0 < S32x128.numel
  reduces_S32x128_S32 : S32x128.Reduces [1] S32
  shapeCasts_S32_S32x1 : S32.ShapeCasts S32x1
  broadcasts_S32x1_S32x128 : S32x1.Broadcasts S32x128
  broadcasts_S32x1_S32x256 : S32x1.Broadcasts S32x256
  reduces_S32x256_S32 : S32x256.Reduces [1] S32
  shapeCasts_S32x256_S1x32x256 : S32x256.ShapeCasts S1x32x256
  dot_S32x256_S256x256_S32x256_1_0_0_1_n_n_wf : DotDims.WF S32x256 S256x256 S32x256 [1] [0] [0] [1] [] []
  dot_S128x256_S256x256_S128x256_1_0_0_1_n_n_wf : DotDims.WF S128x256 S256x256 S128x256 [1] [0] [0] [1] [] []
  dot_S32x256_S256x128_S32x128_1_0_0_1_n_n_wf : DotDims.WF S32x256 S256x128 S32x128 [1] [0] [0] [1] [] []
  dot_S32x128_S128x256_S32x256_1_0_0_1_n_n_wf : DotDims.WF S32x128 S128x256 S32x256 [1] [0] [0] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S1x8x1.size a ≤ S1x32x1.size a
  k0_off2_inb : ∀ k0_t1 : Fin k0_t1_loop.trips, ∀ a, (k0_off2 k0_t1) a + S8x128.size a ≤ S32x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x256.size a ≤ S4x512x256.size a
  hwx0_0 : ∀ i : grid0.Coords, EltTy.bits .f32 = 32 ∨ (Rect.block (s := S4x512x256) S1x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x256.size a ≤ S4x512x256.size a
  hwx0_1 : ∀ i : grid0.Coords, EltTy.bits .f32 = 32 ∨ (Rect.block (s := S4x512x256) S1x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x1.size a ≤ S4x512x1.size a
  hwx0_2 : ∀ i : grid0.Coords, EltTy.bits .f32 = 32 ∨ (Rect.block (s := S4x512x1) S1x32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S512x512.size a
  hwx0_3 : ∀ i : grid0.Coords, EltTy.bits .f32 = 32 ∨ (Rect.block (s := S512x512) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x2.size a ≤ S256x2.size a
  hwx0_10 : ∀ i : grid0.Coords, EltTy.bits .f32 = 32 ∨ (Rect.block (s := S256x2) S256x2.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1.size a ≤ S1.size a
  hwx0_13 : ∀ i : grid0.Coords, EltTy.bits .f32 = 32 ∨ (Rect.block (s := S1) S1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x256.size a ≤ S256x256.size a
  hwx0_14 : ∀ i : grid0.Coords, EltTy.bits .f32 = 32 ∨ (Rect.block (s := S256x256) S256x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256.size a ≤ S256.size a
  hwx0_15 : ∀ i : grid0.Coords, EltTy.bits .f32 = 32 ∨ (Rect.block (s := S256) S256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256.size a ≤ S256.size a
  hwx0_16 : ∀ i : grid0.Coords, EltTy.bits .f32 = 32 ∨ (Rect.block (s := S256) S256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256.size a ≤ S256.size a
  hwx0_17 : ∀ i : grid0.Coords, EltTy.bits .f32 = 32 ∨ (Rect.block (s := S256) S256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256.size a ≤ S256.size a
  hwx0_18 : ∀ i : grid0.Coords, EltTy.bits .f32 = 32 ∨ (Rect.block (s := S256) S256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256.size a ≤ S256.size a
  hwx0_19 : ∀ i : grid0.Coords, EltTy.bits .f32 = 32 ∨ (Rect.block (s := S256) S256.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256.size a ≤ S256.size a
  hwx0_20 : ∀ i : grid0.Coords, EltTy.bits .f32 = 32 ∨ (Rect.block (s := S256) S256.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S256.size a ≤ S256.size a
  hwx0_21 : ∀ i : grid0.Coords, EltTy.bits .f32 = 32 ∨ (Rect.block (s := S256) S256.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S1x32x256.size a ≤ S4x512x256.size a
  hwx0_22 : ∀ i : grid0.Coords, EltTy.bits .f32 = 32 ∨ (Rect.block (s := S4x512x256) S1x32x256.size (cc0_transform_22 i) (hinb0_22 i)).WholeWords (EltTy.packing .f32)

variable [Facts₀]

def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S32x256_S256x128_S32x128_1_0_0_1_n_n : DotDims S32x256 S256x128 S32x128 where
  lhsContracting := [1]
  rhsContracting := [0]
  lhsNonContracting := [0]
  rhsNonContracting := [1]
  lhsBatch := []
  rhsBatch := []
  wf := dot_S32x256_S256x128_S32x128_1_0_0_1_n_n_wf
def dot_S32x128_S128x256_S32x256_1_0_0_1_n_n : DotDims S32x128 S128x256 S32x256 where
  lhsContracting := [1]
  rhsContracting := [0]
  lhsNonContracting := [0]
  rhsNonContracting := [1]
  lhsBatch := []
  rhsBatch := []
  wf := dot_S32x128_S128x256_S32x256_1_0_0_1_n_n_wf

abbrev win0_0 : Pipeline.Window sig grid0 :=
  Pipeline.Window.ofSpec (Memref.whole main_arg0) S1x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S256x2.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S256x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg15) S256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg16) S256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg17) S256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg18) S256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg19) S256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg20) S256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v1) S1x32x256.size cc0_transform_22 reads0_22 true false 2 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

abbrev idle0 : Fin 23 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun _ => false | 20 => fun _ => false | 21 => fun _ => false | 22 => fun i => !(k0_cond2 i == 1#1) | ⟨_ + 23, h⟩ => absurd h (Nat.not_lt.2 (Nat.le_add_left _ _))

class Facts : Prop extends Facts₀ where

variable [Facts]
-- ==== ReferenceIdeal.lean ====
abbrev S4x512x256 : Shape := ⟨3, ![4, 512, 256]⟩
abbrev S4x512 : Shape := ⟨2, ![4, 512]⟩
abbrev S512x512 : Shape := ⟨2, ![512, 512]⟩
abbrev S256x256 : Shape := ⟨2, ![256, 256]⟩
abbrev S256 : Shape := ⟨1, ![256]⟩
abbrev S256x2 : Shape := ⟨2, ![256, 2]⟩
abbrev S1x256 : Shape := ⟨2, ![1, 256]⟩
abbrev S1 : Shape := ⟨1, ![1]⟩
abbrev S1x1x256 : Shape := ⟨3, ![1, 1, 256]⟩
abbrev S4x512x512 : Shape := ⟨3, ![4, 512, 512]⟩
abbrev S_ : Shape := ⟨0, ![]⟩
abbrev S4x512x1 : Shape := ⟨3, ![4, 512, 1]⟩
abbrev S1x512x512 : Shape := ⟨3, ![1, 512, 512]⟩
abbrev S4x512x512x1 : Shape := ⟨4, ![4, 512, 512, 1]⟩
abbrev S4x512x512x2 : Shape := ⟨4, ![4, 512, 512, 2]⟩
abbrev S4x512x512x256 : Shape := ⟨4, ![4, 512, 512, 256]⟩
abbrev S1x1x1x256 : Shape := ⟨4, ![1, 1, 1, 256]⟩
abbrev S1x1x1x1 : Shape := ⟨4, ![1, 1, 1, 1]⟩

abbrev nBuf : Space → Nat
  | .hbm => 176
  | .vmem => 0
  | .smem => 0
  | _ => 0

abbrev hbmTy0_0 (i : Nat) : BufTy := match i % 128 with
  | 0 => ⟨S4x512x256, .f32⟩
  | 1 => ⟨S4x512, .f32⟩
  | 2 => ⟨S512x512, .f32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x2, .f32⟩
  | 10 => ⟨S256, .f32⟩
  | 11 => ⟨S1x256, .f32⟩
  | 12 => ⟨S1, .f32⟩
  | 13 => ⟨S256x256, .f32⟩
  | 14 => ⟨S256, .f32⟩
  | 15 => ⟨S256, .f32⟩
  | 16 => ⟨S256, .f32⟩
  | 17 => ⟨S256, .f32⟩
  | 18 => ⟨S256, .f32⟩
  | 19 => ⟨S256, .f32⟩
  | 20 => ⟨S256, .f32⟩
  | 21 => ⟨S4x512x256, .f32⟩
  | 22 => ⟨S1x1x256, .f32⟩
  | 23 => ⟨S4x512x256, .f32⟩
  | 24 => ⟨S4x512x256, .f32⟩
  | 25 => ⟨S4x512x256, .f32⟩
  | 26 => ⟨S1x1x256, .f32⟩
  | 27 => ⟨S4x512x256, .f32⟩
  | 28 => ⟨S4x512x256, .f32⟩
  | 29 => ⟨S4x512x256, .f32⟩
  | 30 => ⟨S1x1x256, .f32⟩
  | 31 => ⟨S4x512x256, .f32⟩
  | 32 => ⟨S4x512x256, .f32⟩
  | 33 => ⟨S4x512x512, .f32⟩
  | 34 => ⟨S_, .f32⟩
  | 35 => ⟨S_, .f32⟩
  | 36 => ⟨S4x512x512, .f32⟩
  | 37 => ⟨S4x512x512, .f32⟩
  | 38 => ⟨S4x512x1, .f32⟩
  | 39 => ⟨S4x512x512, .f32⟩
  | 40 => ⟨S1x512x512, .f32⟩
  | 41 => ⟨S4x512x512, .f32⟩
  | 42 => ⟨S4x512x512x1, .f32⟩
  | 43 => ⟨S4x512x512x1, .f32⟩
  | 44 => ⟨S4x512x512x2, .f32⟩
  | 45 => ⟨S4x512x512x256, .f32⟩
  | 46 => ⟨S1x1x1x256, .f32⟩
  | 47 => ⟨S4x512x512x256, .f32⟩
  | 48 => ⟨S4x512x512x256, .f32⟩
  | 49 => ⟨S_, .f32⟩
  | 50 => ⟨S4x512x512x256, .f32⟩
  | 51 => ⟨S4x512x512x256, .f32⟩
  | 52 => ⟨S4x512x512x1, .f32⟩
  | 53 => ⟨S1x1x1x1, .f32⟩
  | 54 => ⟨S4x512x512x1, .f32⟩
  | 55 => ⟨S4x512x512x1, .f32⟩
  | 56 => ⟨S4x512x512x1, .f32⟩
  | 57 => ⟨S4x512x512x1, .f32⟩
  | 58 => ⟨S_, .f32⟩
  | 59 => ⟨S4x512x512x1, .f32⟩
  | 60 => ⟨S4x512x512x1, .f32⟩
  | 61 => ⟨S_, .f32⟩
  | 62 => ⟨S4x512x512x1, .f32⟩
  | 63 => ⟨S4x512x512x1, .f32⟩
  | 64 => ⟨S4x512x512, .f32⟩
  | 65 => ⟨S4x512x512, .f32⟩
  | 66 => ⟨S_, .f32⟩
  | 67 => ⟨S4x512, .f32⟩
  | 68 => ⟨S_, .f32⟩
  | 69 => ⟨S4x512, .f32⟩
  | 70 => ⟨S4x512, .f32⟩
  | 71 => ⟨S4x512x1, .f32⟩
  | 72 => ⟨S4x512x512, .f32⟩
  | 73 => ⟨S4x512x512, .f32⟩
  | 74 => ⟨S4x512x512, .f32⟩
  | 75 => ⟨S_, .f32⟩
  | 76 => ⟨S4x512, .f32⟩
  | 77 => ⟨S4x512x1, .f32⟩
  | 78 => ⟨S4x512x512, .f32⟩
  | 79 => ⟨S4x512x512, .f32⟩
  | 80 => ⟨S4x512x256, .f32⟩
  | 81 => ⟨S_, .f32⟩
  | 82 => ⟨S4x512, .f32⟩
  | 83 => ⟨S4x512x1, .f32⟩
  | 84 => ⟨S_, .f32⟩
  | 85 => ⟨S4x512x1, .f32⟩
  | 86 => ⟨S4x512x1, .f32⟩
  | 87 => ⟨S4x512x256, .f32⟩
  | 88 => ⟨S4x512x256, .f32⟩
  | 89 => ⟨S4x512x256, .f32⟩
  | 90 => ⟨S_, .f32⟩
  | 91 => ⟨S4x512, .f32⟩
  | 92 => ⟨S4x512x1, .f32⟩
  | 93 => ⟨S_, .f32⟩
  | 94 => ⟨S4x512x1, .f32⟩
  | 95 => ⟨S4x512x1, .f32⟩
  | 96 => ⟨S4x512x256, .f32⟩
  | 97 => ⟨S4x512x256, .f32⟩
  | 98 => ⟨S_, .f32⟩
  | 99 => ⟨S4x512x1, .f32⟩
  | 100 => ⟨S4x512x1, .f32⟩
  | 101 => ⟨S4x512x1, .f32⟩
  | 102 => ⟨S4x512x256, .f32⟩
  | 103 => ⟨S4x512x256, .f32⟩
  | 104 => ⟨S1x1x256, .f32⟩
  | 105 => ⟨S4x512x256, .f32⟩
  | 106 => ⟨S4x512x256, .f32⟩
  | 107 => ⟨S1x1x256, .f32⟩
  | 108 => ⟨S4x512x256, .f32⟩
  | 109 => ⟨S4x512x256, .f32⟩
  | 110 => ⟨S4x512x256, .f32⟩
  | 111 => ⟨S1x1x256, .f32⟩
  | 112 => ⟨S4x512x256, .f32⟩
  | 113 => ⟨S4x512x256, .f32⟩
  | 114 => ⟨S_, .f32⟩
  | 115 => ⟨S4x512, .f32⟩
  | 116 => ⟨S4x512x1, .f32⟩
  | 117 => ⟨S_, .f32⟩
  | 118 => ⟨S4x512x1, .f32⟩
  | 119 => ⟨S4x512x1, .f32⟩
  | 120 => ⟨S4x512x256, .f32⟩
  | 121 => ⟨S4x512x256, .f32⟩
  | 122 => ⟨S4x512x256, .f32⟩
  | 123 => ⟨S_, .f32⟩
  | 124 => ⟨S4x512, .f32⟩
  | 125 => ⟨S4x512x1, .f32⟩
  | 126 => ⟨S_, .f32⟩
  | 127 => ⟨S4x512x1, .f32⟩
  | _ => ⟨S4x512x256, .f32⟩

abbrev hbmTy0_1 (i : Nat) : BufTy := match i % 128 with
  | 0 => ⟨S4x512x1, .f32⟩
  | 1 => ⟨S4x512x256, .f32⟩
  | 2 => ⟨S4x512x256, .f32⟩
  | 3 => ⟨S_, .f32⟩
  | 4 => ⟨S4x512x1, .f32⟩
  | 5 => ⟨S4x512x1, .f32⟩
  | 6 => ⟨S4x512x1, .f32⟩
  | 7 => ⟨S4x512x256, .f32⟩
  | 8 => ⟨S4x512x256, .f32⟩
  | 9 => ⟨S1x1x256, .f32⟩
  | 10 => ⟨S4x512x256, .f32⟩
  | 11 => ⟨S4x512x256, .f32⟩
  | 12 => ⟨S1x1x256, .f32⟩
  | 13 => ⟨S4x512x256, .f32⟩
  | 14 => ⟨S4x512x256, .f32⟩
  | 15 => ⟨S_, .f32⟩
  | 16 => ⟨S4x512x256, .f32⟩
  | 17 => ⟨S4x512x256, .f32⟩
  | 18 => ⟨S4x512x256, .f32⟩
  | 19 => ⟨S_, .f32⟩
  | 20 => ⟨S4x512, .f32⟩
  | 21 => ⟨S4x512x1, .f32⟩
  | 22 => ⟨S_, .f32⟩
  | 23 => ⟨S4x512x1, .f32⟩
  | 24 => ⟨S4x512x1, .f32⟩
  | 25 => ⟨S4x512x256, .f32⟩
  | 26 => ⟨S4x512x256, .f32⟩
  | 27 => ⟨S4x512x256, .f32⟩
  | 28 => ⟨S_, .f32⟩
  | 29 => ⟨S4x512, .f32⟩
  | 30 => ⟨S4x512x1, .f32⟩
  | 31 => ⟨S_, .f32⟩
  | 32 => ⟨S4x512x1, .f32⟩
  | 33 => ⟨S4x512x1, .f32⟩
  | 34 => ⟨S4x512x256, .f32⟩
  | 35 => ⟨S4x512x256, .f32⟩
  | 36 => ⟨S_, .f32⟩
  | 37 => ⟨S4x512x1, .f32⟩
  | 38 => ⟨S4x512x1, .f32⟩
  | 39 => ⟨S4x512x1, .f32⟩
  | 40 => ⟨S4x512x256, .f32⟩
  | 41 => ⟨S4x512x256, .f32⟩
  | 42 => ⟨S1x1x256, .f32⟩
  | 43 => ⟨S4x512x256, .f32⟩
  | 44 => ⟨S4x512x256, .f32⟩
  | 45 => ⟨S1x1x256, .f32⟩
  | 46 => ⟨S4x512x256, .f32⟩
  | 47 => ⟨S4x512x256, .f32⟩
  | _ => ⟨S4x512x256, .f32⟩

abbrev hbmTy (i : Nat) : BufTy := match i / 128 with
  | 0 => hbmTy0_0 i
  | 1 => hbmTy0_1 i
  | _ => ⟨S4x512x256, .f32⟩

abbrev bufTy : (tb : Table) → Fin (tcTables nBuf tb) → BufTy
  | .hbm, ⟨i, _⟩ => hbmTy i
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call0_cst : Ref sig .tc := ⟨.hbm, 49, rfl⟩
abbrev main_call0_v0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_0 : Ref sig .tc := ⟨.hbm, 58, rfl⟩
abbrev main_v34 : Ref sig .tc := ⟨.hbm, 59, rfl⟩
abbrev main_v35 : Ref sig .tc := ⟨.hbm, 60, rfl⟩
abbrev main_cst_1 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_2 : Ref sig .tc := ⟨.hbm, 66, rfl⟩
abbrev main_v40 : Ref sig .tc := ⟨.hbm, 67, rfl⟩
abbrev main_cst_3 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_4 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_5 : Ref sig .tc := ⟨.hbm, 81, rfl⟩
abbrev main_v52 : Ref sig .tc := ⟨.hbm, 82, rfl⟩
abbrev main_v53 : Ref sig .tc := ⟨.hbm, 83, rfl⟩
abbrev main_cst_6 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_7 : Ref sig .tc := ⟨.hbm, 90, rfl⟩
abbrev main_v59 : Ref sig .tc := ⟨.hbm, 91, rfl⟩
abbrev main_v60 : Ref sig .tc := ⟨.hbm, 92, rfl⟩
abbrev main_cst_8 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_9 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_10 : Ref sig .tc := ⟨.hbm, 114, rfl⟩
abbrev main_v80 : Ref sig .tc := ⟨.hbm, 115, rfl⟩
abbrev main_v81 : Ref sig .tc := ⟨.hbm, 116, rfl⟩
abbrev main_cst_11 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_12 : Ref sig .tc := ⟨.hbm, 123, rfl⟩
abbrev main_v87 : Ref sig .tc := ⟨.hbm, 124, rfl⟩
abbrev main_v88 : Ref sig .tc := ⟨.hbm, 125, rfl⟩
abbrev main_cst_13 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_14 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_call1_cst : Ref sig .tc := ⟨.hbm, 143, rfl⟩
abbrev main_call1_v0 : Ref sig .tc := ⟨.hbm, 144, rfl⟩
abbrev main_v104 : Ref sig .tc := ⟨.hbm, 145, rfl⟩
abbrev main_v105 : Ref sig .tc := ⟨.hbm, 146, rfl⟩
abbrev main_cst_15 : Ref sig .tc := ⟨.hbm, 147, rfl⟩
abbrev main_v106 : Ref sig .tc := ⟨.hbm, 148, rfl⟩
abbrev main_v107 : Ref sig .tc := ⟨.hbm, 149, rfl⟩
abbrev main_cst_16 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_cst_17 : Ref sig .tc := ⟨.hbm, 156, rfl⟩
abbrev main_v113 : Ref sig .tc := ⟨.hbm, 157, rfl⟩
abbrev main_v114 : Ref sig .tc := ⟨.hbm, 158, rfl⟩
abbrev main_cst_18 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_19 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x512x256_0_1_2 : S1x1x256.BroadcastsInDim S4x512x256 (![0, 1, 2] : Fin 3 → Fin S4x512x256.rank)
  bcast_S_S4x512x512 : S_.BroadcastsInDim S4x512x512 (![] : Fin 0 → Fin S4x512x512.rank)
  bcast_S4x512_S4x512x1_0_1 : S4x512.BroadcastsInDim S4x512x1 (![0, 1] : Fin 2 → Fin S4x512x1.rank)
  bcast_S4x512x1_S4x512x512_0_1_2 : S4x512x1.BroadcastsInDim S4x512x512 (![0, 1, 2] : Fin 3 → Fin S4x512x512.rank)
  bcast_S512x512_S1x512x512_1_2 : S512x512.BroadcastsInDim S1x512x512 (![1, 2] : Fin 2 → Fin S1x512x512.rank)
  bcast_S1x512x512_S4x512x512_0_1_2 : S1x512x512.BroadcastsInDim S4x512x512 (![0, 1, 2] : Fin 3 → Fin S4x512x512.rank)
  bcast_S4x512x512_S4x512x512x1_0_1_2 : S4x512x512.BroadcastsInDim S4x512x512x1 (![0, 1, 2] : Fin 3 → Fin S4x512x512x1.rank)
  concatenates_S4x512x512x1_S4x512x512x1_S4x512x512x2_d3 : Shape.Concatenates [S4x512x512x1, S4x512x512x1] S4x512x512x2 3
  bcast_S256_S1x1x1x256_3 : S256.BroadcastsInDim S1x1x1x256 (![3] : Fin 1 → Fin S1x1x1x256.rank)
  bcast_S1x1x1x256_S4x512x512x256_0_1_2_3 : S1x1x1x256.BroadcastsInDim S4x512x512x256 (![0, 1, 2, 3] : Fin 4 → Fin S4x512x512x256.rank)
  bcast_S_S4x512x512x256 : S_.BroadcastsInDim S4x512x512x256 (![] : Fin 0 → Fin S4x512x512x256.rank)
  bcast_S1_S1x1x1x1_3 : S1.BroadcastsInDim S1x1x1x1 (![3] : Fin 1 → Fin S1x1x1x1.rank)
  bcast_S1x1x1x1_S4x512x512x1_0_1_2_3 : S1x1x1x1.BroadcastsInDim S4x512x512x1 (![0, 1, 2, 3] : Fin 4 → Fin S4x512x512x1.rank)
  bcast_S_S4x512x512x1 : S_.BroadcastsInDim S4x512x512x1 (![] : Fin 0 → Fin S4x512x512x1.rank)
  shapeCasts_S4x512x512x1_S4x512x512 : S4x512x512x1.ShapeCasts S4x512x512
  reducesTo_S4x512x512_S4x512_d2 : S4x512x512.ReducesTo [2] S4x512
  h_S_ : 0 < S_.numel
  bcast_S_S4x512 : S_.BroadcastsInDim S4x512 (![] : Fin 0 → Fin S4x512.rank)
  reducesTo_S4x512x256_S4x512_d2 : S4x512x256.ReducesTo [2] S4x512
  bcast_S_S4x512x1 : S_.BroadcastsInDim S4x512x1 (![] : Fin 0 → Fin S4x512x1.rank)
  bcast_S4x512x1_S4x512x256_0_1_2 : S4x512x1.BroadcastsInDim S4x512x256 (![0, 1, 2] : Fin 3 → Fin S4x512x256.rank)
  bcast_S_S4x512x256 : S_.BroadcastsInDim S4x512x256 (![] : Fin 0 → Fin S4x512x256.rank)
  dot_S4x512x256_S256x256_S4x512x256_2_1_01_0_n_n_wf : DotDims.WF S4x512x256 S256x256 S4x512x256 [2] [1] [0, 1] [0] [] []
  dot_S4x512x256_S4x512x256_S4x512x512_2_2_1_1_0_0_wf : DotDims.WF S4x512x256 S4x512x256 S4x512x512 [2] [2] [1] [1] [0] [0]
  dot_S4x512x512x2_S256x2_S4x512x512x256_3_1_012_0_n_n_wf : DotDims.WF S4x512x512x2 S256x2 S4x512x512x256 [3] [1] [0, 1, 2] [0] [] []
  dot_S4x512x512x256_S1x256_S4x512x512x1_3_1_012_0_n_n_wf : DotDims.WF S4x512x512x256 S1x256 S4x512x512x1 [3] [1] [0, 1, 2] [0] [] []
  dot_S4x512x512_S4x512x256_S4x512x256_2_1_1_2_0_0_wf : DotDims.WF S4x512x512 S4x512x256 S4x512x256 [2] [1] [1] [2] [0] [0]

variable [Facts₀]

def dot_S4x512x256_S256x256_S4x512x256_2_1_01_0_n_n : DotDims S4x512x256 S256x256 S4x512x256 where
  lhsContracting := [2]
  rhsContracting := [1]
  lhsNonContracting := [0, 1]
  rhsNonContracting := [0]
  lhsBatch := []
  rhsBatch := []
  wf := dot_S4x512x256_S256x256_S4x512x256_2_1_01_0_n_n_wf
def dot_S4x512x256_S4x512x256_S4x512x512_2_2_1_1_0_0 : DotDims S4x512x256 S4x512x256 S4x512x512 where
  lhsContracting := [2]
  rhsContracting := [2]
  lhsNonContracting := [1]
  rhsNonContracting := [1]
  lhsBatch := [0]
  rhsBatch := [0]
  wf := dot_S4x512x256_S4x512x256_S4x512x512_2_2_1_1_0_0_wf
def dot_S4x512x512x2_S256x2_S4x512x512x256_3_1_012_0_n_n : DotDims S4x512x512x2 S256x2 S4x512x512x256 where
  lhsContracting := [3]
  rhsContracting := [1]
  lhsNonContracting := [0, 1, 2]
  rhsNonContracting := [0]
  lhsBatch := []
  rhsBatch := []
  wf := dot_S4x512x512x2_S256x2_S4x512x512x256_3_1_012_0_n_n_wf
def dot_S4x512x512x256_S1x256_S4x512x512x1_3_1_012_0_n_n : DotDims S4x512x512x256 S1x256 S4x512x512x1 where
  lhsContracting := [3]
  rhsContracting := [1]
  lhsNonContracting := [0, 1, 2]
  rhsNonContracting := [0]
  lhsBatch := []
  rhsBatch := []
  wf := dot_S4x512x512x256_S1x256_S4x512x512x1_3_1_012_0_n_n_wf
def dot_S4x512x512_S4x512x256_S4x512x256_2_1_1_2_0_0 : DotDims S4x512x512 S4x512x256 S4x512x256 where
  lhsContracting := [2]
  rhsContracting := [1]
  lhsNonContracting := [1]
  rhsNonContracting := [2]
  lhsBatch := [0]
  rhsBatch := [0]
  wf := dot_S4x512x512_S4x512x256_S4x512x256_2_1_1_2_0_0_wf

class Facts : Prop extends Facts₀ where

variable [Facts]
-- ==== Proof.K.Base.lean ====
/-
  What the runs of the kernel body and the launch share: the arrays as the region finds them (after the one host
  operation that gives the area matrix a trailing unit axis), each window's block at a grid point, the two branch
  conditions of the body decided over the grid (the key-tile coordinate is the point's number mod 4: the first key
  tile resets the running maximum, normaliser and accumulator, the last one writes the output tile), where the output
  window is idle, and the staging and scratch memrefs by name.
-/
import proofs.«116762_j61950608277594_2_alg».proof.Proof.Gen.Kernel.Launch
import proofs.«116762_j61950608277594_2_alg».proof.Proof.Gen.Kernel.Skeleton
import proofs.«116762_j61950608277594_2_alg».proof.Proof.Gen.Kernel.Points
import proofs.«116762_j61950608277594_2_alg».proof.Proof.Gen.Kernel.Loops
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's buffer contents when the region is entered: after the host operation before it. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation does not write argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))
/-- The host operation does not write argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))
/-- The host operation does not write argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    exact StableHlo.devRef_ne_of_ne (by decide)))
/-- The host operation does not write argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    exact StableHlo.devRef_ne_of_ne (by decide)))
/-- The host operation does not write argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, Finset.mem_singleton]
    exact StableHlo.devRef_ne_of_ne (by decide)))
/-- The host operation does not write argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, Finset.mem_singleton]
    exact StableHlo.devRef_ne_of_ne (by decide)))
/-- The host operation does not write argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, Finset.mem_singleton]
    exact StableHlo.devRef_ne_of_ne (by decide)))
/-- The host operation does not write argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, Finset.mem_singleton]
    exact StableHlo.devRef_ne_of_ne (by decide)))
/-- The host operation does not write argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, Finset.mem_singleton]
    exact StableHlo.devRef_ne_of_ne (by decide)))
/-- The host operation does not write argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, Finset.mem_singleton]
    exact StableHlo.devRef_ne_of_ne (by decide)))
/-- The host operation does not write argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, Finset.mem_singleton]
    exact StableHlo.devRef_ne_of_ne (by decide)))
/-- The host operation does not write argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, Finset.mem_singleton]
    exact StableHlo.devRef_ne_of_ne (by decide)))
/-- The host operation does not write argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, Finset.mem_singleton]
    exact StableHlo.devRef_ne_of_ne (by decide)))
/-- The host operation does not write argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, Finset.mem_singleton]
    exact StableHlo.devRef_ne_of_ne (by decide)))
/-- The host operation does not write argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, Finset.mem_singleton]
    exact StableHlo.devRef_ne_of_ne (by decide)))
/-- The host operation does not write argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, Finset.mem_singleton]
    exact StableHlo.devRef_ne_of_ne (by decide)))
/-- The host operation does not write argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, Finset.mem_singleton]
    exact StableHlo.devRef_ne_of_ne (by decide)))
/-- The host operation does not write argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.unary_writes, Finset.mem_singleton]
    exact StableHlo.devRef_ne_of_ne (by decide)))
/-- The host operation does not write argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.unary_writes, Finset.mem_singleton]
    exact StableHlo.devRef_ne_of_ne (by decide)))
/-- The host operation does not write argument 19: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.unary_writes, Finset.mem_singleton]
    exact StableHlo.devRef_ne_of_ne (by decide)))
/-- The host operation does not write argument 20: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.unary_writes, Finset.mem_singleton]
    exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point, fetched there or not. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block at every point, fetched there or not. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's staging buffer holds its block at every point, fetched there or not. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's staging buffer holds its block at every point, fetched there or not. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's staging buffer holds its block at every point, fetched there or not. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's staging buffer holds its block at every point, fetched there or not. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's staging buffer holds its block at every point, fetched there or not. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's staging buffer holds its block at every point, fetched there or not. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's staging buffer holds its block at every point, fetched there or not. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's staging buffer holds its block at every point, fetched there or not. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's staging buffer holds its block at every point, fetched there or not. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's staging buffer holds its block at every point, fetched there or not. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- "This is the first key tile": the condition of the body's first branch, from the grid coordinates. -/
abbrev cond0_0 (i : grid0.Coords) : Prop := (Scalar.cmpi .ne (Scalar.extui (Scalar.cmpi .eq (BitVec.ofNat 32 (i 2).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last key tile": the condition of the body's second branch. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the output window is idle -/

/-- Away from the last key tile the output window is idle: the body stores nothing into it. -/
theorem idleAt0_22 : ∀ t : Fin cfg0.N, ¬cond0_1 (grid0.coords t) → cfg0.idle 22 (grid0.coords t) = true := by decide +kernel
/-- There the pipeline does not write its block back. -/
theorem noFlush0_22 : ∀ t : Fin cfg0.N, ¬cond0_1 (grid0.coords t) → (cfg0.win 22).flush t = false := by decide +kernel
/-- At the last key tile it is live. -/
theorem liveAt0_22 : ∀ t : Fin cfg0.N, cond0_1 (grid0.coords t) → cfg0.idle 22 (grid0.coords t) = false := by decide +kernel

/-! ## The staging and scratch memrefs -/

/-- One staging buffer of the output window, through which its contents are stated. -/
abbrev VO0_22 : View sig .tc .vmem S1x32x256 .f32 := (Memref.whole cc0_stg22_0 : Memref sig .tc .vmem S1x32x256 .f32).view
abbrev ms0_0 (t : Fin cfg0.N) : Memref sig .tc .vmem S1x32x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x2 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S256 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S256 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S256 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S256 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x32x256 .f32 := win0_22.stage (cfg0.slots t 22)
abbrev hs0_22 (t : Fin cfg0.N) : (ms0_22 t).IsWhole := hstage0_22 ((cfg0.slots t 22).cast nbuf0_22)
/-- Scratch operand 0: a whole scoped buffer of the kernel's own. -/
abbrev scM0_0 : Memref sig .tc .vmem S32x1 .f32 := Memref.whole cc0_scratch0
abbrev VS0_0 : View sig .tc .vmem S32x1 .f32 := scM0_0.view
/-- Scratch operand 1: a whole scoped buffer of the kernel's own. -/
abbrev scM0_1 : Memref sig .tc .vmem S32x1 .f32 := Memref.whole cc0_scratch1
abbrev VS0_1 : View sig .tc .vmem S32x1 .f32 := scM0_1.view
/-- Scratch operand 2: a whole scoped buffer of the kernel's own. -/
abbrev scM0_2 : Memref sig .tc .vmem S32x256 .f32 := Memref.whole cc0_scratch2
abbrev VS0_2 : View sig .tc .vmem S32x256 .f32 := scM0_2.view
/-- Scratch operand 3: a whole scoped buffer of the kernel's own. -/
abbrev scM0_3 : Memref sig .tc .vmem S32x128 .f32 := Memref.whole cc0_scratch3
abbrev VS0_3 : View sig .tc .vmem S32x128 .f32 := scM0_3.view

/-- The class invariant with the four scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.K.RunA.lean ====
/-
  The kernel body run once at a FIRST key tile (the reset branch taken, the output branch not): the three carried scratch buffers are found at any contents. The pieces each written buffer ends with are found by the run itself; the
  statement only says on which buffers the body runs and what it hands back.
-/
import proofs.«116762_j61950608277594_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body at a FIRST key tile (the reset branch taken, the output branch not): the three carried scratch buffers are found at any contents: the inputs' staging memrefs at their contents, handed back as they were; each scratch
    and (at a last key tile) the output's staging memref handed back with the pieces the body stored, last first. -/
noncomputable def kernelRun0_A (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 : Vec F S32x128 .f32) :
    Σ' (L22 : List (View.Piece (Elt F) S1x32x256 .f32)) (LS0 : List (View.Piece (Elt F) S32x1 .f32)) (LS1 : List (View.Piece (Elt F) S32x1 .f32)) (LS2 : List (View.Piece (Elt F) S32x256 .f32)), { LS3 : List (View.Piece (Elt F) S32x128 .f32) //
      ∀ (xi22 : Vec F S1x32x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare xi22 ∗ (∃ d, owns (c : Thread nD τ) arg26 fullShare d) ∗ (∃ d, owns (c : Thread nD τ) arg27 fullShare d) ∗ (∃ d, owns (c : Thread nD τ) arg28 fullShare d) ∗ owns (c : Thread nD τ) arg29 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare xi22 ∗ (∃ f, arg26.view.loc (c : Thread nD τ) ↦[arg26.view.set]{fullShare} arg26.view.writes (Elt F) f LS0) ∗ (∃ f, arg27.view.loc (c : Thread nD τ) ↦[arg27.view.set]{fullShare} arg27.view.writes (Elt F) f LS1) ∗ (∃ f, arg28.view.loc (c : Thread nD τ) ↦[arg28.view.set]{fullShare} arg28.view.writes (Elt F) f LS2) ∗ (∃ f, arg29.view.loc (c : Thread nD τ) ↦[arg29.view.set]{fullShare} arg29.view.writes (Elt F) f LS3)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨[], ?_, ?_, ?_, ?_, fun xi22 E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%ds0, %fs0, -, HS0⟩, ⟨%ds1, %fs1, -, HS1⟩, ⟨%ds2, %fs2, -, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg29.eq_unread hfs3
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; · ipureintro; exact harg22.read_unread _
      iexact H19
    isplitl [H20]
    · iexists _; isplitr; · ipureintro; exact harg23.read_unread _
      iexact H20
    isplitl [H21]
    · iexists _; isplitr; · ipureintro; exact harg24.read_unread _
      iexact H21
    isplitl [H22]
    · iexists _; isplitr; · ipureintro; exact harg25.read_unread _
      iexact H22
    isplitl [HS0]; · iexists _; iexact HS0
    isplitl [HS1]; · iexists _; iexact HS1
    isplitl [HS2]; · iexists _; iexact HS2
    iexists _; iexact HS3

end Cert.Kernel.Hand

end
-- ==== Proof.K.RunB.lean ====
/-
  The kernel body run once at a MIDDLE key tile (neither branch taken): the three carried scratch buffers are found at what the key tile before left. The pieces each written buffer ends with are found by the run itself; the
  statement only says on which buffers the body runs and what it hands back.
-/
import proofs.«116762_j61950608277594_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body at a MIDDLE key tile (neither branch taken): the three carried scratch buffers are found at what the key tile before left: the inputs' staging memrefs at their contents, handed back as they were; each scratch
    and (at a last key tile) the output's staging memref handed back with the pieces the body stored, last first. -/
noncomputable def kernelRun0_B (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) :
    Σ' (L22 : List (View.Piece (Elt F) S1x32x256 .f32)) (LS0 : List (View.Piece (Elt F) S32x1 .f32)) (LS1 : List (View.Piece (Elt F) S32x1 .f32)) (LS2 : List (View.Piece (Elt F) S32x256 .f32)), { LS3 : List (View.Piece (Elt F) S32x128 .f32) //
      ∀ (xi22 : Vec F S1x32x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare xi22 ∗ owns (c : Thread nD τ) arg26 fullShare xs0 ∗ owns (c : Thread nD τ) arg27 fullShare xs1 ∗ owns (c : Thread nD τ) arg28 fullShare xs2 ∗ owns (c : Thread nD τ) arg29 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare xi22 ∗ (∃ f, arg26.view.loc (c : Thread nD τ) ↦[arg26.view.set]{fullShare} arg26.view.writes (Elt F) f LS0) ∗ (∃ f, arg27.view.loc (c : Thread nD τ) ↦[arg27.view.set]{fullShare} arg27.view.writes (Elt F) f LS1) ∗ (∃ f, arg28.view.loc (c : Thread nD τ) ↦[arg28.view.set]{fullShare} arg28.view.writes (Elt F) f LS2) ∗ (∃ f, arg29.view.loc (c : Thread nD τ) ↦[arg29.view.set]{fullShare} arg29.view.writes (Elt F) f LS3)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨[], ?_, ?_, ?_, ?_, fun xi22 E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hfs0; obtain rfl := harg27.eq_unread hfs1; obtain rfl := harg28.eq_unread hfs2; obtain rfl := harg29.eq_unread hfs3
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; · ipureintro; exact harg22.read_unread _
      iexact H19
    isplitl [H20]
    · iexists _; isplitr; · ipureintro; exact harg23.read_unread _
      iexact H20
    isplitl [H21]
    · iexists _; isplitr; · ipureintro; exact harg24.read_unread _
      iexact H21
    isplitl [H22]
    · iexists _; isplitr; · ipureintro; exact harg25.read_unread _
      iexact H22
    isplitl [HS0]; · iexists _; iexact HS0
    isplitl [HS1]; · iexists _; iexact HS1
    isplitl [HS2]; · iexists _; iexact HS2
    iexists _; iexact HS3

end Cert.Kernel.Hand

end
-- ==== Proof.K.RunC.lean ====
/-
  The kernel body run once at a LAST key tile (the reset branch not taken, the output branch taken): the carried scratch as the key tile before left it, the output tile stored. The pieces each written buffer ends with are found by the run itself; the
  statement only says on which buffers the body runs and what it hands back.
-/
import proofs.«116762_j61950608277594_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body at a LAST key tile (the reset branch not taken, the output branch taken): the carried scratch as the key tile before left it, the output tile stored: the inputs' staging memrefs at their contents, handed back as they were; each scratch
    and (at a last key tile) the output's staging memref handed back with the pieces the body stored, last first. -/
noncomputable def kernelRun0_C (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) :
    Σ' (L22 : List (View.Piece (Elt F) S1x32x256 .f32)) (LS0 : List (View.Piece (Elt F) S32x1 .f32)) (LS1 : List (View.Piece (Elt F) S32x1 .f32)) (LS2 : List (View.Piece (Elt F) S32x256 .f32)), { LS3 : List (View.Piece (Elt F) S32x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ (∃ d, owns (c : Thread nD τ) arg25 fullShare d) ∗ owns (c : Thread nD τ) arg26 fullShare xs0 ∗ owns (c : Thread nD τ) arg27 fullShare xs1 ∗ owns (c : Thread nD τ) arg28 fullShare xs2 ∗ owns (c : Thread nD τ) arg29 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ (∃ f, arg25.view.loc (c : Thread nD τ) ↦[arg25.view.set]{fullShare} arg25.view.writes (Elt F) f L22) ∗ (∃ f, arg26.view.loc (c : Thread nD τ) ↦[arg26.view.set]{fullShare} arg26.view.writes (Elt F) f LS0) ∗ (∃ f, arg27.view.loc (c : Thread nD τ) ↦[arg27.view.set]{fullShare} arg27.view.writes (Elt F) f LS1) ∗ (∃ f, arg28.view.loc (c : Thread nD τ) ↦[arg28.view.set]{fullShare} arg28.view.writes (Elt F) f LS2) ∗ (∃ f, arg29.view.loc (c : Thread nD τ) ↦[arg29.view.set]{fullShare} arg29.view.writes (Elt F) f LS3)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg26.eq_unread hfs0; obtain rfl := harg27.eq_unread hfs1; obtain rfl := harg28.eq_unread hfs2; obtain rfl := harg29.eq_unread hfs3
    simp only [cc0__kernel_eq_skeleton]; unfold cc0__kernel_skel
    simp only [k0_part3_eq_skeleton, k0_part1_eq_skeleton, k0_part2_eq_skeleton, k0_part4_eq_skeleton]
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; · ipureintro; exact harg22.read_unread _
      iexact H19
    isplitl [H20]
    · iexists _; isplitr; · ipureintro; exact harg23.read_unread _
      iexact H20
    isplitl [H21]
    · iexists _; isplitr; · ipureintro; exact harg24.read_unread _
      iexact H21
    isplitl [H22]; · iexists _; iexact H22
    isplitl [HS0]; · iexists _; iexact HS0
    isplitl [HS1]; · iexists _; iexact HS1
    isplitl [HS2]; · iexists _; iexact HS2
    iexists _; iexact HS3

end Cert.Kernel.Hand

end
-- ==== Proof.K.Frame.lean ====
/-
  The frame of the program: what the kernel's runs leave in the carried scratch (running maximum, normaliser,
  accumulator) and in the output tile after each grid point, by recursion on the point; the region's invariant and
  proof data; the body obligation at every point; and the launch. Two windows read the same array (the node
  features, once as the query tile and once as the key tile): its full share is dealt half and half between them.
-/
import proofs.«116762_j61950608277594_2_alg».proof.Proof.K.RunA
import proofs.«116762_j61950608277594_2_alg».proof.Proof.K.RunB
import proofs.«116762_j61950608277594_2_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- What case A leaves in the output's staging buffer: its pieces read back (away from the last key tile there are none:
    a placeholder nothing consults). -/
def out0_A_22 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 : Vec F S32x128 .f32) : Vec F S1x32x256 .f32 :=
  VO0_22.read (Elt F) (VO0_22.writes (Elt F) VO0_22.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3).1)

/-- Case A's pieces for carried scratch 0 cover it. -/
theorem scover0_A_0 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 : Vec F S32x128 .f32) (y : S32x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3).2.1 S32x1.size (by sl_kernel_rfl) y

/-- What case A leaves in carried scratch 0: its pieces read back. -/
def sout0_A_0 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 : Vec F S32x128 .f32) : Vec F S32x1 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3).2.1)

/-- Case A's pieces for carried scratch 1 cover it. -/
theorem scover0_A_1 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 : Vec F S32x128 .f32) (y : S32x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3).2.2.1 S32x1.size (by sl_kernel_rfl) y

/-- What case A leaves in carried scratch 1: its pieces read back. -/
def sout0_A_1 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 : Vec F S32x128 .f32) : Vec F S32x1 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3).2.2.1)

/-- Case A's pieces for carried scratch 2 cover it. -/
theorem scover0_A_2 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 : Vec F S32x128 .f32) (y : S32x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3).2.2.2.1 S32x256.size (by sl_kernel_rfl) y

/-- What case A leaves in carried scratch 2: its pieces read back. -/
def sout0_A_2 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 : Vec F S32x128 .f32) : Vec F S32x256 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3).2.2.2.1)

/-- What case B leaves in the output's staging buffer: its pieces read back (away from the last key tile there are none:
    a placeholder nothing consults). -/
def out0_B_22 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) : Vec F S1x32x256 .f32 :=
  VO0_22.read (Elt F) (VO0_22.writes (Elt F) VO0_22.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).1)

/-- Case B's pieces for carried scratch 0 cover it. -/
theorem scover0_B_0 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) (y : S32x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.1 S32x1.size (by sl_kernel_rfl) y

/-- What case B leaves in carried scratch 0: its pieces read back. -/
def sout0_B_0 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) : Vec F S32x1 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.1)

/-- Case B's pieces for carried scratch 1 cover it. -/
theorem scover0_B_1 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) (y : S32x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.2.1 S32x1.size (by sl_kernel_rfl) y

/-- What case B leaves in carried scratch 1: its pieces read back. -/
def sout0_B_1 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) : Vec F S32x1 .f32 :=
  VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.2.1)

/-- Case B's pieces for carried scratch 2 cover it. -/
theorem scover0_B_2 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) (y : S32x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.2.2.1 S32x256.size (by sl_kernel_rfl) y

/-- What case B leaves in carried scratch 2: its pieces read back. -/
def sout0_B_2 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) : Vec F S32x256 .f32 :=
  VS0_2.read (Elt F) (VS0_2.writes (Elt F) VS0_2.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.2.2.1)

/-- At a last key tile the body's one store into the output tile covers it. -/
theorem cover0_C_22 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) (y : S1x32x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).1 S1x32x256.size (by sl_kernel_rfl) y

/-- What case C leaves in the output's staging buffer: its pieces read back (away from the last key tile there are none:
    a placeholder nothing consults). -/
def out0_C_22 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) : Vec F S1x32x256 .f32 :=
  VO0_22.read (Elt F) (VO0_22.writes (Elt F) VO0_22.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).1)

/-- Case C's pieces for carried scratch 0 cover it. -/
theorem scover0_C_0 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) (y : S32x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.1 S32x1.size (by sl_kernel_rfl) y

/-- What case C leaves in carried scratch 0: its pieces read back. -/
def sout0_C_0 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) : Vec F S32x1 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.1)

/-- Case C's pieces for carried scratch 1 cover it. -/
theorem scover0_C_1 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) (y : S32x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.2.1 S32x1.size (by sl_kernel_rfl) y

/-- What case C leaves in carried scratch 1: its pieces read back. -/
def sout0_C_1 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) : Vec F S32x1 .f32 :=
  VS0_1.read (Elt F) (VS0_1.writes (Elt F) VS0_1.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.2.1)

/-- Case C's pieces for carried scratch 2 cover it. -/
theorem scover0_C_2 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) (y : S32x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.2.2.1 S32x256.size (by sl_kernel_rfl) y

/-- What case C leaves in carried scratch 2: its pieces read back. -/
def sout0_C_2 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) : Vec F S32x256 .f32 :=
  VS0_2.read (Elt F) (VS0_2.writes (Elt F) VS0_2.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.2.2.1)

/-! ## What the output tile and the carried scratch hold after each point -/

/-- The contents the edge-logit scratch is taken at in the definitions below: any would do (the loop overwrites the whole
    buffer before the body reads it); this one is definite. -/
abbrev dflt3 : Vec F S32x128 .f32 := VS0_3.read (Elt F) VS0_3.junk

/-- After the body at position n: the output's staging buffer, then the running maximum, normaliser and accumulator —
    the case the point is in (first, middle or last key tile), run at the point's memrefs and input blocks, the carried
    scratch taken from the point before at a middle or last key tile. -/
def outsAt0 (c : Dev nD) : (n : ℕ) → n < cfg0.N → Vec F S1x32x256 .f32 × Vec F S32x1 .f32 × Vec F S32x1 .f32 × Vec F S32x256 .f32
  | 0, hn => (out0_A_22 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) dflt3, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) dflt3, sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) dflt3, sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) dflt3)
  | n + 1, hn =>
    if h0 : (n + 1) % 4 = 0 then
      if h1 : (n + 1) % 4 = 3 then
        False.elim (by omega)
      else
        (out0_A_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) dflt3, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) dflt3, sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) dflt3, sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) dflt3)
    else
      if h1 : (n + 1) % 4 = 3 then
        (out0_C_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2 dflt3, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2 dflt3, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2 dflt3, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2 dflt3)
      else
        (out0_B_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2 dflt3, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2 dflt3, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2 dflt3, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2 dflt3)

/-- `outsAt0` at a first key tile. -/
theorem outsAt0_A (c : Dev nD) (t : Fin cfg0.N) (h0 : t.val % 4 = 0) (h1 : ¬t.val % 4 = 3) :
    outsAt0 m c t.val t.isLt = (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) dflt3, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) dflt3, sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) dflt3, sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) dflt3) := by
  obtain ⟨n, hn⟩ := t
  cases n with
  | zero => exact rfl
  | succ n => exact (dif_pos h0).trans ((dif_neg h1).trans rfl)

/-- `outsAt0` at a middle key tile, over what the point before left. -/
theorem outsAt0_B (c : Dev nD) (t : Fin cfg0.N) (h0 : ¬t.val % 4 = 0) (h1 : ¬t.val % 4 = 3) :
    outsAt0 m c t.val t.isLt = (out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 dflt3, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 dflt3, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 dflt3, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 dflt3) := by
  obtain ⟨n, hn⟩ := t
  cases n with
  | zero => exact (by exfalso; (try dsimp only at h0); exact absurd (Nat.zero_mod _) h0)
  | succ n => exact (dif_neg h0).trans ((dif_neg h1).trans rfl)

/-- `outsAt0` at a last key tile, over what the point before left. -/
theorem outsAt0_C (c : Dev nD) (t : Fin cfg0.N) (h0 : ¬t.val % 4 = 0) (h1 : t.val % 4 = 3) :
    outsAt0 m c t.val t.isLt = (out0_C_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 dflt3, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 dflt3, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 dflt3, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 dflt3) := by
  obtain ⟨n, hn⟩ := t
  cases n with
  | zero => exact (by exfalso; (try dsimp only at h0); exact absurd (Nat.zero_mod _) h0)
  | succ n => exact (dif_neg h0).trans ((dif_pos h1).trans rfl)

/-! ## The region's invariant and proof data -/

/-- The four scratch buffers at some contents each: what the launch hands the region. -/
abbrev PhiAny (c : Dev nD) : sProp 𝕄 :=
  iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d))

theorem PhiAny_eq (c : Dev nD) : (Pipeline.scopedRest (Ix := Unit) (Name := ℕ) (U := UR sig nD τ) (Lvl := ℕ) (Val := Elt F) spec0 c : sProp 𝕄) = PhiAny c := by
  rw [scopedRest0_eq]; simp only [PhiAny, scM0_0, scM0_1, scM0_2, scM0_3, owns_whole]; try rfl

/-- Before position n: at the start any contents; afterwards the three carried scratch buffers at what the point before
    left, the edge-logit scratch at any contents. -/
def PhiS (c : Dev nD) : (n : ℕ) → n ≤ cfg0.N → sProp 𝕄
  | 0, _ => PhiAny c
  | n + 1, hn => iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2) ∗ (∃ d, owns (c : Thread nD τ) scM0_3 fullShare d))

theorem PhiS_zero (c : Dev nD) (n : ℕ) (h : n ≤ cfg0.N) (hz : n = 0) : PhiS m c n h = PhiAny c := by
  subst hz; rfl

theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2) ∗ (∃ d, owns (c : Thread nD τ) scM0_3 fullShare d)) := rfl

theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2) ∗ (∃ d, owns (c : Thread nD τ) scM0_3 fullShare d)) := by
  cases n with
  | zero => exact absurd rfl hz
  | succ n => rfl

/-- The proof data of the pipeline on core c: the arrays as the region finds them; after the body each input's buffer
    at its block, the output's at `outsAt0`; the invariant `PhiS`; the node-feature array's share dealt half and half
    between its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => (outsAt0 m c t.val t.isLt).1
    | ⟨_ + 23, h⟩ => absurd h (Nat.not_lt.2 (Nat.le_add_left _ _))
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨17, _⟩ => fullShare
    | ⟨18, _⟩ => fullShare
    | ⟨19, _⟩ => fullShare
    | ⟨20, _⟩ => fullShare
    | ⟨21, _⟩ => fullShare
    | ⟨22, _⟩ => fullShare
    | ⟨_ + 23, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d

/-! ## The body obligation -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t)

end Cert.Kernel.Hand

end
-- ==== Proof.K.Pieces.lean ====
/-
  The pieces the kernel body leaves, read as values. The body run at a first, a middle and a last key tile leaves one
  covering store in each of the three carried scratch buffers (the running maximum, the normaliser, the accumulator)
  and, at a last key tile, one covering store in the output tile. Each is the payload of the online-softmax update
  (at a last key tile: of the epilogue) over what the body loaded: the query and key tiles, the weights, the three
  carried buffers as the key tile before left them (at a first key tile: the starting values the body has just stored),
  and the edge-logit scratch the loop has just filled.
-/
import proofs.«116762_j61950608277594_2_alg».proof.Proof.K.Frame
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a <;> rfl

/-- The loop of the body runs four trips. -/
theorem trips4 : Scf.trips k0_t1_loop.lb k0_t1_loop.ub k0_t1_loop.st = 4 := by decide

/-- The edge-logit scratch as the body reads it whole after the loop's four trips, from the contents xs3 it held on
    entry: the four trips' stores cover it, so the entry contents do not show (`edgeV50_indep`). -/
abbrev edgeV50 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 : Vec F S32x128 .f32) : Vec F S32x128 .f32 :=
  arg29.view.read (Elt F) (arg29.view.writes (Elt F) (harg29.unread xs3)
    (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (k0_pay14 x1 x8 x9) (k0_pay15 x0 x4 x5) (k0_pay16 x1 x6 x7) x10 x11 x12 x13 (harg5.unread x2) (harg6.unread x3) 4))

set_option maxHeartbeats 4000000 in
/-- What the body leaves in the scratch of the running maximum at a middle key tile: the update's payload over the projections of the
    query and key tiles, the edge-logit scratch after the loop, and what the key tile before left. -/
theorem sout0_B_0_eq (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3 = k0_pay1 (k0_pay19 (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) xs0) := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, View.ld_unit_zero (S := S1x32x256) hz3, View.ld_unit_zero (S := S1x128x256) hz3, View.ld_unit_zero (S := S1x32x1) hz3, View.ld_unit_zero (S := S32x128) hz2, View.ld_unit_zero (S := S256x256) hz2, View.ld_unit_zero (S := S256) hz1, View.ld_unit_zero (S := S256x2) hz2, View.ld_unit_zero (S := S1x256) hz2, View.ld_unit_zero (S := S1) hz1, View.ld_unit_zero (S := S32x1) hz2, View.ld_unit_zero (S := S32x256) hz2, View.readCov_unit_zero (S := S32x1) _ hz2, View.readCov_unit_zero (S := S32x256) _ hz2, trips4]
  rfl

set_option maxHeartbeats 4000000 in
/-- What the body leaves in the scratch of the normaliser at a middle key tile: the update's payload over the projections of the
    query and key tiles, the edge-logit scratch after the loop, and what the key tile before left. -/
theorem sout0_B_1_eq (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) :
    sout0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3 = k0_pay2 (k0_pay22 (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) xs0 xs1) := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, View.ld_unit_zero (S := S1x32x256) hz3, View.ld_unit_zero (S := S1x128x256) hz3, View.ld_unit_zero (S := S1x32x1) hz3, View.ld_unit_zero (S := S32x128) hz2, View.ld_unit_zero (S := S256x256) hz2, View.ld_unit_zero (S := S256) hz1, View.ld_unit_zero (S := S256x2) hz2, View.ld_unit_zero (S := S1x256) hz2, View.ld_unit_zero (S := S1) hz1, View.ld_unit_zero (S := S32x1) hz2, View.ld_unit_zero (S := S32x256) hz2, View.readCov_unit_zero (S := S32x1) _ hz2, View.readCov_unit_zero (S := S32x256) _ hz2, trips4]
  rfl

set_option maxHeartbeats 4000000 in
/-- What the body leaves in the scratch of the accumulator at a middle key tile: the update's payload over the projections of the
    query and key tiles, the edge-logit scratch after the loop, and what the key tile before left. -/
theorem sout0_B_2_eq (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) :
    sout0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3 = k0_pay3 xs2 (k0_pay23 (k0_pay14 x1 x8 x9) (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) xs0) (k0_pay24 (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) xs0) := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, View.ld_unit_zero (S := S1x32x256) hz3, View.ld_unit_zero (S := S1x128x256) hz3, View.ld_unit_zero (S := S1x32x1) hz3, View.ld_unit_zero (S := S32x128) hz2, View.ld_unit_zero (S := S256x256) hz2, View.ld_unit_zero (S := S256) hz1, View.ld_unit_zero (S := S256x2) hz2, View.ld_unit_zero (S := S1x256) hz2, View.ld_unit_zero (S := S1) hz1, View.ld_unit_zero (S := S32x1) hz2, View.ld_unit_zero (S := S32x256) hz2, View.readCov_unit_zero (S := S32x1) _ hz2, View.readCov_unit_zero (S := S32x256) _ hz2, trips4]
  rfl

set_option maxHeartbeats 4000000 in
/-- What the body leaves in the scratch of the running maximum at a last key tile: the update's payload over the projections of the
    query and key tiles, the edge-logit scratch after the loop, and what the key tile before left. -/
theorem sout0_C_0_eq (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) :
    sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3 = k0_pay1 (k0_pay19 (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) xs0) := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, View.ld_unit_zero (S := S1x32x256) hz3, View.ld_unit_zero (S := S1x128x256) hz3, View.ld_unit_zero (S := S1x32x1) hz3, View.ld_unit_zero (S := S32x128) hz2, View.ld_unit_zero (S := S256x256) hz2, View.ld_unit_zero (S := S256) hz1, View.ld_unit_zero (S := S256x2) hz2, View.ld_unit_zero (S := S1x256) hz2, View.ld_unit_zero (S := S1) hz1, View.ld_unit_zero (S := S32x1) hz2, View.ld_unit_zero (S := S32x256) hz2, View.readCov_unit_zero (S := S32x1) _ hz2, View.readCov_unit_zero (S := S32x256) _ hz2, trips4]
  rfl

set_option maxHeartbeats 4000000 in
/-- What the body leaves in the scratch of the normaliser at a last key tile: the update's payload over the projections of the
    query and key tiles, the edge-logit scratch after the loop, and what the key tile before left. -/
theorem sout0_C_1_eq (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) :
    sout0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3 = k0_pay2 (k0_pay22 (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) xs0 xs1) := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, View.ld_unit_zero (S := S1x32x256) hz3, View.ld_unit_zero (S := S1x128x256) hz3, View.ld_unit_zero (S := S1x32x1) hz3, View.ld_unit_zero (S := S32x128) hz2, View.ld_unit_zero (S := S256x256) hz2, View.ld_unit_zero (S := S256) hz1, View.ld_unit_zero (S := S256x2) hz2, View.ld_unit_zero (S := S1x256) hz2, View.ld_unit_zero (S := S1) hz1, View.ld_unit_zero (S := S32x1) hz2, View.ld_unit_zero (S := S32x256) hz2, View.readCov_unit_zero (S := S32x1) _ hz2, View.readCov_unit_zero (S := S32x256) _ hz2, trips4]
  rfl

set_option maxHeartbeats 4000000 in
/-- What the body leaves in the scratch of the accumulator at a last key tile: the update's payload over the projections of the
    query and key tiles, the edge-logit scratch after the loop, and what the key tile before left. -/
theorem sout0_C_2_eq (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) :
    sout0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3 = k0_pay3 xs2 (k0_pay23 (k0_pay14 x1 x8 x9) (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) xs0) (k0_pay24 (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) xs0) := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, View.ld_unit_zero (S := S1x32x256) hz3, View.ld_unit_zero (S := S1x128x256) hz3, View.ld_unit_zero (S := S1x32x1) hz3, View.ld_unit_zero (S := S32x128) hz2, View.ld_unit_zero (S := S256x256) hz2, View.ld_unit_zero (S := S256) hz1, View.ld_unit_zero (S := S256x2) hz2, View.ld_unit_zero (S := S1x256) hz2, View.ld_unit_zero (S := S1) hz1, View.ld_unit_zero (S := S32x1) hz2, View.ld_unit_zero (S := S32x256) hz2, View.readCov_unit_zero (S := S32x1) _ hz2, View.readCov_unit_zero (S := S32x256) _ hz2, trips4]
  rfl

set_option maxHeartbeats 4000000 in
/-- What the body leaves in the scratch of the running maximum at a first key tile (the scratch reset to its starting values, then updated): the update's payload over the projections of the
    query and key tiles, the edge-logit scratch after the loop, and the starting values. -/
theorem sout0_A_0_eq (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 : Vec F S32x128 .f32) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3 = k0_pay1 (k0_pay19 (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) (k0_pay9 (F := F))) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3)]
  unfold kernelRun0_A
  dsimp only
  sl_unfold_words
  rw [View.canon_cons_unit_zero (S := S32x1) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, View.ld_unit_zero (S := S1x32x256) hz3, View.ld_unit_zero (S := S1x128x256) hz3, View.ld_unit_zero (S := S1x32x1) hz3, View.ld_unit_zero (S := S32x128) hz2, View.ld_unit_zero (S := S256x256) hz2, View.ld_unit_zero (S := S256) hz1, View.ld_unit_zero (S := S256x2) hz2, View.ld_unit_zero (S := S1x256) hz2, View.ld_unit_zero (S := S1) hz1, View.ld_unit_zero (S := S32x1) hz2, View.ld_unit_zero (S := S32x256) hz2, View.readCov_unit_zero (S := S32x1) _ hz2, View.readCov_unit_zero (S := S32x256) _ hz2, trips4]
  rfl

set_option maxHeartbeats 4000000 in
/-- What the body leaves in the scratch of the normaliser at a first key tile (the scratch reset to its starting values, then updated): the update's payload over the projections of the
    query and key tiles, the edge-logit scratch after the loop, and the starting values. -/
theorem sout0_A_1_eq (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 : Vec F S32x128 .f32) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3 = k0_pay2 (k0_pay22 (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) (k0_pay9 (F := F)) (k0_pay10 (F := F))) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3)]
  unfold kernelRun0_A
  dsimp only
  sl_unfold_words
  rw [View.canon_cons_unit_zero (S := S32x1) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, View.ld_unit_zero (S := S1x32x256) hz3, View.ld_unit_zero (S := S1x128x256) hz3, View.ld_unit_zero (S := S1x32x1) hz3, View.ld_unit_zero (S := S32x128) hz2, View.ld_unit_zero (S := S256x256) hz2, View.ld_unit_zero (S := S256) hz1, View.ld_unit_zero (S := S256x2) hz2, View.ld_unit_zero (S := S1x256) hz2, View.ld_unit_zero (S := S1) hz1, View.ld_unit_zero (S := S32x1) hz2, View.ld_unit_zero (S := S32x256) hz2, View.readCov_unit_zero (S := S32x1) _ hz2, View.readCov_unit_zero (S := S32x256) _ hz2, trips4]
  rfl

set_option maxHeartbeats 4000000 in
/-- What the body leaves in the scratch of the accumulator at a first key tile (the scratch reset to its starting values, then updated): the update's payload over the projections of the
    query and key tiles, the edge-logit scratch after the loop, and the starting values. -/
theorem sout0_A_2_eq (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 : Vec F S32x128 .f32) :
    sout0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3 = k0_pay3 (k0_pay11 (F := F)) (k0_pay23 (k0_pay14 x1 x8 x9) (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) (k0_pay9 (F := F))) (k0_pay24 (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) (k0_pay9 (F := F))) := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3)]
  unfold kernelRun0_A
  dsimp only
  sl_unfold_words
  rw [View.canon_cons_unit_zero (S := S32x256) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, View.ld_unit_zero (S := S1x32x256) hz3, View.ld_unit_zero (S := S1x128x256) hz3, View.ld_unit_zero (S := S1x32x1) hz3, View.ld_unit_zero (S := S32x128) hz2, View.ld_unit_zero (S := S256x256) hz2, View.ld_unit_zero (S := S256) hz1, View.ld_unit_zero (S := S256x2) hz2, View.ld_unit_zero (S := S1x256) hz2, View.ld_unit_zero (S := S1) hz1, View.ld_unit_zero (S := S32x1) hz2, View.ld_unit_zero (S := S32x256) hz2, View.readCov_unit_zero (S := S32x1) _ hz2, View.readCov_unit_zero (S := S32x256) _ hz2, trips4]
  rfl

set_option maxHeartbeats 4000000 in
/-- What the body stores into the output tile at a last key tile: the epilogue's payload over the query tile, the
    accumulator and the normaliser as this key tile's own update left them, and the epilogue's weights. -/
theorem out0_C_22_eq (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) :
    out0_C_22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3 = k0_pay4 x21 (k0_pay7 (k0_pay12 x0) (k0_pay5 (k0_pay3 xs2 (k0_pay23 (k0_pay14 x1 x8 x9) (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) xs0) (k0_pay24 (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) xs0)) (k0_pay2 (k0_pay22 (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) xs0 xs1)) x18 x19 x14 x15) x16 x17 (k0_pay6 (k0_pay3 xs2 (k0_pay23 (k0_pay14 x1 x8 x9) (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) xs0) (k0_pay24 (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) xs0)) (k0_pay2 (k0_pay22 (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) xs0 xs1)) x18 x19 x14 x15)) (k0_pay8 x20) := by
  unfold out0_C_22
  rw [View.read_writes_eq_canon _ _ _ (cover0_C_22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3)]
  unfold kernelRun0_C
  dsimp only
  sl_unfold_words
  rw [View.canon_unit_zero hz3]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, View.ld_unit_zero (S := S1x32x256) hz3, View.ld_unit_zero (S := S1x128x256) hz3, View.ld_unit_zero (S := S1x32x1) hz3, View.ld_unit_zero (S := S32x128) hz2, View.ld_unit_zero (S := S256x256) hz2, View.ld_unit_zero (S := S256) hz1, View.ld_unit_zero (S := S256x2) hz2, View.ld_unit_zero (S := S1x256) hz2, View.ld_unit_zero (S := S1) hz1, View.ld_unit_zero (S := S32x1) hz2, View.ld_unit_zero (S := S32x256) hz2, View.readCov_unit_zero (S := S32x1) _ hz2, View.readCov_unit_zero (S := S32x256) _ hz2, trips4]
  rfl

end Cert.Kernel.Hand

end
-- ==== Proof.K.EdgeScratch.lean ====
/-
  The edge-logit scratch after the four trips of the body's loop, read at an entry, for the word-level program.
  Trip k stores, into rows 8k … 8k+7 of the [32, 128] scratch, the payload of the 8 area rows and the 8
  co-occurrence rows it loads at the same offset; so after the loop entry (r, c) is trip r/8's payload at (r mod 8, c),
  whatever the scratch held before.
-/
import proofs.«116762_j61950608277594_2_alg».proof.Proof.Gen.Kernel.Loops
import Idealize.ShloMosaic.Lib.ValueIdx
import Idealize.ShloMosaic.Lib.Pipeline.FrameBody
import Idealize.ShloMosaic.Lib.Pipeline.Value
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.Sem

/-- The loop runs four trips. -/
theorem trips_eq : k0_t1_loop.trips = 4 := by decide

/-- The trip that stores row r of the scratch: r / 8. -/
abbrev tripOf (r : Fin 32) : Fin k0_t1_loop.trips := ⟨r.val / 8, by have h := trips_eq; have := r.isLt; omega⟩

/-- Row r's position within its trip's 8 rows: r mod 8. -/
abbrev rowIn (r : Fin 32) : Fin 8 := ⟨r.val % 8, Nat.mod_lt _ (by omega)⟩

section
variable {F : FTy → Type} [FloatOps F]
variable (𝒱 : Variants) (c : Dev nD) (bd : Option 𝒱.V) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (v32 : FVec F S128x256 .f32) (v33 : FVec F S32x256 .bf16) (v35 : FVec F S256x128 .bf16) (v39 : Vec F S256x2 .f32) (v40 : Vec F S256 .f32) (v45 : Vec F S1x256 .f32) (v46 : Vec F S1 .f32) (X_arg5 : BufTy.Contents (Elt F) arg5.view.ty) (X_arg6 : BufTy.Contents (Elt F) arg6.view.ty)

/-- The 8 area rows trip k loads: rows 8k … 8k+7 of the area tile. -/
abbrev areaRows (k : Fin k0_t1_loop.trips) : Vec F S1x8x1 .f32 :=
  View.readAt (Elt F) arg5.view (Rect.unit (s := S1x32x1) (k0_off1 k) S1x8x1.size (k0_off1_inb k)).toLoadRect X_arg5

/-- The 8 co-occurrence rows trip k loads: rows 8k … 8k+7 of the co-occurrence tile. -/
abbrev coRows (k : Fin k0_t1_loop.trips) : Vec F S8x128 .f32 :=
  View.readAt (Elt F) arg6.view (Rect.unit (s := S32x128) (k0_off2 k) S8x128.size (k0_off2_inb k)).toLoadRect X_arg6

/-- ONE TRIP'S PIECE: the single store of the loop's region, rows 8k … 8k+7 of the scratch, of the edge logits of
    the rows it loaded. -/
theorem tripL_eq (k : Fin k0_t1_loop.trips) :
    tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v32 v33 v35 v39 v40 v45 v46 X_arg5 X_arg6 k
      = [⟨Rect.unit (s := S32x128) (k0_off2 k) S8x128.size (k0_off2_inb k),
          k0_pay17 v39 v40 v45 v46 (areaRows arg5 X_arg5 k) (coRows arg6 X_arg6 k)⟩] := by
  unfold tripL_k0_t1 trip_k0_t1
  rfl

/-- The pieces after one more trip: the trip's piece in front. -/
theorem pb_succ_eq (n : ℕ) (hn : n < k0_t1_loop.trips) :
    pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v32 v33 v35 v39 v40 v45 v46 X_arg5 X_arg6 (n + 1)
      = (⟨Rect.unit (s := S32x128) (k0_off2 ⟨n, hn⟩) S8x128.size (k0_off2_inb ⟨n, hn⟩),
          k0_pay17 v39 v40 v45 v46 (areaRows arg5 X_arg5 ⟨n, hn⟩) (coRows arg6 X_arg6 ⟨n, hn⟩)⟩
            : View.Piece (Elt F) S32x128 .f32)
        :: pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v32 v33 v35 v39 v40 v45 v46 X_arg5 X_arg6 n := by
  refine (pb_k0_t1_succ (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v32 v33 v35 v39 v40 v45 v46 X_arg5 X_arg6 ⟨n, hn⟩).trans ?_
  rw [tripL_eq]
  rfl

/-- THE SCRATCH AFTER n TRIPS, read at a row some trip before n stored: that trip's payload at the row's position
    within the trip, whatever the scratch held before the loop. -/
theorem read_pb (n : ℕ) (hn : n ≤ 4) (G : BufTy.Contents (Elt F) arg29.view.ty) (r : Fin 32) (cc : Fin 128)
    (hr : r.val / 8 < n) :
    arg29.view.read (Elt F) (arg29.view.writes (Elt F) G (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v32 v33 v35 v39 v40 v45 v46 X_arg5 X_arg6 n)) (ix2 r cc)
      = k0_pay17 v39 v40 v45 v46 (areaRows arg5 X_arg5 (tripOf r)) (coRows arg6 X_arg6 (tripOf r)) (ix2 (rowIn r) cc) := by
  induction n with
  | zero => exact absurd hr (Nat.not_lt_zero _)
  | succ n ih =>
    have hn4 : n < k0_t1_loop.trips := by rw [trips_eq]; omega
    rw [pb_succ_eq (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v32 v33 v35 v39 v40 v45 v46 X_arg5 X_arg6 n hn4]
    by_cases hq : r.val / 8 = n
    · subst hq
      refine View.read_writes_cons_rows_of_mem arg29.view G (k0_off2_inb _) _ _ (ix2 r cc) (ix2 (rowIn r) cc)
        (k0_off2_eq _) ?_ rfl
      show r.val = 8 * (r.val / 8) + r.val % 8
      omega
    · have hlt : r.val / 8 < n := by omega
      refine (View.read_writes_cons_rows_of_not_mem arg29.view G (k0_off2_inb _) _ _ (ix2 r cc) (W := 8)
        (k0_off2_eq _) rfl (Or.inl ?_)).trans (ih (by omega) hlt)
      show r.val < 8 * n
      omega

/-- The same through a load of the whole scratch. -/
theorem readAt_pb (G : BufTy.Contents (Elt F) arg29.view.ty) {off : Fin 2 → ℕ} (hoff : off = fun _ => 0)
    (inb : ∀ a, off a + S32x128.size a ≤ S32x128.size a) (r : Fin 32) (cc : Fin 128) :
    View.readAt (Elt F) arg29.view (Rect.unit (s := S32x128) off S32x128.size inb).toLoadRect
        (arg29.view.writes (Elt F) G (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v32 v33 v35 v39 v40 v45 v46 X_arg5 X_arg6 4)) (ix2 r cc)
      = k0_pay17 v39 v40 v45 v46 (areaRows arg5 X_arg5 (tripOf r)) (coRows arg6 X_arg6 (tripOf r)) (ix2 (rowIn r) cc) := by
  rw [View.readAt_eq_ld, View.ld_unit_zero (S := S32x128) hoff]
  exact read_pb (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v32 v33 v35 v39 v40 v45 v46 X_arg5 X_arg6 4 le_rfl G r cc (by have := r.isLt; omega)

end

end Cert.Kernel.Hand

end
-- ==== Proof.K.Indep.lean ====
/-
  The body's stores do not depend on what the edge-logit scratch held when the body was entered: the loop's four trips
  store rows 0–7, 8–15, 16–23 and 24–31 of it before the body reads it whole, so every entry read is an entry some
  trip has just stored.
-/
import proofs.«116762_j61950608277594_2_alg».proof.Proof.K.Pieces
import proofs.«116762_j61950608277594_2_alg».proof.Proof.K.EdgeScratch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem

variable {F : FTy → Type} [FloatOps F]

/-- The edge-logit scratch after the loop is the same whatever it held on entry: each entry (r, c) is the payload the
    trip r / 8 stored at row r mod 8. -/
theorem edgeV50_indep (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 xs3' : Vec F S32x128 .f32) :
    edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3 = edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3' := by
  funext j
  obtain ⟨r, cc, rfl⟩ : ∃ (r : Fin 32) (cc : Fin 128), j = ValueIdx.ix2 r cc := ⟨j 0, j 1, ValueIdx.eq_ix2 j⟩
  exact (read_pb (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (k0_pay14 x1 x8 x9) (k0_pay15 x0 x4 x5) (k0_pay16 x1 x6 x7) x10 x11 x12 x13 (harg5.unread x2) (harg6.unread x3) 4 le_rfl (harg29.unread xs3) r cc (by have := r.isLt; omega)).trans
    (read_pb (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (k0_pay14 x1 x8 x9) (k0_pay15 x0 x4 x5) (k0_pay16 x1 x6 x7) x10 x11 x12 x13 (harg5.unread x2) (harg6.unread x3) 4 le_rfl (harg29.unread xs3') r cc (by have := r.isLt; omega)).symm

/-- The scratch update does not depend on what the edge-logit scratch held on entry. -/
theorem sout0_A_0_indep (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 xs3' : Vec F S32x128 .f32) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3 = sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3' := by
  rw [sout0_A_0_eq, sout0_A_0_eq, edgeV50_indep c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3 xs3']

/-- The scratch update does not depend on what the edge-logit scratch held on entry. -/
theorem sout0_A_1_indep (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 xs3' : Vec F S32x128 .f32) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3 = sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3' := by
  rw [sout0_A_1_eq, sout0_A_1_eq, edgeV50_indep c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3 xs3']

/-- The scratch update does not depend on what the edge-logit scratch held on entry. -/
theorem sout0_A_2_indep (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 xs3' : Vec F S32x128 .f32) :
    sout0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3 = sout0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3' := by
  rw [sout0_A_2_eq, sout0_A_2_eq, edgeV50_indep c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3 xs3']

/-- The scratch update does not depend on what the edge-logit scratch held on entry. -/
theorem sout0_B_0_indep (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 xs3' : Vec F S32x128 .f32) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3 = sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3' := by
  rw [sout0_B_0_eq, sout0_B_0_eq, edgeV50_indep c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3 xs3']

/-- The scratch update does not depend on what the edge-logit scratch held on entry. -/
theorem sout0_B_1_indep (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 xs3' : Vec F S32x128 .f32) :
    sout0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3 = sout0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3' := by
  rw [sout0_B_1_eq, sout0_B_1_eq, edgeV50_indep c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3 xs3']

/-- The scratch update does not depend on what the edge-logit scratch held on entry. -/
theorem sout0_B_2_indep (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 xs3' : Vec F S32x128 .f32) :
    sout0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3 = sout0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3' := by
  rw [sout0_B_2_eq, sout0_B_2_eq, edgeV50_indep c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3 xs3']

/-- The scratch update does not depend on what the edge-logit scratch held on entry. -/
theorem sout0_C_0_indep (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 xs3' : Vec F S32x128 .f32) :
    sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3 = sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3' := by
  rw [sout0_C_0_eq, sout0_C_0_eq, edgeV50_indep c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3 xs3']

/-- The scratch update does not depend on what the edge-logit scratch held on entry. -/
theorem sout0_C_1_indep (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 xs3' : Vec F S32x128 .f32) :
    sout0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3 = sout0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3' := by
  rw [sout0_C_1_eq, sout0_C_1_eq, edgeV50_indep c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3 xs3']

/-- The scratch update does not depend on what the edge-logit scratch held on entry. -/
theorem sout0_C_2_indep (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 xs3' : Vec F S32x128 .f32) :
    sout0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3 = sout0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3' := by
  rw [sout0_C_2_eq, sout0_C_2_eq, edgeV50_indep c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3 xs3']

/-- The output tile's store does not depend on what the edge-logit scratch held on entry. -/
theorem out0_C_22_indep (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 xs3' : Vec F S32x128 .f32) :
    out0_C_22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3 = out0_C_22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3' := by
  rw [out0_C_22_eq, out0_C_22_eq, edgeV50_indep c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3 xs3']

end Cert.Kernel.Hand

end
-- ==== Proof.K.BodyA.lean ====
/-
  The body obligation at a first key tile.
-/
import proofs.«116762_j61950608277594_2_alg».proof.Proof.K.Indep

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a first key tile: the inputs' memrefs hold their blocks, the invariant hands the body the carried scratch and
    takes it back at this point's contents; nothing is owed throughout. -/
theorem sound_body_A (c : Dev nD) (t : Fin cfg0.N) (h0 : t.val % 4 = 0) (h1 : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rfl, after0_0]
  rw [show (dats m 0 c).leavesExact 1 t = owns (c : Thread nD τ) (ms0_1 t) fullShare ((dats m 0 c).after 1 t) from by
    unfold Dat.leavesExact; rfl, after0_1]
  rw [show (dats m 0 c).leavesExact 2 t = owns (c : Thread nD τ) (ms0_2 t) fullShare ((dats m 0 c).after 2 t) from by
    unfold Dat.leavesExact; rfl, after0_2]
  rw [show (dats m 0 c).leavesExact 3 t = owns (c : Thread nD τ) (ms0_3 t) fullShare ((dats m 0 c).after 3 t) from by
    unfold Dat.leavesExact; rfl, after0_3]
  rw [show (dats m 0 c).leavesExact 4 t = owns (c : Thread nD τ) (ms0_4 t) fullShare ((dats m 0 c).after 4 t) from by
    unfold Dat.leavesExact; rfl, after0_4]
  rw [show (dats m 0 c).leavesExact 5 t = owns (c : Thread nD τ) (ms0_5 t) fullShare ((dats m 0 c).after 5 t) from by
    unfold Dat.leavesExact; rfl, after0_5]
  rw [show (dats m 0 c).leavesExact 6 t = owns (c : Thread nD τ) (ms0_6 t) fullShare ((dats m 0 c).after 6 t) from by
    unfold Dat.leavesExact; rfl, after0_6]
  rw [show (dats m 0 c).leavesExact 7 t = owns (c : Thread nD τ) (ms0_7 t) fullShare ((dats m 0 c).after 7 t) from by
    unfold Dat.leavesExact; rfl, after0_7]
  rw [show (dats m 0 c).leavesExact 8 t = owns (c : Thread nD τ) (ms0_8 t) fullShare ((dats m 0 c).after 8 t) from by
    unfold Dat.leavesExact; rfl, after0_8]
  rw [show (dats m 0 c).leavesExact 9 t = owns (c : Thread nD τ) (ms0_9 t) fullShare ((dats m 0 c).after 9 t) from by
    unfold Dat.leavesExact; rfl, after0_9]
  rw [show (dats m 0 c).leavesExact 10 t = owns (c : Thread nD τ) (ms0_10 t) fullShare ((dats m 0 c).after 10 t) from by
    unfold Dat.leavesExact; rfl, after0_10]
  rw [show (dats m 0 c).leavesExact 11 t = owns (c : Thread nD τ) (ms0_11 t) fullShare ((dats m 0 c).after 11 t) from by
    unfold Dat.leavesExact; rfl, after0_11]
  rw [show (dats m 0 c).leavesExact 12 t = owns (c : Thread nD τ) (ms0_12 t) fullShare ((dats m 0 c).after 12 t) from by
    unfold Dat.leavesExact; rfl, after0_12]
  rw [show (dats m 0 c).leavesExact 13 t = owns (c : Thread nD τ) (ms0_13 t) fullShare ((dats m 0 c).after 13 t) from by
    unfold Dat.leavesExact; rfl, after0_13]
  rw [show (dats m 0 c).leavesExact 14 t = owns (c : Thread nD τ) (ms0_14 t) fullShare ((dats m 0 c).after 14 t) from by
    unfold Dat.leavesExact; rfl, after0_14]
  rw [show (dats m 0 c).leavesExact 15 t = owns (c : Thread nD τ) (ms0_15 t) fullShare ((dats m 0 c).after 15 t) from by
    unfold Dat.leavesExact; rfl, after0_15]
  rw [show (dats m 0 c).leavesExact 16 t = owns (c : Thread nD τ) (ms0_16 t) fullShare ((dats m 0 c).after 16 t) from by
    unfold Dat.leavesExact; rfl, after0_16]
  rw [show (dats m 0 c).leavesExact 17 t = owns (c : Thread nD τ) (ms0_17 t) fullShare ((dats m 0 c).after 17 t) from by
    unfold Dat.leavesExact; rfl, after0_17]
  rw [show (dats m 0 c).leavesExact 18 t = owns (c : Thread nD τ) (ms0_18 t) fullShare ((dats m 0 c).after 18 t) from by
    unfold Dat.leavesExact; rfl, after0_18]
  rw [show (dats m 0 c).leavesExact 19 t = owns (c : Thread nD τ) (ms0_19 t) fullShare ((dats m 0 c).after 19 t) from by
    unfold Dat.leavesExact; rfl, after0_19]
  rw [show (dats m 0 c).leavesExact 20 t = owns (c : Thread nD τ) (ms0_20 t) fullShare ((dats m 0 c).after 20 t) from by
    unfold Dat.leavesExact; rfl, after0_20]
  rw [show (dats m 0 c).leavesExact 21 t = owns (c : Thread nD τ) (ms0_21 t) fullShare ((dats m 0 c).after 21 t) from by
    unfold Dat.leavesExact; rfl, after0_21]
  rw [Dat.leavesExact_idle (dats m 0 c) 22 t (idleAt0_22 t (fun h => h1 ((hcond0_1 t).mp h))) (noFlush0_22 t (fun h => h1 ((hcond0_1 t).mp h)))]
  rw [outsAt0_A m c t h0 h1]
  unfold sout0_A_0 sout0_A_1 sout0_A_2; (try dsimp only)
  by_cases hz : t.val = 0
  · rw [PhiS_castSucc m c t, PhiS_zero m c _ _ hz]
    iintro ⟨⟨HS0, HS1, HS2, ⟨%ee3, HS3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) ee3).2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, H19, H20, H21, H22, ⟨%es0, HS0⟩, ⟨%es1, HS1⟩, ⟨%es2, HS2⟩, ⟨%es3, HS3⟩⟩
    isplitl [HS0 HS1 HS2 HS3]
    ·
      isplitl [HS0]
      · unfold owns; iexists _; isplitr
        swap; · iexact HS0
        ipureintro; exact (View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans (sout0_A_0_indep c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ee3 dflt3)
      isplitl [HS1]
      · unfold owns; iexists _; isplitr
        swap; · iexact HS1
        ipureintro; exact (View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans (sout0_A_1_indep c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ee3 dflt3)
      isplitl [HS2]
      · unfold owns; iexists _; isplitr
        swap; · iexact HS2
        ipureintro; exact (View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans (sout0_A_2_indep c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ee3 dflt3)
      iexists _; unfold owns; iexists _; isplitr
      swap; · iexact HS3
      ipureintro; rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexists _; iexact H22
  · rw [PhiS_castSucc m c t, PhiS_pos m c _ _ hz]
    iintro ⟨⟨HS0, HS1, HS2, ⟨%ee3, HS3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) ee3).2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [HS0]; · iexists _; iexact HS0
    isplitl [HS1]; · iexists _; iexact HS1
    isplitl [HS2]; · iexists _; iexact HS2
    isplitl [HS3]; · iexact HS3
    iintro ⟨H0, H1, H2, H3, H4, H5, H6, H7, H8, H9, H10, H11, H12, H13, H14, H15, H16, H17, H18, H19, H20, H21, H22, ⟨%es0, HS0⟩, ⟨%es1, HS1⟩, ⟨%es2, HS2⟩, ⟨%es3, HS3⟩⟩
    isplitl [HS0 HS1 HS2 HS3]
    ·
      isplitl [HS0]
      · unfold owns; iexists _; isplitr
        swap; · iexact HS0
        ipureintro; exact (View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans (sout0_A_0_indep c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ee3 dflt3)
      isplitl [HS1]
      · unfold owns; iexists _; isplitr
        swap; · iexact HS1
        ipureintro; exact (View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans (sout0_A_1_indep c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ee3 dflt3)
      isplitl [HS2]
      · unfold owns; iexists _; isplitr
        swap; · iexact HS2
        ipureintro; exact (View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans (sout0_A_2_indep c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ee3 dflt3)
      iexists _; unfold owns; iexists _; isplitr
      swap; · iexact HS3
      ipureintro; rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexists _; iexact H22

end Cert.Kernel.Hand

end
-- ==== Proof.K.BodyB.lean ====
/-
  The body obligation at a middle key tile.
-/
import proofs.«116762_j61950608277594_2_alg».proof.Proof.K.Indep

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a middle key tile: the inputs' memrefs hold their blocks, the invariant hands the body the carried scratch and
    takes it back at this point's contents; nothing is owed throughout. -/
theorem sound_body_B (c : Dev nD) (t : Fin cfg0.N) (h0 : ¬t.val % 4 = 0) (h1 : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rfl, after0_0]
  rw [show (dats m 0 c).leavesExact 1 t = owns (c : Thread nD τ) (ms0_1 t) fullShare ((dats m 0 c).after 1 t) from by
    unfold Dat.leavesExact; rfl, after0_1]
  rw [show (dats m 0 c).leavesExact 2 t = owns (c : Thread nD τ) (ms0_2 t) fullShare ((dats m 0 c).after 2 t) from by
    unfold Dat.leavesExact; rfl, after0_2]
  rw [show (dats m 0 c).leavesExact 3 t = owns (c : Thread nD τ) (ms0_3 t) fullShare ((dats m 0 c).after 3 t) from by
    unfold Dat.leavesExact; rfl, after0_3]
  rw [show (dats m 0 c).leavesExact 4 t = owns (c : Thread nD τ) (ms0_4 t) fullShare ((dats m 0 c).after 4 t) from by
    unfold Dat.leavesExact; rfl, after0_4]
  rw [show (dats m 0 c).leavesExact 5 t = owns (c : Thread nD τ) (ms0_5 t) fullShare ((dats m 0 c).after 5 t) from by
    unfold Dat.leavesExact; rfl, after0_5]
  rw [show (dats m 0 c).leavesExact 6 t = owns (c : Thread nD τ) (ms0_6 t) fullShare ((dats m 0 c).after 6 t) from by
    unfold Dat.leavesExact; rfl, after0_6]
  rw [show (dats m 0 c).leavesExact 7 t = owns (c : Thread nD τ) (ms0_7 t) fullShare ((dats m 0 c).after 7 t) from by
    unfold Dat.leavesExact; rfl, after0_7]
  rw [show (dats m 0 c).leavesExact 8 t = owns (c : Thread nD τ) (ms0_8 t) fullShare ((dats m 0 c).after 8 t) from by
    unfold Dat.leavesExact; rfl, after0_8]
  rw [show (dats m 0 c).leavesExact 9 t = owns (c : Thread nD τ) (ms0_9 t) fullShare ((dats m 0 c).after 9 t) from by
    unfold Dat.leavesExact; rfl, after0_9]
  rw [show (dats m 0 c).leavesExact 10 t = owns (c : Thread nD τ) (ms0_10 t) fullShare ((dats m 0 c).after 10 t) from by
    unfold Dat.leavesExact; rfl, after0_10]
  rw [show (dats m 0 c).leavesExact 11 t = owns (c : Thread nD τ) (ms0_11 t) fullShare ((dats m 0 c).after 11 t) from by
    unfold Dat.leavesExact; rfl, after0_11]
  rw [show (dats m 0 c).leavesExact 12 t = owns (c : Thread nD τ) (ms0_12 t) fullShare ((dats m 0 c).after 12 t) from by
    unfold Dat.leavesExact; rfl, after0_12]
  rw [show (dats m 0 c).leavesExact 13 t = owns (c : Thread nD τ) (ms0_13 t) fullShare ((dats m 0 c).after 13 t) from by
    unfold Dat.leavesExact; rfl, after0_13]
  rw [show (dats m 0 c).leavesExact 14 t = owns (c : Thread nD τ) (ms0_14 t) fullShare ((dats m 0 c).after 14 t) from by
    unfold Dat.leavesExact; rfl, after0_14]
  rw [show (dats m 0 c).leavesExact 15 t = owns (c : Thread nD τ) (ms0_15 t) fullShare ((dats m 0 c).after 15 t) from by
    unfold Dat.leavesExact; rfl, after0_15]
  rw [show (dats m 0 c).leavesExact 16 t = owns (c : Thread nD τ) (ms0_16 t) fullShare ((dats m 0 c).after 16 t) from by
    unfold Dat.leavesExact; rfl, after0_16]
  rw [show (dats m 0 c).leavesExact 17 t = owns (c : Thread nD τ) (ms0_17 t) fullShare ((dats m 0 c).after 17 t) from by
    unfold Dat.leavesExact; rfl, after0_17]
  rw [show (dats m 0 c).leavesExact 18 t = owns (c : Thread nD τ) (ms0_18 t) fullShare ((dats m 0 c).after 18 t) from by
    unfold Dat.leavesExact; rfl, after0_18]
  rw [show (dats m 0 c).leavesExact 19 t = owns (c : Thread nD τ) (ms0_19 t) fullShare ((dats m 0 c).after 19 t) from by
    unfold Dat.leavesExact; rfl, after0_19]
  rw [show (dats m 0 c).leavesExact 20 t = owns (c : Thread nD τ) (ms0_20 t) fullShare ((dats m 0 c).after 20 t) from by
    unfold Dat.leavesExact; rfl, after0_20]
  rw [show (dats m 0 c).leavesExact 21 t = owns (c : Thread nD τ) (ms0_21 t) fullShare ((dats m 0 c).after 21 t) from by
    unfold Dat.leavesExact; rfl, after0_21]
  rw [Dat.leavesExact_idle (dats m 0 c) 22 t (idleAt0_22 t (fun h => h1 ((hcond0_1 t).mp h))) (noFlush0_22 t (fun h => h1 ((hcond0_1 t).mp h)))]
  rw [outsAt0_B m c t h0 h1]
  unfold sout0_B_0 sout0_B_1 sout0_B_2; (try dsimp only)
  have hz : t.val ≠ 0 := by intro hz; rw [hz] at h0; exact h0 (Nat.zero_mod _)
  · rw [PhiS_castSucc m c t, PhiS_pos m c _ _ hz]
    iintro ⟨⟨HS0, HS1, HS2, ⟨%ee3, HS3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _ _ _ ee3).2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, H19, H20, H21, H22, ⟨%es0, HS0⟩, ⟨%es1, HS1⟩, ⟨%es2, HS2⟩, ⟨%es3, HS3⟩⟩
    isplitl [HS0 HS1 HS2 HS3]
    ·
      isplitl [HS0]
      · unfold owns; iexists _; isplitr
        swap; · iexact HS0
        ipureintro; exact (View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans (sout0_B_0_indep c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ee3 dflt3)
      isplitl [HS1]
      · unfold owns; iexists _; isplitr
        swap; · iexact HS1
        ipureintro; exact (View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans (sout0_B_1_indep c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ee3 dflt3)
      isplitl [HS2]
      · unfold owns; iexists _; isplitr
        swap; · iexact HS2
        ipureintro; exact (View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans (sout0_B_2_indep c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ee3 dflt3)
      iexists _; unfold owns; iexists _; isplitr
      swap; · iexact HS3
      ipureintro; rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexists _; iexact H22

end Cert.Kernel.Hand

end
-- ==== Proof.K.BodyC.lean ====
/-
  The body obligation at a last key tile.
-/
import proofs.«116762_j61950608277594_2_alg».proof.Proof.K.Indep

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a last key tile: the inputs' memrefs hold their blocks, the invariant hands the body the carried scratch and
    takes it back at this point's contents; nothing is owed throughout. -/
theorem sound_body_C (c : Dev nD) (t : Fin cfg0.N) (h0 : ¬t.val % 4 = 0) (h1 : t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rfl, after0_0]
  rw [show (dats m 0 c).leavesExact 1 t = owns (c : Thread nD τ) (ms0_1 t) fullShare ((dats m 0 c).after 1 t) from by
    unfold Dat.leavesExact; rfl, after0_1]
  rw [show (dats m 0 c).leavesExact 2 t = owns (c : Thread nD τ) (ms0_2 t) fullShare ((dats m 0 c).after 2 t) from by
    unfold Dat.leavesExact; rfl, after0_2]
  rw [show (dats m 0 c).leavesExact 3 t = owns (c : Thread nD τ) (ms0_3 t) fullShare ((dats m 0 c).after 3 t) from by
    unfold Dat.leavesExact; rfl, after0_3]
  rw [show (dats m 0 c).leavesExact 4 t = owns (c : Thread nD τ) (ms0_4 t) fullShare ((dats m 0 c).after 4 t) from by
    unfold Dat.leavesExact; rfl, after0_4]
  rw [show (dats m 0 c).leavesExact 5 t = owns (c : Thread nD τ) (ms0_5 t) fullShare ((dats m 0 c).after 5 t) from by
    unfold Dat.leavesExact; rfl, after0_5]
  rw [show (dats m 0 c).leavesExact 6 t = owns (c : Thread nD τ) (ms0_6 t) fullShare ((dats m 0 c).after 6 t) from by
    unfold Dat.leavesExact; rfl, after0_6]
  rw [show (dats m 0 c).leavesExact 7 t = owns (c : Thread nD τ) (ms0_7 t) fullShare ((dats m 0 c).after 7 t) from by
    unfold Dat.leavesExact; rfl, after0_7]
  rw [show (dats m 0 c).leavesExact 8 t = owns (c : Thread nD τ) (ms0_8 t) fullShare ((dats m 0 c).after 8 t) from by
    unfold Dat.leavesExact; rfl, after0_8]
  rw [show (dats m 0 c).leavesExact 9 t = owns (c : Thread nD τ) (ms0_9 t) fullShare ((dats m 0 c).after 9 t) from by
    unfold Dat.leavesExact; rfl, after0_9]
  rw [show (dats m 0 c).leavesExact 10 t = owns (c : Thread nD τ) (ms0_10 t) fullShare ((dats m 0 c).after 10 t) from by
    unfold Dat.leavesExact; rfl, after0_10]
  rw [show (dats m 0 c).leavesExact 11 t = owns (c : Thread nD τ) (ms0_11 t) fullShare ((dats m 0 c).after 11 t) from by
    unfold Dat.leavesExact; rfl, after0_11]
  rw [show (dats m 0 c).leavesExact 12 t = owns (c : Thread nD τ) (ms0_12 t) fullShare ((dats m 0 c).after 12 t) from by
    unfold Dat.leavesExact; rfl, after0_12]
  rw [show (dats m 0 c).leavesExact 13 t = owns (c : Thread nD τ) (ms0_13 t) fullShare ((dats m 0 c).after 13 t) from by
    unfold Dat.leavesExact; rfl, after0_13]
  rw [show (dats m 0 c).leavesExact 14 t = owns (c : Thread nD τ) (ms0_14 t) fullShare ((dats m 0 c).after 14 t) from by
    unfold Dat.leavesExact; rfl, after0_14]
  rw [show (dats m 0 c).leavesExact 15 t = owns (c : Thread nD τ) (ms0_15 t) fullShare ((dats m 0 c).after 15 t) from by
    unfold Dat.leavesExact; rfl, after0_15]
  rw [show (dats m 0 c).leavesExact 16 t = owns (c : Thread nD τ) (ms0_16 t) fullShare ((dats m 0 c).after 16 t) from by
    unfold Dat.leavesExact; rfl, after0_16]
  rw [show (dats m 0 c).leavesExact 17 t = owns (c : Thread nD τ) (ms0_17 t) fullShare ((dats m 0 c).after 17 t) from by
    unfold Dat.leavesExact; rfl, after0_17]
  rw [show (dats m 0 c).leavesExact 18 t = owns (c : Thread nD τ) (ms0_18 t) fullShare ((dats m 0 c).after 18 t) from by
    unfold Dat.leavesExact; rfl, after0_18]
  rw [show (dats m 0 c).leavesExact 19 t = owns (c : Thread nD τ) (ms0_19 t) fullShare ((dats m 0 c).after 19 t) from by
    unfold Dat.leavesExact; rfl, after0_19]
  rw [show (dats m 0 c).leavesExact 20 t = owns (c : Thread nD τ) (ms0_20 t) fullShare ((dats m 0 c).after 20 t) from by
    unfold Dat.leavesExact; rfl, after0_20]
  rw [show (dats m 0 c).leavesExact 21 t = owns (c : Thread nD τ) (ms0_21 t) fullShare ((dats m 0 c).after 21 t) from by
    unfold Dat.leavesExact; rfl, after0_21]
  rw [show (dats m 0 c).leavesExact 22 t = owns (c : Thread nD τ) (ms0_22 t) fullShare ((dats m 0 c).after 22 t) from by
    unfold Dat.leavesExact; rw [liveAt0_22 t ((hcond0_1 t).mpr h1)], after0_22]
  rw [outsAt0_C m c t h0 h1]
  unfold out0_C_22 sout0_C_0 sout0_C_1 sout0_C_2; (try dsimp only)
  have hz : t.val ≠ 0 := by intro hz; rw [hz] at h0; exact h0 (Nat.zero_mod _)
  · rw [PhiS_castSucc m c t, PhiS_pos m c _ _ hz]
    iintro ⟨⟨HS0, HS1, HS2, ⟨%ee3, HS3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _ _ _ ee3).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexists _; iexact H22
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, H19, H20, H21, ⟨%e22, H22⟩, ⟨%es0, HS0⟩, ⟨%es1, HS1⟩, ⟨%es2, HS2⟩, ⟨%es3, HS3⟩⟩
    isplitl [HS0 HS1 HS2 HS3]
    ·
      isplitl [HS0]
      · unfold owns; iexists _; isplitr
        swap; · iexact HS0
        ipureintro; exact (View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans (sout0_C_0_indep c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ee3 dflt3)
      isplitl [HS1]
      · unfold owns; iexists _; isplitr
        swap; · iexact HS1
        ipureintro; exact (View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans (sout0_C_1_indep c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ee3 dflt3)
      isplitl [HS2]
      · unfold owns; iexists _; isplitr
        swap; · iexact HS2
        ipureintro; exact (View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans (sout0_C_2_indep c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ee3 dflt3)
      iexists _; unfold owns; iexists _; isplitr
      swap; · iexact HS3
      ipureintro; rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    unfold owns; iexists _; isplitr
    swap; · iexact H22
    ipureintro; exact (View.read_writes_of_cover _ _ _ _ _ (cover0_C_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans (out0_C_22_indep c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ee3 dflt3)

end Cert.Kernel.Hand

end
-- ==== Proof.K.Body.lean ====
/-
  The body obligation at every point: the point's number mod 4 says whether it is a first, a middle or a last key tile.
-/
import proofs.«116762_j61950608277594_2_alg».proof.Proof.K.BodyA
import proofs.«116762_j61950608277594_2_alg».proof.Proof.K.BodyB
import proofs.«116762_j61950608277594_2_alg».proof.Proof.K.BodyC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · by_cases h1 : t.val % 4 = 3
    · exfalso; omega
    · exact sound_body_A m c t h0 h1
  · by_cases h1 : t.val % 4 = 3
    · exact sound_body_C m c t h0 h1
    · exact sound_body_B m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Launch.lean ====
/-
  The launch. The node-feature array is handed to the kernel through two windows; its full share is split into a left and a
  right half, one per window (both only read it). The kernel names no semaphore of its own, so the launch is the
  library's for such kernels with shared arrays; its post gives every window's array at what the proof data computes
  and every other unscoped buffer as the region found it, from which the frame claim follows: the inputs are never
  written back, and the one buffer no window stages (the area matrix before its reshape) is untouched.
-/
import proofs.«116762_j61950608277594_2_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays behind the windows, each once. -/
theorem arrImage0 : Finset.univ.image (Pipeline.arrRef spec0) = ([main_arg0, main_v0, main_arg2, main_arg3, main_arg4, main_arg5, main_arg6, main_arg7, main_arg8, main_arg9, main_arg10, main_arg11, main_arg12, main_arg13, main_arg14, main_arg15, main_arg16, main_arg17, main_arg18, main_arg19, main_arg20, main_v1] : List (Ref sig .tc)).toFinset := by decide

/-- The pipeline's arrays, window by window, each a whole buffer at its window's share. -/
theorem arrays_eq0 (c : Dev nD) (G : (w : Fin cfg0.W) → Buf (Elt F) ((cfg0.win w).arr.view.loc (c.tc : Thread nD τ))) :
    (dats m 0 c).arrays G = bigSep Finset.univ fun w : Fin 23 => ((((c.tc : Thread nD τ).loc (Pipeline.arrRef spec0 w)) ↦{(dats m 0 c).share w} G w : sProp 𝕄)) := by
  unfold Dat.arrays
  exact bigSep_congr fun w _ => by rw [(arr_whole0 w).set_eq_univ]

set_option maxHeartbeats 4000000 in
/-- What the launch holds of the arrays, each whole at the full share, makes the proof data's arrays at entry: the
    node-feature array's share split between its two windows. -/
theorem hsplit (c : Dev nD) :
    (Pipeline.arrBufs spec0 c (V m c) : sProp 𝕄) ⊢ (dats m 0 c).arrays ((dats m 0 c).arrAt · 0) := by
  rw [arrays_eq0, bigSep_W0]
  unfold Pipeline.arrBufs
  rw [bigSep_eq_bigSepL_of_eq _ arrImage0 (by decide)]
  simp only [bigSepL_cons_cons, bigSepL_singleton]
  refine (show (iprop((((c.tc : Thread nD τ).loc main_arg0) ↦{fullShare} V m c main_arg0) ∗ (((c.tc : Thread nD τ).loc main_v0) ↦{fullShare} V m c main_v0) ∗ (((c.tc : Thread nD τ).loc main_arg2) ↦{fullShare} V m c main_arg2) ∗ (((c.tc : Thread nD τ).loc main_arg3) ↦{fullShare} V m c main_arg3) ∗ (((c.tc : Thread nD τ).loc main_arg4) ↦{fullShare} V m c main_arg4) ∗ (((c.tc : Thread nD τ).loc main_arg5) ↦{fullShare} V m c main_arg5) ∗ (((c.tc : Thread nD τ).loc main_arg6) ↦{fullShare} V m c main_arg6) ∗ (((c.tc : Thread nD τ).loc main_arg7) ↦{fullShare} V m c main_arg7) ∗ (((c.tc : Thread nD τ).loc main_arg8) ↦{fullShare} V m c main_arg8) ∗ (((c.tc : Thread nD τ).loc main_arg9) ↦{fullShare} V m c main_arg9) ∗ (((c.tc : Thread nD τ).loc main_arg10) ↦{fullShare} V m c main_arg10) ∗ (((c.tc : Thread nD τ).loc main_arg11) ↦{fullShare} V m c main_arg11) ∗ (((c.tc : Thread nD τ).loc main_arg12) ↦{fullShare} V m c main_arg12) ∗ (((c.tc : Thread nD τ).loc main_arg13) ↦{fullShare} V m c main_arg13) ∗ (((c.tc : Thread nD τ).loc main_arg14) ↦{fullShare} V m c main_arg14) ∗ (((c.tc : Thread nD τ).loc main_arg15) ↦{fullShare} V m c main_arg15) ∗ (((c.tc : Thread nD τ).loc main_arg16) ↦{fullShare} V m c main_arg16) ∗ (((c.tc : Thread nD τ).loc main_arg17) ↦{fullShare} V m c main_arg17) ∗ (((c.tc : Thread nD τ).loc main_arg18) ↦{fullShare} V m c main_arg18) ∗ (((c.tc : Thread nD τ).loc main_arg19) ↦{fullShare} V m c main_arg19) ∗ (((c.tc : Thread nD τ).loc main_arg20) ↦{fullShare} V m c main_arg20) ∗ (((c.tc : Thread nD τ).loc main_v1) ↦{fullShare} V m c main_v1)) : sProp 𝕄) ⊢ _ from ?_)
  iintro ⟨H_main_arg0, H_main_v0, H_main_arg2, H_main_arg3, H_main_arg4, H_main_arg5, H_main_arg6, H_main_arg7, H_main_arg8, H_main_arg9, H_main_arg10, H_main_arg11, H_main_arg12, H_main_arg13, H_main_arg14, H_main_arg15, H_main_arg16, H_main_arg17, H_main_arg18, H_main_arg19, H_main_arg20, H_main_v1⟩
  ihave Hab := (pointsTo_share (PosShare.mem_left_op_right fullShare)).1 $$ H_main_arg0
  icases Hab with ⟨Ha, Hb⟩
  isplitl [Ha]; · iexact Ha
  isplitl [Hb]; · iexact Hb
  isplitl [H_main_v0]; · iexact H_main_v0
  isplitl [H_main_arg2]; · iexact H_main_arg2
  isplitl [H_main_arg3]; · iexact H_main_arg3
  isplitl [H_main_arg4]; · iexact H_main_arg4
  isplitl [H_main_arg5]; · iexact H_main_arg5
  isplitl [H_main_arg6]; · iexact H_main_arg6
  isplitl [H_main_arg7]; · iexact H_main_arg7
  isplitl [H_main_arg8]; · iexact H_main_arg8
  isplitl [H_main_arg9]; · iexact H_main_arg9
  isplitl [H_main_arg10]; · iexact H_main_arg10
  isplitl [H_main_arg11]; · iexact H_main_arg11
  isplitl [H_main_arg12]; · iexact H_main_arg12
  isplitl [H_main_arg13]; · iexact H_main_arg13
  isplitl [H_main_arg14]; · iexact H_main_arg14
  isplitl [H_main_arg15]; · iexact H_main_arg15
  isplitl [H_main_arg16]; · iexact H_main_arg16
  isplitl [H_main_arg17]; · iexact H_main_arg17
  isplitl [H_main_arg18]; · iexact H_main_arg18
  isplitl [H_main_arg19]; · iexact H_main_arg19
  isplitl [H_main_arg20]; · iexact H_main_arg20
  iexact H_main_v1

/-- The rounds library's launch element. -/
def u₀ : UR sig nD τ := initOf (Pipeline.cells cfgs cellOf_inj) (Pipeline.launchToks cfgs cellOf_inj)

abbrev EP : Emb (UR sig nD τ) (MT nD τ sig Unit (Elt F) ℕ (UR sig nD τ) ℕ) := emb₁

theorem hin (c : Dev nD) : iprop((iprop(emp) : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl, PhiAny_eq]
  iintro ⟨-, H⟩; iexact H

/-- After any point the invariant gives the scratch buffers back at some contents: the carried contents are forgotten. -/
theorem Phi_out (c : Dev nD) (t : Fin (cfg0.N + 1)) (ht : t.val ≠ 0) :
    (dats m 0 c).Φ t ⊢ iprop((iprop(emp) : sProp 𝕄) ∗ Pipeline.scopedRest (Ix := Unit) (Name := ℕ) (U := UR sig nD τ) (Lvl := ℕ) (Val := Elt F) spec0 c) := by
  rw [show (dats m 0 c).Φ t = PhiS m c t.val (Nat.le_of_lt_succ t.isLt) from rfl, PhiS_pos m c _ _ ht, PhiAny_eq]
  iintro ⟨HS0, HS1, HS2, HS3⟩
  isplitr; · iempintro
  isplitl [HS0]; · iexists _; iexact HS0
  isplitl [HS1]; · iexists _; iexact HS1
  isplitl [HS2]; · iexists _; iexact HS2
  iexact HS3

theorem hout (c : Dev nD) : (dats m 0 c).Φ (Fin.last cfg0.N) ⊢ iprop((iprop(emp) : sProp 𝕄) ∗ Pipeline.scopedRest (Ix := Unit) (Name := ℕ) (U := UR sig nD τ) (Lvl := ℕ) (Val := Elt F) spec0 c) :=
  Phi_out m c _ (by rw [Fin.val_last]; have : cfg0.N = 256 := N_0; omega)

set_option maxHeartbeats 8000000 in
set_option backward.isDefEq.respectTransparency.types false in
/-- At the compiled mesh, from any memory with zero counters: every weakly fair execution of @main on the TensorCores
    terminates, every window's array ends at what the proof data computes and every other unscoped buffer as the
    region found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0) (howed := fun _ _ => rfl)
    (u₀ := u₀) (hu₀ := BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

set_option maxHeartbeats 8000000 in
/-- What the run's post says of the argument arrays: a staged input is never written back, and the one buffer no
    window stages (the area matrix before its reshape) is as the region found it: each ends as launched. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)
      ∧       r.2.mem ((c.tc : Thread nD τ).loc main_arg16) = m ((c.tc : Thread nD τ).loc main_arg16)
      ∧       r.2.mem ((c.tc : Thread nD τ).loc main_arg17) = m ((c.tc : Thread nD τ).loc main_arg17)
      ∧       r.2.mem ((c.tc : Thread nD τ).loc main_arg18) = m ((c.tc : Thread nD τ).loc main_arg18)
      ∧       r.2.mem ((c.tc : Thread nD τ).loc main_arg19) = m ((c.tc : Thread nD τ).loc main_arg19)
      ∧       r.2.mem ((c.tc : Thread nD τ).loc main_arg20) = m ((c.tc : Thread nD τ).loc main_arg20) :=
  ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c))),
      ((h c).1 8).trans (((dats m 0 c).arrAt_in 8 rfl _).trans ((A_eq m c 8).trans (V_main_arg7 m c))),
      ((h c).1 9).trans (((dats m 0 c).arrAt_in 9 rfl _).trans ((A_eq m c 9).trans (V_main_arg8 m c))),
      ((h c).1 10).trans (((dats m 0 c).arrAt_in 10 rfl _).trans ((A_eq m c 10).trans (V_main_arg9 m c))),
      ((h c).1 11).trans (((dats m 0 c).arrAt_in 11 rfl _).trans ((A_eq m c 11).trans (V_main_arg10 m c))),
      ((h c).1 12).trans (((dats m 0 c).arrAt_in 12 rfl _).trans ((A_eq m c 12).trans (V_main_arg11 m c))),
      ((h c).1 13).trans (((dats m 0 c).arrAt_in 13 rfl _).trans ((A_eq m c 13).trans (V_main_arg12 m c))),
      ((h c).1 14).trans (((dats m 0 c).arrAt_in 14 rfl _).trans ((A_eq m c 14).trans (V_main_arg13 m c))),
      ((h c).1 15).trans (((dats m 0 c).arrAt_in 15 rfl _).trans ((A_eq m c 15).trans (V_main_arg14 m c))),
      ((h c).1 16).trans (((dats m 0 c).arrAt_in 16 rfl _).trans ((A_eq m c 16).trans (V_main_arg15 m c))),
      ((h c).1 17).trans (((dats m 0 c).arrAt_in 17 rfl _).trans ((A_eq m c 17).trans (V_main_arg16 m c))),
      ((h c).1 18).trans (((dats m 0 c).arrAt_in 18 rfl _).trans ((A_eq m c 18).trans (V_main_arg17 m c))),
      ((h c).1 19).trans (((dats m 0 c).arrAt_in 19 rfl _).trans ((A_eq m c 19).trans (V_main_arg18 m c))),
      ((h c).1 20).trans (((dats m 0 c).arrAt_in 20 rfl _).trans ((A_eq m c 20).trans (V_main_arg19 m c))),
      ((h c).1 21).trans (((dats m 0 c).arrAt_in 21 rfl _).trans ((A_eq m c 21).trans (V_main_arg20 m c)))⟩

/-- THE FRAME: the program runs to the end, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)
      ∧       r.2.mem ((c.tc : Thread nD τ).loc main_arg16) = m ((c.tc : Thread nD τ).loc main_arg16)
      ∧       r.2.mem ((c.tc : Thread nD τ).loc main_arg17) = m ((c.tc : Thread nD τ).loc main_arg17)
      ∧       r.2.mem ((c.tc : Thread nD τ).loc main_arg18) = m ((c.tc : Thread nD τ).loc main_arg18)
      ∧       r.2.mem ((c.tc : Thread nD τ).loc main_arg19) = m ((c.tc : Thread nD τ).loc main_arg19)
      ∧       r.2.mem ((c.tc : Thread nD τ).loc main_arg20) = m ((c.tc : Thread nD τ).loc main_arg20)) :=
  (θ_run defs _ _).mono (fun r h c => args_kept m r h c) (run_main m ρ)

end Cert.Kernel.Hand

end
-- ==== Proof.KI.Base.lean ====
/-
  What the runs of the kernel body and the launch share: the arrays as the region finds them (after the one host
  operation that gives the area matrix a trailing unit axis), each window's block at a grid point, the two branch
  conditions of the body decided over the grid (the key-tile coordinate is the point's number mod 4: the first key
  tile resets the running maximum, normaliser and accumulator, the last one writes the output tile), where the output
  window is idle, and the staging and scratch memrefs by name.
-/
import proofs.«116762_j61950608277594_2_alg».proof.Proof.Gen.KernelIdeal.Launch
import proofs.«116762_j61950608277594_2_alg».proof.Proof.Gen.KernelIdeal.Skeleton
import proofs.«116762_j61950608277594_2_alg».proof.Proof.Gen.KernelIdeal.Points
import proofs.«116762_j61950608277594_2_alg».proof.Proof.Gen.KernelIdeal.Loops
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's buffer contents when the region is entered: after the host operation before it. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation does not write argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))
/-- The host operation does not write argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))
/-- The host operation does not write argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    exact StableHlo.devRef_ne_of_ne (by decide)))
/-- The host operation does not write argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    exact StableHlo.devRef_ne_of_ne (by decide)))
/-- The host operation does not write argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, Finset.mem_singleton]
    exact StableHlo.devRef_ne_of_ne (by decide)))
/-- The host operation does not write argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, Finset.mem_singleton]
    exact StableHlo.devRef_ne_of_ne (by decide)))
/-- The host operation does not write argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, Finset.mem_singleton]
    exact StableHlo.devRef_ne_of_ne (by decide)))
/-- The host operation does not write argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, Finset.mem_singleton]
    exact StableHlo.devRef_ne_of_ne (by decide)))
/-- The host operation does not write argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, Finset.mem_singleton]
    exact StableHlo.devRef_ne_of_ne (by decide)))
/-- The host operation does not write argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, Finset.mem_singleton]
    exact StableHlo.devRef_ne_of_ne (by decide)))
/-- The host operation does not write argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, Finset.mem_singleton]
    exact StableHlo.devRef_ne_of_ne (by decide)))
/-- The host operation does not write argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, Finset.mem_singleton]
    exact StableHlo.devRef_ne_of_ne (by decide)))
/-- The host operation does not write argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, Finset.mem_singleton]
    exact StableHlo.devRef_ne_of_ne (by decide)))
/-- The host operation does not write argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, Finset.mem_singleton]
    exact StableHlo.devRef_ne_of_ne (by decide)))
/-- The host operation does not write argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, Finset.mem_singleton]
    exact StableHlo.devRef_ne_of_ne (by decide)))
/-- The host operation does not write argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, Finset.mem_singleton]
    exact StableHlo.devRef_ne_of_ne (by decide)))
/-- The host operation does not write argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, Finset.mem_singleton]
    exact StableHlo.devRef_ne_of_ne (by decide)))
/-- The host operation does not write argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.unary_writes, Finset.mem_singleton]
    exact StableHlo.devRef_ne_of_ne (by decide)))
/-- The host operation does not write argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.unary_writes, Finset.mem_singleton]
    exact StableHlo.devRef_ne_of_ne (by decide)))
/-- The host operation does not write argument 19: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.unary_writes, Finset.mem_singleton]
    exact StableHlo.devRef_ne_of_ne (by decide)))
/-- The host operation does not write argument 20: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.unary_writes, Finset.mem_singleton]
    exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point, fetched there or not. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block at every point, fetched there or not. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's staging buffer holds its block at every point, fetched there or not. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's staging buffer holds its block at every point, fetched there or not. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's staging buffer holds its block at every point, fetched there or not. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's staging buffer holds its block at every point, fetched there or not. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's staging buffer holds its block at every point, fetched there or not. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's staging buffer holds its block at every point, fetched there or not. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's staging buffer holds its block at every point, fetched there or not. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's staging buffer holds its block at every point, fetched there or not. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's staging buffer holds its block at every point, fetched there or not. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's staging buffer holds its block at every point, fetched there or not. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- "This is the first key tile": the condition of the body's first branch, from the grid coordinates. -/
abbrev cond0_0 (i : grid0.Coords) : Prop := (Scalar.cmpi .ne (Scalar.extui (Scalar.cmpi .eq (BitVec.ofNat 32 (i 2).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last key tile": the condition of the body's second branch. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the output window is idle -/

/-- Away from the last key tile the output window is idle: the body stores nothing into it. -/
theorem idleAt0_22 : ∀ t : Fin cfg0.N, ¬cond0_1 (grid0.coords t) → cfg0.idle 22 (grid0.coords t) = true := by decide +kernel
/-- There the pipeline does not write its block back. -/
theorem noFlush0_22 : ∀ t : Fin cfg0.N, ¬cond0_1 (grid0.coords t) → (cfg0.win 22).flush t = false := by decide +kernel
/-- At the last key tile it is live. -/
theorem liveAt0_22 : ∀ t : Fin cfg0.N, cond0_1 (grid0.coords t) → cfg0.idle 22 (grid0.coords t) = false := by decide +kernel

/-! ## The staging and scratch memrefs -/

/-- One staging buffer of the output window, through which its contents are stated. -/
abbrev VO0_22 : View sig .tc .vmem S1x32x256 .f32 := (Memref.whole cc0_stg22_0 : Memref sig .tc .vmem S1x32x256 .f32).view
abbrev ms0_0 (t : Fin cfg0.N) : Memref sig .tc .vmem S1x32x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x2 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S256 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S256 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S256 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S256 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x32x256 .f32 := win0_22.stage (cfg0.slots t 22)
abbrev hs0_22 (t : Fin cfg0.N) : (ms0_22 t).IsWhole := hstage0_22 ((cfg0.slots t 22).cast nbuf0_22)
/-- Scratch operand 0: a whole scoped buffer of the kernel's own. -/
abbrev scM0_0 : Memref sig .tc .vmem S32x1 .f32 := Memref.whole cc0_scratch0
abbrev VS0_0 : View sig .tc .vmem S32x1 .f32 := scM0_0.view
/-- Scratch operand 1: a whole scoped buffer of the kernel's own. -/
abbrev scM0_1 : Memref sig .tc .vmem S32x1 .f32 := Memref.whole cc0_scratch1
abbrev VS0_1 : View sig .tc .vmem S32x1 .f32 := scM0_1.view
/-- Scratch operand 2: a whole scoped buffer of the kernel's own. -/
abbrev scM0_2 : Memref sig .tc .vmem S32x256 .f32 := Memref.whole cc0_scratch2
abbrev VS0_2 : View sig .tc .vmem S32x256 .f32 := scM0_2.view
/-- Scratch operand 3: a whole scoped buffer of the kernel's own. -/
abbrev scM0_3 : Memref sig .tc .vmem S32x128 .f32 := Memref.whole cc0_scratch3
abbrev VS0_3 : View sig .tc .vmem S32x128 .f32 := scM0_3.view

/-- The class invariant with the four scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.KI.RunA.lean ====
/-
  The kernel body run once at a FIRST key tile (the reset branch taken, the output branch not): the three carried scratch buffers are found at any contents. The pieces each written buffer ends with are found by the run itself; the
  statement only says on which buffers the body runs and what it hands back.
-/
import proofs.«116762_j61950608277594_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body at a FIRST key tile (the reset branch taken, the output branch not): the three carried scratch buffers are found at any contents: the inputs' staging memrefs at their contents, handed back as they were; each scratch
    and (at a last key tile) the output's staging memref handed back with the pieces the body stored, last first. -/
noncomputable def kernelRun0_A (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 : Vec F S32x128 .f32) :
    Σ' (L22 : List (View.Piece (Elt F) S1x32x256 .f32)) (LS0 : List (View.Piece (Elt F) S32x1 .f32)) (LS1 : List (View.Piece (Elt F) S32x1 .f32)) (LS2 : List (View.Piece (Elt F) S32x256 .f32)), { LS3 : List (View.Piece (Elt F) S32x128 .f32) //
      ∀ (xi22 : Vec F S1x32x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare xi22 ∗ (∃ d, owns (c : Thread nD τ) arg26 fullShare d) ∗ (∃ d, owns (c : Thread nD τ) arg27 fullShare d) ∗ (∃ d, owns (c : Thread nD τ) arg28 fullShare d) ∗ owns (c : Thread nD τ) arg29 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare xi22 ∗ (∃ f, arg26.view.loc (c : Thread nD τ) ↦[arg26.view.set]{fullShare} arg26.view.writes (Elt F) f LS0) ∗ (∃ f, arg27.view.loc (c : Thread nD τ) ↦[arg27.view.set]{fullShare} arg27.view.writes (Elt F) f LS1) ∗ (∃ f, arg28.view.loc (c : Thread nD τ) ↦[arg28.view.set]{fullShare} arg28.view.writes (Elt F) f LS2) ∗ (∃ f, arg29.view.loc (c : Thread nD τ) ↦[arg29.view.set]{fullShare} arg29.view.writes (Elt F) f LS3)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨[], ?_, ?_, ?_, ?_, fun xi22 E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%ds0, %fs0, -, HS0⟩, ⟨%ds1, %fs1, -, HS1⟩, ⟨%ds2, %fs2, -, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg29.eq_unread hfs3
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; · ipureintro; exact harg22.read_unread _
      iexact H19
    isplitl [H20]
    · iexists _; isplitr; · ipureintro; exact harg23.read_unread _
      iexact H20
    isplitl [H21]
    · iexists _; isplitr; · ipureintro; exact harg24.read_unread _
      iexact H21
    isplitl [H22]
    · iexists _; isplitr; · ipureintro; exact harg25.read_unread _
      iexact H22
    isplitl [HS0]; · iexists _; iexact HS0
    isplitl [HS1]; · iexists _; iexact HS1
    isplitl [HS2]; · iexists _; iexact HS2
    iexists _; iexact HS3

end Cert.KernelIdeal.Hand

end
-- ==== Proof.KI.RunB.lean ====
/-
  The kernel body run once at a MIDDLE key tile (neither branch taken): the three carried scratch buffers are found at what the key tile before left. The pieces each written buffer ends with are found by the run itself; the
  statement only says on which buffers the body runs and what it hands back.
-/
import proofs.«116762_j61950608277594_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body at a MIDDLE key tile (neither branch taken): the three carried scratch buffers are found at what the key tile before left: the inputs' staging memrefs at their contents, handed back as they were; each scratch
    and (at a last key tile) the output's staging memref handed back with the pieces the body stored, last first. -/
noncomputable def kernelRun0_B (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) :
    Σ' (L22 : List (View.Piece (Elt F) S1x32x256 .f32)) (LS0 : List (View.Piece (Elt F) S32x1 .f32)) (LS1 : List (View.Piece (Elt F) S32x1 .f32)) (LS2 : List (View.Piece (Elt F) S32x256 .f32)), { LS3 : List (View.Piece (Elt F) S32x128 .f32) //
      ∀ (xi22 : Vec F S1x32x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare xi22 ∗ owns (c : Thread nD τ) arg26 fullShare xs0 ∗ owns (c : Thread nD τ) arg27 fullShare xs1 ∗ owns (c : Thread nD τ) arg28 fullShare xs2 ∗ owns (c : Thread nD τ) arg29 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare xi22 ∗ (∃ f, arg26.view.loc (c : Thread nD τ) ↦[arg26.view.set]{fullShare} arg26.view.writes (Elt F) f LS0) ∗ (∃ f, arg27.view.loc (c : Thread nD τ) ↦[arg27.view.set]{fullShare} arg27.view.writes (Elt F) f LS1) ∗ (∃ f, arg28.view.loc (c : Thread nD τ) ↦[arg28.view.set]{fullShare} arg28.view.writes (Elt F) f LS2) ∗ (∃ f, arg29.view.loc (c : Thread nD τ) ↦[arg29.view.set]{fullShare} arg29.view.writes (Elt F) f LS3)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨[], ?_, ?_, ?_, ?_, fun xi22 E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hfs0; obtain rfl := harg27.eq_unread hfs1; obtain rfl := harg28.eq_unread hfs2; obtain rfl := harg29.eq_unread hfs3
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; · ipureintro; exact harg22.read_unread _
      iexact H19
    isplitl [H20]
    · iexists _; isplitr; · ipureintro; exact harg23.read_unread _
      iexact H20
    isplitl [H21]
    · iexists _; isplitr; · ipureintro; exact harg24.read_unread _
      iexact H21
    isplitl [H22]
    · iexists _; isplitr; · ipureintro; exact harg25.read_unread _
      iexact H22
    isplitl [HS0]; · iexists _; iexact HS0
    isplitl [HS1]; · iexists _; iexact HS1
    isplitl [HS2]; · iexists _; iexact HS2
    iexists _; iexact HS3

end Cert.KernelIdeal.Hand

end
-- ==== Proof.KI.RunC.lean ====
/-
  The kernel body run once at a LAST key tile (the reset branch not taken, the output branch taken): the carried scratch as the key tile before left it, the output tile stored. The pieces each written buffer ends with are found by the run itself; the
  statement only says on which buffers the body runs and what it hands back.
-/
import proofs.«116762_j61950608277594_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body at a LAST key tile (the reset branch not taken, the output branch taken): the carried scratch as the key tile before left it, the output tile stored: the inputs' staging memrefs at their contents, handed back as they were; each scratch
    and (at a last key tile) the output's staging memref handed back with the pieces the body stored, last first. -/
noncomputable def kernelRun0_C (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) :
    Σ' (L22 : List (View.Piece (Elt F) S1x32x256 .f32)) (LS0 : List (View.Piece (Elt F) S32x1 .f32)) (LS1 : List (View.Piece (Elt F) S32x1 .f32)) (LS2 : List (View.Piece (Elt F) S32x256 .f32)), { LS3 : List (View.Piece (Elt F) S32x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ (∃ d, owns (c : Thread nD τ) arg25 fullShare d) ∗ owns (c : Thread nD τ) arg26 fullShare xs0 ∗ owns (c : Thread nD τ) arg27 fullShare xs1 ∗ owns (c : Thread nD τ) arg28 fullShare xs2 ∗ owns (c : Thread nD τ) arg29 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ (∃ f, arg25.view.loc (c : Thread nD τ) ↦[arg25.view.set]{fullShare} arg25.view.writes (Elt F) f L22) ∗ (∃ f, arg26.view.loc (c : Thread nD τ) ↦[arg26.view.set]{fullShare} arg26.view.writes (Elt F) f LS0) ∗ (∃ f, arg27.view.loc (c : Thread nD τ) ↦[arg27.view.set]{fullShare} arg27.view.writes (Elt F) f LS1) ∗ (∃ f, arg28.view.loc (c : Thread nD τ) ↦[arg28.view.set]{fullShare} arg28.view.writes (Elt F) f LS2) ∗ (∃ f, arg29.view.loc (c : Thread nD τ) ↦[arg29.view.set]{fullShare} arg29.view.writes (Elt F) f LS3)) -∗ K ⟨⟩))
          ⊢ wp frame (wpE (defs₀ (F := F)) Variants.none c none) E (cc0__kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg26.eq_unread hfs0; obtain rfl := harg27.eq_unread hfs1; obtain rfl := harg28.eq_unread hfs2; obtain rfl := harg29.eq_unread hfs3
    simp only [cc0__kernel_eq_skeleton]; unfold cc0__kernel_skel
    simp only [k0_part3_eq_skeleton, k0_part1_eq_skeleton, k0_part2_eq_skeleton, k0_part4_eq_skeleton]
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; · ipureintro; exact harg22.read_unread _
      iexact H19
    isplitl [H20]
    · iexists _; isplitr; · ipureintro; exact harg23.read_unread _
      iexact H20
    isplitl [H21]
    · iexists _; isplitr; · ipureintro; exact harg24.read_unread _
      iexact H21
    isplitl [H22]; · iexists _; iexact H22
    isplitl [HS0]; · iexists _; iexact HS0
    isplitl [HS1]; · iexists _; iexact HS1
    isplitl [HS2]; · iexists _; iexact HS2
    iexists _; iexact HS3

end Cert.KernelIdeal.Hand

end
-- ==== Proof.KI.Frame.lean ====
/-
  The frame of the program: what the kernel's runs leave in the carried scratch (running maximum, normaliser,
  accumulator) and in the output tile after each grid point, by recursion on the point; the region's invariant and
  proof data; the body obligation at every point; and the launch. Two windows read the same array (the node
  features, once as the query tile and once as the key tile): its full share is dealt half and half between them.
-/
import proofs.«116762_j61950608277594_2_alg».proof.Proof.KI.RunA
import proofs.«116762_j61950608277594_2_alg».proof.Proof.KI.RunB
import proofs.«116762_j61950608277594_2_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- What case A leaves in the output's staging buffer: its pieces read back (away from the last key tile there are none:
    a placeholder nothing consults). -/
def out0_A_22 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 : Vec F S32x128 .f32) : Vec F S1x32x256 .f32 :=
  VO0_22.read (Elt F) (VO0_22.writes (Elt F) VO0_22.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3).1)

/-- Case A's pieces for carried scratch 0 cover it. -/
theorem scover0_A_0 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 : Vec F S32x128 .f32) (y : S32x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3).2.1 S32x1.size (by sl_kernel_rfl) y

/-- What case A leaves in carried scratch 0: its pieces read back. -/
def sout0_A_0 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 : Vec F S32x128 .f32) : Vec F S32x1 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3).2.1)

/-- Case A's pieces for carried scratch 1 cover it. -/
theorem scover0_A_1 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 : Vec F S32x128 .f32) (y : S32x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3).2.2.1 S32x1.size (by sl_kernel_rfl) y

/-- What case A leaves in carried scratch 1: its pieces read back. -/
def sout0_A_1 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 : Vec F S32x128 .f32) : Vec F S32x1 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3).2.2.1)

/-- Case A's pieces for carried scratch 2 cover it. -/
theorem scover0_A_2 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 : Vec F S32x128 .f32) (y : S32x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3).2.2.2.1 S32x256.size (by sl_kernel_rfl) y

/-- What case A leaves in carried scratch 2: its pieces read back. -/
def sout0_A_2 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 : Vec F S32x128 .f32) : Vec F S32x256 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3).2.2.2.1)

/-- What case B leaves in the output's staging buffer: its pieces read back (away from the last key tile there are none:
    a placeholder nothing consults). -/
def out0_B_22 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) : Vec F S1x32x256 .f32 :=
  VO0_22.read (Elt F) (VO0_22.writes (Elt F) VO0_22.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).1)

/-- Case B's pieces for carried scratch 0 cover it. -/
theorem scover0_B_0 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) (y : S32x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.1 S32x1.size (by sl_kernel_rfl) y

/-- What case B leaves in carried scratch 0: its pieces read back. -/
def sout0_B_0 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) : Vec F S32x1 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.1)

/-- Case B's pieces for carried scratch 1 cover it. -/
theorem scover0_B_1 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) (y : S32x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.2.1 S32x1.size (by sl_kernel_rfl) y

/-- What case B leaves in carried scratch 1: its pieces read back. -/
def sout0_B_1 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) : Vec F S32x1 .f32 :=
  VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.2.1)

/-- Case B's pieces for carried scratch 2 cover it. -/
theorem scover0_B_2 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) (y : S32x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.2.2.1 S32x256.size (by sl_kernel_rfl) y

/-- What case B leaves in carried scratch 2: its pieces read back. -/
def sout0_B_2 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) : Vec F S32x256 .f32 :=
  VS0_2.read (Elt F) (VS0_2.writes (Elt F) VS0_2.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.2.2.1)

/-- At a last key tile the body's one store into the output tile covers it. -/
theorem cover0_C_22 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) (y : S1x32x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).1 S1x32x256.size (by sl_kernel_rfl) y

/-- What case C leaves in the output's staging buffer: its pieces read back (away from the last key tile there are none:
    a placeholder nothing consults). -/
def out0_C_22 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) : Vec F S1x32x256 .f32 :=
  VO0_22.read (Elt F) (VO0_22.writes (Elt F) VO0_22.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).1)

/-- Case C's pieces for carried scratch 0 cover it. -/
theorem scover0_C_0 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) (y : S32x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.1 S32x1.size (by sl_kernel_rfl) y

/-- What case C leaves in carried scratch 0: its pieces read back. -/
def sout0_C_0 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) : Vec F S32x1 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.1)

/-- Case C's pieces for carried scratch 1 cover it. -/
theorem scover0_C_1 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) (y : S32x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.2.1 S32x1.size (by sl_kernel_rfl) y

/-- What case C leaves in carried scratch 1: its pieces read back. -/
def sout0_C_1 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) : Vec F S32x1 .f32 :=
  VS0_1.read (Elt F) (VS0_1.writes (Elt F) VS0_1.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.2.1)

/-- Case C's pieces for carried scratch 2 cover it. -/
theorem scover0_C_2 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) (y : S32x256.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.2.2.1 S32x256.size (by sl_kernel_rfl) y

/-- What case C leaves in carried scratch 2: its pieces read back. -/
def sout0_C_2 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) : Vec F S32x256 .f32 :=
  VS0_2.read (Elt F) (VS0_2.writes (Elt F) VS0_2.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3).2.2.2.1)

/-! ## What the output tile and the carried scratch hold after each point -/

/-- The contents the edge-logit scratch is taken at in the definitions below: any would do (the loop overwrites the whole
    buffer before the body reads it); this one is definite. -/
abbrev dflt3 : Vec F S32x128 .f32 := VS0_3.read (Elt F) VS0_3.junk

/-- After the body at position n: the output's staging buffer, then the running maximum, normaliser and accumulator —
    the case the point is in (first, middle or last key tile), run at the point's memrefs and input blocks, the carried
    scratch taken from the point before at a middle or last key tile. -/
def outsAt0 (c : Dev nD) : (n : ℕ) → n < cfg0.N → Vec F S1x32x256 .f32 × Vec F S32x1 .f32 × Vec F S32x1 .f32 × Vec F S32x256 .f32
  | 0, hn => (out0_A_22 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) dflt3, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) dflt3, sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) dflt3, sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) dflt3)
  | n + 1, hn =>
    if h0 : (n + 1) % 4 = 0 then
      if h1 : (n + 1) % 4 = 3 then
        False.elim (by omega)
      else
        (out0_A_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) dflt3, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) dflt3, sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) dflt3, sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) dflt3)
    else
      if h1 : (n + 1) % 4 = 3 then
        (out0_C_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2 dflt3, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2 dflt3, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2 dflt3, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2 dflt3)
      else
        (out0_B_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2 dflt3, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2 dflt3, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2 dflt3, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2 dflt3)

/-- `outsAt0` at a first key tile. -/
theorem outsAt0_A (c : Dev nD) (t : Fin cfg0.N) (h0 : t.val % 4 = 0) (h1 : ¬t.val % 4 = 3) :
    outsAt0 m c t.val t.isLt = (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) dflt3, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) dflt3, sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) dflt3, sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) dflt3) := by
  obtain ⟨n, hn⟩ := t
  cases n with
  | zero => exact rfl
  | succ n => exact (dif_pos h0).trans ((dif_neg h1).trans rfl)

/-- `outsAt0` at a middle key tile, over what the point before left. -/
theorem outsAt0_B (c : Dev nD) (t : Fin cfg0.N) (h0 : ¬t.val % 4 = 0) (h1 : ¬t.val % 4 = 3) :
    outsAt0 m c t.val t.isLt = (out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 dflt3, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 dflt3, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 dflt3, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 dflt3) := by
  obtain ⟨n, hn⟩ := t
  cases n with
  | zero => exact (by exfalso; (try dsimp only at h0); exact absurd (Nat.zero_mod _) h0)
  | succ n => exact (dif_neg h0).trans ((dif_neg h1).trans rfl)

/-- `outsAt0` at a last key tile, over what the point before left. -/
theorem outsAt0_C (c : Dev nD) (t : Fin cfg0.N) (h0 : ¬t.val % 4 = 0) (h1 : t.val % 4 = 3) :
    outsAt0 m c t.val t.isLt = (out0_C_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 dflt3, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 dflt3, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 dflt3, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 dflt3) := by
  obtain ⟨n, hn⟩ := t
  cases n with
  | zero => exact (by exfalso; (try dsimp only at h0); exact absurd (Nat.zero_mod _) h0)
  | succ n => exact (dif_neg h0).trans ((dif_pos h1).trans rfl)

/-! ## The region's invariant and proof data -/

/-- The four scratch buffers at some contents each: what the launch hands the region. -/
abbrev PhiAny (c : Dev nD) : sProp 𝕄 :=
  iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d))

theorem PhiAny_eq (c : Dev nD) : (Pipeline.scopedRest (Ix := Unit) (Name := ℕ) (U := UR sig nD τ) (Lvl := ℕ) (Val := Elt F) spec0 c : sProp 𝕄) = PhiAny c := by
  rw [scopedRest0_eq]; simp only [PhiAny, scM0_0, scM0_1, scM0_2, scM0_3, owns_whole]; try rfl

/-- Before position n: at the start any contents; afterwards the three carried scratch buffers at what the point before
    left, the edge-logit scratch at any contents. -/
def PhiS (c : Dev nD) : (n : ℕ) → n ≤ cfg0.N → sProp 𝕄
  | 0, _ => PhiAny c
  | n + 1, hn => iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2) ∗ (∃ d, owns (c : Thread nD τ) scM0_3 fullShare d))

theorem PhiS_zero (c : Dev nD) (n : ℕ) (h : n ≤ cfg0.N) (hz : n = 0) : PhiS m c n h = PhiAny c := by
  subst hz; rfl

theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2) ∗ (∃ d, owns (c : Thread nD τ) scM0_3 fullShare d)) := rfl

theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2) ∗ (∃ d, owns (c : Thread nD τ) scM0_3 fullShare d)) := by
  cases n with
  | zero => exact absurd rfl hz
  | succ n => rfl

/-- The proof data of the pipeline on core c: the arrays as the region finds them; after the body each input's buffer
    at its block, the output's at `outsAt0`; the invariant `PhiS`; the node-feature array's share dealt half and half
    between its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => (outsAt0 m c t.val t.isLt).1
    | ⟨_ + 23, h⟩ => absurd h (Nat.not_lt.2 (Nat.le_add_left _ _))
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨17, _⟩ => fullShare
    | ⟨18, _⟩ => fullShare
    | ⟨19, _⟩ => fullShare
    | ⟨20, _⟩ => fullShare
    | ⟨21, _⟩ => fullShare
    | ⟨22, _⟩ => fullShare
    | ⟨_ + 23, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d

/-! ## The body obligation -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t)

end Cert.KernelIdeal.Hand

end
-- ==== Proof.KI.Pieces.lean ====
/-
  The pieces the kernel body leaves, read as values. The body run at a first, a middle and a last key tile leaves one
  covering store in each of the three carried scratch buffers (the running maximum, the normaliser, the accumulator)
  and, at a last key tile, one covering store in the output tile. Each is the payload of the online-softmax update
  (at a last key tile: of the epilogue) over what the body loaded: the query and key tiles, the weights, the three
  carried buffers as the key tile before left them (at a first key tile: the starting values the body has just stored),
  and the edge-logit scratch the loop has just filled.
-/
import proofs.«116762_j61950608277594_2_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a <;> rfl

/-- The loop of the body runs four trips. -/
theorem trips4 : Scf.trips k0_t1_loop.lb k0_t1_loop.ub k0_t1_loop.st = 4 := by decide

/-- The edge-logit scratch as the body reads it whole after the loop's four trips, from the contents xs3 it held on
    entry: the four trips' stores cover it, so the entry contents do not show (`edgeV50_indep`). -/
abbrev edgeV50 (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 : Vec F S32x128 .f32) : Vec F S32x128 .f32 :=
  arg29.view.read (Elt F) (arg29.view.writes (Elt F) (harg29.unread xs3)
    (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (k0_pay14 x1 x8 x9) (k0_pay15 x0 x4 x5) (k0_pay16 x1 x6 x7) x10 x11 x12 x13 (harg5.unread x2) (harg6.unread x3) 4))

set_option maxHeartbeats 4000000 in
/-- What the body leaves in the scratch of the running maximum at a middle key tile: the update's payload over the projections of the
    query and key tiles, the edge-logit scratch after the loop, and what the key tile before left. -/
theorem sout0_B_0_eq (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3 = k0_pay1 (k0_pay19 (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) xs0) := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, View.ld_unit_zero (S := S1x32x256) hz3, View.ld_unit_zero (S := S1x128x256) hz3, View.ld_unit_zero (S := S1x32x1) hz3, View.ld_unit_zero (S := S32x128) hz2, View.ld_unit_zero (S := S256x256) hz2, View.ld_unit_zero (S := S256) hz1, View.ld_unit_zero (S := S256x2) hz2, View.ld_unit_zero (S := S1x256) hz2, View.ld_unit_zero (S := S1) hz1, View.ld_unit_zero (S := S32x1) hz2, View.ld_unit_zero (S := S32x256) hz2, View.readCov_unit_zero (S := S32x1) _ hz2, View.readCov_unit_zero (S := S32x256) _ hz2, trips4]
  rfl

set_option maxHeartbeats 4000000 in
/-- What the body leaves in the scratch of the normaliser at a middle key tile: the update's payload over the projections of the
    query and key tiles, the edge-logit scratch after the loop, and what the key tile before left. -/
theorem sout0_B_1_eq (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) :
    sout0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3 = k0_pay2 (k0_pay22 (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) xs0 xs1) := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, View.ld_unit_zero (S := S1x32x256) hz3, View.ld_unit_zero (S := S1x128x256) hz3, View.ld_unit_zero (S := S1x32x1) hz3, View.ld_unit_zero (S := S32x128) hz2, View.ld_unit_zero (S := S256x256) hz2, View.ld_unit_zero (S := S256) hz1, View.ld_unit_zero (S := S256x2) hz2, View.ld_unit_zero (S := S1x256) hz2, View.ld_unit_zero (S := S1) hz1, View.ld_unit_zero (S := S32x1) hz2, View.ld_unit_zero (S := S32x256) hz2, View.readCov_unit_zero (S := S32x1) _ hz2, View.readCov_unit_zero (S := S32x256) _ hz2, trips4]
  rfl

set_option maxHeartbeats 4000000 in
/-- What the body leaves in the scratch of the accumulator at a middle key tile: the update's payload over the projections of the
    query and key tiles, the edge-logit scratch after the loop, and what the key tile before left. -/
theorem sout0_B_2_eq (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) :
    sout0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3 = k0_pay3 xs2 (k0_pay23 (k0_pay14 x1 x8 x9) (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) xs0) (k0_pay24 (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) xs0) := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, View.ld_unit_zero (S := S1x32x256) hz3, View.ld_unit_zero (S := S1x128x256) hz3, View.ld_unit_zero (S := S1x32x1) hz3, View.ld_unit_zero (S := S32x128) hz2, View.ld_unit_zero (S := S256x256) hz2, View.ld_unit_zero (S := S256) hz1, View.ld_unit_zero (S := S256x2) hz2, View.ld_unit_zero (S := S1x256) hz2, View.ld_unit_zero (S := S1) hz1, View.ld_unit_zero (S := S32x1) hz2, View.ld_unit_zero (S := S32x256) hz2, View.readCov_unit_zero (S := S32x1) _ hz2, View.readCov_unit_zero (S := S32x256) _ hz2, trips4]
  rfl

set_option maxHeartbeats 4000000 in
/-- What the body leaves in the scratch of the running maximum at a last key tile: the update's payload over the projections of the
    query and key tiles, the edge-logit scratch after the loop, and what the key tile before left. -/
theorem sout0_C_0_eq (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) :
    sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3 = k0_pay1 (k0_pay19 (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) xs0) := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, View.ld_unit_zero (S := S1x32x256) hz3, View.ld_unit_zero (S := S1x128x256) hz3, View.ld_unit_zero (S := S1x32x1) hz3, View.ld_unit_zero (S := S32x128) hz2, View.ld_unit_zero (S := S256x256) hz2, View.ld_unit_zero (S := S256) hz1, View.ld_unit_zero (S := S256x2) hz2, View.ld_unit_zero (S := S1x256) hz2, View.ld_unit_zero (S := S1) hz1, View.ld_unit_zero (S := S32x1) hz2, View.ld_unit_zero (S := S32x256) hz2, View.readCov_unit_zero (S := S32x1) _ hz2, View.readCov_unit_zero (S := S32x256) _ hz2, trips4]
  rfl

set_option maxHeartbeats 4000000 in
/-- What the body leaves in the scratch of the normaliser at a last key tile: the update's payload over the projections of the
    query and key tiles, the edge-logit scratch after the loop, and what the key tile before left. -/
theorem sout0_C_1_eq (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) :
    sout0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3 = k0_pay2 (k0_pay22 (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) xs0 xs1) := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, View.ld_unit_zero (S := S1x32x256) hz3, View.ld_unit_zero (S := S1x128x256) hz3, View.ld_unit_zero (S := S1x32x1) hz3, View.ld_unit_zero (S := S32x128) hz2, View.ld_unit_zero (S := S256x256) hz2, View.ld_unit_zero (S := S256) hz1, View.ld_unit_zero (S := S256x2) hz2, View.ld_unit_zero (S := S1x256) hz2, View.ld_unit_zero (S := S1) hz1, View.ld_unit_zero (S := S32x1) hz2, View.ld_unit_zero (S := S32x256) hz2, View.readCov_unit_zero (S := S32x1) _ hz2, View.readCov_unit_zero (S := S32x256) _ hz2, trips4]
  rfl

set_option maxHeartbeats 4000000 in
/-- What the body leaves in the scratch of the accumulator at a last key tile: the update's payload over the projections of the
    query and key tiles, the edge-logit scratch after the loop, and what the key tile before left. -/
theorem sout0_C_2_eq (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) :
    sout0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3 = k0_pay3 xs2 (k0_pay23 (k0_pay14 x1 x8 x9) (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) xs0) (k0_pay24 (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) xs0) := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, View.ld_unit_zero (S := S1x32x256) hz3, View.ld_unit_zero (S := S1x128x256) hz3, View.ld_unit_zero (S := S1x32x1) hz3, View.ld_unit_zero (S := S32x128) hz2, View.ld_unit_zero (S := S256x256) hz2, View.ld_unit_zero (S := S256) hz1, View.ld_unit_zero (S := S256x2) hz2, View.ld_unit_zero (S := S1x256) hz2, View.ld_unit_zero (S := S1) hz1, View.ld_unit_zero (S := S32x1) hz2, View.ld_unit_zero (S := S32x256) hz2, View.readCov_unit_zero (S := S32x1) _ hz2, View.readCov_unit_zero (S := S32x256) _ hz2, trips4]
  rfl

set_option maxHeartbeats 4000000 in
/-- What the body leaves in the scratch of the running maximum at a first key tile (the scratch reset to its starting values, then updated): the update's payload over the projections of the
    query and key tiles, the edge-logit scratch after the loop, and the starting values. -/
theorem sout0_A_0_eq (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 : Vec F S32x128 .f32) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3 = k0_pay1 (k0_pay19 (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) (k0_pay9 (F := F))) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3)]
  unfold kernelRun0_A
  dsimp only
  sl_unfold_words
  rw [View.canon_cons_unit_zero (S := S32x1) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, View.ld_unit_zero (S := S1x32x256) hz3, View.ld_unit_zero (S := S1x128x256) hz3, View.ld_unit_zero (S := S1x32x1) hz3, View.ld_unit_zero (S := S32x128) hz2, View.ld_unit_zero (S := S256x256) hz2, View.ld_unit_zero (S := S256) hz1, View.ld_unit_zero (S := S256x2) hz2, View.ld_unit_zero (S := S1x256) hz2, View.ld_unit_zero (S := S1) hz1, View.ld_unit_zero (S := S32x1) hz2, View.ld_unit_zero (S := S32x256) hz2, View.readCov_unit_zero (S := S32x1) _ hz2, View.readCov_unit_zero (S := S32x256) _ hz2, trips4]
  rfl

set_option maxHeartbeats 4000000 in
/-- What the body leaves in the scratch of the normaliser at a first key tile (the scratch reset to its starting values, then updated): the update's payload over the projections of the
    query and key tiles, the edge-logit scratch after the loop, and the starting values. -/
theorem sout0_A_1_eq (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 : Vec F S32x128 .f32) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3 = k0_pay2 (k0_pay22 (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) (k0_pay9 (F := F)) (k0_pay10 (F := F))) := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3)]
  unfold kernelRun0_A
  dsimp only
  sl_unfold_words
  rw [View.canon_cons_unit_zero (S := S32x1) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, View.ld_unit_zero (S := S1x32x256) hz3, View.ld_unit_zero (S := S1x128x256) hz3, View.ld_unit_zero (S := S1x32x1) hz3, View.ld_unit_zero (S := S32x128) hz2, View.ld_unit_zero (S := S256x256) hz2, View.ld_unit_zero (S := S256) hz1, View.ld_unit_zero (S := S256x2) hz2, View.ld_unit_zero (S := S1x256) hz2, View.ld_unit_zero (S := S1) hz1, View.ld_unit_zero (S := S32x1) hz2, View.ld_unit_zero (S := S32x256) hz2, View.readCov_unit_zero (S := S32x1) _ hz2, View.readCov_unit_zero (S := S32x256) _ hz2, trips4]
  rfl

set_option maxHeartbeats 4000000 in
/-- What the body leaves in the scratch of the accumulator at a first key tile (the scratch reset to its starting values, then updated): the update's payload over the projections of the
    query and key tiles, the edge-logit scratch after the loop, and the starting values. -/
theorem sout0_A_2_eq (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 : Vec F S32x128 .f32) :
    sout0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3 = k0_pay3 (k0_pay11 (F := F)) (k0_pay23 (k0_pay14 x1 x8 x9) (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) (k0_pay9 (F := F))) (k0_pay24 (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) (k0_pay9 (F := F))) := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3)]
  unfold kernelRun0_A
  dsimp only
  sl_unfold_words
  rw [View.canon_cons_unit_zero (S := S32x256) hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, View.ld_unit_zero (S := S1x32x256) hz3, View.ld_unit_zero (S := S1x128x256) hz3, View.ld_unit_zero (S := S1x32x1) hz3, View.ld_unit_zero (S := S32x128) hz2, View.ld_unit_zero (S := S256x256) hz2, View.ld_unit_zero (S := S256) hz1, View.ld_unit_zero (S := S256x2) hz2, View.ld_unit_zero (S := S1x256) hz2, View.ld_unit_zero (S := S1) hz1, View.ld_unit_zero (S := S32x1) hz2, View.ld_unit_zero (S := S32x256) hz2, View.readCov_unit_zero (S := S32x1) _ hz2, View.readCov_unit_zero (S := S32x256) _ hz2, trips4]
  rfl

set_option maxHeartbeats 4000000 in
/-- What the body stores into the output tile at a last key tile: the epilogue's payload over the query tile, the
    accumulator and the normaliser as this key tile's own update left them, and the epilogue's weights. -/
theorem out0_C_22_eq (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 : Vec F S32x128 .f32) :
    out0_C_22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3 = k0_pay4 x21 (k0_pay7 (k0_pay12 x0) (k0_pay5 (k0_pay3 xs2 (k0_pay23 (k0_pay14 x1 x8 x9) (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) xs0) (k0_pay24 (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) xs0)) (k0_pay2 (k0_pay22 (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) xs0 xs1)) x18 x19 x14 x15) x16 x17 (k0_pay6 (k0_pay3 xs2 (k0_pay23 (k0_pay14 x1 x8 x9) (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) xs0) (k0_pay24 (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) xs0)) (k0_pay2 (k0_pay22 (k0_pay15 x0 x4 x5) (k0_pay16 x1 x6 x7) (edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3) xs0 xs1)) x18 x19 x14 x15)) (k0_pay8 x20) := by
  unfold out0_C_22
  rw [View.read_writes_eq_canon _ _ _ (cover0_C_22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3)]
  unfold kernelRun0_C
  dsimp only
  sl_unfold_words
  rw [View.canon_unit_zero hz3]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, View.ld_unit_zero (S := S1x32x256) hz3, View.ld_unit_zero (S := S1x128x256) hz3, View.ld_unit_zero (S := S1x32x1) hz3, View.ld_unit_zero (S := S32x128) hz2, View.ld_unit_zero (S := S256x256) hz2, View.ld_unit_zero (S := S256) hz1, View.ld_unit_zero (S := S256x2) hz2, View.ld_unit_zero (S := S1x256) hz2, View.ld_unit_zero (S := S1) hz1, View.ld_unit_zero (S := S32x1) hz2, View.ld_unit_zero (S := S32x256) hz2, View.readCov_unit_zero (S := S32x1) _ hz2, View.readCov_unit_zero (S := S32x256) _ hz2, trips4]
  rfl

end Cert.KernelIdeal.Hand

end
-- ==== Proof.Spec.lean ====
/-
  The function both programs compute, stated once over the extended reals, index by index.

  Inputs: node features x[b,n,d], area[b,n], co[i,j], three projections (W·, b·), the two-layer edge network
  (We1[h,e], be1[h]; We2[0,h], be2[0]), the output projection (Wo, bo) and three layer norms (g·, b·).

  q, k, v      = x · Wᵀ + bias                                   (row n of batch b against row h of W)
  score b i j  = (Σ_h q b i h · k b j h) / 16
  hidden       = max (area b i · We1 h 0 + co i j · We1 h 1 + be1 h) 0
  gate b i j   = 1 / (1 + exp (-(Σ_h hidden · We2 0 h + be2 0)))
  s b i j      = score · gate
  attention    = Σ_j (exp (s_j - M) / Σ_j' exp (s_j' - M)) · v_j,  M the row maximum
  then three row-wise layer norms around the output projection, a max with 0 and the residual x (`G`).

  The second half of the file states the same attention row as a running (max, normaliser, accumulator) triple over
  four blocks of 128 keys: what a blocked evaluation carries from block to block.
-/
import Idealize.ShloMosaic.PureOps.Ideal

noncomputable section

namespace Cert.Spec

open Idealize.ShloMosaic

/-- A projection row: Σ_d x d · W h d, plus the bias. -/
def proj (x : Fin 256 → EReal) (W : Fin 256 → Fin 256 → EReal) (bias : Fin 256 → EReal) (h : Fin 256) : EReal :=
  (∑ d, x d * W h d) + bias h

/-- The f32 word of 256 read as an extended real (it is 256; both programs spell it by this word). -/
abbrev c256 : EReal := Ideal.ofBits .f32 0x43800000#32

/-- The f32 word of the layer norms' ε (both programs spell it by this word). -/
abbrev cEps : EReal := Ideal.ofBits .f32 0x3727C5AC#32

/-- The scaled dot product of a query row and a key row: divided by √256. -/
def score (q k : Fin 256 → EReal) : EReal := Ideal.div (∑ h, q h * k h) (Ideal.sqrt c256)

/-- The edge network's hidden unit h for the pair (area value a, co-occurrence value c). -/
def hidden (a c : EReal) (We1 : Fin 256 → Fin 2 → EReal) (be1 : Fin 256 → EReal) (h : Fin 256) : EReal :=
  max ((a * We1 h 0 + c * We1 h 1) + be1 h) 0

/-- The edge network's output before the squashing. -/
def elogit (a c : EReal) (We1 : Fin 256 → Fin 2 → EReal) (be1 : Fin 256 → EReal) (We2 : Fin 1 → Fin 256 → EReal)
    (be2 : Fin 1 → EReal) : EReal :=
  (∑ h, hidden a c We1 be1 h * We2 0 h) + be2 0

/-- The squashing 1 / (1 + e^{-t}). -/
def gate (t : EReal) : EReal := Ideal.div 1 (1 + Ideal.exp (-t))

/-- The row maximum, from -∞. -/
def rowMax {n : Nat} (s : Fin n → EReal) : EReal := Finset.univ.fold max ⊥ s

/-- One attention row against one value column: Σ_j softmax(s)_j · v_j. -/
def attnRow {n : Nat} (s v : Fin n → EReal) : EReal :=
  ∑ j, Ideal.div (Ideal.exp (s j - rowMax s)) (∑ j', Ideal.exp (s j' - rowMax s)) * v j

/-- The mean of a row of 256. -/
def mean (y : Fin 256 → EReal) : EReal := Ideal.div (∑ h, y h) c256

/-- Layer norm of a row of 256 with gain g and shift b, ε added under the root. -/
def layerNorm (y g b : Fin 256 → EReal) (h : Fin 256) : EReal :=
  ((y h - mean y) * Ideal.rsqrt (mean (fun h' => (y h' - mean y) * (y h' - mean y)) + cEps)) * g h + b h

/-- Everything after the attention, on one row: layer norm, projection, layer norm, max with 0, residual, layer norm. -/
def epilogue (o xrow : Fin 256 → EReal) (Wo : Fin 256 → Fin 256 → EReal) (bo g_ot b_ot g1 b1 g2 b2 : Fin 256 → EReal)
    (h : Fin 256) : EReal :=
  layerNorm (fun h' => max (layerNorm (proj (layerNorm o g1 b1) Wo bo) g_ot b_ot h') 0 + xrow h') g2 b2 h

/-- The masked score of query row i against key row j of batch b. -/
def mscore (x : Fin 4 → Fin 512 → Fin 256 → EReal) (area : Fin 4 → Fin 512 → EReal) (co : Fin 512 → Fin 512 → EReal)
    (Wq : Fin 256 → Fin 256 → EReal) (bq : Fin 256 → EReal) (Wk : Fin 256 → Fin 256 → EReal) (bk : Fin 256 → EReal)
    (We1 : Fin 256 → Fin 2 → EReal) (be1 : Fin 256 → EReal) (We2 : Fin 1 → Fin 256 → EReal) (be2 : Fin 1 → EReal)
    (b : Fin 4) (i j : Fin 512) : EReal :=
  score (proj (x b i) Wq bq) (proj (x b j) Wk bk) * gate (elogit (area b i) (co i j) We1 be1 We2 be2)

/-- THE RESULT: entry (b, i, h) of the output as a function of the twenty-one inputs. -/
def G (x : Fin 4 → Fin 512 → Fin 256 → EReal) (area : Fin 4 → Fin 512 → EReal) (co : Fin 512 → Fin 512 → EReal)
    (Wq : Fin 256 → Fin 256 → EReal) (bq : Fin 256 → EReal) (Wk : Fin 256 → Fin 256 → EReal) (bk : Fin 256 → EReal)
    (Wv : Fin 256 → Fin 256 → EReal) (bv : Fin 256 → EReal)
    (We1 : Fin 256 → Fin 2 → EReal) (be1 : Fin 256 → EReal) (We2 : Fin 1 → Fin 256 → EReal) (be2 : Fin 1 → EReal)
    (Wo : Fin 256 → Fin 256 → EReal) (bo g_ot b_ot g1 b1 g2 b2 : Fin 256 → EReal)
    (b : Fin 4) (i : Fin 512) (h : Fin 256) : EReal :=
  epilogue (fun h' => attnRow (fun j => mscore x area co Wq bq Wk bk We1 be1 We2 be2 b i j) (fun j => proj (x b j) Wv bv h'))
    (x b i) Wo bo g_ot b_ot g1 b1 g2 b2 h

/-! ## The same row, block by block -/

/-- The running triple (maximum so far, normaliser, accumulator) after one more block of keys:
    the new maximum, then both sums rescaled by e^{old - new} and extended by the block's terms. -/
def blockStep {n : Nat} (s v : Fin n → EReal) (st : EReal × EReal × EReal) : EReal × EReal × EReal :=
  let m' := max st.1 (rowMax s)
  let α := Ideal.exp (st.1 - m')
  (m', α * st.2.1 + ∑ j, Ideal.exp (s j - m'), α * st.2.2 + ∑ j, Ideal.exp (s j - m') * v j)

/-- Position t·128 + j of a row of 512. -/
def at128 (t : Fin 4) (j : Fin 128) : Fin 512 := ⟨t.val * 128 + j.val, by omega⟩

/-- The triple after blocks 0 … t of a row of 512 keys, from (-∞, 0, 0). -/
def blockState (s v : Fin 512 → EReal) : Nat → EReal × EReal × EReal
  | 0 => blockStep (fun j => s (at128 0 j)) (fun j => v (at128 0 j)) (⊥, 0, 0)
  | t + 1 => if h : t + 1 < 4 then blockStep (fun j => s (at128 ⟨t + 1, h⟩ j)) (fun j => v (at128 ⟨t + 1, h⟩ j)) (blockState s v t)
             else blockState s v t

end Cert.Spec

end
-- ==== Proof.Curry.lean ====
/-
  Arrays as curried functions of their coordinates: an array of shape [n], [n0,n1] or [n0,n1,n2] over the extended
  reals read at the index built from its coordinates. Both programs' argument arrays are passed to the
  specification through these.
-/
import Idealize.ShloMosaic.Lib.ValueIdx

noncomputable section

namespace Cert.Spec

open Idealize.ShloMosaic Idealize.ShloMosaic.ValueIdx

/-- A vector [n] as a function of its position. -/
def cur1 {n : Nat} (a : (⟨1, ![n]⟩ : Shape).Idx → EReal) : Fin n → EReal := fun i => a (ix1 i)

/-- A matrix [n0, n1] as a function of row and column. -/
def cur2 {n0 n1 : Nat} (a : (⟨2, ![n0, n1]⟩ : Shape).Idx → EReal) : Fin n0 → Fin n1 → EReal := fun i j => a (ix2 i j)

/-- A rank-3 array [n0, n1, n2] as a function of its three coordinates. -/
def cur3 {n0 n1 n2 : Nat} (a : (⟨3, ![n0, n1, n2]⟩ : Shape).Idx → EReal) : Fin n0 → Fin n1 → Fin n2 → EReal :=
  fun i j k => a (ix3 i j k)

theorem cur1_apply {n : Nat} (a : (⟨1, ![n]⟩ : Shape).Idx → EReal) (i : Fin n) : cur1 a i = a (ix1 i) := rfl
theorem cur2_apply {n0 n1 : Nat} (a : (⟨2, ![n0, n1]⟩ : Shape).Idx → EReal) (i : Fin n0) (j : Fin n1) : cur2 a i j = a (ix2 i j) := rfl
theorem cur3_apply {n0 n1 n2 : Nat} (a : (⟨3, ![n0, n1, n2]⟩ : Shape).Idx → EReal) (i : Fin n0) (j : Fin n1) (k : Fin n2) :
    cur3 a i j k = a (ix3 i j k) := rfl

end Cert.Spec

end
-- ==== Proof.LibLayout.lean ====
/-
  Layout operations read at an index given by coordinates, beyond the library's forms: the keepdims column casts
  [a] ↔ [a,1], the column broadcast [a,1] → [a,b], the rank-3 casts and broadcasts a pairwise (row × column × channel)
  computation meets, a one-column slice of a matrix, a static element extraction, and the source index of a
  last-axis reduction. Every lemma is the library's general reading (an operand index with the same row-major
  position for a cast, the trailing coordinates with 0 on unit axes for a broadcast) with both indices written by
  coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibLayout

open Idealize.ShloMosaic Idealize.ShloMosaic.ValueIdx

variable {α : Type}

/-! ## Shape casts -/

/-- A vector [a] cast to a column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] cast to a vector [a] reads, at i, the operand at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column [a, 1] cast to [a, 1, 1] reads, at (i, u, w), the operand at (i, 0). -/
theorem shapeCast_a1_a11_apply {a : ℕ} (x : (⟨2, ![a, 1]⟩ : Shape).Idx → α)
    (h : (⟨2, ![a, 1]⟩ : Shape).ShapeCasts ⟨3, ![a, 1, 1]⟩) (i : Fin a) (u w : Fin 1) :
    shapeCast ⟨3, ![a, 1, 1]⟩ x h (ix3 i u w) = x (ix2 i (0 : Fin 1)) :=
  shapeCast_apply x h _ _ (by
    have hu : u.val = 0 := by omega
    have hw : w.val = 0 := by omega
    rw [Shape.rowMajor_val_three, Shape.rowMajor_val_two]
    show i.val * 1 + 0 = (i.val * 1 + u.val) * 1 + w.val
    rw [hu, hw, Nat.mul_one, Nat.add_zero, Nat.mul_one, Nat.add_zero])

/-- A vector [a] cast to [1, 1, a] reads, at (u, w, i), the operand at i. -/
theorem shapeCast_a_11a_apply {a : ℕ} (x : (⟨1, ![a]⟩ : Shape).Idx → α)
    (h : (⟨1, ![a]⟩ : Shape).ShapeCasts ⟨3, ![1, 1, a]⟩) (u w : Fin 1) (i : Fin a) :
    shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    simp only [hu, hw, Nat.zero_mul, Nat.zero_add])

/-- A matrix [a, b] cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Broadcasts -/

/-- A column [a, 1] broadcast to [a, b] reads, at (p, c), the operand at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An array [a, 1, 1] broadcast to [a, 1, c] reads, at (p, u, k), the operand at (p, 0, 0). -/
theorem broadcastTo_a11_a1c_apply {a c : ℕ} (v : (⟨3, ![a, 1, 1]⟩ : Shape).Idx → α)
    (h : (⟨3, ![a, 1, 1]⟩ : Shape).Broadcasts ⟨3, ![a, 1, c]⟩) (p : Fin a) (u : Fin 1) (k : Fin c) :
    broadcastTo ⟨3, ![a, 1, c]⟩ v h (ix3 p u k) = v (ix3 p (0 : Fin 1) (0 : Fin 1)) := by
  refine broadcastTo_apply v h (ix3 p u k) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- A row [1, 1, c] broadcast to [a, b, c] reads, at (p, q, k), the operand at (0, 0, k). -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- An array [a, b, 1] broadcast to [a, b, c] reads, at (p, q, k), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An array [a, 1, c] broadcast to [a, b, c] reads, at (p, q, k), the operand at (p, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-! ## One column of a matrix, one element of a vector -/

/-- The one-column slice of a matrix [n, m] at column o reads, at (i, u), the operand at (i, o). -/
theorem slice_column_apply {n m : ℕ} (o : ℕ) (X : (⟨2, ![n, m]⟩ : Shape).Idx → α)
    (h : (⟨2, ![n, m]⟩ : Shape).Slices ![0, o] ⟨2, ![n, 1]⟩) (i : Fin n) (u : Fin 1) (k : Fin m) (hk : k.val = o) :
    extractStridedSlice ⟨2, ![n, 1]⟩ ![0, o] X h (ix2 i u) = X (ix2 i k) :=
  slice2_axis1_apply o X h i u k (by have := u.isLt; omega)

/-- The element of a vector [n] extracted at the static position p is the operand at p. -/
theorem extractAt_ix1 {n : ℕ} (p : ℕ) (x : (⟨1, ![n]⟩ : Shape).Idx → α)
    (h : ∀ a, (![p] : Fin 1 → ℕ) a < (⟨1, ![n]⟩ : Shape).size a) (k : Fin n) (hk : k.val = p) :
    extractAt ![p] x h = x (ix1 k) := by
  unfold extractAt
  refine congrArg x (funext fun a => Fin.ext ?_)
  match a with
  | ⟨0, _⟩ => exact hk.symm

/-! ## The source index of a reduction over the last axis -/

/-- Reducing a matrix [a, b] over its columns: the source index over row r with column k is (r, k). -/
theorem lift_ix1_axis1 {a b : ℕ} (h : (⟨2, ![a, b]⟩ : Shape).Reduces [1] ⟨1, ![a]⟩) (r : Fin a) (k : Fin b) :
    h.lift (ix1 r) k = ix2 r k := by
  funext c
  refine Fin.ext ?_
  match c with
  | ⟨0, _⟩ => rfl
  | ⟨1, _⟩ => rfl

/-- Reducing an array [a, b, c] over its last axis: the source index over (r, s) with last coordinate k is (r, s, k). -/
theorem lift_ix2_axis2 {a b c : ℕ} (h : (⟨3, ![a, b, c]⟩ : Shape).Reduces [2] ⟨2, ![a, b]⟩) (r : Fin a) (s : Fin b)
    (k : Fin c) : h.lift (ix2 r s) k = ix3 r s k := by
  funext d
  refine Fin.ext ?_
  match d with
  | ⟨0, _⟩ => rfl
  | ⟨1, _⟩ => rfl
  | ⟨2, _⟩ => rfl

end Cert.LibLayout

end
-- ==== Proof.PayEdge.lean ====
/-
  The edge network's output before the squashing, for 8 query rows against the 128 keys of the tile, read at an
  entry: Σ_h max(area[r]·We1[h,0] + co[r,c]·We1[h,1] + be1[h], 0)·We2[0,h] + be2[0].
  The kernel forms the [8, 128, 256] array of hidden units by broadcasting: the area column along keys and
  channels, the co-occurrence tile along channels, the two columns of We1, be1 and We2's row along rows and keys;
  the sum runs over the last axis.
-/
import proofs.«116762_j61950608277594_2_alg».proof.Proof.Gen.KernelIdeal.Skeleton
import proofs.«116762_j61950608277594_2_alg».proof.Proof.Spec
import proofs.«116762_j61950608277594_2_alg».proof.Proof.Curry
import proofs.«116762_j61950608277594_2_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx Cert.LibLayout

/-- A vector [256] viewed as [1, 1, 256] and broadcast over rows and keys reads the vector at the channel. -/
theorem chan_apply (x : FVec Ideal S256 .f32) (r8 : Fin 8) (c : Fin 128) (k : Fin 256) :
    broadcastTo S8x128x256 (shapeCast S1x1x256 x shapeCasts_S256_S1x1x256) broadcasts_S1x1x256_S8x128x256 (ix3 r8 c k)
      = x (ix1 k) :=
  (broadcastTo_11c_abc_apply _ _ r8 c k).trans (shapeCast_a_11a_apply x _ 0 0 k)

/-- The same over rows only (one key position). -/
theorem chan1_apply (x : FVec Ideal S256 .f32) (r8 : Fin 8) (u : Fin 1) (k : Fin 256) :
    broadcastTo S8x1x256 (shapeCast S1x1x256 x shapeCasts_S256_S1x1x256) broadcasts_S1x1x256_S8x1x256 (ix3 r8 u k)
      = x (ix1 k) :=
  (broadcastTo_11c_abc_apply _ _ r8 u k).trans (shapeCast_a_11a_apply x _ 0 0 k)

/-- Column e of the first layer's weights [256, 2], cut out and flattened to [256], reads We1[k, e]. -/
theorem col_apply (W : Vec Ideal S256x2 .f32) (o : ℕ) (hs : S256x2.Slices ![0, o] S256x1) (k : Fin 256) (e : Fin 2)
    (he : e.val = o) :
    shapeCast S256 (extractStridedSlice S256x1 ![0, o] W hs) shapeCasts_S256x1_S256 (ix1 k) = W (ix2 k e) :=
  (shapeCast_a1_a_apply _ _ k).trans (slice_column_apply o W hs k 0 e he)

/-- The area column of 8 rows, broadcast along the channels: entry (r, 0, k) is area[r]. -/
theorem area_apply (v89 : Vec Ideal S1x8x1 .f32) (r8 : Fin 8) (u : Fin 1) (k : Fin 256) :
    broadcastTo S8x1x256 (shapeCast S8x1x1 (shapeCast S8x1 v89 shapeCasts_S1x8x1_S8x1) shapeCasts_S8x1_S8x1x1)
        broadcasts_S8x1x1_S8x1x256 (ix3 r8 u k) = v89 (ix3 0 r8 0) :=
  (broadcastTo_a11_a1c_apply _ _ r8 u k).trans
    ((shapeCast_a1_a11_apply _ _ r8 0 0).trans (shapeCast_1ab_ab_apply v89 _ r8 0))

/-- The co-occurrence tile of 8 rows, broadcast along the channels: entry (r, c, k) is co[r, c]. -/
theorem co_apply (v92 : Vec Ideal S8x128 .f32) (r8 : Fin 8) (c : Fin 128) (k : Fin 256) :
    broadcastTo S8x128x256 (shapeCast S8x128x1 v92 shapeCasts_S8x128_S8x128x1) broadcasts_S8x128x1_S8x128x256 (ix3 r8 c k)
      = v92 (ix2 r8 c) :=
  (broadcastTo_ab1_abc_apply _ _ r8 c k).trans (shapeCast_ab_ab1_apply v92 _ r8 c 0)

/-- The edge logit of query row r (of the 8) against key c. -/
theorem pay17_apply (v39 : Vec Ideal S256x2 .f32) (v40 : Vec Ideal S256 .f32) (v45 : Vec Ideal S1x256 .f32)
    (v46 : Vec Ideal S1 .f32) (v89 : Vec Ideal S1x8x1 .f32) (v92 : Vec Ideal S8x128 .f32) (r8 : Fin 8) (c : Fin 128) :
    k0_pay17 v39 v40 v45 v46 v89 v92 (ix2 r8 c)
      = Spec.elogit (v89 (ix3 0 r8 0)) (v92 (ix2 r8 c)) (Spec.cur2 v39) (Spec.cur1 v40) (Spec.cur2 v45) (Spec.cur1 v46) := by
  unfold k0_pay17 Spec.elogit
  refine (congrFun (shapeCast_self _ _) (ix2 r8 c)).trans ?_
  refine congrArg₂ (fun x y : EReal => x + y) ?_ (extractAt_ix1 0 v46 _ 0 rfl)
  refine (Ideal.multiReduction_add_single _ _ _ _ _ (ix2 r8 c)).trans (Finset.sum_congr rfl fun (k : Fin 256) _ => ?_)
  refine (congrArg _ (lift_ix2_axis2 _ r8 c k)).trans ?_
  refine congrArg₂ (fun x y : EReal => x * y) ?_
    ((chan_apply _ r8 c k).trans (shapeCast_1a_a_apply v45 _ k))
  unfold Spec.hidden
  refine congrArg₂ (fun x y : EReal => max x y) ?_ Ideal.ofBits_zero_f32
  refine congrArg₂ (fun x y : EReal => x + y) ?_ (chan_apply v40 r8 c k)
  refine congrArg₂ (fun x y : EReal => x + y) ?_ ?_
  · refine (broadcastTo_a1c_abc_apply _ _ r8 c k).trans ?_
    exact congrArg₂ (fun x y : EReal => x * y) (area_apply v89 r8 0 k)
      ((chan1_apply _ r8 0 k).trans (col_apply v39 0 _ k 0 rfl))
  · exact congrArg₂ (fun x y : EReal => x * y) (co_apply v92 r8 c k)
      ((chan_apply _ r8 c k).trans (col_apply v39 1 _ k 1 rfl))

end Cert.KernelIdeal.PayValue

end
-- ==== Proof.KI.EdgeScratch.lean ====
/-
  The edge-logit scratch after the four trips of the body's loop, read at an entry. Trip k stores, into rows
  8k … 8k+7 of the [32, 128] scratch, the edge logits of the 8 area rows and the 8 co-occurrence rows it loads at
  the same offset; the four stores tile the scratch, so after the loop entry (r, c) is trip r/8's payload at
  (r mod 8, c): the edge logit of area row r against co-occurrence entry (r, c).
-/
import proofs.«116762_j61950608277594_2_alg».proof.Proof.Gen.KernelIdeal.Loops
import proofs.«116762_j61950608277594_2_alg».proof.Proof.PayEdge
import Idealize.ShloMosaic.Lib.Pipeline.FrameBody
import Idealize.ShloMosaic.Lib.Pipeline.Value
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

/-- The loop runs four trips. -/
theorem trips_eq : k0_t1_loop.trips = 4 := by decide

/-- The trip that stores row r of the scratch: r / 8. -/
abbrev tripOf (r : Fin 32) : Fin k0_t1_loop.trips := ⟨r.val / 8, by have h := trips_eq; have := r.isLt; omega⟩

/-- Row r's position within its trip's 8 rows: r mod 8. -/
abbrev rowIn (r : Fin 32) : Fin 8 := ⟨r.val % 8, Nat.mod_lt _ (by omega)⟩

section
variable {F : FTy → Type} [FloatOps F]
variable (𝒱 : Variants) (c : Dev nD) (bd : Option 𝒱.V) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (v32 : FVec F S128x256 .f32) (v33 : FVec F S32x256 .bf16) (v35 : FVec F S256x128 .bf16) (v39 : Vec F S256x2 .f32) (v40 : Vec F S256 .f32) (v45 : Vec F S1x256 .f32) (v46 : Vec F S1 .f32) (X_arg5 : BufTy.Contents (Elt F) arg5.view.ty) (X_arg6 : BufTy.Contents (Elt F) arg6.view.ty)

/-- The 8 area rows trip k loads: rows 8k … 8k+7 of the area tile. -/
abbrev areaRows (k : Fin k0_t1_loop.trips) : Vec F S1x8x1 .f32 :=
  View.readAt (Elt F) arg5.view (Rect.unit (s := S1x32x1) (k0_off1 k) S1x8x1.size (k0_off1_inb k)).toLoadRect X_arg5

/-- The 8 co-occurrence rows trip k loads: rows 8k … 8k+7 of the co-occurrence tile. -/
abbrev coRows (k : Fin k0_t1_loop.trips) : Vec F S8x128 .f32 :=
  View.readAt (Elt F) arg6.view (Rect.unit (s := S32x128) (k0_off2 k) S8x128.size (k0_off2_inb k)).toLoadRect X_arg6

/-- ONE TRIP'S PIECE: the single store of the loop's region, rows 8k … 8k+7 of the scratch, of the edge logits of
    the rows it loaded. -/
theorem tripL_eq (k : Fin k0_t1_loop.trips) :
    tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v32 v33 v35 v39 v40 v45 v46 X_arg5 X_arg6 k
      = [⟨Rect.unit (s := S32x128) (k0_off2 k) S8x128.size (k0_off2_inb k),
          k0_pay17 v39 v40 v45 v46 (areaRows arg5 X_arg5 k) (coRows arg6 X_arg6 k)⟩] := by
  unfold tripL_k0_t1 trip_k0_t1
  rfl

/-- The pieces after one more trip: the trip's piece in front. -/
theorem pb_succ_eq (n : ℕ) (hn : n < k0_t1_loop.trips) :
    pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v32 v33 v35 v39 v40 v45 v46 X_arg5 X_arg6 (n + 1)
      = (⟨Rect.unit (s := S32x128) (k0_off2 ⟨n, hn⟩) S8x128.size (k0_off2_inb ⟨n, hn⟩),
          k0_pay17 v39 v40 v45 v46 (areaRows arg5 X_arg5 ⟨n, hn⟩) (coRows arg6 X_arg6 ⟨n, hn⟩)⟩
            : View.Piece (Elt F) S32x128 .f32)
        :: pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v32 v33 v35 v39 v40 v45 v46 X_arg5 X_arg6 n := by
  refine (pb_k0_t1_succ (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v32 v33 v35 v39 v40 v45 v46 X_arg5 X_arg6 ⟨n, hn⟩).trans ?_
  rw [tripL_eq]
  rfl

/-- THE SCRATCH AFTER n TRIPS, read at a row some trip before n stored: that trip's payload at the row's position
    within the trip, whatever the scratch held before the loop. -/
theorem read_pb (n : ℕ) (hn : n ≤ 4) (G : BufTy.Contents (Elt F) arg29.view.ty) (r : Fin 32) (cc : Fin 128)
    (hr : r.val / 8 < n) :
    arg29.view.read (Elt F) (arg29.view.writes (Elt F) G (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v32 v33 v35 v39 v40 v45 v46 X_arg5 X_arg6 n)) (ix2 r cc)
      = k0_pay17 v39 v40 v45 v46 (areaRows arg5 X_arg5 (tripOf r)) (coRows arg6 X_arg6 (tripOf r)) (ix2 (rowIn r) cc) := by
  induction n with
  | zero => exact absurd hr (Nat.not_lt_zero _)
  | succ n ih =>
    have hn4 : n < k0_t1_loop.trips := by rw [trips_eq]; omega
    rw [pb_succ_eq (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v32 v33 v35 v39 v40 v45 v46 X_arg5 X_arg6 n hn4]
    by_cases hq : r.val / 8 = n
    · subst hq
      refine View.read_writes_cons_rows_of_mem arg29.view G (k0_off2_inb _) _ _ (ix2 r cc) (ix2 (rowIn r) cc)
        (k0_off2_eq _) ?_ rfl
      show r.val = 8 * (r.val / 8) + r.val % 8
      omega
    · have hlt : r.val / 8 < n := by omega
      refine (View.read_writes_cons_rows_of_not_mem arg29.view G (k0_off2_inb _) _ _ (ix2 r cc) (W := 8)
        (k0_off2_eq _) rfl (Or.inl ?_)).trans (ih (by omega) hlt)
      show r.val < 8 * n
      omega

/-- The same through a load of the whole scratch. -/
theorem readAt_pb (G : BufTy.Contents (Elt F) arg29.view.ty) {off : Fin 2 → ℕ} (hoff : off = fun _ => 0)
    (inb : ∀ a, off a + S32x128.size a ≤ S32x128.size a) (r : Fin 32) (cc : Fin 128) :
    View.readAt (Elt F) arg29.view (Rect.unit (s := S32x128) off S32x128.size inb).toLoadRect
        (arg29.view.writes (Elt F) G (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v32 v33 v35 v39 v40 v45 v46 X_arg5 X_arg6 4)) (ix2 r cc)
      = k0_pay17 v39 v40 v45 v46 (areaRows arg5 X_arg5 (tripOf r)) (coRows arg6 X_arg6 (tripOf r)) (ix2 (rowIn r) cc) := by
  rw [View.readAt_eq_ld, View.ld_unit_zero (S := S32x128) hoff]
  exact read_pb (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v32 v33 v35 v39 v40 v45 v46 X_arg5 X_arg6 4 le_rfl G r cc (by have := r.isLt; omega)

end

/-! ## At the extended reals: the entry is the edge logit -/

section
variable (𝒱 : Variants) (c : Dev nD) (bd : Option 𝒱.V) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (v32 : FVec Ideal S128x256 .f32) (v33 : FVec Ideal S32x256 .bf16) (v35 : FVec Ideal S256x128 .bf16) (v39 : Vec Ideal S256x2 .f32) (v40 : Vec Ideal S256 .f32) (v45 : Vec Ideal S1x256 .f32) (v46 : Vec Ideal S1 .f32) (X_arg5 : BufTy.Contents (Elt Ideal) arg5.view.ty) (X_arg6 : BufTy.Contents (Elt Ideal) arg6.view.ty)

/-- The area row trip r/8 loaded for row r is the area tile's row r. -/
theorem areaRows_apply (r : Fin 32) :
    areaRows (F := Ideal) arg5 X_arg5 (tripOf r) (ix3 (0 : Fin 1) (rowIn r) (0 : Fin 1))
      = arg5.view.read (Elt Ideal) X_arg5 (ix3 (0 : Fin 1) r (0 : Fin 1)) := by
  show arg5.view.read (Elt Ideal) X_arg5 _ = arg5.view.read (Elt Ideal) X_arg5 _
  refine congrArg _ (funext fun a => Fin.ext ?_)
  have e := k0_off1_eq (tripOf r)
  match a with
  | ⟨0, _⟩ => show k0_off1 (tripOf r) (0 : Fin 3) + 1 * 0 = 0; rw [e]; rfl
  | ⟨1, _⟩ =>
    show k0_off1 (tripOf r) (1 : Fin 3) + 1 * (r.val % 8) = r.val
    rw [e]
    show 8 * (r.val / 8) + 1 * (r.val % 8) = r.val
    omega
  | ⟨2, _⟩ => show k0_off1 (tripOf r) (2 : Fin 3) + 1 * 0 = 0; rw [e]; rfl

/-- The co-occurrence row trip r/8 loaded for row r is the co-occurrence tile's row r. -/
theorem coRows_apply (r : Fin 32) (cc : Fin 128) :
    coRows (F := Ideal) arg6 X_arg6 (tripOf r) (ix2 (rowIn r) cc)
      = arg6.view.read (Elt Ideal) X_arg6 (ix2 r cc) := by
  show arg6.view.read (Elt Ideal) X_arg6 _ = arg6.view.read (Elt Ideal) X_arg6 _
  refine congrArg _ (funext fun a => Fin.ext ?_)
  have e := k0_off2_eq (tripOf r)
  match a with
  | ⟨0, _⟩ =>
    show k0_off2 (tripOf r) (0 : Fin 2) + 1 * (r.val % 8) = r.val
    rw [e]
    show 8 * (r.val / 8) + 1 * (r.val % 8) = r.val
    omega
  | ⟨1, _⟩ =>
    show k0_off2 (tripOf r) (1 : Fin 2) + 1 * cc.val = cc.val
    rw [e]
    show 0 + 1 * cc.val = cc.val
    omega

/-- THE SCRATCH AFTER THE LOOP at (r, c): the edge logit of area row r against co-occurrence entry (r, c). -/
theorem edge_entry (G : BufTy.Contents (Elt Ideal) arg29.view.ty) (r : Fin 32) (cc : Fin 128) :
    arg29.view.read (Elt Ideal) (arg29.view.writes (Elt Ideal) G (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v32 v33 v35 v39 v40 v45 v46 X_arg5 X_arg6 4)) (ix2 r cc)
      = Spec.elogit (arg5.view.read (Elt Ideal) X_arg5 (ix3 (0 : Fin 1) r (0 : Fin 1)))
          (arg6.view.read (Elt Ideal) X_arg6 (ix2 r cc)) (Spec.cur2 v39) (Spec.cur1 v40) (Spec.cur2 v45) (Spec.cur1 v46) := by
  refine (read_pb (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v32 v33 v35 v39 v40 v45 v46 X_arg5 X_arg6 4 le_rfl G r cc (by have := r.isLt; omega)).trans ?_
  refine (PayValue.pay17_apply v39 v40 v45 v46 _ _ (rowIn r) cc).trans ?_
  rw [areaRows_apply, coRows_apply]

/-- The same through a load of the whole scratch. -/
theorem edge_entry_readAt (G : BufTy.Contents (Elt Ideal) arg29.view.ty) {off : Fin 2 → ℕ} (hoff : off = fun _ => 0)
    (inb : ∀ a, off a + S32x128.size a ≤ S32x128.size a) (r : Fin 32) (cc : Fin 128) :
    View.readAt (Elt Ideal) arg29.view (Rect.unit (s := S32x128) off S32x128.size inb).toLoadRect
        (arg29.view.writes (Elt Ideal) G (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v32 v33 v35 v39 v40 v45 v46 X_arg5 X_arg6 4)) (ix2 r cc)
      = Spec.elogit (arg5.view.read (Elt Ideal) X_arg5 (ix3 (0 : Fin 1) r (0 : Fin 1)))
          (arg6.view.read (Elt Ideal) X_arg6 (ix2 r cc)) (Spec.cur2 v39) (Spec.cur1 v40) (Spec.cur2 v45) (Spec.cur1 v46) := by
  rw [View.readAt_eq_ld, View.ld_unit_zero (S := S32x128) hoff]
  exact edge_entry 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v32 v33 v35 v39 v40 v45 v46 X_arg5 X_arg6 G r cc

end

end Cert.KernelIdeal.Hand

end
-- ==== Proof.KI.Indep.lean ====
/-
  The body's stores do not depend on what the edge-logit scratch held when the body was entered: the loop's four trips
  store rows 0–7, 8–15, 16–23 and 24–31 of it before the body reads it whole, so every entry read is an entry some
  trip has just stored.
-/
import proofs.«116762_j61950608277594_2_alg».proof.Proof.KI.Pieces
import proofs.«116762_j61950608277594_2_alg».proof.Proof.KI.EdgeScratch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-- The edge-logit scratch after the loop is the same whatever it held on entry: each entry (r, c) is the payload the
    trip r / 8 stored at row r mod 8. -/
theorem edgeV50_indep (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 xs3' : Vec F S32x128 .f32) :
    edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3 = edgeV50 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3' := by
  funext j
  obtain ⟨r, cc, rfl⟩ : ∃ (r : Fin 32) (cc : Fin 128), j = ValueIdx.ix2 r cc := ⟨j 0, j 1, ValueIdx.eq_ix2 j⟩
  exact (read_pb (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (k0_pay14 x1 x8 x9) (k0_pay15 x0 x4 x5) (k0_pay16 x1 x6 x7) x10 x11 x12 x13 (harg5.unread x2) (harg6.unread x3) 4 le_rfl (harg29.unread xs3) r cc (by have := r.isLt; omega)).trans
    (read_pb (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (k0_pay14 x1 x8 x9) (k0_pay15 x0 x4 x5) (k0_pay16 x1 x6 x7) x10 x11 x12 x13 (harg5.unread x2) (harg6.unread x3) 4 le_rfl (harg29.unread xs3') r cc (by have := r.isLt; omega)).symm

/-- The scratch update does not depend on what the edge-logit scratch held on entry. -/
theorem sout0_A_0_indep (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 xs3' : Vec F S32x128 .f32) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3 = sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3' := by
  rw [sout0_A_0_eq, sout0_A_0_eq, edgeV50_indep c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3 xs3']

/-- The scratch update does not depend on what the edge-logit scratch held on entry. -/
theorem sout0_A_1_indep (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 xs3' : Vec F S32x128 .f32) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3 = sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3' := by
  rw [sout0_A_1_eq, sout0_A_1_eq, edgeV50_indep c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3 xs3']

/-- The scratch update does not depend on what the edge-logit scratch held on entry. -/
theorem sout0_A_2_indep (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs3 xs3' : Vec F S32x128 .f32) :
    sout0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3 = sout0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs3' := by
  rw [sout0_A_2_eq, sout0_A_2_eq, edgeV50_indep c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3 xs3']

/-- The scratch update does not depend on what the edge-logit scratch held on entry. -/
theorem sout0_B_0_indep (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 xs3' : Vec F S32x128 .f32) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3 = sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3' := by
  rw [sout0_B_0_eq, sout0_B_0_eq, edgeV50_indep c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3 xs3']

/-- The scratch update does not depend on what the edge-logit scratch held on entry. -/
theorem sout0_B_1_indep (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 xs3' : Vec F S32x128 .f32) :
    sout0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3 = sout0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3' := by
  rw [sout0_B_1_eq, sout0_B_1_eq, edgeV50_indep c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3 xs3']

/-- The scratch update does not depend on what the edge-logit scratch held on entry. -/
theorem sout0_B_2_indep (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : ¬cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 xs3' : Vec F S32x128 .f32) :
    sout0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3 = sout0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3' := by
  rw [sout0_B_2_eq, sout0_B_2_eq, edgeV50_indep c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3 xs3']

/-- The scratch update does not depend on what the edge-logit scratch held on entry. -/
theorem sout0_C_0_indep (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 xs3' : Vec F S32x128 .f32) :
    sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3 = sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3' := by
  rw [sout0_C_0_eq, sout0_C_0_eq, edgeV50_indep c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3 xs3']

/-- The scratch update does not depend on what the edge-logit scratch held on entry. -/
theorem sout0_C_1_indep (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 xs3' : Vec F S32x128 .f32) :
    sout0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3 = sout0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3' := by
  rw [sout0_C_1_eq, sout0_C_1_eq, edgeV50_indep c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3 xs3']

/-- The scratch update does not depend on what the edge-logit scratch held on entry. -/
theorem sout0_C_2_indep (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 xs3' : Vec F S32x128 .f32) :
    sout0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3 = sout0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3' := by
  rw [sout0_C_2_eq, sout0_C_2_eq, edgeV50_indep c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3 xs3']

/-- The output tile's store does not depend on what the edge-logit scratch held on entry. -/
theorem out0_C_22_indep (c : Dev nD) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (hc0 : ¬cond0_0 i) (hc1 : cond0_1 i)
    (x0 : Vec F S1x32x256 .f32) (x1 : Vec F S1x128x256 .f32) (x2 : Vec F S1x32x1 .f32) (x3 : Vec F S32x128 .f32) (x4 : Vec F S256x256 .f32) (x5 : Vec F S256 .f32) (x6 : Vec F S256x256 .f32) (x7 : Vec F S256 .f32) (x8 : Vec F S256x256 .f32) (x9 : Vec F S256 .f32) (x10 : Vec F S256x2 .f32) (x11 : Vec F S256 .f32) (x12 : Vec F S1x256 .f32) (x13 : Vec F S1 .f32) (x14 : Vec F S256x256 .f32) (x15 : Vec F S256 .f32) (x16 : Vec F S256 .f32) (x17 : Vec F S256 .f32) (x18 : Vec F S256 .f32) (x19 : Vec F S256 .f32) (x20 : Vec F S256 .f32) (x21 : Vec F S256 .f32) (xs0 : Vec F S32x1 .f32) (xs1 : Vec F S32x1 .f32) (xs2 : Vec F S32x256 .f32) (xs3 xs3' : Vec F S32x128 .f32) :
    out0_C_22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3 = out0_C_22 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 x15 x16 x17 x18 x19 x20 x21 xs0 xs1 xs2 xs3' := by
  rw [out0_C_22_eq, out0_C_22_eq, edgeV50_indep c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 xs3 xs3']

end Cert.KernelIdeal.Hand

end
-- ==== Proof.KI.BodyA.lean ====
/-
  The body obligation at a first key tile.
-/
import proofs.«116762_j61950608277594_2_alg».proof.Proof.KI.Indep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a first key tile: the inputs' memrefs hold their blocks, the invariant hands the body the carried scratch and
    takes it back at this point's contents; nothing is owed throughout. -/
theorem sound_body_A (c : Dev nD) (t : Fin cfg0.N) (h0 : t.val % 4 = 0) (h1 : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rfl, after0_0]
  rw [show (dats m 0 c).leavesExact 1 t = owns (c : Thread nD τ) (ms0_1 t) fullShare ((dats m 0 c).after 1 t) from by
    unfold Dat.leavesExact; rfl, after0_1]
  rw [show (dats m 0 c).leavesExact 2 t = owns (c : Thread nD τ) (ms0_2 t) fullShare ((dats m 0 c).after 2 t) from by
    unfold Dat.leavesExact; rfl, after0_2]
  rw [show (dats m 0 c).leavesExact 3 t = owns (c : Thread nD τ) (ms0_3 t) fullShare ((dats m 0 c).after 3 t) from by
    unfold Dat.leavesExact; rfl, after0_3]
  rw [show (dats m 0 c).leavesExact 4 t = owns (c : Thread nD τ) (ms0_4 t) fullShare ((dats m 0 c).after 4 t) from by
    unfold Dat.leavesExact; rfl, after0_4]
  rw [show (dats m 0 c).leavesExact 5 t = owns (c : Thread nD τ) (ms0_5 t) fullShare ((dats m 0 c).after 5 t) from by
    unfold Dat.leavesExact; rfl, after0_5]
  rw [show (dats m 0 c).leavesExact 6 t = owns (c : Thread nD τ) (ms0_6 t) fullShare ((dats m 0 c).after 6 t) from by
    unfold Dat.leavesExact; rfl, after0_6]
  rw [show (dats m 0 c).leavesExact 7 t = owns (c : Thread nD τ) (ms0_7 t) fullShare ((dats m 0 c).after 7 t) from by
    unfold Dat.leavesExact; rfl, after0_7]
  rw [show (dats m 0 c).leavesExact 8 t = owns (c : Thread nD τ) (ms0_8 t) fullShare ((dats m 0 c).after 8 t) from by
    unfold Dat.leavesExact; rfl, after0_8]
  rw [show (dats m 0 c).leavesExact 9 t = owns (c : Thread nD τ) (ms0_9 t) fullShare ((dats m 0 c).after 9 t) from by
    unfold Dat.leavesExact; rfl, after0_9]
  rw [show (dats m 0 c).leavesExact 10 t = owns (c : Thread nD τ) (ms0_10 t) fullShare ((dats m 0 c).after 10 t) from by
    unfold Dat.leavesExact; rfl, after0_10]
  rw [show (dats m 0 c).leavesExact 11 t = owns (c : Thread nD τ) (ms0_11 t) fullShare ((dats m 0 c).after 11 t) from by
    unfold Dat.leavesExact; rfl, after0_11]
  rw [show (dats m 0 c).leavesExact 12 t = owns (c : Thread nD τ) (ms0_12 t) fullShare ((dats m 0 c).after 12 t) from by
    unfold Dat.leavesExact; rfl, after0_12]
  rw [show (dats m 0 c).leavesExact 13 t = owns (c : Thread nD τ) (ms0_13 t) fullShare ((dats m 0 c).after 13 t) from by
    unfold Dat.leavesExact; rfl, after0_13]
  rw [show (dats m 0 c).leavesExact 14 t = owns (c : Thread nD τ) (ms0_14 t) fullShare ((dats m 0 c).after 14 t) from by
    unfold Dat.leavesExact; rfl, after0_14]
  rw [show (dats m 0 c).leavesExact 15 t = owns (c : Thread nD τ) (ms0_15 t) fullShare ((dats m 0 c).after 15 t) from by
    unfold Dat.leavesExact; rfl, after0_15]
  rw [show (dats m 0 c).leavesExact 16 t = owns (c : Thread nD τ) (ms0_16 t) fullShare ((dats m 0 c).after 16 t) from by
    unfold Dat.leavesExact; rfl, after0_16]
  rw [show (dats m 0 c).leavesExact 17 t = owns (c : Thread nD τ) (ms0_17 t) fullShare ((dats m 0 c).after 17 t) from by
    unfold Dat.leavesExact; rfl, after0_17]
  rw [show (dats m 0 c).leavesExact 18 t = owns (c : Thread nD τ) (ms0_18 t) fullShare ((dats m 0 c).after 18 t) from by
    unfold Dat.leavesExact; rfl, after0_18]
  rw [show (dats m 0 c).leavesExact 19 t = owns (c : Thread nD τ) (ms0_19 t) fullShare ((dats m 0 c).after 19 t) from by
    unfold Dat.leavesExact; rfl, after0_19]
  rw [show (dats m 0 c).leavesExact 20 t = owns (c : Thread nD τ) (ms0_20 t) fullShare ((dats m 0 c).after 20 t) from by
    unfold Dat.leavesExact; rfl, after0_20]
  rw [show (dats m 0 c).leavesExact 21 t = owns (c : Thread nD τ) (ms0_21 t) fullShare ((dats m 0 c).after 21 t) from by
    unfold Dat.leavesExact; rfl, after0_21]
  rw [Dat.leavesExact_idle (dats m 0 c) 22 t (idleAt0_22 t (fun h => h1 ((hcond0_1 t).mp h))) (noFlush0_22 t (fun h => h1 ((hcond0_1 t).mp h)))]
  rw [outsAt0_A m c t h0 h1]
  unfold sout0_A_0 sout0_A_1 sout0_A_2; (try dsimp only)
  by_cases hz : t.val = 0
  · rw [PhiS_castSucc m c t, PhiS_zero m c _ _ hz]
    iintro ⟨⟨HS0, HS1, HS2, ⟨%ee3, HS3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) ee3).2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, H19, H20, H21, H22, ⟨%es0, HS0⟩, ⟨%es1, HS1⟩, ⟨%es2, HS2⟩, ⟨%es3, HS3⟩⟩
    isplitl [HS0 HS1 HS2 HS3]
    ·
      isplitl [HS0]
      · unfold owns; iexists _; isplitr
        swap; · iexact HS0
        ipureintro; exact (View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans (sout0_A_0_indep c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ee3 dflt3)
      isplitl [HS1]
      · unfold owns; iexists _; isplitr
        swap; · iexact HS1
        ipureintro; exact (View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans (sout0_A_1_indep c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ee3 dflt3)
      isplitl [HS2]
      · unfold owns; iexists _; isplitr
        swap; · iexact HS2
        ipureintro; exact (View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans (sout0_A_2_indep c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ee3 dflt3)
      iexists _; unfold owns; iexists _; isplitr
      swap; · iexact HS3
      ipureintro; rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexists _; iexact H22
  · rw [PhiS_castSucc m c t, PhiS_pos m c _ _ hz]
    iintro ⟨⟨HS0, HS1, HS2, ⟨%ee3, HS3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) ee3).2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [HS0]; · iexists _; iexact HS0
    isplitl [HS1]; · iexists _; iexact HS1
    isplitl [HS2]; · iexists _; iexact HS2
    isplitl [HS3]; · iexact HS3
    iintro ⟨H0, H1, H2, H3, H4, H5, H6, H7, H8, H9, H10, H11, H12, H13, H14, H15, H16, H17, H18, H19, H20, H21, H22, ⟨%es0, HS0⟩, ⟨%es1, HS1⟩, ⟨%es2, HS2⟩, ⟨%es3, HS3⟩⟩
    isplitl [HS0 HS1 HS2 HS3]
    ·
      isplitl [HS0]
      · unfold owns; iexists _; isplitr
        swap; · iexact HS0
        ipureintro; exact (View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans (sout0_A_0_indep c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ee3 dflt3)
      isplitl [HS1]
      · unfold owns; iexists _; isplitr
        swap; · iexact HS1
        ipureintro; exact (View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans (sout0_A_1_indep c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ee3 dflt3)
      isplitl [HS2]
      · unfold owns; iexists _; isplitr
        swap; · iexact HS2
        ipureintro; exact (View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans (sout0_A_2_indep c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ee3 dflt3)
      iexists _; unfold owns; iexists _; isplitr
      swap; · iexact HS3
      ipureintro; rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexists _; iexact H22

end Cert.KernelIdeal.Hand

end
-- ==== Proof.KI.BodyB.lean ====
/-
  The body obligation at a middle key tile.
-/
import proofs.«116762_j61950608277594_2_alg».proof.Proof.KI.Indep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a middle key tile: the inputs' memrefs hold their blocks, the invariant hands the body the carried scratch and
    takes it back at this point's contents; nothing is owed throughout. -/
theorem sound_body_B (c : Dev nD) (t : Fin cfg0.N) (h0 : ¬t.val % 4 = 0) (h1 : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rfl, after0_0]
  rw [show (dats m 0 c).leavesExact 1 t = owns (c : Thread nD τ) (ms0_1 t) fullShare ((dats m 0 c).after 1 t) from by
    unfold Dat.leavesExact; rfl, after0_1]
  rw [show (dats m 0 c).leavesExact 2 t = owns (c : Thread nD τ) (ms0_2 t) fullShare ((dats m 0 c).after 2 t) from by
    unfold Dat.leavesExact; rfl, after0_2]
  rw [show (dats m 0 c).leavesExact 3 t = owns (c : Thread nD τ) (ms0_3 t) fullShare ((dats m 0 c).after 3 t) from by
    unfold Dat.leavesExact; rfl, after0_3]
  rw [show (dats m 0 c).leavesExact 4 t = owns (c : Thread nD τ) (ms0_4 t) fullShare ((dats m 0 c).after 4 t) from by
    unfold Dat.leavesExact; rfl, after0_4]
  rw [show (dats m 0 c).leavesExact 5 t = owns (c : Thread nD τ) (ms0_5 t) fullShare ((dats m 0 c).after 5 t) from by
    unfold Dat.leavesExact; rfl, after0_5]
  rw [show (dats m 0 c).leavesExact 6 t = owns (c : Thread nD τ) (ms0_6 t) fullShare ((dats m 0 c).after 6 t) from by
    unfold Dat.leavesExact; rfl, after0_6]
  rw [show (dats m 0 c).leavesExact 7 t = owns (c : Thread nD τ) (ms0_7 t) fullShare ((dats m 0 c).after 7 t) from by
    unfold Dat.leavesExact; rfl, after0_7]
  rw [show (dats m 0 c).leavesExact 8 t = owns (c : Thread nD τ) (ms0_8 t) fullShare ((dats m 0 c).after 8 t) from by
    unfold Dat.leavesExact; rfl, after0_8]
  rw [show (dats m 0 c).leavesExact 9 t = owns (c : Thread nD τ) (ms0_9 t) fullShare ((dats m 0 c).after 9 t) from by
    unfold Dat.leavesExact; rfl, after0_9]
  rw [show (dats m 0 c).leavesExact 10 t = owns (c : Thread nD τ) (ms0_10 t) fullShare ((dats m 0 c).after 10 t) from by
    unfold Dat.leavesExact; rfl, after0_10]
  rw [show (dats m 0 c).leavesExact 11 t = owns (c : Thread nD τ) (ms0_11 t) fullShare ((dats m 0 c).after 11 t) from by
    unfold Dat.leavesExact; rfl, after0_11]
  rw [show (dats m 0 c).leavesExact 12 t = owns (c : Thread nD τ) (ms0_12 t) fullShare ((dats m 0 c).after 12 t) from by
    unfold Dat.leavesExact; rfl, after0_12]
  rw [show (dats m 0 c).leavesExact 13 t = owns (c : Thread nD τ) (ms0_13 t) fullShare ((dats m 0 c).after 13 t) from by
    unfold Dat.leavesExact; rfl, after0_13]
  rw [show (dats m 0 c).leavesExact 14 t = owns (c : Thread nD τ) (ms0_14 t) fullShare ((dats m 0 c).after 14 t) from by
    unfold Dat.leavesExact; rfl, after0_14]
  rw [show (dats m 0 c).leavesExact 15 t = owns (c : Thread nD τ) (ms0_15 t) fullShare ((dats m 0 c).after 15 t) from by
    unfold Dat.leavesExact; rfl, after0_15]
  rw [show (dats m 0 c).leavesExact 16 t = owns (c : Thread nD τ) (ms0_16 t) fullShare ((dats m 0 c).after 16 t) from by
    unfold Dat.leavesExact; rfl, after0_16]
  rw [show (dats m 0 c).leavesExact 17 t = owns (c : Thread nD τ) (ms0_17 t) fullShare ((dats m 0 c).after 17 t) from by
    unfold Dat.leavesExact; rfl, after0_17]
  rw [show (dats m 0 c).leavesExact 18 t = owns (c : Thread nD τ) (ms0_18 t) fullShare ((dats m 0 c).after 18 t) from by
    unfold Dat.leavesExact; rfl, after0_18]
  rw [show (dats m 0 c).leavesExact 19 t = owns (c : Thread nD τ) (ms0_19 t) fullShare ((dats m 0 c).after 19 t) from by
    unfold Dat.leavesExact; rfl, after0_19]
  rw [show (dats m 0 c).leavesExact 20 t = owns (c : Thread nD τ) (ms0_20 t) fullShare ((dats m 0 c).after 20 t) from by
    unfold Dat.leavesExact; rfl, after0_20]
  rw [show (dats m 0 c).leavesExact 21 t = owns (c : Thread nD τ) (ms0_21 t) fullShare ((dats m 0 c).after 21 t) from by
    unfold Dat.leavesExact; rfl, after0_21]
  rw [Dat.leavesExact_idle (dats m 0 c) 22 t (idleAt0_22 t (fun h => h1 ((hcond0_1 t).mp h))) (noFlush0_22 t (fun h => h1 ((hcond0_1 t).mp h)))]
  rw [outsAt0_B m c t h0 h1]
  unfold sout0_B_0 sout0_B_1 sout0_B_2; (try dsimp only)
  have hz : t.val ≠ 0 := by intro hz; rw [hz] at h0; exact h0 (Nat.zero_mod _)
  · rw [PhiS_castSucc m c t, PhiS_pos m c _ _ hz]
    iintro ⟨⟨HS0, HS1, HS2, ⟨%ee3, HS3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _ _ _ ee3).2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, H19, H20, H21, H22, ⟨%es0, HS0⟩, ⟨%es1, HS1⟩, ⟨%es2, HS2⟩, ⟨%es3, HS3⟩⟩
    isplitl [HS0 HS1 HS2 HS3]
    ·
      isplitl [HS0]
      · unfold owns; iexists _; isplitr
        swap; · iexact HS0
        ipureintro; exact (View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans (sout0_B_0_indep c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ee3 dflt3)
      isplitl [HS1]
      · unfold owns; iexists _; isplitr
        swap; · iexact HS1
        ipureintro; exact (View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans (sout0_B_1_indep c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ee3 dflt3)
      isplitl [HS2]
      · unfold owns; iexists _; isplitr
        swap; · iexact HS2
        ipureintro; exact (View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans (sout0_B_2_indep c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ee3 dflt3)
      iexists _; unfold owns; iexists _; isplitr
      swap; · iexact HS3
      ipureintro; rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexists _; iexact H22

end Cert.KernelIdeal.Hand

end
-- ==== Proof.KI.BodyC.lean ====
/-
  The body obligation at a last key tile.
-/
import proofs.«116762_j61950608277594_2_alg».proof.Proof.KI.Indep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a last key tile: the inputs' memrefs hold their blocks, the invariant hands the body the carried scratch and
    takes it back at this point's contents; nothing is owed throughout. -/
theorem sound_body_C (c : Dev nD) (t : Fin cfg0.N) (h0 : ¬t.val % 4 = 0) (h1 : t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rfl, after0_0]
  rw [show (dats m 0 c).leavesExact 1 t = owns (c : Thread nD τ) (ms0_1 t) fullShare ((dats m 0 c).after 1 t) from by
    unfold Dat.leavesExact; rfl, after0_1]
  rw [show (dats m 0 c).leavesExact 2 t = owns (c : Thread nD τ) (ms0_2 t) fullShare ((dats m 0 c).after 2 t) from by
    unfold Dat.leavesExact; rfl, after0_2]
  rw [show (dats m 0 c).leavesExact 3 t = owns (c : Thread nD τ) (ms0_3 t) fullShare ((dats m 0 c).after 3 t) from by
    unfold Dat.leavesExact; rfl, after0_3]
  rw [show (dats m 0 c).leavesExact 4 t = owns (c : Thread nD τ) (ms0_4 t) fullShare ((dats m 0 c).after 4 t) from by
    unfold Dat.leavesExact; rfl, after0_4]
  rw [show (dats m 0 c).leavesExact 5 t = owns (c : Thread nD τ) (ms0_5 t) fullShare ((dats m 0 c).after 5 t) from by
    unfold Dat.leavesExact; rfl, after0_5]
  rw [show (dats m 0 c).leavesExact 6 t = owns (c : Thread nD τ) (ms0_6 t) fullShare ((dats m 0 c).after 6 t) from by
    unfold Dat.leavesExact; rfl, after0_6]
  rw [show (dats m 0 c).leavesExact 7 t = owns (c : Thread nD τ) (ms0_7 t) fullShare ((dats m 0 c).after 7 t) from by
    unfold Dat.leavesExact; rfl, after0_7]
  rw [show (dats m 0 c).leavesExact 8 t = owns (c : Thread nD τ) (ms0_8 t) fullShare ((dats m 0 c).after 8 t) from by
    unfold Dat.leavesExact; rfl, after0_8]
  rw [show (dats m 0 c).leavesExact 9 t = owns (c : Thread nD τ) (ms0_9 t) fullShare ((dats m 0 c).after 9 t) from by
    unfold Dat.leavesExact; rfl, after0_9]
  rw [show (dats m 0 c).leavesExact 10 t = owns (c : Thread nD τ) (ms0_10 t) fullShare ((dats m 0 c).after 10 t) from by
    unfold Dat.leavesExact; rfl, after0_10]
  rw [show (dats m 0 c).leavesExact 11 t = owns (c : Thread nD τ) (ms0_11 t) fullShare ((dats m 0 c).after 11 t) from by
    unfold Dat.leavesExact; rfl, after0_11]
  rw [show (dats m 0 c).leavesExact 12 t = owns (c : Thread nD τ) (ms0_12 t) fullShare ((dats m 0 c).after 12 t) from by
    unfold Dat.leavesExact; rfl, after0_12]
  rw [show (dats m 0 c).leavesExact 13 t = owns (c : Thread nD τ) (ms0_13 t) fullShare ((dats m 0 c).after 13 t) from by
    unfold Dat.leavesExact; rfl, after0_13]
  rw [show (dats m 0 c).leavesExact 14 t = owns (c : Thread nD τ) (ms0_14 t) fullShare ((dats m 0 c).after 14 t) from by
    unfold Dat.leavesExact; rfl, after0_14]
  rw [show (dats m 0 c).leavesExact 15 t = owns (c : Thread nD τ) (ms0_15 t) fullShare ((dats m 0 c).after 15 t) from by
    unfold Dat.leavesExact; rfl, after0_15]
  rw [show (dats m 0 c).leavesExact 16 t = owns (c : Thread nD τ) (ms0_16 t) fullShare ((dats m 0 c).after 16 t) from by
    unfold Dat.leavesExact; rfl, after0_16]
  rw [show (dats m 0 c).leavesExact 17 t = owns (c : Thread nD τ) (ms0_17 t) fullShare ((dats m 0 c).after 17 t) from by
    unfold Dat.leavesExact; rfl, after0_17]
  rw [show (dats m 0 c).leavesExact 18 t = owns (c : Thread nD τ) (ms0_18 t) fullShare ((dats m 0 c).after 18 t) from by
    unfold Dat.leavesExact; rfl, after0_18]
  rw [show (dats m 0 c).leavesExact 19 t = owns (c : Thread nD τ) (ms0_19 t) fullShare ((dats m 0 c).after 19 t) from by
    unfold Dat.leavesExact; rfl, after0_19]
  rw [show (dats m 0 c).leavesExact 20 t = owns (c : Thread nD τ) (ms0_20 t) fullShare ((dats m 0 c).after 20 t) from by
    unfold Dat.leavesExact; rfl, after0_20]
  rw [show (dats m 0 c).leavesExact 21 t = owns (c : Thread nD τ) (ms0_21 t) fullShare ((dats m 0 c).after 21 t) from by
    unfold Dat.leavesExact; rfl, after0_21]
  rw [show (dats m 0 c).leavesExact 22 t = owns (c : Thread nD τ) (ms0_22 t) fullShare ((dats m 0 c).after 22 t) from by
    unfold Dat.leavesExact; rw [liveAt0_22 t ((hcond0_1 t).mpr h1)], after0_22]
  rw [outsAt0_C m c t h0 h1]
  unfold out0_C_22 sout0_C_0 sout0_C_1 sout0_C_2; (try dsimp only)
  have hz : t.val ≠ 0 := by intro hz; rw [hz] at h0; exact h0 (Nat.zero_mod _)
  · rw [PhiS_castSucc m c t, PhiS_pos m c _ _ hz]
    iintro ⟨⟨HS0, HS1, HS2, ⟨%ee3, HS3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _ _ _ ee3).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexists _; iexact H22
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, H19, H20, H21, ⟨%e22, H22⟩, ⟨%es0, HS0⟩, ⟨%es1, HS1⟩, ⟨%es2, HS2⟩, ⟨%es3, HS3⟩⟩
    isplitl [HS0 HS1 HS2 HS3]
    ·
      isplitl [HS0]
      · unfold owns; iexists _; isplitr
        swap; · iexact HS0
        ipureintro; exact (View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans (sout0_C_0_indep c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ee3 dflt3)
      isplitl [HS1]
      · unfold owns; iexists _; isplitr
        swap; · iexact HS1
        ipureintro; exact (View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans (sout0_C_1_indep c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ee3 dflt3)
      isplitl [HS2]
      · unfold owns; iexists _; isplitr
        swap; · iexact HS2
        ipureintro; exact (View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans (sout0_C_2_indep c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ee3 dflt3)
      iexists _; unfold owns; iexists _; isplitr
      swap; · iexact HS3
      ipureintro; rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    unfold owns; iexists _; isplitr
    swap; · iexact H22
    ipureintro; exact (View.read_writes_of_cover _ _ _ _ _ (cover0_C_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)).trans (out0_C_22_indep c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ee3 dflt3)

end Cert.KernelIdeal.Hand

end
-- ==== Proof.KI.Body.lean ====
/-
  The body obligation at every point: the point's number mod 4 says whether it is a first, a middle or a last key tile.
-/
import proofs.«116762_j61950608277594_2_alg».proof.Proof.KI.BodyA
import proofs.«116762_j61950608277594_2_alg».proof.Proof.KI.BodyB
import proofs.«116762_j61950608277594_2_alg».proof.Proof.KI.BodyC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · by_cases h1 : t.val % 4 = 3
    · exfalso; omega
    · exact sound_body_A m c t h0 h1
  · by_cases h1 : t.val % 4 = 3
    · exact sound_body_C m c t h0 h1
    · exact sound_body_B m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Launch.lean ====
/-
  The launch. The node-feature array is handed to the kernel through two windows; its full share is split into a left and a
  right half, one per window (both only read it). The kernel names no semaphore of its own, so the launch is the
  library's for such kernels with shared arrays; its post gives every window's array at what the proof data computes
  and every other unscoped buffer as the region found it, from which the frame claim follows: the inputs are never
  written back, and the one buffer no window stages (the area matrix before its reshape) is untouched.
-/
import proofs.«116762_j61950608277594_2_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays behind the windows, each once. -/
theorem arrImage0 : Finset.univ.image (Pipeline.arrRef spec0) = ([main_arg0, main_v0, main_arg2, main_arg3, main_arg4, main_arg5, main_arg6, main_arg7, main_arg8, main_arg9, main_arg10, main_arg11, main_arg12, main_arg13, main_arg14, main_arg15, main_arg16, main_arg17, main_arg18, main_arg19, main_arg20, main_v1] : List (Ref sig .tc)).toFinset := by decide

/-- The pipeline's arrays, window by window, each a whole buffer at its window's share. -/
theorem arrays_eq0 (c : Dev nD) (G : (w : Fin cfg0.W) → Buf (Elt F) ((cfg0.win w).arr.view.loc (c.tc : Thread nD τ))) :
    (dats m 0 c).arrays G = bigSep Finset.univ fun w : Fin 23 => ((((c.tc : Thread nD τ).loc (Pipeline.arrRef spec0 w)) ↦{(dats m 0 c).share w} G w : sProp 𝕄)) := by
  unfold Dat.arrays
  exact bigSep_congr fun w _ => by rw [(arr_whole0 w).set_eq_univ]

set_option maxHeartbeats 4000000 in
/-- What the launch holds of the arrays, each whole at the full share, makes the proof data's arrays at entry: the
    node-feature array's share split between its two windows. -/
theorem hsplit (c : Dev nD) :
    (Pipeline.arrBufs spec0 c (V m c) : sProp 𝕄) ⊢ (dats m 0 c).arrays ((dats m 0 c).arrAt · 0) := by
  rw [arrays_eq0, bigSep_W0]
  unfold Pipeline.arrBufs
  rw [bigSep_eq_bigSepL_of_eq _ arrImage0 (by decide)]
  simp only [bigSepL_cons_cons, bigSepL_singleton]
  refine (show (iprop((((c.tc : Thread nD τ).loc main_arg0) ↦{fullShare} V m c main_arg0) ∗ (((c.tc : Thread nD τ).loc main_v0) ↦{fullShare} V m c main_v0) ∗ (((c.tc : Thread nD τ).loc main_arg2) ↦{fullShare} V m c main_arg2) ∗ (((c.tc : Thread nD τ).loc main_arg3) ↦{fullShare} V m c main_arg3) ∗ (((c.tc : Thread nD τ).loc main_arg4) ↦{fullShare} V m c main_arg4) ∗ (((c.tc : Thread nD τ).loc main_arg5) ↦{fullShare} V m c main_arg5) ∗ (((c.tc : Thread nD τ).loc main_arg6) ↦{fullShare} V m c main_arg6) ∗ (((c.tc : Thread nD τ).loc main_arg7) ↦{fullShare} V m c main_arg7) ∗ (((c.tc : Thread nD τ).loc main_arg8) ↦{fullShare} V m c main_arg8) ∗ (((c.tc : Thread nD τ).loc main_arg9) ↦{fullShare} V m c main_arg9) ∗ (((c.tc : Thread nD τ).loc main_arg10) ↦{fullShare} V m c main_arg10) ∗ (((c.tc : Thread nD τ).loc main_arg11) ↦{fullShare} V m c main_arg11) ∗ (((c.tc : Thread nD τ).loc main_arg12) ↦{fullShare} V m c main_arg12) ∗ (((c.tc : Thread nD τ).loc main_arg13) ↦{fullShare} V m c main_arg13) ∗ (((c.tc : Thread nD τ).loc main_arg14) ↦{fullShare} V m c main_arg14) ∗ (((c.tc : Thread nD τ).loc main_arg15) ↦{fullShare} V m c main_arg15) ∗ (((c.tc : Thread nD τ).loc main_arg16) ↦{fullShare} V m c main_arg16) ∗ (((c.tc : Thread nD τ).loc main_arg17) ↦{fullShare} V m c main_arg17) ∗ (((c.tc : Thread nD τ).loc main_arg18) ↦{fullShare} V m c main_arg18) ∗ (((c.tc : Thread nD τ).loc main_arg19) ↦{fullShare} V m c main_arg19) ∗ (((c.tc : Thread nD τ).loc main_arg20) ↦{fullShare} V m c main_arg20) ∗ (((c.tc : Thread nD τ).loc main_v1) ↦{fullShare} V m c main_v1)) : sProp 𝕄) ⊢ _ from ?_)
  iintro ⟨H_main_arg0, H_main_v0, H_main_arg2, H_main_arg3, H_main_arg4, H_main_arg5, H_main_arg6, H_main_arg7, H_main_arg8, H_main_arg9, H_main_arg10, H_main_arg11, H_main_arg12, H_main_arg13, H_main_arg14, H_main_arg15, H_main_arg16, H_main_arg17, H_main_arg18, H_main_arg19, H_main_arg20, H_main_v1⟩
  ihave Hab := (pointsTo_share (PosShare.mem_left_op_right fullShare)).1 $$ H_main_arg0
  icases Hab with ⟨Ha, Hb⟩
  isplitl [Ha]; · iexact Ha
  isplitl [Hb]; · iexact Hb
  isplitl [H_main_v0]; · iexact H_main_v0
  isplitl [H_main_arg2]; · iexact H_main_arg2
  isplitl [H_main_arg3]; · iexact H_main_arg3
  isplitl [H_main_arg4]; · iexact H_main_arg4
  isplitl [H_main_arg5]; · iexact H_main_arg5
  isplitl [H_main_arg6]; · iexact H_main_arg6
  isplitl [H_main_arg7]; · iexact H_main_arg7
  isplitl [H_main_arg8]; · iexact H_main_arg8
  isplitl [H_main_arg9]; · iexact H_main_arg9
  isplitl [H_main_arg10]; · iexact H_main_arg10
  isplitl [H_main_arg11]; · iexact H_main_arg11
  isplitl [H_main_arg12]; · iexact H_main_arg12
  isplitl [H_main_arg13]; · iexact H_main_arg13
  isplitl [H_main_arg14]; · iexact H_main_arg14
  isplitl [H_main_arg15]; · iexact H_main_arg15
  isplitl [H_main_arg16]; · iexact H_main_arg16
  isplitl [H_main_arg17]; · iexact H_main_arg17
  isplitl [H_main_arg18]; · iexact H_main_arg18
  isplitl [H_main_arg19]; · iexact H_main_arg19
  isplitl [H_main_arg20]; · iexact H_main_arg20
  iexact H_main_v1

/-- The rounds library's launch element. -/
def u₀ : UR sig nD τ := initOf (Pipeline.cells cfgs cellOf_inj) (Pipeline.launchToks cfgs cellOf_inj)

abbrev EP : Emb (UR sig nD τ) (MT nD τ sig Unit (Elt F) ℕ (UR sig nD τ) ℕ) := emb₁

theorem hin (c : Dev nD) : iprop((iprop(emp) : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl, PhiAny_eq]
  iintro ⟨-, H⟩; iexact H

/-- After any point the invariant gives the scratch buffers back at some contents: the carried contents are forgotten. -/
theorem Phi_out (c : Dev nD) (t : Fin (cfg0.N + 1)) (ht : t.val ≠ 0) :
    (dats m 0 c).Φ t ⊢ iprop((iprop(emp) : sProp 𝕄) ∗ Pipeline.scopedRest (Ix := Unit) (Name := ℕ) (U := UR sig nD τ) (Lvl := ℕ) (Val := Elt F) spec0 c) := by
  rw [show (dats m 0 c).Φ t = PhiS m c t.val (Nat.le_of_lt_succ t.isLt) from rfl, PhiS_pos m c _ _ ht, PhiAny_eq]
  iintro ⟨HS0, HS1, HS2, HS3⟩
  isplitr; · iempintro
  isplitl [HS0]; · iexists _; iexact HS0
  isplitl [HS1]; · iexists _; iexact HS1
  isplitl [HS2]; · iexists _; iexact HS2
  iexact HS3

theorem hout (c : Dev nD) : (dats m 0 c).Φ (Fin.last cfg0.N) ⊢ iprop((iprop(emp) : sProp 𝕄) ∗ Pipeline.scopedRest (Ix := Unit) (Name := ℕ) (U := UR sig nD τ) (Lvl := ℕ) (Val := Elt F) spec0 c) :=
  Phi_out m c _ (by rw [Fin.val_last]; have : cfg0.N = 256 := N_0; omega)

set_option maxHeartbeats 8000000 in
set_option backward.isDefEq.respectTransparency.types false in
/-- At the compiled mesh, from any memory with zero counters: every weakly fair execution of @main on the TensorCores
    terminates, every window's array ends at what the proof data computes and every other unscoped buffer as the
    region found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0) (howed := fun _ _ => rfl)
    (u₀ := u₀) (hu₀ := BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

set_option maxHeartbeats 8000000 in
/-- What the run's post says of the argument arrays: a staged input is never written back, and the one buffer no
    window stages (the area matrix before its reshape) is as the region found it: each ends as launched. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)
      ∧       r.2.mem ((c.tc : Thread nD τ).loc main_arg16) = m ((c.tc : Thread nD τ).loc main_arg16)
      ∧       r.2.mem ((c.tc : Thread nD τ).loc main_arg17) = m ((c.tc : Thread nD τ).loc main_arg17)
      ∧       r.2.mem ((c.tc : Thread nD τ).loc main_arg18) = m ((c.tc : Thread nD τ).loc main_arg18)
      ∧       r.2.mem ((c.tc : Thread nD τ).loc main_arg19) = m ((c.tc : Thread nD τ).loc main_arg19)
      ∧       r.2.mem ((c.tc : Thread nD τ).loc main_arg20) = m ((c.tc : Thread nD τ).loc main_arg20) :=
  ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c))),
      ((h c).1 8).trans (((dats m 0 c).arrAt_in 8 rfl _).trans ((A_eq m c 8).trans (V_main_arg7 m c))),
      ((h c).1 9).trans (((dats m 0 c).arrAt_in 9 rfl _).trans ((A_eq m c 9).trans (V_main_arg8 m c))),
      ((h c).1 10).trans (((dats m 0 c).arrAt_in 10 rfl _).trans ((A_eq m c 10).trans (V_main_arg9 m c))),
      ((h c).1 11).trans (((dats m 0 c).arrAt_in 11 rfl _).trans ((A_eq m c 11).trans (V_main_arg10 m c))),
      ((h c).1 12).trans (((dats m 0 c).arrAt_in 12 rfl _).trans ((A_eq m c 12).trans (V_main_arg11 m c))),
      ((h c).1 13).trans (((dats m 0 c).arrAt_in 13 rfl _).trans ((A_eq m c 13).trans (V_main_arg12 m c))),
      ((h c).1 14).trans (((dats m 0 c).arrAt_in 14 rfl _).trans ((A_eq m c 14).trans (V_main_arg13 m c))),
      ((h c).1 15).trans (((dats m 0 c).arrAt_in 15 rfl _).trans ((A_eq m c 15).trans (V_main_arg14 m c))),
      ((h c).1 16).trans (((dats m 0 c).arrAt_in 16 rfl _).trans ((A_eq m c 16).trans (V_main_arg15 m c))),
      ((h c).1 17).trans (((dats m 0 c).arrAt_in 17 rfl _).trans ((A_eq m c 17).trans (V_main_arg16 m c))),
      ((h c).1 18).trans (((dats m 0 c).arrAt_in 18 rfl _).trans ((A_eq m c 18).trans (V_main_arg17 m c))),
      ((h c).1 19).trans (((dats m 0 c).arrAt_in 19 rfl _).trans ((A_eq m c 19).trans (V_main_arg18 m c))),
      ((h c).1 20).trans (((dats m 0 c).arrAt_in 20 rfl _).trans ((A_eq m c 20).trans (V_main_arg19 m c))),
      ((h c).1 21).trans (((dats m 0 c).arrAt_in 21 rfl _).trans ((A_eq m c 21).trans (V_main_arg20 m c)))⟩

/-- THE FRAME: the program runs to the end, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)
      ∧       r.2.mem ((c.tc : Thread nD τ).loc main_arg16) = m ((c.tc : Thread nD τ).loc main_arg16)
      ∧       r.2.mem ((c.tc : Thread nD τ).loc main_arg17) = m ((c.tc : Thread nD τ).loc main_arg17)
      ∧       r.2.mem ((c.tc : Thread nD τ).loc main_arg18) = m ((c.tc : Thread nD τ).loc main_arg18)
      ∧       r.2.mem ((c.tc : Thread nD τ).loc main_arg19) = m ((c.tc : Thread nD τ).loc main_arg19)
      ∧       r.2.mem ((c.tc : Thread nD τ).loc main_arg20) = m ((c.tc : Thread nD τ).loc main_arg20)) :=
  (θ_run defs _ _).mono (fun r h c => args_kept m r h c) (run_main m ρ)

end Cert.KernelIdeal.Hand

end
-- ==== Proof.KI.Blocks.lean ====
/-
  From blocks to arrays for the attention kernel's grid of 4 batches × 16 query tiles × 4 key tiles (256 points,
  the key tile innermost): which block of which array each window holds at a point, read at literal coordinates.
  The query tile of x is rows 32·q … 32·q+31 of batch b, the key tile rows 128·k … 128·k+127 of the same batch,
  the area tile the same rows as the query tile, the co-occurrence tile rows 32·q … × columns 128·k …; the
  eighteen parameter windows hold their whole arrays; the output tile is rows 32·q … of batch b, written back at the
  last key tile, and the sixteen × four output tiles cover the output array.
-/
import proofs.«116762_j61950608277594_2_alg».proof.Proof.KI.Base
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ)

/-! ## The grid's coordinates and the index maps -/

/-- The batch coordinate of grid point t. -/
abbrev bt (t : Fin cfg0.N) : Fin 4 := (grid0.coords t) 0
/-- The query-tile coordinate of grid point t. -/
abbrev qt (t : Fin cfg0.N) : Fin 16 := (grid0.coords t) 1
/-- The key-tile coordinate of grid point t. -/
abbrev kt (t : Fin cfg0.N) : Fin 4 := (grid0.coords t) 2

/-- The coordinates from the point's number: t = (b·16 + q)·4 + k. -/
theorem coords_val : ∀ t : Fin cfg0.N, (bt t).val = t.val / 64 ∧ (qt t).val = t.val / 4 % 16 ∧ (kt t).val = t.val % 4 :=
  (by decide +kernel : ∀ t : Fin grid0.N, _)

/-- The printed index maps of the five moving windows, decided over the grid: the query tile, the area tile and
    the output tile sit at (b, q, 0), the key tile at (b, k, 0), the co-occurrence tile at (q, k). -/
theorem idx_facts : ∀ t : Fin cfg0.N,
    win0_0.index t (0 : Fin 3) = (bt t).val ∧ win0_0.index t (1 : Fin 3) = (qt t).val ∧ win0_0.index t (2 : Fin 3) = 0
    ∧ win0_1.index t (0 : Fin 3) = (bt t).val ∧ win0_1.index t (1 : Fin 3) = (kt t).val ∧ win0_1.index t (2 : Fin 3) = 0
    ∧ win0_2.index t (0 : Fin 3) = (bt t).val ∧ win0_2.index t (1 : Fin 3) = (qt t).val ∧ win0_2.index t (2 : Fin 3) = 0
    ∧ win0_3.index t (0 : Fin 2) = (qt t).val ∧ win0_3.index t (1 : Fin 2) = (kt t).val
    ∧ win0_22.index t (0 : Fin 3) = (bt t).val ∧ win0_22.index t (1 : Fin 3) = (qt t).val ∧ win0_22.index t (2 : Fin 3) = 0 :=
  (by decide +kernel : ∀ t : Fin grid0.N, _)

/-- Row 32·q + r of a 512-row array, for a query-tile coordinate q and a row r of the tile. -/
abbrev qrow (t : Fin cfg0.N) (r : Fin 32) : Fin 512 :=
  ⟨(qt t).val * 32 + r.val, by have := (qt t).isLt; have := r.isLt; omega⟩
/-- Row 128·k + c of a 512-row array, for a key-tile coordinate k and a row c of the tile. -/
abbrev krow (t : Fin cfg0.N) (cc : Fin 128) : Fin 512 :=
  ⟨(kt t).val * 128 + cc.val, by have := (kt t).isLt; have := cc.isLt; omega⟩

/-! ## The moving input windows read at an entry -/

/-- The query tile: entry (0, r, d) is x[b, 32·q + r, d]. -/
theorem iblk0_apply (c : Dev nD) (t : Fin cfg0.N) (r : Fin 32) (d : Fin 256) :
    iblk m c 0 t (ix3 (0 : Fin 1) r d) = V m c main_arg0 (ix3 (bt t) (qrow t r) d) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = (bt t).val; omega
  | ⟨1, _⟩ => show win0_0.index t (1 : Fin 3) * 32 + 1 * r.val = (qt t).val * 32 + r.val; omega
  | ⟨2, _⟩ => show win0_0.index t (2 : Fin 3) * 256 + 1 * d.val = d.val; omega

/-- The key tile: entry (0, c, d) is x[b, 128·k + c, d]. -/
theorem iblk1_apply (c : Dev nD) (t : Fin cfg0.N) (cc : Fin 128) (d : Fin 256) :
    iblk m c 1 t (ix3 (0 : Fin 1) cc d) = V m c main_arg0 (ix3 (bt t) (krow t cc) d) := by
  obtain ⟨-, -, -, e0, e1, e2, -⟩ := idx_facts t
  unfold iblk
  rw [View.read_apply]
  show V m c main_arg0 _ = V m c main_arg0 _
  congr 1
  funext a
  apply Fin.ext
  match a with
  | ⟨0, _⟩ => show win0_1.index t (0 : Fin 3) * 1 + 1 * 0 = (bt t).val; omega
  | ⟨1, _⟩ => show win0_1.index t (1 : Fin 3) * 128 + 1 * cc.val = (kt t).val * 128 + cc.val; omega
  | ⟨2, _⟩ => show win0_1.index t (2 : Fin 3) * 256 + 1 * d.val = d.val; omega

/-- The area tile: entry (0, r, 0) is the area array with its trailing unit axis at (b, 32·q + r, 0). -/
theorem iblk2_apply (c : Dev nD) (t : Fin cfg0.N) (r : Fin 32) :
    iblk m c 2 t (ix3 (0 : Fin 1) r (0 : Fin 1)) = V m c main_v0 (ix3 (bt t) (qrow t r) (0 : Fin 1)) := by
  obtain ⟨-, -, -, -, -, -, e0, e1, e2, -⟩ := idx_facts t
  unfold iblk
  rw [View.read_apply]
  show V m c main_v0 _ = V m c main_v0 _
  congr 1
  funext a
  apply Fin.ext
  match a with
  | ⟨0, _⟩ => show win0_2.index t (0 : Fin 3) * 1 + 1 * 0 = (bt t).val; omega
  | ⟨1, _⟩ => show win0_2.index t (1 : Fin 3) * 32 + 1 * r.val = (qt t).val * 32 + r.val; omega
  | ⟨2, _⟩ => show win0_2.index t (2 : Fin 3) * 1 + 1 * 0 = 0; omega

/-- The area array as the region finds it: the area matrix with a trailing unit axis. -/
theorem V_main_v0_apply (c : Dev nD) (b : Fin 4) (n : Fin 512) (u : Fin 1) :
    V m c main_v0 (ix3 b n u) = m ((c : Thread nD τ).loc main_arg1) (ix2 b n) := by
  have e : (V m c main_v0 : S4x512x1.Idx → Elt F .f32)
      = broadcastInDim S4x512x1 ![0, 1] bcast_S4x512_S4x512x1_0_1 (m ((c : Thread nD τ).loc main_arg1)) := by
    dsimp only [V, hostOps0]; after_results
  refine (congrFun e (ix3 b n u)).trans ?_
  refine broadcastInDim_apply _ _ _ (ix3 b n u) (ix2 b n) fun a => ?_
  match a with
  | ⟨0, _⟩ => rfl
  | ⟨1, _⟩ => rfl

/-- The area tile read through to the area matrix: entry (0, r, 0) is area[b, 32·q + r]. -/
theorem iblk2_area (c : Dev nD) (t : Fin cfg0.N) (r : Fin 32) :
    iblk m c 2 t (ix3 (0 : Fin 1) r (0 : Fin 1)) = m ((c : Thread nD τ).loc main_arg1) (ix2 (bt t) (qrow t r)) :=
  (iblk2_apply m c t r).trans (V_main_v0_apply m c (bt t) (qrow t r) 0)

/-- The co-occurrence tile: entry (r, c) is co[32·q + r, 128·k + c]. -/
theorem iblk3_apply (c : Dev nD) (t : Fin cfg0.N) (r : Fin 32) (cc : Fin 128) :
    iblk m c 3 t (ix2 r cc) = V m c main_arg2 (ix2 (qrow t r) (krow t cc)) := by
  obtain ⟨-, -, -, -, -, -, -, -, -, e0, e1, -⟩ := idx_facts t
  unfold iblk
  rw [View.read_apply]
  show V m c main_arg2 _ = V m c main_arg2 _
  congr 1
  funext a
  apply Fin.ext
  match a with
  | ⟨0, _⟩ => show win0_3.index t (0 : Fin 2) * 32 + 1 * r.val = (qt t).val * 32 + r.val; omega
  | ⟨1, _⟩ => show win0_3.index t (1 : Fin 2) * 128 + 1 * cc.val = (kt t).val * 128 + cc.val; omega

/-! ## The parameter windows: whole arrays -/

/-- Window 4 (Wq) is the whole array at every point. -/
theorem iblk4_eq (c : Dev nD) (t : Fin cfg0.N) : (iblk m c 4 t : S256x256.Idx → Elt F .f32) = V m c main_arg3 := by
  funext y
  unfold iblk
  rw [View.read_apply]
  show V m c main_arg3 _ = V m c main_arg3 y
  congr 1
  funext a
  apply Fin.ext
  match a with
  | ⟨0, _⟩ => show win0_4.index t (0 : Fin 2) * 256 + 1 * (y 0).val = (y 0).val; rw [show win0_4.index t (0 : Fin 2) = 0 from rfl]; omega
  | ⟨1, _⟩ => show win0_4.index t (1 : Fin 2) * 256 + 1 * (y 1).val = (y 1).val; rw [show win0_4.index t (1 : Fin 2) = 0 from rfl]; omega

/-- Window 5 (bq) is the whole array at every point. -/
theorem iblk5_eq (c : Dev nD) (t : Fin cfg0.N) : (iblk m c 5 t : S256.Idx → Elt F .f32) = V m c main_arg4 := by
  funext y
  unfold iblk
  rw [View.read_apply]
  show V m c main_arg4 _ = V m c main_arg4 y
  congr 1
  funext a
  apply Fin.ext
  match a with
  | ⟨0, _⟩ => show win0_5.index t (0 : Fin 1) * 256 + 1 * (y 0).val = (y 0).val; rw [show win0_5.index t (0 : Fin 1) = 0 from rfl]; omega

/-- Window 6 (Wk) is the whole array at every point. -/
theorem iblk6_eq (c : Dev nD) (t : Fin cfg0.N) : (iblk m c 6 t : S256x256.Idx → Elt F .f32) = V m c main_arg5 := by
  funext y
  unfold iblk
  rw [View.read_apply]
  show V m c main_arg5 _ = V m c main_arg5 y
  congr 1
  funext a
  apply Fin.ext
  match a with
  | ⟨0, _⟩ => show win0_6.index t (0 : Fin 2) * 256 + 1 * (y 0).val = (y 0).val; rw [show win0_6.index t (0 : Fin 2) = 0 from rfl]; omega
  | ⟨1, _⟩ => show win0_6.index t (1 : Fin 2) * 256 + 1 * (y 1).val = (y 1).val; rw [show win0_6.index t (1 : Fin 2) = 0 from rfl]; omega

/-- Window 7 (bk) is the whole array at every point. -/
theorem iblk7_eq (c : Dev nD) (t : Fin cfg0.N) : (iblk m c 7 t : S256.Idx → Elt F .f32) = V m c main_arg6 := by
  funext y
  unfold iblk
  rw [View.read_apply]
  show V m c main_arg6 _ = V m c main_arg6 y
  congr 1
  funext a
  apply Fin.ext
  match a with
  | ⟨0, _⟩ => show win0_7.index t (0 : Fin 1) * 256 + 1 * (y 0).val = (y 0).val; rw [show win0_7.index t (0 : Fin 1) = 0 from rfl]; omega

/-- Window 8 (Wv) is the whole array at every point. -/
theorem iblk8_eq (c : Dev nD) (t : Fin cfg0.N) : (iblk m c 8 t : S256x256.Idx → Elt F .f32) = V m c main_arg7 := by
  funext y
  unfold iblk
  rw [View.read_apply]
  show V m c main_arg7 _ = V m c main_arg7 y
  congr 1
  funext a
  apply Fin.ext
  match a with
  | ⟨0, _⟩ => show win0_8.index t (0 : Fin 2) * 256 + 1 * (y 0).val = (y 0).val; rw [show win0_8.index t (0 : Fin 2) = 0 from rfl]; omega
  | ⟨1, _⟩ => show win0_8.index t (1 : Fin 2) * 256 + 1 * (y 1).val = (y 1).val; rw [show win0_8.index t (1 : Fin 2) = 0 from rfl]; omega

/-- Window 9 (bv) is the whole array at every point. -/
theorem iblk9_eq (c : Dev nD) (t : Fin cfg0.N) : (iblk m c 9 t : S256.Idx → Elt F .f32) = V m c main_arg8 := by
  funext y
  unfold iblk
  rw [View.read_apply]
  show V m c main_arg8 _ = V m c main_arg8 y
  congr 1
  funext a
  apply Fin.ext
  match a with
  | ⟨0, _⟩ => show win0_9.index t (0 : Fin 1) * 256 + 1 * (y 0).val = (y 0).val; rw [show win0_9.index t (0 : Fin 1) = 0 from rfl]; omega

/-- Window 10 (We1) is the whole array at every point. -/
theorem iblk10_eq (c : Dev nD) (t : Fin cfg0.N) : (iblk m c 10 t : S256x2.Idx → Elt F .f32) = V m c main_arg9 := by
  funext y
  unfold iblk
  rw [View.read_apply]
  show V m c main_arg9 _ = V m c main_arg9 y
  congr 1
  funext a
  apply Fin.ext
  match a with
  | ⟨0, _⟩ => show win0_10.index t (0 : Fin 2) * 256 + 1 * (y 0).val = (y 0).val; rw [show win0_10.index t (0 : Fin 2) = 0 from rfl]; omega
  | ⟨1, _⟩ => show win0_10.index t (1 : Fin 2) * 2 + 1 * (y 1).val = (y 1).val; rw [show win0_10.index t (1 : Fin 2) = 0 from rfl]; omega

/-- Window 11 (be1) is the whole array at every point. -/
theorem iblk11_eq (c : Dev nD) (t : Fin cfg0.N) : (iblk m c 11 t : S256.Idx → Elt F .f32) = V m c main_arg10 := by
  funext y
  unfold iblk
  rw [View.read_apply]
  show V m c main_arg10 _ = V m c main_arg10 y
  congr 1
  funext a
  apply Fin.ext
  match a with
  | ⟨0, _⟩ => show win0_11.index t (0 : Fin 1) * 256 + 1 * (y 0).val = (y 0).val; rw [show win0_11.index t (0 : Fin 1) = 0 from rfl]; omega

/-- Window 12 (We2) is the whole array at every point. -/
theorem iblk12_eq (c : Dev nD) (t : Fin cfg0.N) : (iblk m c 12 t : S1x256.Idx → Elt F .f32) = V m c main_arg11 := by
  funext y
  unfold iblk
  rw [View.read_apply]
  show V m c main_arg11 _ = V m c main_arg11 y
  congr 1
  funext a
  apply Fin.ext
  match a with
  | ⟨0, _⟩ => show win0_12.index t (0 : Fin 2) * 1 + 1 * (y 0).val = (y 0).val; rw [show win0_12.index t (0 : Fin 2) = 0 from rfl]; omega
  | ⟨1, _⟩ => show win0_12.index t (1 : Fin 2) * 256 + 1 * (y 1).val = (y 1).val; rw [show win0_12.index t (1 : Fin 2) = 0 from rfl]; omega

/-- Window 13 (be2) is the whole array at every point. -/
theorem iblk13_eq (c : Dev nD) (t : Fin cfg0.N) : (iblk m c 13 t : S1.Idx → Elt F .f32) = V m c main_arg12 := by
  funext y
  unfold iblk
  rw [View.read_apply]
  show V m c main_arg12 _ = V m c main_arg12 y
  congr 1
  funext a
  apply Fin.ext
  match a with
  | ⟨0, _⟩ => show win0_13.index t (0 : Fin 1) * 1 + 1 * (y 0).val = (y 0).val; rw [show win0_13.index t (0 : Fin 1) = 0 from rfl]; omega

/-- Window 14 (Wo) is the whole array at every point. -/
theorem iblk14_eq (c : Dev nD) (t : Fin cfg0.N) : (iblk m c 14 t : S256x256.Idx → Elt F .f32) = V m c main_arg13 := by
  funext y
  unfold iblk
  rw [View.read_apply]
  show V m c main_arg13 _ = V m c main_arg13 y
  congr 1
  funext a
  apply Fin.ext
  match a with
  | ⟨0, _⟩ => show win0_14.index t (0 : Fin 2) * 256 + 1 * (y 0).val = (y 0).val; rw [show win0_14.index t (0 : Fin 2) = 0 from rfl]; omega
  | ⟨1, _⟩ => show win0_14.index t (1 : Fin 2) * 256 + 1 * (y 1).val = (y 1).val; rw [show win0_14.index t (1 : Fin 2) = 0 from rfl]; omega

/-- Window 15 (bo) is the whole array at every point. -/
theorem iblk15_eq (c : Dev nD) (t : Fin cfg0.N) : (iblk m c 15 t : S256.Idx → Elt F .f32) = V m c main_arg14 := by
  funext y
  unfold iblk
  rw [View.read_apply]
  show V m c main_arg14 _ = V m c main_arg14 y
  congr 1
  funext a
  apply Fin.ext
  match a with
  | ⟨0, _⟩ => show win0_15.index t (0 : Fin 1) * 256 + 1 * (y 0).val = (y 0).val; rw [show win0_15.index t (0 : Fin 1) = 0 from rfl]; omega

/-- Window 16 (the gain after the projection) is the whole array at every point. -/
theorem iblk16_eq (c : Dev nD) (t : Fin cfg0.N) : (iblk m c 16 t : S256.Idx → Elt F .f32) = V m c main_arg15 := by
  funext y
  unfold iblk
  rw [View.read_apply]
  show V m c main_arg15 _ = V m c main_arg15 y
  congr 1
  funext a
  apply Fin.ext
  match a with
  | ⟨0, _⟩ => show win0_16.index t (0 : Fin 1) * 256 + 1 * (y 0).val = (y 0).val; rw [show win0_16.index t (0 : Fin 1) = 0 from rfl]; omega

/-- Window 17 (the shift after the projection) is the whole array at every point. -/
theorem iblk17_eq (c : Dev nD) (t : Fin cfg0.N) : (iblk m c 17 t : S256.Idx → Elt F .f32) = V m c main_arg16 := by
  funext y
  unfold iblk
  rw [View.read_apply]
  show V m c main_arg16 _ = V m c main_arg16 y
  congr 1
  funext a
  apply Fin.ext
  match a with
  | ⟨0, _⟩ => show win0_17.index t (0 : Fin 1) * 256 + 1 * (y 0).val = (y 0).val; rw [show win0_17.index t (0 : Fin 1) = 0 from rfl]; omega

/-- Window 18 (the first layer norm's gain) is the whole array at every point. -/
theorem iblk18_eq (c : Dev nD) (t : Fin cfg0.N) : (iblk m c 18 t : S256.Idx → Elt F .f32) = V m c main_arg17 := by
  funext y
  unfold iblk
  rw [View.read_apply]
  show V m c main_arg17 _ = V m c main_arg17 y
  congr 1
  funext a
  apply Fin.ext
  match a with
  | ⟨0, _⟩ => show win0_18.index t (0 : Fin 1) * 256 + 1 * (y 0).val = (y 0).val; rw [show win0_18.index t (0 : Fin 1) = 0 from rfl]; omega

/-- Window 19 (the first layer norm's shift) is the whole array at every point. -/
theorem iblk19_eq (c : Dev nD) (t : Fin cfg0.N) : (iblk m c 19 t : S256.Idx → Elt F .f32) = V m c main_arg18 := by
  funext y
  unfold iblk
  rw [View.read_apply]
  show V m c main_arg18 _ = V m c main_arg18 y
  congr 1
  funext a
  apply Fin.ext
  match a with
  | ⟨0, _⟩ => show win0_19.index t (0 : Fin 1) * 256 + 1 * (y 0).val = (y 0).val; rw [show win0_19.index t (0 : Fin 1) = 0 from rfl]; omega

/-- Window 20 (the last layer norm's gain) is the whole array at every point. -/
theorem iblk20_eq (c : Dev nD) (t : Fin cfg0.N) : (iblk m c 20 t : S256.Idx → Elt F .f32) = V m c main_arg19 := by
  funext y
  unfold iblk
  rw [View.read_apply]
  show V m c main_arg19 _ = V m c main_arg19 y
  congr 1
  funext a
  apply Fin.ext
  match a with
  | ⟨0, _⟩ => show win0_20.index t (0 : Fin 1) * 256 + 1 * (y 0).val = (y 0).val; rw [show win0_20.index t (0 : Fin 1) = 0 from rfl]; omega

/-- Window 21 (the last layer norm's shift) is the whole array at every point. -/
theorem iblk21_eq (c : Dev nD) (t : Fin cfg0.N) : (iblk m c 21 t : S256.Idx → Elt F .f32) = V m c main_arg20 := by
  funext y
  unfold iblk
  rw [View.read_apply]
  show V m c main_arg20 _ = V m c main_arg20 y
  congr 1
  funext a
  apply Fin.ext
  match a with
  | ⟨0, _⟩ => show win0_21.index t (0 : Fin 1) * 256 + 1 * (y 0).val = (y 0).val; rw [show win0_21.index t (0 : Fin 1) = 0 from rfl]; omega

/-! ## The output window -/

/-- An index of the output array is in point t's block iff each coordinate is in the block's range on its axis. -/
theorem mem_blk22_axes (t : Fin cfg0.N) (i : S4x512x256.Idx) :
    i ∈ ((cfg0.win 22).blk t).view.set ↔ ∀ a : Fin 3, win0_22.index t a * S1x32x256.size a ≤ (i a).val
      ∧ (i a).val < win0_22.index t a * S1x32x256.size a + S1x32x256.size a := by
  show i ∈ ((View.whole main_v1).slice (win0_22.rect t)).set ↔ _
  rw [View.set_slice_whole, Rect.mem_set_unit]
  exact Iff.rfl

/-- … that is, iff its batch is the point's and its row lies in the point's query tile. -/
theorem mem_blk22 (t : Fin cfg0.N) (i : S4x512x256.Idx) :
    i ∈ ((cfg0.win 22).blk t).view.set ↔ (i 0).val = (bt t).val ∧ (i 1).val / 32 = (qt t).val := by
  rw [mem_blk22_axes]
  obtain ⟨-, -, -, -, -, -, -, -, -, -, -, e0, e1, e2⟩ := idx_facts t
  have h2 : (i 2).val < 256 := (i 2).isLt
  constructor
  · intro h
    have b0 : win0_22.index t (0 : Fin 3) * 1 ≤ (i 0).val ∧ (i 0).val < win0_22.index t (0 : Fin 3) * 1 + 1 := h 0
    have b1 : win0_22.index t (1 : Fin 3) * 32 ≤ (i 1).val ∧ (i 1).val < win0_22.index t (1 : Fin 3) * 32 + 32 := h 1
    omega
  · rintro ⟨h0, h1⟩ a
    match a with
    | ⟨0, _⟩ =>
      show win0_22.index t (0 : Fin 3) * 1 ≤ (i 0).val ∧ (i 0).val < win0_22.index t (0 : Fin 3) * 1 + 1
      omega
    | ⟨1, _⟩ =>
      show win0_22.index t (1 : Fin 3) * 32 ≤ (i 1).val ∧ (i 1).val < win0_22.index t (1 : Fin 3) * 32 + 32
      omega
    | ⟨2, _⟩ =>
      show win0_22.index t (2 : Fin 3) * 256 ≤ (i 2).val ∧ (i 2).val < win0_22.index t (2 : Fin 3) * 256 + 256
      omega

/-- The output tile's entry (0, r, h) sits at (b, 32·q + r, h) of the output array. -/
theorem emb_blk22 (t : Fin cfg0.N) (r : Fin 32) (h : Fin 256) :
    ((cfg0.win 22).blk t).view.emb (ix3 (0 : Fin 1) r h) = (ix3 (bt t) (qrow t r) h : S4x512x256.Idx) := by
  obtain ⟨-, -, -, -, -, -, -, -, -, -, -, e0, e1, e2⟩ := idx_facts t
  funext a
  apply Fin.ext
  match a with
  | ⟨0, _⟩ => show win0_22.index t (0 : Fin 3) * 1 + 1 * 0 = (bt t).val; omega
  | ⟨1, _⟩ => show win0_22.index t (1 : Fin 3) * 32 + 1 * r.val = (qt t).val * 32 + r.val; omega
  | ⟨2, _⟩ => show win0_22.index t (2 : Fin 3) * 256 + 1 * h.val = h.val; omega

/-- THE COVER: every entry of the output array lies in the block some point writes back: the point of its batch and
    query tile at the last key tile. -/
theorem cover22 (i : S4x512x256.Idx) :
    ∃ t : Fin cfg0.N, (cfg0.win 22).flush t = true ∧ i ∈ ((cfg0.win 22).blk t).view.set := by
  have h0 : (i 0).val < 4 := (i 0).isLt
  have h1 : (i 1).val < 512 := (i 1).isLt
  obtain ⟨t, ht⟩ : ∃ t : Fin cfg0.N, t.val = ((i 0).val * 16 + (i 1).val / 32) * 4 + 3 :=
    ⟨⟨((i 0).val * 16 + (i 1).val / 32) * 4 + 3, by show _ < grid0.N; rw [N_0]; omega⟩, rfl⟩
  obtain ⟨cb, cq, -⟩ := coords_val t
  refine ⟨t, (flush0_22 t).mpr (by omega), (mem_blk22 t i).mpr ⟨?_, ?_⟩⟩
  · omega
  · omega

end Cert.KernelIdeal.Hand

end
-- ==== Proof.KI.RowInduction.lean ====
/-
  The induction over the four key tiles of one (batch, query tile). The grid runs the key tile innermost, so points
  4p, 4p+1, 4p+2, 4p+3 share their batch and query tile and visit key tiles 0, 1, 2, 3; if the first of them leaves the
  block step from (-∞, 0, 0) and each later one the block step from what the point before left, then the point of key
  tile k leaves the running triple after blocks 0 … k of the row of 512 keys. The maximum and the normaliser do not
  depend on the value column, so the quotient accumulator / normaliser may take them from any column.
-/
import proofs.«116762_j61950608277594_2_alg».proof.Proof.KI.Blocks
import proofs.«116762_j61950608277594_2_alg».proof.Proof.Spec

noncomputable section

namespace Cert.KernelIdeal.Hand

open Cert.KernelIdeal Cert.KernelIdeal.Gen
open Idealize.ShloMosaic

/-! ## The block recurrence, one step at a time -/

/-- The triple after block k+1 is the block step from the triple after block k. -/
theorem blockState_succ (s v : Fin 512 → EReal) (k : ℕ) (h : k + 1 < 4) :
    Spec.blockState s v (k + 1)
      = Spec.blockStep (fun j => s (Spec.at128 ⟨k + 1, h⟩ j)) (fun j => v (Spec.at128 ⟨k + 1, h⟩ j)) (Spec.blockState s v k) := by
  simp only [Spec.blockState, dif_pos h]

/-- The maximum and the normaliser of a block step depend on the scores and on the earlier maximum and normaliser
    only. -/
theorem blockStep_indep {n : ℕ} (s v v' : Fin n → EReal) (st st' : EReal × EReal × EReal) (h1 : st.1 = st'.1)
    (h2 : st.2.1 = st'.2.1) :
    (Spec.blockStep s v st).1 = (Spec.blockStep s v' st').1 ∧ (Spec.blockStep s v st).2.1 = (Spec.blockStep s v' st').2.1 := by
  constructor
  · show max st.1 (Spec.rowMax s) = max st'.1 (Spec.rowMax s)
    rw [h1]
  · show Ideal.exp (st.1 - max st.1 (Spec.rowMax s)) * st.2.1 + ∑ j, Ideal.exp (s j - max st.1 (Spec.rowMax s))
      = Ideal.exp (st'.1 - max st'.1 (Spec.rowMax s)) * st'.2.1 + ∑ j, Ideal.exp (s j - max st'.1 (Spec.rowMax s))
    rw [h1, h2]

/-- The running maximum and normaliser do not depend on the value column. -/
theorem blockState_indep (s v v' : Fin 512 → EReal) (k : ℕ) :
    (Spec.blockState s v k).1 = (Spec.blockState s v' k).1 ∧ (Spec.blockState s v k).2.1 = (Spec.blockState s v' k).2.1 := by
  induction k with
  | zero => exact blockStep_indep _ _ _ _ _ rfl rfl
  | succ k ih =>
    by_cases h : k + 1 < 4
    · rw [blockState_succ s v k h, blockState_succ s v' k h]
      exact blockStep_indep _ _ _ _ _ ih.1 ih.2
    · have e : ∀ w : Fin 512 → EReal, Spec.blockState s w (k + 1) = Spec.blockState s w k := fun w => by
        simp only [Spec.blockState, dif_neg h]
      rw [e v, e v']
      exact ih

/-! ## The grid's four points of one (batch, query tile) -/

/-- The point before t (for a point that is not the first of its four). -/
abbrev prevPt (t : Fin cfg0.N) : Fin cfg0.N := ⟨t.val - 1, by have := t.isLt; omega⟩

/-- The key tile's row c is position (key tile)·128 + c of the row of 512 keys. -/
theorem krow_eq_at128 (t : Fin cfg0.N) (cc : Fin 128) : krow t cc = Spec.at128 (kt t) cc := rfl

section
variable (S : Fin 4 → Fin 512 → Fin 512 → EReal) (W : Fin 4 → Fin 512 → Fin 256 → EReal)
  (mT lT : Fin cfg0.N → Fin 32 → EReal) (accT : Fin cfg0.N → Fin 32 → Fin 256 → EReal)

/-- THE INDUCTION: the point of key tile k leaves the running triple after blocks 0 … k. -/
theorem triple_eq_blockState
    (hA : ∀ t : Fin cfg0.N, t.val % 4 = 0 → ∀ (r : Fin 32) (h : Fin 256), (mT t r, lT t r, accT t r h)
      = Spec.blockStep (fun cc : Fin 128 => S (bt t) (qrow t r) (krow t cc)) (fun cc : Fin 128 => W (bt t) (krow t cc) h)
          (⊥, 0, 0))
    (hB : ∀ t : Fin cfg0.N, t.val % 4 ≠ 0 → ∀ (r : Fin 32) (h : Fin 256), (mT t r, lT t r, accT t r h)
      = Spec.blockStep (fun cc : Fin 128 => S (bt t) (qrow t r) (krow t cc)) (fun cc : Fin 128 => W (bt t) (krow t cc) h)
          (mT (prevPt t) r, lT (prevPt t) r, accT (prevPt t) r h))
    (t : Fin cfg0.N) (r : Fin 32) (h : Fin 256) :
    (mT t r, lT t r, accT t r h)
      = Spec.blockState (fun j => S (bt t) (qrow t r) j) (fun j => W (bt t) j h) (kt t).val := by
  have key : ∀ (k : ℕ) (t : Fin cfg0.N), t.val % 4 = k → ∀ (r : Fin 32) (h : Fin 256),
      (mT t r, lT t r, accT t r h) = Spec.blockState (fun j => S (bt t) (qrow t r) j) (fun j => W (bt t) j h) k := by
    intro k
    induction k with
    | zero =>
      intro t ht r h
      have hkr : ∀ cc : Fin 128, krow t cc = Spec.at128 0 cc := fun cc => Fin.ext (by
        show (kt t).val * 128 + cc.val = 0 * 128 + cc.val
        rw [(coords_val t).2.2, ht])
      rw [hA t ht r h]
      exact congrArg₂ (fun a b => Spec.blockStep a b (⊥, 0, 0))
        (funext fun cc => by rw [hkr cc]) (funext fun cc => by rw [hkr cc])
    | succ k ih =>
      intro t ht r h
      have hk4 : k + 1 < 4 := by have := Nat.mod_lt t.val (show 0 < 4 by omega); omega
      have hne : t.val % 4 ≠ 0 := by omega
      have hkr : ∀ cc : Fin 128, krow t cc = Spec.at128 ⟨k + 1, hk4⟩ cc := fun cc => Fin.ext (by
        show (kt t).val * 128 + cc.val = (k + 1) * 128 + cc.val
        rw [(coords_val t).2.2, ht])
      have hp : (prevPt t).val % 4 = k := by show (t.val - 1) % 4 = k; omega
      have hb : bt (prevPt t) = bt t := Fin.ext (by
        rw [(coords_val (prevPt t)).1, (coords_val t).1]
        show (t.val - 1) / 64 = t.val / 64
        omega)
      have hq : qrow (prevPt t) r = qrow t r := Fin.ext (by
        show (qt (prevPt t)).val * 32 + r.val = (qt t).val * 32 + r.val
        rw [(coords_val (prevPt t)).2.1, (coords_val t).2.1]
        show (t.val - 1) / 4 % 16 * 32 + r.val = t.val / 4 % 16 * 32 + r.val
        omega)
      have e := ih (prevPt t) hp r h
      rw [hb, hq] at e
      rw [hB t hne r h, e, blockState_succ _ _ k hk4]
      exact congrArg₂ (fun a b => Spec.blockStep a b _)
        (funext fun cc => by rw [hkr cc]) (funext fun cc => by rw [hkr cc])
  exact key (kt t).val t (coords_val t).2.2.symm r h

/-- The same from the three components, as the stored maximum, normaliser and accumulator give them. -/
theorem triple_eq_blockState_of_components
    (hA : ∀ t : Fin cfg0.N, t.val % 4 = 0 → ∀ (r : Fin 32) (h : Fin 256),
      mT t r = (Spec.blockStep (fun cc : Fin 128 => S (bt t) (qrow t r) (krow t cc))
          (fun cc : Fin 128 => W (bt t) (krow t cc) h) (⊥, 0, 0)).1
      ∧ lT t r = (Spec.blockStep (fun cc : Fin 128 => S (bt t) (qrow t r) (krow t cc))
          (fun cc : Fin 128 => W (bt t) (krow t cc) h) (⊥, 0, 0)).2.1
      ∧ accT t r h = (Spec.blockStep (fun cc : Fin 128 => S (bt t) (qrow t r) (krow t cc))
          (fun cc : Fin 128 => W (bt t) (krow t cc) h) (⊥, 0, 0)).2.2)
    (hB : ∀ t : Fin cfg0.N, t.val % 4 ≠ 0 → ∀ (r : Fin 32) (h : Fin 256),
      mT t r = (Spec.blockStep (fun cc : Fin 128 => S (bt t) (qrow t r) (krow t cc))
          (fun cc : Fin 128 => W (bt t) (krow t cc) h) (mT (prevPt t) r, lT (prevPt t) r, accT (prevPt t) r h)).1
      ∧ lT t r = (Spec.blockStep (fun cc : Fin 128 => S (bt t) (qrow t r) (krow t cc))
          (fun cc : Fin 128 => W (bt t) (krow t cc) h) (mT (prevPt t) r, lT (prevPt t) r, accT (prevPt t) r h)).2.1
      ∧ accT t r h = (Spec.blockStep (fun cc : Fin 128 => S (bt t) (qrow t r) (krow t cc))
          (fun cc : Fin 128 => W (bt t) (krow t cc) h) (mT (prevPt t) r, lT (prevPt t) r, accT (prevPt t) r h)).2.2)
    (t : Fin cfg0.N) (r : Fin 32) (h : Fin 256) :
    (mT t r, lT t r, accT t r h)
      = Spec.blockState (fun j => S (bt t) (qrow t r) j) (fun j => W (bt t) j h) (kt t).val :=
  triple_eq_blockState S W mT lT accT
    (fun t ht r h => Prod.ext (hA t ht r h).1 (Prod.ext (hA t ht r h).2.1 (hA t ht r h).2.2))
    (fun t ht r h => Prod.ext (hB t ht r h).1 (Prod.ext (hB t ht r h).2.1 (hB t ht r h).2.2))
    t r h

/-- AT THE LAST KEY TILE: accumulator over normaliser is that of the whole row of 512 keys, the normaliser taken
    from any value column. -/
theorem div_at_last
    (hA : ∀ t : Fin cfg0.N, t.val % 4 = 0 → ∀ (r : Fin 32) (h : Fin 256), (mT t r, lT t r, accT t r h)
      = Spec.blockStep (fun cc : Fin 128 => S (bt t) (qrow t r) (krow t cc)) (fun cc : Fin 128 => W (bt t) (krow t cc) h)
          (⊥, 0, 0))
    (hB : ∀ t : Fin cfg0.N, t.val % 4 ≠ 0 → ∀ (r : Fin 32) (h : Fin 256), (mT t r, lT t r, accT t r h)
      = Spec.blockStep (fun cc : Fin 128 => S (bt t) (qrow t r) (krow t cc)) (fun cc : Fin 128 => W (bt t) (krow t cc) h)
          (mT (prevPt t) r, lT (prevPt t) r, accT (prevPt t) r h))
    (t : Fin cfg0.N) (ht : t.val % 4 = 3) (r : Fin 32) (h h' : Fin 256) :
    Ideal.div (accT t r h) (lT t r)
      = Ideal.div (Spec.blockState (fun j => S (bt t) (qrow t r) j) (fun j => W (bt t) j h) 3).2.2
          (Spec.blockState (fun j => S (bt t) (qrow t r) j) (fun j => W (bt t) j h') 3).2.1 := by
  have e := triple_eq_blockState S W mT lT accT hA hB t r h
  rw [(coords_val t).2.2, ht] at e
  have e1 : accT t r h = (Spec.blockState (fun j => S (bt t) (qrow t r) j) (fun j => W (bt t) j h) 3).2.2 :=
    congrArg (fun p : EReal × EReal × EReal => p.2.2) e
  have e2 : lT t r = (Spec.blockState (fun j => S (bt t) (qrow t r) j) (fun j => W (bt t) j h) 3).2.1 :=
    congrArg (fun p : EReal × EReal × EReal => p.2.1) e
  rw [e1, e2, (blockState_indep _ (fun j => W (bt t) j h) (fun j => W (bt t) j h') 3).2]

end

end Cert.KernelIdeal.Hand

end
-- ==== Proof.PayMatmul.lean ====
/-
  The kernel's four matrix products read at an entry: each accumulates into the zero constant and contracts the
  left operand's columns with the right operand's rows, so entry (r, h) is Σ_k L(r,k)·R(k,h) over the extended reals.
-/
import proofs.«116762_j61950608277594_2_alg».proof.Proof.Gen.KernelIdeal.Skeleton
import Idealize.ShloMosaic.Lib.ValueIdx
import Idealize.ShloMosaic.PureOps.Ideal.Laws

noncomputable section

namespace Cert.KernelIdeal.PayValue

open Cert.KernelIdeal Cert.KernelIdeal.Gen Idealize.ShloMosaic Idealize.ShloMosaic.ValueIdx

/-- Row coordinate of the left operand's index in the [32,256]·[256,256] product: the output's row. -/
theorem lhs_row_32x256_256x256 (j : S32x256.Idx) (q : dot_S32x256_S256x256_S32x256_1_0_0_1_n_n.contr.Idx) :
    (dot_S32x256_S256x256_S32x256_1_0_0_1_n_n.lhsIdx j q 0).val = (j 0).val := by
  unfold DotDims.lhsIdx
  rw [dif_neg (show ¬(0 : Fin S32x256.rank) ∈ dot_S32x256_S256x256_S32x256_1_0_0_1_n_n.lhsBatch by decide),
    dif_pos (show (0 : Fin S32x256.rank) ∈ dot_S32x256_S256x256_S32x256_1_0_0_1_n_n.lhsNonContracting by decide)]
  rfl

/-- Column coordinate of the right operand's index in the [32,256]·[256,256] product: the output's column. -/
theorem rhs_col_32x256_256x256 (j : S32x256.Idx) (q : dot_S32x256_S256x256_S32x256_1_0_0_1_n_n.contr.Idx) :
    (dot_S32x256_S256x256_S32x256_1_0_0_1_n_n.rhsIdx j q 1).val = (j 1).val := by
  unfold DotDims.rhsIdx
  rw [dif_neg (show ¬(1 : Fin S256x256.rank) ∈ dot_S32x256_S256x256_S32x256_1_0_0_1_n_n.rhsBatch by decide),
    dif_pos (show (1 : Fin S256x256.rank) ∈ dot_S32x256_S256x256_S32x256_1_0_0_1_n_n.rhsNonContracting by decide)]
  rfl

/-- The [32,256]·[256,256] product into the zero accumulator read at (r, h): Σ_k L(r,k)·R(k,h). -/
theorem matmul_32x256_256x256_apply {φ₁ φ₂ : FTy} (L : FVec Ideal S32x256 φ₁) (R : FVec Ideal S256x256 φ₂) (r : Fin 32) (h : Fin 256) :
    matmul dot_S32x256_S256x256_S32x256_1_0_0_1_n_n none L R (constant (F := Ideal) S32x256 .f32 0x00000000#32) (ix2 r h)
      = ∑ k : Fin 256, L (ix2 r k) * R (ix2 k h) := by
  simp only [matmul]
  rw [Ideal.matmul_constant_zero_apply, ← Equiv.sum_comp (contrEquiv1 dot_S32x256_S256x256_S32x256_1_0_0_1_n_n 256 rfl rfl).symm]
  refine Finset.sum_congr rfl fun k _ => ?_
  have hk := contrEquiv1_symm_val dot_S32x256_S256x256_S32x256_1_0_0_1_n_n 256 rfl rfl k
  have el : dot_S32x256_S256x256_S32x256_1_0_0_1_n_n.lhsIdx (ix2 r h) ((contrEquiv1 dot_S32x256_S256x256_S32x256_1_0_0_1_n_n 256 rfl rfl).symm k) = ix2 r k :=
    funext fun a => Fin.ext (by
      match a with
      | ⟨0, _⟩ => exact lhs_row_32x256_256x256 _ _
      | ⟨1, _⟩ => exact (dot_S32x256_S256x256_S32x256_1_0_0_1_n_n.lhsIdx_val_of_single rfl _ _).trans hk)
  have er : dot_S32x256_S256x256_S32x256_1_0_0_1_n_n.rhsIdx (ix2 r h) ((contrEquiv1 dot_S32x256_S256x256_S32x256_1_0_0_1_n_n 256 rfl rfl).symm k) = ix2 k h :=
    funext fun a => Fin.ext (by
      match a with
      | ⟨0, _⟩ => exact (dot_S32x256_S256x256_S32x256_1_0_0_1_n_n.rhsIdx_val_of_single rfl _ _).trans hk
      | ⟨1, _⟩ => exact rhs_col_32x256_256x256 _ _)
  rw [el, er]

/-- Row coordinate of the left operand's index in the [128,256]·[256,256] product: the output's row. -/
theorem lhs_row_128x256_256x256 (j : S128x256.Idx) (q : dot_S128x256_S256x256_S128x256_1_0_0_1_n_n.contr.Idx) :
    (dot_S128x256_S256x256_S128x256_1_0_0_1_n_n.lhsIdx j q 0).val = (j 0).val := by
  unfold DotDims.lhsIdx
  rw [dif_neg (show ¬(0 : Fin S128x256.rank) ∈ dot_S128x256_S256x256_S128x256_1_0_0_1_n_n.lhsBatch by decide),
    dif_pos (show (0 : Fin S128x256.rank) ∈ dot_S128x256_S256x256_S128x256_1_0_0_1_n_n.lhsNonContracting by decide)]
  rfl

/-- Column coordinate of the right operand's index in the [128,256]·[256,256] product: the output's column. -/
theorem rhs_col_128x256_256x256 (j : S128x256.Idx) (q : dot_S128x256_S256x256_S128x256_1_0_0_1_n_n.contr.Idx) :
    (dot_S128x256_S256x256_S128x256_1_0_0_1_n_n.rhsIdx j q 1).val = (j 1).val := by
  unfold DotDims.rhsIdx
  rw [dif_neg (show ¬(1 : Fin S256x256.rank) ∈ dot_S128x256_S256x256_S128x256_1_0_0_1_n_n.rhsBatch by decide),
    dif_pos (show (1 : Fin S256x256.rank) ∈ dot_S128x256_S256x256_S128x256_1_0_0_1_n_n.rhsNonContracting by decide)]
  rfl

/-- The [128,256]·[256,256] product into the zero accumulator read at (r, h): Σ_k L(r,k)·R(k,h). -/
theorem matmul_128x256_256x256_apply {φ₁ φ₂ : FTy} (L : FVec Ideal S128x256 φ₁) (R : FVec Ideal S256x256 φ₂) (r : Fin 128) (h : Fin 256) :
    matmul dot_S128x256_S256x256_S128x256_1_0_0_1_n_n none L R (constant (F := Ideal) S128x256 .f32 0x00000000#32) (ix2 r h)
      = ∑ k : Fin 256, L (ix2 r k) * R (ix2 k h) := by
  simp only [matmul]
  rw [Ideal.matmul_constant_zero_apply, ← Equiv.sum_comp (contrEquiv1 dot_S128x256_S256x256_S128x256_1_0_0_1_n_n 256 rfl rfl).symm]
  refine Finset.sum_congr rfl fun k _ => ?_
  have hk := contrEquiv1_symm_val dot_S128x256_S256x256_S128x256_1_0_0_1_n_n 256 rfl rfl k
  have el : dot_S128x256_S256x256_S128x256_1_0_0_1_n_n.lhsIdx (ix2 r h) ((contrEquiv1 dot_S128x256_S256x256_S128x256_1_0_0_1_n_n 256 rfl rfl).symm k) = ix2 r k :=
    funext fun a => Fin.ext (by
      match a with
      | ⟨0, _⟩ => exact lhs_row_128x256_256x256 _ _
      | ⟨1, _⟩ => exact (dot_S128x256_S256x256_S128x256_1_0_0_1_n_n.lhsIdx_val_of_single rfl _ _).trans hk)
  have er : dot_S128x256_S256x256_S128x256_1_0_0_1_n_n.rhsIdx (ix2 r h) ((contrEquiv1 dot_S128x256_S256x256_S128x256_1_0_0_1_n_n 256 rfl rfl).symm k) = ix2 k h :=
    funext fun a => Fin.ext (by
      match a with
      | ⟨0, _⟩ => exact (dot_S128x256_S256x256_S128x256_1_0_0_1_n_n.rhsIdx_val_of_single rfl _ _).trans hk
      | ⟨1, _⟩ => exact rhs_col_128x256_256x256 _ _)
  rw [el, er]

/-- Row coordinate of the left operand's index in the [32,256]·[256,128] product: the output's row. -/
theorem lhs_row_32x256_256x128 (j : S32x128.Idx) (q : dot_S32x256_S256x128_S32x128_1_0_0_1_n_n.contr.Idx) :
    (dot_S32x256_S256x128_S32x128_1_0_0_1_n_n.lhsIdx j q 0).val = (j 0).val := by
  unfold DotDims.lhsIdx
  rw [dif_neg (show ¬(0 : Fin S32x256.rank) ∈ dot_S32x256_S256x128_S32x128_1_0_0_1_n_n.lhsBatch by decide),
    dif_pos (show (0 : Fin S32x256.rank) ∈ dot_S32x256_S256x128_S32x128_1_0_0_1_n_n.lhsNonContracting by decide)]
  rfl

/-- Column coordinate of the right operand's index in the [32,256]·[256,128] product: the output's column. -/
theorem rhs_col_32x256_256x128 (j : S32x128.Idx) (q : dot_S32x256_S256x128_S32x128_1_0_0_1_n_n.contr.Idx) :
    (dot_S32x256_S256x128_S32x128_1_0_0_1_n_n.rhsIdx j q 1).val = (j 1).val := by
  unfold DotDims.rhsIdx
  rw [dif_neg (show ¬(1 : Fin S256x128.rank) ∈ dot_S32x256_S256x128_S32x128_1_0_0_1_n_n.rhsBatch by decide),
    dif_pos (show (1 : Fin S256x128.rank) ∈ dot_S32x256_S256x128_S32x128_1_0_0_1_n_n.rhsNonContracting by decide)]
  rfl

/-- The [32,256]·[256,128] product into the zero accumulator read at (r, h): Σ_k L(r,k)·R(k,h). -/
theorem matmul_32x256_256x128_apply {φ₁ φ₂ : FTy} (L : FVec Ideal S32x256 φ₁) (R : FVec Ideal S256x128 φ₂) (r : Fin 32) (h : Fin 128) :
    matmul dot_S32x256_S256x128_S32x128_1_0_0_1_n_n none L R (constant (F := Ideal) S32x128 .f32 0x00000000#32) (ix2 r h)
      = ∑ k : Fin 256, L (ix2 r k) * R (ix2 k h) := by
  simp only [matmul]
  rw [Ideal.matmul_constant_zero_apply, ← Equiv.sum_comp (contrEquiv1 dot_S32x256_S256x128_S32x128_1_0_0_1_n_n 256 rfl rfl).symm]
  refine Finset.sum_congr rfl fun k _ => ?_
  have hk := contrEquiv1_symm_val dot_S32x256_S256x128_S32x128_1_0_0_1_n_n 256 rfl rfl k
  have el : dot_S32x256_S256x128_S32x128_1_0_0_1_n_n.lhsIdx (ix2 r h) ((contrEquiv1 dot_S32x256_S256x128_S32x128_1_0_0_1_n_n 256 rfl rfl).symm k) = ix2 r k :=
    funext fun a => Fin.ext (by
      match a with
      | ⟨0, _⟩ => exact lhs_row_32x256_256x128 _ _
      | ⟨1, _⟩ => exact (dot_S32x256_S256x128_S32x128_1_0_0_1_n_n.lhsIdx_val_of_single rfl _ _).trans hk)
  have er : dot_S32x256_S256x128_S32x128_1_0_0_1_n_n.rhsIdx (ix2 r h) ((contrEquiv1 dot_S32x256_S256x128_S32x128_1_0_0_1_n_n 256 rfl rfl).symm k) = ix2 k h :=
    funext fun a => Fin.ext (by
      match a with
      | ⟨0, _⟩ => exact (dot_S32x256_S256x128_S32x128_1_0_0_1_n_n.rhsIdx_val_of_single rfl _ _).trans hk
      | ⟨1, _⟩ => exact rhs_col_32x256_256x128 _ _)
  rw [el, er]

/-- Row coordinate of the left operand's index in the [32,128]·[128,256] product: the output's row. -/
theorem lhs_row_32x128_128x256 (j : S32x256.Idx) (q : dot_S32x128_S128x256_S32x256_1_0_0_1_n_n.contr.Idx) :
    (dot_S32x128_S128x256_S32x256_1_0_0_1_n_n.lhsIdx j q 0).val = (j 0).val := by
  unfold DotDims.lhsIdx
  rw [dif_neg (show ¬(0 : Fin S32x128.rank) ∈ dot_S32x128_S128x256_S32x256_1_0_0_1_n_n.lhsBatch by decide),
    dif_pos (show (0 : Fin S32x128.rank) ∈ dot_S32x128_S128x256_S32x256_1_0_0_1_n_n.lhsNonContracting by decide)]
  rfl

/-- Column coordinate of the right operand's index in the [32,128]·[128,256] product: the output's column. -/
theorem rhs_col_32x128_128x256 (j : S32x256.Idx) (q : dot_S32x128_S128x256_S32x256_1_0_0_1_n_n.contr.Idx) :
    (dot_S32x128_S128x256_S32x256_1_0_0_1_n_n.rhsIdx j q 1).val = (j 1).val := by
  unfold DotDims.rhsIdx
  rw [dif_neg (show ¬(1 : Fin S128x256.rank) ∈ dot_S32x128_S128x256_S32x256_1_0_0_1_n_n.rhsBatch by decide),
    dif_pos (show (1 : Fin S128x256.rank) ∈ dot_S32x128_S128x256_S32x256_1_0_0_1_n_n.rhsNonContracting by decide)]
  rfl

/-- The [32,128]·[128,256] product into the zero accumulator read at (r, h): Σ_k L(r,k)·R(k,h). -/
theorem matmul_32x128_128x256_apply {φ₁ φ₂ : FTy} (L : FVec Ideal S32x128 φ₁) (R : FVec Ideal S128x256 φ₂) (r : Fin 32) (h : Fin 256) :
    matmul dot_S32x128_S128x256_S32x256_1_0_0_1_n_n none L R (constant (F := Ideal) S32x256 .f32 0x00000000#32) (ix2 r h)
      = ∑ k : Fin 128, L (ix2 r k) * R (ix2 k h) := by
  simp only [matmul]
  rw [Ideal.matmul_constant_zero_apply, ← Equiv.sum_comp (contrEquiv1 dot_S32x128_S128x256_S32x256_1_0_0_1_n_n 128 rfl rfl).symm]
  refine Finset.sum_congr rfl fun k _ => ?_
  have hk := contrEquiv1_symm_val dot_S32x128_S128x256_S32x256_1_0_0_1_n_n 128 rfl rfl k
  have el : dot_S32x128_S128x256_S32x256_1_0_0_1_n_n.lhsIdx (ix2 r h) ((contrEquiv1 dot_S32x128_S128x256_S32x256_1_0_0_1_n_n 128 rfl rfl).symm k) = ix2 r k :=
    funext fun a => Fin.ext (by
      match a with
      | ⟨0, _⟩ => exact lhs_row_32x128_128x256 _ _
      | ⟨1, _⟩ => exact (dot_S32x128_S128x256_S32x256_1_0_0_1_n_n.lhsIdx_val_of_single rfl _ _).trans hk)
  have er : dot_S32x128_S128x256_S32x256_1_0_0_1_n_n.rhsIdx (ix2 r h) ((contrEquiv1 dot_S32x128_S128x256_S32x256_1_0_0_1_n_n 128 rfl rfl).symm k) = ix2 k h :=
    funext fun a => Fin.ext (by
      match a with
      | ⟨0, _⟩ => exact (dot_S32x128_S128x256_S32x256_1_0_0_1_n_n.rhsIdx_val_of_single rfl _ _).trans hk
      | ⟨1, _⟩ => exact rhs_col_32x128_128x256 _ _)
  rw [el, er]

end Cert.KernelIdeal.PayValue

end
-- ==== Proof.PayProj.lean ====
/-
  The three projections of the attention tile read at an entry, in the specification's words:
  the query row (32 × 256), the key tile stored transposed (256 × 128) and the value tile (128 × 256) are each
  Σ_d x[row, d]·W[h, d] + bias[h]: the kernel transposes the weight before the product, so the product's
  right factor at (d, h) is W at (h, d); the changes of float format are the identity on the extended reals.
-/
import proofs.«116762_j61950608277594_2_alg».proof.Proof.Gen.KernelIdeal.Skeleton
import proofs.«116762_j61950608277594_2_alg».proof.Proof.Spec
import proofs.«116762_j61950608277594_2_alg».proof.Proof.Curry
import proofs.«116762_j61950608277594_2_alg».proof.Proof.LibLayout
import proofs.«116762_j61950608277594_2_alg».proof.Proof.PayMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx

/-- The query tile with its leading unit axis dropped: entry (r, d) is the block's entry (0, r, d). -/
theorem pay12_apply (v3 : Vec Ideal S1x32x256 .f32) (r : Fin 32) (d : Fin 256) :
    k0_pay12 v3 (ix2 r d) = v3 (ix3 0 r d) := by
  unfold k0_pay12
  exact shapeCast_1ab_ab_apply v3 _ r d

/-- The key/value tile with its leading unit axis dropped (and its format changed): entry (c, d) is the block's
    entry (0, c, d). -/
theorem pay13_apply (v5 : Vec Ideal S1x128x256 .f32) (c : Fin 128) (d : Fin 256) :
    k0_pay13 v5 (ix2 c d) = v5 (ix3 0 c d) := by
  unfold k0_pay13
  exact shapeCast_1ab_ab_apply v5 _ c d

/-- A bias [256] cast to a row and broadcast over 32 rows reads the bias at the column. -/
theorem bias32_apply (b : Vec Ideal S256 .f32) (r : Fin 32) (h : Fin 256) :
    broadcastTo S32x256 (shapeCast S1x256 b shapeCasts_S256_S1x256) broadcasts_S1x256_S32x256 (ix2 r h) = Spec.cur1 b h :=
  (broadcastTo_1b_ab_apply _ _ r h).trans (shapeCast_a_1a_apply b _ 0 h)

/-- A bias [256] cast to a row and broadcast over 128 rows reads the bias at the column. -/
theorem bias128_apply (b : Vec Ideal S256 .f32) (c : Fin 128) (h : Fin 256) :
    broadcastTo S128x256 (shapeCast S1x256 b shapeCasts_S256_S1x256) broadcasts_S1x256_S128x256 (ix2 c h) = Spec.cur1 b h :=
  (broadcastTo_1b_ab_apply _ _ c h).trans (shapeCast_a_1a_apply b _ 0 h)

/-- A weight matrix transposed (after its change of format) reads, at (d, h), the weight at (h, d). -/
theorem weightT_apply (W : FVec Ideal S256x256 .f32) (d h : Fin 256) :
    transpose S256x256 [1, 0] (truncf (F := Ideal) .bf16 W bitsLt_bf16_f32) transposes_S256x256_p1_0_S256x256 (ix2 d h)
      = Spec.cur2 W h d :=
  transpose_ix2_apply _ _ d h

/-- The query row: entry (r, h) is Σ_d x[r, d]·Wq[h, d] + bq[h]. -/
theorem pay15_apply (v3 : Vec Ideal S1x32x256 .f32) (v7 : Vec Ideal S256x256 .f32) (v8 : Vec Ideal S256 .f32)
    (r : Fin 32) (h : Fin 256) :
    k0_pay15 v3 v7 v8 (ix2 r h) = Spec.proj (fun d => v3 (ix3 0 r d)) (Spec.cur2 v7) (Spec.cur1 v8) h := by
  unfold k0_pay15 Spec.proj
  refine congrArg₂ (fun x y : EReal => x + y) ?_ (bias32_apply v8 r h)
  refine (matmul_32x256_256x256_apply _ _ r h).trans (Finset.sum_congr rfl fun d _ => ?_)
  exact congrArg₂ (fun x y : EReal => x * y) (pay12_apply v3 r d) (weightT_apply v7 d h)

/-- The value tile: entry (c, h) is Σ_d x[c, d]·Wv[h, d] + bv[h]. -/
theorem pay14_apply (v5 : Vec Ideal S1x128x256 .f32) (v11 : Vec Ideal S256x256 .f32) (v12 : Vec Ideal S256 .f32)
    (c : Fin 128) (h : Fin 256) :
    k0_pay14 v5 v11 v12 (ix2 c h) = Spec.proj (fun d => v5 (ix3 0 c d)) (Spec.cur2 v11) (Spec.cur1 v12) h := by
  unfold k0_pay14 Spec.proj
  refine congrArg₂ (fun x y : EReal => x + y) ?_ (bias128_apply v12 c h)
  refine (matmul_128x256_256x256_apply _ _ c h).trans (Finset.sum_congr rfl fun d _ => ?_)
  exact congrArg₂ (fun x y : EReal => x * y) (pay13_apply v5 c d) (weightT_apply v11 d h)

/-- The key tile, stored transposed: entry (h, c) is Σ_d x[c, d]·Wk[h, d] + bk[h]. -/
theorem pay16_apply (v5 : Vec Ideal S1x128x256 .f32) (v9 : Vec Ideal S256x256 .f32) (v10 : Vec Ideal S256 .f32)
    (h : Fin 256) (c : Fin 128) :
    k0_pay16 v5 v9 v10 (ix2 h c) = Spec.proj (fun d => v5 (ix3 0 c d)) (Spec.cur2 v9) (Spec.cur1 v10) h := by
  unfold k0_pay16 Spec.proj
  refine (transpose_ix2_apply _ _ h c).trans ?_
  refine congrArg₂ (fun x y : EReal => x + y) ?_ (bias128_apply v10 c h)
  refine (matmul_128x256_256x256_apply _ _ c h).trans (Finset.sum_congr rfl fun d _ => ?_)
  exact congrArg₂ (fun x y : EReal => x * y) (pay13_apply v5 c d) (weightT_apply v9 d h)

end Cert.KernelIdeal.PayValue

end
-- ==== Proof.MathConsts.lean ====
/-
  The float constants the attention row's two programs spell, as the extended reals their words denote:
  1, -∞, 256, and the scale 1/16 = 1/√256 (a product with the word of 1/16 is the quotient by √256).
-/
import proofs.«116762_j61950608277594_2_alg».proof.Proof.Spec

noncomputable section

namespace Cert.SpecMath

open Idealize.ShloMosaic

/-- The f32 word of 1.0 denotes 1. -/
theorem ofBits_one : Ideal.ofBits .f32 0x3F800000#32 = (1 : EReal) := by
  simp [Ideal.ofBits, Ideal.ieee, -EReal.coe_mul]; norm_num

/-- The f32 word of -inf denotes the bottom of the extended reals. -/
theorem ofBits_negInf : Ideal.ofBits .f32 0xFF800000#32 = (⊥ : EReal) := by
  simp [Ideal.ofBits, Ideal.ieee]

/-- The f32 word 0x43800000 denotes 256 = 2^8. -/
theorem c256_eq : Cert.Spec.c256 = ((256 : ℝ) : EReal) := by
  simp [Cert.Spec.c256, Ideal.ofBits, Ideal.ieee, -EReal.coe_mul]; norm_num

/-- The f32 word 0x3D800000 denotes 1/16 = 2^(-4). -/
theorem ofBits_sixteenth : Ideal.ofBits .f32 0x3D800000#32 = ((1 / 16 : ℝ) : EReal) := by
  simp [Ideal.ofBits, Ideal.ieee, -EReal.coe_mul]; norm_num

/-- √256 = 16. -/
theorem sqrt_c256 : Ideal.sqrt Cert.Spec.c256 = ((16 : ℝ) : EReal) := by
  rw [c256_eq, Ideal.sqrt_coe, if_neg (by norm_num)]
  have h : Real.sqrt 256 = 16 := by
    rw [show (256 : ℝ) = 16 ^ 2 by norm_num]
    exact Real.sqrt_sq (by norm_num)
  rw [h]

/-- √256 is not zero. -/
theorem sqrt_c256_ne_zero : Ideal.sqrt Cert.Spec.c256 ≠ 0 := by
  rw [sqrt_c256]; exact_mod_cast (by norm_num : (16 : ℝ) ≠ 0)

/-- Multiplying by the word of 1/16 is dividing by √256. -/
theorem scale_eq (x : EReal) :
    x * Ideal.ofBits .f32 0x3D800000#32 = Ideal.div x (Ideal.sqrt Cert.Spec.c256) := by
  rw [sqrt_c256, Ideal.div_coe (by norm_num : (16 : ℝ) ≠ 0), ofBits_sixteenth]

end Cert.SpecMath

end
-- ==== Proof.PayScore.lean ====
/-
  The gated score of the attention tile read at an entry: the query row against the key column, contracted over
  the 256 channels, times the word of 1/16 (which is the quotient by √256), times the squashed edge logit
  1 / (1 + e^{-t}).
-/
import proofs.«116762_j61950608277594_2_alg».proof.Proof.Gen.KernelIdeal.Skeleton
import proofs.«116762_j61950608277594_2_alg».proof.Proof.Spec
import proofs.«116762_j61950608277594_2_alg».proof.Proof.MathConsts
import proofs.«116762_j61950608277594_2_alg».proof.Proof.PayMatmul
import Idealize.ShloMosaic.Lib.ValueIdx
import Idealize.ShloMosaic.PureOps.Ideal.Laws

noncomputable section

namespace Cert.KernelIdeal.PayValue

open Cert.KernelIdeal Cert.KernelIdeal.Gen Idealize.ShloMosaic Idealize.ShloMosaic.ValueIdx

/-- The gated score of query row r against key c of the tile: score · gate. -/
theorem pay18_apply (v33 : FVec Ideal S32x256 .bf16) (v35 : FVec Ideal S256x128 .bf16) (v50 : Vec Ideal S32x128 .f32)
    (r : Fin 32) (c : Fin 128) :
    k0_pay18 v33 v35 v50 (ix2 r c)
      = Spec.score (fun h => v33 (ix2 r h)) (fun h => v35 (ix2 h c)) * Spec.gate (v50 (ix2 r c)) := by
  unfold k0_pay18 Spec.score
  refine congrArg₂ (fun x y : EReal => x * y) ?_ rfl
  refine Eq.trans ?_ (Cert.SpecMath.scale_eq _)
  exact congrArg₂ (fun x y : EReal => x * y) (matmul_32x256_256x128_apply v33 v35 r c) rfl

end Cert.KernelIdeal.PayValue

end
-- ==== Proof.PayStep.lean ====
/-
  The running (maximum, normaliser, accumulator) triple of one query row after one more tile of 128 keys, read at an
  entry, in the specification's words (Spec.blockStep), and the triple the first tile starts from (-∞, 0, 0).
  With S c the gated score of the row against key c of the tile, m the maximum so far and m' = max m (max_c S c):
  the new normaliser is e^{m - m'}·l + Σ_c e^{S c - m'} and the new accumulator at channel h is
  e^{m - m'}·acc + Σ_c e^{S c - m'}·v[c, h].
-/
import proofs.«116762_j61950608277594_2_alg».proof.Proof.Gen.KernelIdeal.Skeleton
import proofs.«116762_j61950608277594_2_alg».proof.Proof.Spec
import proofs.«116762_j61950608277594_2_alg».proof.Proof.MathConsts
import proofs.«116762_j61950608277594_2_alg».proof.Proof.LibLayout
import proofs.«116762_j61950608277594_2_alg».proof.Proof.PayMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx Cert.LibLayout

/-! ## The three components of a block step, written out -/

/-- The new maximum. -/
theorem blockStep_max {n : ℕ} (s v : Fin n → EReal) (m l a : EReal) :
    (Spec.blockStep s v (m, l, a)).1 = max m (Spec.rowMax s) := rfl

/-- The new normaliser. -/
theorem blockStep_norm {n : ℕ} (s v : Fin n → EReal) (m l a : EReal) :
    (Spec.blockStep s v (m, l, a)).2.1
      = Ideal.exp (m - max m (Spec.rowMax s)) * l + ∑ j, Ideal.exp (s j - max m (Spec.rowMax s)) := rfl

/-- The new accumulator. -/
theorem blockStep_acc {n : ℕ} (s v : Fin n → EReal) (m l a : EReal) :
    (Spec.blockStep s v (m, l, a)).2.2
      = Ideal.exp (m - max m (Spec.rowMax s)) * a + ∑ j, Ideal.exp (s j - max m (Spec.rowMax s)) * v j := rfl

/-! ## The pieces of the step -/

section
variable (v32 : FVec Ideal S128x256 .f32) (v33 : FVec Ideal S32x256 .bf16) (v35 : FVec Ideal S256x128 .bf16)
  (v50 : Vec Ideal S32x128 .f32) (v53 v54 : Vec Ideal S32x1 .f32) (v55 : Vec Ideal S32x256 .f32)

/-- The new maximum of row r: the old one against the tile's maximum, taken from -∞. -/
theorem pay19_apply (r : Fin 32) (u : Fin 1) :
    k0_pay19 v33 v35 v50 v53 (ix2 r u)
      = max (v53 (ix2 r u)) (Spec.rowMax fun c : Fin 128 => k0_pay18 v33 v35 v50 (ix2 r c)) := by
  unfold k0_pay19
  refine congrArg₂ (fun x y : EReal => max x y) rfl ?_
  refine (shapeCast_a_a1_apply _ _ r u).trans ?_
  refine (Ideal.multiReduction_maximumf_single _ _ _ _ _ (ix1 r)).trans ?_
  show Finset.univ.fold max (Ideal.ofBits .f32 0xFF800000#32)
      (fun c : Fin 128 => k0_pay18 v33 v35 v50 (Shape.Reduces.lift reduces_S32x128_S32 (ix1 r) c))
    = Finset.univ.fold max ⊥ (fun c : Fin 128 => k0_pay18 v33 v35 v50 (ix2 r c))
  rw [Cert.SpecMath.ofBits_negInf]
  refine congrArg (fun f => Finset.univ.fold max ⊥ f) (funext fun c => ?_)
  exact congrArg _ (lift_ix1_axis1 _ r c)

/-- The rescaling factor of row r: e^{m - m'}. -/
theorem pay20_apply (r : Fin 32) (u : Fin 1) :
    k0_pay20 v33 v35 v50 v53 (ix2 r u)
      = Ideal.exp (v53 (ix2 r u)
          - max (v53 (ix2 r u)) (Spec.rowMax fun c : Fin 128 => k0_pay18 v33 v35 v50 (ix2 r c))) := by
  unfold k0_pay20
  refine congrArg Ideal.exp ?_
  exact congrArg₂ (fun x y : EReal => x - y) rfl (pay19_apply v33 v35 v50 v53 r u)

/-- The tile's exponentials of row r: e^{S c - m'}. -/
theorem pay21_apply (r : Fin 32) (c : Fin 128) :
    k0_pay21 v33 v35 v50 v53 (ix2 r c)
      = Ideal.exp (k0_pay18 v33 v35 v50 (ix2 r c)
          - max (v53 (ix2 r 0)) (Spec.rowMax fun c : Fin 128 => k0_pay18 v33 v35 v50 (ix2 r c))) := by
  unfold k0_pay21
  refine congrArg Ideal.exp ?_
  refine congrArg₂ (fun x y : EReal => x - y) rfl ?_
  exact (broadcastTo_a1_ab_apply _ _ r c).trans (pay19_apply v33 v35 v50 v53 r 0)

/-- The rescaling factor broadcast over the channels. -/
theorem pay24_apply (r : Fin 32) (h : Fin 256) :
    k0_pay24 v33 v35 v50 v53 (ix2 r h)
      = Ideal.exp (v53 (ix2 r 0)
          - max (v53 (ix2 r 0)) (Spec.rowMax fun c : Fin 128 => k0_pay18 v33 v35 v50 (ix2 r c))) := by
  unfold k0_pay24
  exact (broadcastTo_a1_ab_apply _ _ r h).trans (pay20_apply v33 v35 v50 v53 r 0)

/-- The tile's contribution to the accumulator: Σ_c e^{S c - m'}·v[c, h]. -/
theorem pay23_apply (r : Fin 32) (h : Fin 256) :
    k0_pay23 v32 v33 v35 v50 v53 (ix2 r h)
      = ∑ j : Fin 128, Ideal.exp (k0_pay18 v33 v35 v50 (ix2 r j)
          - max (v53 (ix2 r 0)) (Spec.rowMax fun c : Fin 128 => k0_pay18 v33 v35 v50 (ix2 r c))) * v32 (ix2 j h) := by
  unfold k0_pay23
  refine (matmul_32x128_128x256_apply _ _ r h).trans (Finset.sum_congr rfl fun j _ => ?_)
  exact congrArg₂ (fun x y : EReal => x * y) (pay21_apply v33 v35 v50 v53 r j) rfl

/-! ## The stored triple is the block step -/

/-- The stored maximum of row r. -/
theorem pay1_apply (r : Fin 32) (h : Fin 256) :
    k0_pay1 (k0_pay19 v33 v35 v50 v53) (ix2 r 0)
      = (Spec.blockStep (fun c : Fin 128 => k0_pay18 v33 v35 v50 (ix2 r c)) (fun c : Fin 128 => v32 (ix2 c h))
          (v53 (ix2 r 0), v54 (ix2 r 0), v55 (ix2 r h))).1 := by
  unfold k0_pay1
  refine (congrFun (shapeCast_self _ _) (ix2 r 0)).trans ?_
  exact (pay19_apply v33 v35 v50 v53 r 0).trans (blockStep_max _ _ _ _ _).symm

/-- The stored normaliser of row r. -/
theorem pay2_apply (r : Fin 32) (h : Fin 256) :
    k0_pay2 (k0_pay22 v33 v35 v50 v53 v54) (ix2 r 0)
      = (Spec.blockStep (fun c : Fin 128 => k0_pay18 v33 v35 v50 (ix2 r c)) (fun c : Fin 128 => v32 (ix2 c h))
          (v53 (ix2 r 0), v54 (ix2 r 0), v55 (ix2 r h))).2.1 := by
  unfold k0_pay2
  refine (congrFun (shapeCast_self _ _) (ix2 r 0)).trans ?_
  refine Eq.trans ?_ (blockStep_norm _ _ _ _ _).symm
  unfold k0_pay22
  refine congrArg₂ (fun x y : EReal => x + y) ?_ ?_
  · exact congrArg₂ (fun x y : EReal => x * y) (pay20_apply v33 v35 v50 v53 r 0) rfl
  · refine (shapeCast_a_a1_apply _ _ r 0).trans ?_
    refine (Ideal.multiReduction_add_single _ _ _ _ _ (ix1 r)).trans
      (Finset.sum_congr rfl fun (j : Fin 128) _ => ?_)
    refine (congrArg _ (lift_ix1_axis1 _ r j)).trans ?_
    exact pay21_apply v33 v35 v50 v53 r j

/-- The stored accumulator of row r at channel h. -/
theorem pay3_apply (r : Fin 32) (h : Fin 256) :
    k0_pay3 v55 (k0_pay23 v32 v33 v35 v50 v53) (k0_pay24 v33 v35 v50 v53) (ix2 r h)
      = (Spec.blockStep (fun c : Fin 128 => k0_pay18 v33 v35 v50 (ix2 r c)) (fun c : Fin 128 => v32 (ix2 c h))
          (v53 (ix2 r 0), v54 (ix2 r 0), v55 (ix2 r h))).2.2 := by
  unfold k0_pay3
  refine (congrFun (shapeCast_self _ _) (ix2 r h)).trans ?_
  refine Eq.trans ?_ (blockStep_acc _ _ _ _ _).symm
  refine congrArg₂ (fun x y : EReal => x + y) ?_ (pay23_apply v32 v33 v35 v50 v53 r h)
  exact congrArg₂ (fun x y : EReal => x * y) (pay24_apply v33 v35 v50 v53 r h) rfl

end

/-! ## The triple the first tile starts from -/

/-- The initial maximum is -∞. -/
theorem pay9_apply (r : Fin 32) (u : Fin 1) : k0_pay9 (F := Ideal) (ix2 r u) = ⊥ := by
  unfold k0_pay9
  refine (congrFun (shapeCast_self _ _) (ix2 r u)).trans ?_
  exact Cert.SpecMath.ofBits_negInf

/-- The initial normaliser is 0. -/
theorem pay10_apply (r : Fin 32) (u : Fin 1) : k0_pay10 (F := Ideal) (ix2 r u) = 0 := by
  unfold k0_pay10
  refine (congrFun (shapeCast_self _ _) (ix2 r u)).trans ?_
  exact Ideal.ofBits_zero_f32

/-- The initial accumulator is 0. -/
theorem pay11_apply (r : Fin 32) (h : Fin 256) : k0_pay11 (F := Ideal) (ix2 r h) = 0 := by
  unfold k0_pay11
  refine (congrFun (shapeCast_self _ _) (ix2 r h)).trans ?_
  exact Ideal.ofBits_zero_f32

end Cert.KernelIdeal.PayValue

end
-- ==== Proof.LibLayoutEpi.lean ====
/-
  Layout operations read at an index given by coordinates, for the column shapes that arise when a matrix is reduced
  along its rows and the reduced axis is kept with extent one: a vector [a] cast to a column [a, 1]; a column [a, 1]
  broadcast along the rows of [a, b]; and the sum of a matrix [a, b] over its second axis, read at row r as the sum
  over the columns. General lemmas (any extents, any element type), in the style of the library's own layout lemmas.
-/
import Idealize.ShloMosaic.Lib.ValueIdx
import Idealize.ShloMosaic.Lib.ValueLayout
import Idealize.ShloMosaic.Lib.Pipeline.Value
import Idealize.ShloMosaic.PureOps.Ideal.Laws

namespace Cert.LayoutEpi

open Idealize.ShloMosaic Idealize.ShloMosaic.ValueIdx

variable {α : Type}

/-- A vector `[a]` cast to the column `[a, 1]` reads, at `(i, u)`, the operand at `i`, whatever the unit coordinate `u`:
both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the unit axis reads its
coordinate `0`, the row axis keeps its coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index over row `r` with column `k` inserted on the reduced second axis is `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- At the ideal values a sum of a matrix `[a, b]` over its second axis, read at row `r`, is the sum over the columns of
the entries of that row, for any format and any accumulator word that is the sum's neutral one. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- The same for the format f32 and the zero accumulator word, with the format fact stated as the disjunction itself and
the accumulator fact as the equation between the two zero words. -/
theorem multiReduction_add_row_f32 {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) (r : Fin a) :
    multiReduction .add [1] ⟨1, ![a]⟩ src 0x00000000#32 h hφ hacc (ix1 r) = ∑ k : Fin b, src (ix2 r k) :=
  multiReduction_add_row src _ h hφ hacc r

/-- A reciprocal square root taken elementwise reads, at an index, the reciprocal square root of the element. -/
theorem rsqrt_apply {s : Shape} {φ : FTy} (x : FVec Ideal s φ) (i : s.Idx) : rsqrt x i = Ideal.rsqrt (x i) := rfl

end Cert.LayoutEpi
-- ==== Proof.PayEpiNorm.lean ====
/-
  The last stage of the epilogue read at an entry: the row that enters the third layer norm is
  max(LN(y; g_ot, b_ot), 0) + x, where y is the projected row; the kernel centres it, scales it to unit variance
  (ε under the root), and — in the stored value — multiplies by the gain g2 and adds the shift b2. The row sums are
  sums over the 256 columns of the tile's row; the row mean is that sum divided by the word of 256.
-/
import proofs.«116762_j61950608277594_2_alg».proof.Proof.Gen.KernelIdeal.Skeleton
import proofs.«116762_j61950608277594_2_alg».proof.Proof.Spec
import proofs.«116762_j61950608277594_2_alg».proof.Proof.Curry
import proofs.«116762_j61950608277594_2_alg».proof.Proof.LibLayoutEpi
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx Cert.LayoutEpi

/-- A row of 256 centred at its mean and scaled to unit variance, ε added under the root: a layer norm before its gain
    and shift. -/
def normRow (z : Fin 256 → EReal) (h : Fin 256) : EReal :=
  (z h - Spec.mean z) * Ideal.rsqrt (Spec.mean (fun h' => (z h' - Spec.mean z) * (z h' - Spec.mean z)) + Spec.cEps)

/-- A layer norm is the normalised row times the gain plus the shift. -/
theorem layerNorm_eq_normRow (y g b : Fin 256 → EReal) (h : Fin 256) :
    Spec.layerNorm y g b h = normRow y h * g h + b h := rfl

/-- The gain row broadcast over the tile reads, at (r, h), the gain at h. -/
theorem pay8_apply (v153 : Vec Ideal S256 .f32) (r : Fin 32) (h : Fin 256) :
    k0_pay8 v153 (ix2 r h) = v153 (ix1 h) := by
  unfold k0_pay8
  exact (broadcastTo_1b_ab_apply _ _ r h).trans (shapeCast_a_1a_apply _ _ _ h)

/-- The stored tile at (0, r, h): the normalised entry times the broadcast gain entry, plus the shift at h. -/
theorem pay4_apply (v154 : Vec Ideal S256 .f32) (v173 v175 : FVec Ideal S32x256 .f32) (r : Fin 32) (h : Fin 256) :
    k0_pay4 v154 v173 v175 (ix3 (0 : Fin 1) r h) = v173 (ix2 r h) * v175 (ix2 r h) + v154 (ix1 h) := by
  unfold k0_pay4
  refine (shapeCast_ab_1ab_apply _ _ (0 : Fin 1) r h).trans ?_
  refine congrArg (fun t => v173 (ix2 r h) * v175 (ix2 r h) + t) ?_
  exact (broadcastTo_1b_ab_apply _ _ r h).trans (shapeCast_a_1a_apply _ _ _ h)

/-- The second layer norm, the max with 0, the residual and the third normalisation, at (r, h): with y the projected
    row (row r of v124) whose sum over the columns is the entry r of v127, the value is the normalised row
    z = max(LN(y; g_ot, b_ot), 0) + x at h. -/
theorem pay7_apply (v4 v124 : FVec Ideal S32x256 .f32) (v125 v126 : Vec Ideal S256 .f32) (v127 : FVec Ideal S32 .f32)
    (r : Fin 32) (h : Fin 256) (hsum : v127 (ix1 r) = ∑ h' : Fin 256, v124 (ix2 r h')) :
    k0_pay7 v4 v124 v125 v126 v127 (ix2 r h)
      = normRow (fun h' => max (Spec.layerNorm (fun h'' => v124 (ix2 r h'')) (Spec.cur1 v125) (Spec.cur1 v126) h') 0
          + v4 (ix2 r h')) h := by
  unfold k0_pay7
  simp only [mulf_apply, addf_apply, subf_apply, divf_apply, maximumf_apply, truncf_apply, broadcast_apply, constant_apply, rsqrt_apply,
    broadcastTo_a1_ab_apply, shapeCast_a_a1_apply, broadcastTo_1b_ab_apply, shapeCast_a_1a_apply, transpose_ix2_apply]
  repeat (rw [multiReduction_add_row_f32]; simp only [mulf_apply, addf_apply, subf_apply, divf_apply, maximumf_apply, truncf_apply, broadcast_apply, constant_apply, rsqrt_apply,
    broadcastTo_a1_ab_apply, shapeCast_a_a1_apply, broadcastTo_1b_ab_apply, shapeCast_a_1a_apply, transpose_ix2_apply])
  simp only [hsum, Ideal.ofBits_def, Ideal.ofBits_zero_f32]
  rfl

end Cert.KernelIdeal.PayValue

end
-- ==== Proof.PayEpiMatmul.lean ====
/-
  The output projection's matrix product read at an entry: the product of a [32, 256] tile with a [256, 256] matrix,
  contracted over the tile's columns and the matrix's rows and accumulated into the zero tile, is at (r, h) the sum
  over d of tile (r, d) · matrix (d, h); against a transposed matrix, of tile (r, d) · matrix (h, d).
-/
import proofs.«116762_j61950608277594_2_alg».proof.Proof.Gen.KernelIdeal
import Idealize.ShloMosaic.Lib.ValueIdx
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

/-- The left operand's row is the output's row (its axis 0 is not contracted). -/
theorem epi_lhs_0 (i : S32x256.Idx) (q : dot_S32x256_S256x256_S32x256_1_0_0_1_n_n.contr.Idx) :
    (dot_S32x256_S256x256_S32x256_1_0_0_1_n_n.lhsIdx i q 0).val = (i 0).val := by
  unfold DotDims.lhsIdx
  rw [dif_neg (show ¬(0 : Fin S32x256.rank) ∈ dot_S32x256_S256x256_S32x256_1_0_0_1_n_n.lhsBatch by decide),
    dif_pos (show (0 : Fin S32x256.rank) ∈ dot_S32x256_S256x256_S32x256_1_0_0_1_n_n.lhsNonContracting by decide)]
  rfl

/-- The left operand's column is the contraction coordinate. -/
theorem epi_lhs_1 (i : S32x256.Idx) (q : dot_S32x256_S256x256_S32x256_1_0_0_1_n_n.contr.Idx) :
    (dot_S32x256_S256x256_S32x256_1_0_0_1_n_n.lhsIdx i q 1).val = (q ⟨0, by decide⟩).val :=
  dot_S32x256_S256x256_S32x256_1_0_0_1_n_n.lhsIdx_val_of_single rfl i q

/-- The right operand's row is the contraction coordinate. -/
theorem epi_rhs_0 (i : S32x256.Idx) (q : dot_S32x256_S256x256_S32x256_1_0_0_1_n_n.contr.Idx) :
    (dot_S32x256_S256x256_S32x256_1_0_0_1_n_n.rhsIdx i q 0).val = (q ⟨0, by decide⟩).val :=
  dot_S32x256_S256x256_S32x256_1_0_0_1_n_n.rhsIdx_val_of_single rfl i q

/-- The right operand's column is the output's column (its axis 1 is not contracted). -/
theorem epi_rhs_1 (i : S32x256.Idx) (q : dot_S32x256_S256x256_S32x256_1_0_0_1_n_n.contr.Idx) :
    (dot_S32x256_S256x256_S32x256_1_0_0_1_n_n.rhsIdx i q 1).val = (i 1).val := by
  unfold DotDims.rhsIdx
  rw [dif_neg (show ¬(1 : Fin S256x256.rank) ∈ dot_S32x256_S256x256_S32x256_1_0_0_1_n_n.rhsBatch by decide),
    dif_pos (show (1 : Fin S256x256.rank) ∈ dot_S32x256_S256x256_S32x256_1_0_0_1_n_n.rhsNonContracting by decide)]
  rfl

/-- The product into the zero tile, read at (r, h): Σ_d x (r, d) · w (d, h). -/
theorem epi_matmul_apply {φ₁ φ₂ : FTy} (x : FVec Ideal S32x256 φ₁) (w : FVec Ideal S256x256 φ₂) (r : Fin 32) (h : Fin 256) :
    FloatOps.matmul dot_S32x256_S256x256_S32x256_1_0_0_1_n_n none x w (constant S32x256 .f32 0x00000000#32) (ix2 r h)
      = ∑ d : Fin 256, x (ix2 r d) * w (ix2 d h) := by
  rw [Ideal.matmul_constant_zero_apply, ← Equiv.sum_comp (contrEquiv1 dot_S32x256_S256x256_S32x256_1_0_0_1_n_n 256 rfl rfl).symm]
  refine Finset.sum_congr rfl fun k _ => ?_
  have hk := contrEquiv1_symm_val dot_S32x256_S256x256_S32x256_1_0_0_1_n_n 256 rfl rfl k
  have el : dot_S32x256_S256x256_S32x256_1_0_0_1_n_n.lhsIdx (ix2 r h) ((contrEquiv1 dot_S32x256_S256x256_S32x256_1_0_0_1_n_n 256 rfl rfl).symm k) = ix2 r k :=
    funext fun a => Fin.ext (by
      match a with
      | ⟨0, _⟩ => exact epi_lhs_0 _ _
      | ⟨1, _⟩ => exact (epi_lhs_1 _ _).trans hk)
  have er : dot_S32x256_S256x256_S32x256_1_0_0_1_n_n.rhsIdx (ix2 r h) ((contrEquiv1 dot_S32x256_S256x256_S32x256_1_0_0_1_n_n 256 rfl rfl).symm k) = ix2 k h :=
    funext fun a => Fin.ext (by
      match a with
      | ⟨0, _⟩ => exact (epi_rhs_0 _ _).trans hk
      | ⟨1, _⟩ => exact epi_rhs_1 _ _)
  rw [el, er]

/-- The same against a TRANSPOSED weight matrix, as a projection x · Wᵀ is computed: at (r, h) the sum over d of
    x (r, d) · W (h, d). -/
theorem epi_matmul_transpose_apply {φ₁ φ₂ : FTy} (x : FVec Ideal S32x256 φ₁) (w : FVec Ideal S256x256 φ₂)
    (ht : S256x256.Transposes [1, 0] S256x256) (r : Fin 32) (h : Fin 256) :
    FloatOps.matmul dot_S32x256_S256x256_S32x256_1_0_0_1_n_n none x (transpose S256x256 [1, 0] w ht) (constant S32x256 .f32 0x00000000#32) (ix2 r h)
      = ∑ d : Fin 256, x (ix2 r d) * w (ix2 h d) :=
  (epi_matmul_apply x _ r h).trans
    (Finset.sum_congr rfl fun d _ => congrArg (x (ix2 r d) * ·) (transpose_ix2_apply w ht d h))

end Cert.KernelIdeal.PayValue

end
-- ==== Proof.PayEpiProj.lean ====
/-
  The first half of the epilogue read at an entry. The attention row o = acc / l (each accumulator entry of row r
  divided by that row's normaliser) is layer-normed with (g1, b1) and projected by the output weights: at (r, h) the
  value is Σ_d LN(o)_d · Wo[h, d] + bo[h]. The kernel multiplies by the transposed weight tile, which reads Wo at
  (h, d); the narrowing to the 16-bit format before the product is the identity on extended reals. The row sum of the
  projected tile is its sum over the columns.
-/
import proofs.«116762_j61950608277594_2_alg».proof.Proof.Gen.KernelIdeal.Skeleton
import proofs.«116762_j61950608277594_2_alg».proof.Proof.Spec
import proofs.«116762_j61950608277594_2_alg».proof.Proof.Curry
import proofs.«116762_j61950608277594_2_alg».proof.Proof.LibLayoutEpi
import proofs.«116762_j61950608277594_2_alg».proof.Proof.PayEpiMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx Cert.LayoutEpi

/-- The projected tile at (r, h): the projection by (Wo, bo) of the layer norm, with (g1, b1), of the row acc / l. -/
theorem pay5_apply (v86 : Vec Ideal S32x256 .f32) (v87 : Vec Ideal S32x1 .f32) (v90 v91 : Vec Ideal S256 .f32)
    (v116 : Vec Ideal S256x256 .f32) (v117 : Vec Ideal S256 .f32) (r : Fin 32) (h : Fin 256) :
    k0_pay5 v86 v87 v90 v91 v116 v117 (ix2 r h)
      = Spec.proj (Spec.layerNorm (fun h' : Fin 256 => Ideal.div (v86 (ix2 r h')) (v87 (ix2 r (0 : Fin 1))))
          (Spec.cur1 v90) (Spec.cur1 v91)) (Spec.cur2 v116) (Spec.cur1 v117) h := by
  unfold k0_pay5
  simp only [matmul, mulf_apply, addf_apply, subf_apply, divf_apply, maximumf_apply, truncf_apply, broadcast_apply, constant_apply, rsqrt_apply,
    broadcastTo_a1_ab_apply, shapeCast_a_a1_apply, broadcastTo_1b_ab_apply, shapeCast_a_1a_apply, transpose_ix2_apply]
  rw [epi_matmul_transpose_apply]
  simp only [mulf_apply, addf_apply, subf_apply, divf_apply, maximumf_apply, truncf_apply, broadcast_apply, constant_apply, rsqrt_apply,
    broadcastTo_a1_ab_apply, shapeCast_a_a1_apply, broadcastTo_1b_ab_apply, shapeCast_a_1a_apply, transpose_ix2_apply]
  repeat (rw [multiReduction_add_row_f32]; simp only [mulf_apply, addf_apply, subf_apply, divf_apply, maximumf_apply, truncf_apply, broadcast_apply, constant_apply, rsqrt_apply,
    broadcastTo_a1_ab_apply, shapeCast_a_a1_apply, broadcastTo_1b_ab_apply, shapeCast_a_1a_apply, transpose_ix2_apply])
  simp only [Ideal.ofBits_def]
  rfl

/-- The projected tile's row sums: entry r is the sum over the columns of row r. -/
theorem pay6_apply (v86 : Vec Ideal S32x256 .f32) (v87 : Vec Ideal S32x1 .f32) (v90 v91 : Vec Ideal S256 .f32)
    (v116 : Vec Ideal S256x256 .f32) (v117 : Vec Ideal S256 .f32) (r : Fin 32) :
    k0_pay6 v86 v87 v90 v91 v116 v117 (ix1 r) = ∑ h : Fin 256, k0_pay5 v86 v87 v90 v91 v116 v117 (ix2 r h) := by
  unfold k0_pay6
  exact multiReduction_add_row _ _ _ _ _ r

end Cert.KernelIdeal.PayValue

end
-- ==== Proof.PayEpi.lean ====
/-
  The epilogue, whole, at an entry of the stored tile: with o the attention row acc / l and x the query tile's row,
  the stored value at (0, r, h) is
    LN( max(LN(proj(LN(o; g1, b1); Wo, bo); g_ot, b_ot), 0) + x ; g2, b2 ) at h,
  the specification's `epilogue`. The three stage lemmas compose: the projected tile and its row sums, the second
  layer norm with the max, the residual and the third normalisation, and the gain and shift of the stored value.
-/
import proofs.«116762_j61950608277594_2_alg».proof.Proof.PayEpiNorm
import proofs.«116762_j61950608277594_2_alg».proof.Proof.PayEpiProj

noncomputable section

namespace Cert.KernelIdeal.PayValue

open Cert.KernelIdeal Cert.KernelIdeal.Gen Idealize.ShloMosaic Idealize.ShloMosaic.ValueIdx Cert.LayoutEpi

/-- THE EPILOGUE AT AN ENTRY: the value the last key tile stores at (0, r, h) is the specification's epilogue of the
    row acc / l and the query row. -/
theorem pay4_epilogue (v4 : FVec Ideal S32x256 .f32) (v86 : Vec Ideal S32x256 .f32) (v87 : Vec Ideal S32x1 .f32)
    (v90 v91 : Vec Ideal S256 .f32) (v116 : Vec Ideal S256x256 .f32) (v117 v125 v126 v153 v154 : Vec Ideal S256 .f32)
    (r : Fin 32) (h : Fin 256) :
    k0_pay4 v154 (k0_pay7 v4 (k0_pay5 v86 v87 v90 v91 v116 v117) v125 v126 (k0_pay6 v86 v87 v90 v91 v116 v117))
        (k0_pay8 v153) (ix3 (0 : Fin 1) r h)
      = Spec.epilogue (fun h' : Fin 256 => Ideal.div (v86 (ix2 r h')) (v87 (ix2 r (0 : Fin 1)))) (fun h' => v4 (ix2 r h'))
          (Spec.cur2 v116) (Spec.cur1 v117) (Spec.cur1 v125) (Spec.cur1 v126) (Spec.cur1 v90) (Spec.cur1 v91)
          (Spec.cur1 v153) (Spec.cur1 v154) h := by
  rw [pay4_apply, pay8_apply,
    pay7_apply v4 (k0_pay5 v86 v87 v90 v91 v116 v117) v125 v126 (k0_pay6 v86 v87 v90 v91 v116 v117) r h
      (pay6_apply v86 v87 v90 v91 v116 v117 r)]
  simp only [pay5_apply]
  rfl

end Cert.KernelIdeal.PayValue

end
-- ==== Proof.MathBlocks.lean ====
/-
  The running (maximum, normaliser, accumulator) triple over four blocks of 128 keys gives the softmax row.

  For a row of 512 real scores s and real values v, after blocks 0 … t the triple is
      (M_t,  Σ e^{s_p - M_t},  Σ e^{s_p - M_t} · v_p),          p over the first 128·(t+1) positions,
  with M_t the maximum of those scores: a real number, because a block of reals has a real maximum and
  max ⊥ r = r.  At the first block the old maximum is ⊥, so the rescaling factor is e^{⊥} = 0 and the old sums
  drop out; afterwards the factor e^{M_t - M_{t+1}} turns every e^{s_p - M_t} into e^{s_p - M_{t+1}}.
  After the fourth block the quotient accumulator / normaliser is Σ_p (e^{s_p - M} / Σ_p' e^{s_p' - M}) · v_p.
-/
import proofs.«116762_j61950608277594_2_alg».proof.Proof.Spec

noncomputable section

namespace Cert.SpecMath

open Idealize.ShloMosaic Cert.Spec

/-! ## Coercions -/

/-- The coercion of a finite real sum is the sum of the coercions. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The coercion of a maximum of two reals. -/
theorem coe_max (a b : ℝ) : ((max a b : ℝ) : EReal) = max (a : EReal) (b : EReal) :=
  EReal.coe_strictMono.monotone.map_max

/-! ## Positions -/

/-- Block t, offset j ↦ position 128·t + j is a bijection of Fin 4 × Fin 128 onto Fin 512. -/
def at128Equiv : Fin 4 × Fin 128 ≃ Fin 512 where
  toFun p := at128 p.1 p.2
  invFun q := (⟨q.val / 128, by omega⟩, ⟨q.val % 128, by omega⟩)
  left_inv := by
    rintro ⟨u, j⟩
    refine Prod.ext (Fin.ext ?_) (Fin.ext ?_)
    · show (u.val * 128 + j.val) / 128 = u.val
      omega
    · show (u.val * 128 + j.val) % 128 = j.val
      omega
  right_inv := by
    intro q
    refine Fin.ext ?_
    show q.val / 128 * 128 + q.val % 128 = q.val
    omega

/-- A sum over the 512 positions is the sum over the four blocks of the sums over each block. -/
theorem sum_at128 {M : Type*} [AddCommMonoid M] (F : Fin 512 → M) :
    ∑ p, F p = ∑ u : Fin 4, ∑ j : Fin 128, F (at128 u j) := by
  rw [← at128Equiv.sum_comp F, Fintype.sum_prod_type]
  rfl

/-- Every position lies in some block. -/
theorem exists_at128 (p : Fin 512) : ∃ u j, at128 u j = p :=
  ⟨(at128Equiv.symm p).1, (at128Equiv.symm p).2, at128Equiv.apply_symm_apply p⟩

/-! ## The maximum of a row of reals -/

/-- A nonempty row of reals has a real maximum, attained, and the fold from ⊥ finds it. -/
theorem rowMax_real {n : Nat} (hn : 0 < n) (s : Fin n → ℝ) :
    ∃ M : ℝ, rowMax (fun j => (s j : EReal)) = (M : EReal) ∧ (∀ j, s j ≤ M) ∧ ∃ j, s j = M := by
  haveI : Nonempty (Fin n) := ⟨⟨0, hn⟩⟩
  obtain ⟨j0, -, hj0⟩ := Finset.exists_max_image (Finset.univ : Finset (Fin n)) s Finset.univ_nonempty
  refine ⟨s j0, le_antisymm ?_ ?_, fun j => hj0 j (Finset.mem_univ j), j0, rfl⟩
  · exact (Finset.fold_max_le _).2 ⟨bot_le, fun j _ => EReal.coe_le_coe_iff.2 (hj0 j (Finset.mem_univ j))⟩
  · exact (Finset.le_fold_max _).2 (Or.inr ⟨j0, Finset.mem_univ j0, le_rfl⟩)

/-! ## One block step on reals -/

/-- The first block: from (⊥, 0, 0) the step leaves the block's own maximum and sums. -/
theorem blockStep_first {n : Nat} (s v : Fin n → ℝ) (M : ℝ)
    (hM : rowMax (fun j => (s j : EReal)) = (M : EReal)) :
    blockStep (fun j => (s j : EReal)) (fun j => (v j : EReal)) (⊥, 0, 0)
      = (((M : ℝ) : EReal), ((∑ j, Real.exp (s j - M) : ℝ) : EReal),
          ((∑ j, Real.exp (s j - M) * v j : ℝ) : EReal)) := by
  unfold blockStep
  simp only [hM, max_bot_left, EReal.bot_sub, Ideal.exp_bot, mul_zero, zero_add]
  rw [Prod.mk.injEq, Prod.mk.injEq]
  refine ⟨rfl, ?_, ?_⟩
  · rw [coe_sum]
    exact Finset.sum_congr rfl fun j _ => by rw [← EReal.coe_sub, Ideal.exp_coe]
  · rw [coe_sum]
    exact Finset.sum_congr rfl fun j _ => by rw [← EReal.coe_sub, Ideal.exp_coe, ← EReal.coe_mul]

/-- A later block: from a real triple (m, l, a) the step leaves the larger maximum m' = max m M and both sums
    rescaled by e^{m - m'} and extended by the block's terms. -/
theorem blockStep_next {n : Nat} (s v : Fin n → ℝ) (M m l a : ℝ)
    (hM : rowMax (fun j => (s j : EReal)) = (M : EReal)) :
    blockStep (fun j => (s j : EReal)) (fun j => (v j : EReal)) ((m : EReal), (l : EReal), (a : EReal))
      = (((max m M : ℝ) : EReal),
          ((Real.exp (m - max m M) * l + ∑ j, Real.exp (s j - max m M) : ℝ) : EReal),
          ((Real.exp (m - max m M) * a + ∑ j, Real.exp (s j - max m M) * v j : ℝ) : EReal)) := by
  unfold blockStep
  simp only [hM, ← coe_max]
  rw [Prod.mk.injEq, Prod.mk.injEq]
  refine ⟨rfl, ?_, ?_⟩
  · rw [EReal.coe_add, EReal.coe_mul, coe_sum]
    refine congrArg₂ (· + ·) rfl ?_
    exact Finset.sum_congr rfl fun j _ => rfl
  · rw [EReal.coe_add, EReal.coe_mul, coe_sum]
    refine congrArg₂ (· + ·) rfl ?_
    exact Finset.sum_congr rfl fun j _ => by rw [← EReal.coe_sub, Ideal.exp_coe, ← EReal.coe_mul]

/-! ## The invariant -/

/-- The blocks seen after block t. -/
def seen (t : Nat) : Finset (Fin 4) := Finset.univ.filter fun u => u.val ≤ t

theorem seen_zero : seen 0 = {0} := by
  ext u
  simp only [seen, Finset.mem_filter, Finset.mem_univ, true_and, Finset.mem_singleton, Fin.ext_iff]
  show u.val ≤ 0 ↔ u.val = 0
  omega

theorem seen_succ (t : Nat) (h : t + 1 < 4) : seen (t + 1) = insert ⟨t + 1, h⟩ (seen t) := by
  ext u
  simp only [seen, Finset.mem_filter, Finset.mem_univ, true_and, Finset.mem_insert, Fin.ext_iff]
  omega

theorem not_mem_seen (t : Nat) (h : t + 1 < 4) : (⟨t + 1, h⟩ : Fin 4) ∉ seen t := by
  simp only [seen, Finset.mem_filter, Finset.mem_univ, true_and]
  show ¬ (t + 1 ≤ t)
  omega

theorem seen_three : seen 3 = Finset.univ := by
  ext u
  simp only [seen, Finset.mem_filter, Finset.mem_univ, true_and, iff_true]
  omega

/-- Rescaling a sum of exponentials from the maximum m to the maximum m'. -/
theorem rescale {ι : Type*} (S : Finset ι) (f g : ι → ℝ) (m m' : ℝ) :
    Real.exp (m - m') * ∑ p ∈ S, Real.exp (f p - m) * g p = ∑ p ∈ S, Real.exp (f p - m') * g p := by
  rw [Finset.mul_sum]
  refine Finset.sum_congr rfl fun p _ => ?_
  rw [← mul_assoc, ← Real.exp_add]
  congr 2
  ring

/-- After block t (t < 4) the triple is real: the maximum M of the scores seen so far (an upper bound that is
    attained), and the two sums of e^{s_p - M} and e^{s_p - M}·v_p over the positions seen so far. -/
theorem blockState_inv (s v : Fin 512 → ℝ) (t : Nat) (ht : t < 4) :
    ∃ M : ℝ, (∀ u : Fin 4, u.val ≤ t → ∀ j, s (at128 u j) ≤ M) ∧ (∃ u j, s (at128 u j) = M) ∧
      blockState (fun j => (s j : EReal)) (fun j => (v j : EReal)) t
        = (((M : ℝ) : EReal),
            ((∑ u ∈ seen t, ∑ j, Real.exp (s (at128 u j) - M) : ℝ) : EReal),
            ((∑ u ∈ seen t, ∑ j, Real.exp (s (at128 u j) - M) * v (at128 u j) : ℝ) : EReal)) := by
  induction t with
  | zero =>
    obtain ⟨M, hM, hle, j0, hj0⟩ := rowMax_real (by norm_num : 0 < 128) (fun j => s (at128 0 j))
    refine ⟨M, ?_, ⟨0, j0, hj0⟩, ?_⟩
    · intro u hu j
      have : u = 0 := Fin.ext (by simpa using hu)
      subst this
      exact hle j
    · rw [seen_zero, Finset.sum_singleton, Finset.sum_singleton]
      exact blockStep_first (fun j => s (at128 0 j)) (fun j => v (at128 0 j)) M hM
  | succ t ih =>
    obtain ⟨m, hle, ⟨u0, j0, hj0⟩, hst⟩ := ih (by omega)
    obtain ⟨M, hM, hMle, j1, hj1⟩ :=
      rowMax_real (by norm_num : 0 < 128) (fun j => s (at128 ⟨t + 1, ht⟩ j))
    refine ⟨max m M, ?_, ?_, ?_⟩
    · intro u hu j
      by_cases hut : u.val ≤ t
      · exact (hle u hut j).trans (le_max_left _ _)
      · have : u = ⟨t + 1, ht⟩ := Fin.ext (by simp only; omega)
        subst this
        exact (hMle j).trans (le_max_right _ _)
    · rcases le_total m M with h | h
      · exact ⟨⟨t + 1, ht⟩, j1, by rw [max_eq_right h]; exact hj1⟩
      · exact ⟨u0, j0, by rw [max_eq_left h]; exact hj0⟩
    · have hstep : blockState (fun j => (s j : EReal)) (fun j => (v j : EReal)) (t + 1)
          = blockStep (fun j => ((s (at128 ⟨t + 1, ht⟩ j) : ℝ) : EReal))
              (fun j => ((v (at128 ⟨t + 1, ht⟩ j) : ℝ) : EReal))
              (blockState (fun j => (s j : EReal)) (fun j => (v j : EReal)) t) := by
        rw [blockState, dif_pos ht]
      rw [hstep, hst,
        blockStep_next (fun j => s (at128 ⟨t + 1, ht⟩ j)) (fun j => v (at128 ⟨t + 1, ht⟩ j)) M m _ _ hM,
        seen_succ t ht, Finset.sum_insert (not_mem_seen t ht), Finset.sum_insert (not_mem_seen t ht)]
      have h1 : Real.exp (m - max m M) * ∑ u ∈ seen t, ∑ j, Real.exp (s (at128 u j) - m)
          = ∑ u ∈ seen t, ∑ j, Real.exp (s (at128 u j) - max m M) := by
        rw [Finset.mul_sum]
        refine Finset.sum_congr rfl fun u _ => ?_
        have := rescale (Finset.univ : Finset (Fin 128)) (fun j => s (at128 u j)) (fun _ => 1) m (max m M)
        simpa using this
      have h2 : Real.exp (m - max m M) * ∑ u ∈ seen t, ∑ j, Real.exp (s (at128 u j) - m) * v (at128 u j)
          = ∑ u ∈ seen t, ∑ j, Real.exp (s (at128 u j) - max m M) * v (at128 u j) := by
        rw [Finset.mul_sum]
        exact Finset.sum_congr rfl fun u _ =>
          rescale (Finset.univ : Finset (Fin 128)) (fun j => s (at128 u j)) (fun j => v (at128 u j)) m (max m M)
      rw [h1, h2, add_comm (∑ u ∈ seen t, ∑ j, Real.exp (s (at128 u j) - max m M)),
        add_comm (∑ u ∈ seen t, ∑ j, Real.exp (s (at128 u j) - max m M) * v (at128 u j))]

/-! ## The main theorem -/

/-- THE RESULT: after the four blocks, accumulator / normaliser is the softmax row Σ_j softmax(s)_j · v_j. -/
theorem blockState_attn (s v : Fin 512 → ℝ) :
    Ideal.div (blockState (fun j => (s j : EReal)) (fun j => (v j : EReal)) 3).2.2
              (blockState (fun j => (s j : EReal)) (fun j => (v j : EReal)) 3).2.1
      = attnRow (fun j => (s j : EReal)) (fun j => (v j : EReal)) := by
  obtain ⟨M, hle, ⟨u0, j0, hj0⟩, hst⟩ := blockState_inv s v 3 (by norm_num)
  rw [hst, seen_three]
  -- the sums over the four blocks are the sums over the whole row
  rw [← sum_at128 (fun p => Real.exp (s p - M)), ← sum_at128 (fun p => Real.exp (s p - M) * v p)]
  -- the row maximum is M
  have hrow : rowMax (fun j => (s j : EReal)) = (M : EReal) := by
    refine le_antisymm ?_ ?_
    · refine (Finset.fold_max_le _).2 ⟨bot_le, fun p _ => EReal.coe_le_coe_iff.2 ?_⟩
      obtain ⟨u, j, rfl⟩ := exists_at128 p
      exact hle u (by omega) j
    · exact (Finset.le_fold_max _).2 (Or.inr ⟨at128 u0 j0, Finset.mem_univ _, by rw [hj0]⟩)
  -- the normaliser is positive
  have hL : (∑ p, Real.exp (s p - M)) ≠ 0 :=
    (Finset.sum_pos (fun p _ => Real.exp_pos _) Finset.univ_nonempty).ne'
  have hsum : ∑ p, Ideal.exp ((s p : EReal) - (M : EReal)) = ((∑ p, Real.exp (s p - M) : ℝ) : EReal) := by
    rw [coe_sum]
    exact Finset.sum_congr rfl fun p _ => by rw [← EReal.coe_sub, Ideal.exp_coe]
  unfold attnRow
  simp only [hrow, hsum]
  show Ideal.div ((∑ p, Real.exp (s p - M) * v p : ℝ) : EReal) ((∑ p, Real.exp (s p - M) : ℝ) : EReal) = _
  rw [Ideal.div_coe hL, ← EReal.coe_mul, Finset.sum_mul, coe_sum]
  refine Finset.sum_congr rfl fun p _ => ?_
  rw [Ideal.div_coe hL, ← EReal.coe_sub, Ideal.exp_coe, ← EReal.coe_mul, ← EReal.coe_mul]
  congr 1
  ring

end Cert.SpecMath

end
-- ==== Proof.MathReal.lean ====
/-
  Every stage of the specification maps real inputs to real numbers: each stage has a twin over ℝ, and the
  stage at coerced real inputs is the coercion of the twin.  Sums, products, differences and maxima of reals
  are real; the quotient by √256 = 16 and the squashing 1/(1 + e^{-t}) (whose denominator is positive) are real.
  So the masked scores and the value columns of an attention row are real, and the block-by-block triple of that
  row gives its softmax row.
-/
import proofs.«116762_j61950608277594_2_alg».proof.Proof.MathConsts
import proofs.«116762_j61950608277594_2_alg».proof.Proof.MathBlocks

noncomputable section

namespace Cert.SpecMath

open Idealize.ShloMosaic Cert.Spec

/-! ## The real twins -/

/-- A projection row over ℝ. -/
def projR (x : Fin 256 → ℝ) (W : Fin 256 → Fin 256 → ℝ) (bias : Fin 256 → ℝ) (h : Fin 256) : ℝ :=
  (∑ d, x d * W h d) + bias h

/-- The scaled dot product over ℝ: divided by 16. -/
def scoreR (q k : Fin 256 → ℝ) : ℝ := (∑ h, q h * k h) * (1 / 16)

/-- The edge network's hidden unit over ℝ. -/
def hiddenR (a c : ℝ) (We1 : Fin 256 → Fin 2 → ℝ) (be1 : Fin 256 → ℝ) (h : Fin 256) : ℝ :=
  max ((a * We1 h 0 + c * We1 h 1) + be1 h) 0

/-- The edge network's output before the squashing, over ℝ. -/
def elogitR (a c : ℝ) (We1 : Fin 256 → Fin 2 → ℝ) (be1 : Fin 256 → ℝ) (We2 : Fin 1 → Fin 256 → ℝ)
    (be2 : Fin 1 → ℝ) : ℝ :=
  (∑ h, hiddenR a c We1 be1 h * We2 0 h) + be2 0

/-- The squashing over ℝ. -/
def gateR (t : ℝ) : ℝ := (1 + Real.exp (-t))⁻¹

/-- The masked score over ℝ. -/
def mscoreR (x : Fin 4 → Fin 512 → Fin 256 → ℝ) (area : Fin 4 → Fin 512 → ℝ) (co : Fin 512 → Fin 512 → ℝ)
    (Wq : Fin 256 → Fin 256 → ℝ) (bq : Fin 256 → ℝ) (Wk : Fin 256 → Fin 256 → ℝ) (bk : Fin 256 → ℝ)
    (We1 : Fin 256 → Fin 2 → ℝ) (be1 : Fin 256 → ℝ) (We2 : Fin 1 → Fin 256 → ℝ) (be2 : Fin 1 → ℝ)
    (b : Fin 4) (i j : Fin 512) : ℝ :=
  scoreR (projR (x b i) Wq bq) (projR (x b j) Wk bk) * gateR (elogitR (area b i) (co i j) We1 be1 We2 be2)

/-! ## Each stage at real inputs is the coercion of its twin -/

theorem proj_coe (x : Fin 256 → ℝ) (W : Fin 256 → Fin 256 → ℝ) (bias : Fin 256 → ℝ) (h : Fin 256) :
    proj (fun d => (x d : EReal)) (fun h d => (W h d : EReal)) (fun h => (bias h : EReal)) h
      = ((projR x W bias h : ℝ) : EReal) := by
  show (∑ d, (x d : EReal) * (W h d : EReal)) + (bias h : EReal) = _
  rw [projR, EReal.coe_add, coe_sum]
  refine congrArg₂ (· + ·) ?_ rfl
  exact Finset.sum_congr rfl fun d _ => (EReal.coe_mul _ _).symm

theorem score_coe (q k : Fin 256 → ℝ) :
    score (fun h => (q h : EReal)) (fun h => (k h : EReal)) = ((scoreR q k : ℝ) : EReal) := by
  show Ideal.div (∑ h, (q h : EReal) * (k h : EReal)) (Ideal.sqrt c256) = _
  rw [sqrt_c256, Ideal.div_coe (by norm_num : (16 : ℝ) ≠ 0), scoreR, EReal.coe_mul, coe_sum]
  refine congrArg₂ (· * ·) ?_ rfl
  exact Finset.sum_congr rfl fun h _ => (EReal.coe_mul _ _).symm

theorem hidden_coe (a c : ℝ) (We1 : Fin 256 → Fin 2 → ℝ) (be1 : Fin 256 → ℝ) (h : Fin 256) :
    hidden (a : EReal) (c : EReal) (fun h e => (We1 h e : EReal)) (fun h => (be1 h : EReal)) h
      = ((hiddenR a c We1 be1 h : ℝ) : EReal) := by
  show max (((a : EReal) * (We1 h 0 : EReal) + (c : EReal) * (We1 h 1 : EReal)) + (be1 h : EReal)) 0 = _
  rw [hiddenR, coe_max, EReal.coe_add, EReal.coe_add, EReal.coe_mul, EReal.coe_mul, EReal.coe_zero]

theorem elogit_coe (a c : ℝ) (We1 : Fin 256 → Fin 2 → ℝ) (be1 : Fin 256 → ℝ) (We2 : Fin 1 → Fin 256 → ℝ)
    (be2 : Fin 1 → ℝ) :
    elogit (a : EReal) (c : EReal) (fun h e => (We1 h e : EReal)) (fun h => (be1 h : EReal))
        (fun o h => (We2 o h : EReal)) (fun o => (be2 o : EReal))
      = ((elogitR a c We1 be1 We2 be2 : ℝ) : EReal) := by
  show (∑ h, hidden (a : EReal) (c : EReal) (fun h e => (We1 h e : EReal)) (fun h => (be1 h : EReal)) h
      * (We2 0 h : EReal)) + (be2 0 : EReal) = _
  rw [elogitR, EReal.coe_add, coe_sum]
  refine congrArg₂ (· + ·) ?_ rfl
  exact Finset.sum_congr rfl fun h _ => by rw [hidden_coe, EReal.coe_mul]

theorem gate_coe (t : ℝ) : gate (t : EReal) = ((gateR t : ℝ) : EReal) :=
  Ideal.logistic_coe t

theorem mscore_coe (x : Fin 4 → Fin 512 → Fin 256 → ℝ) (area : Fin 4 → Fin 512 → ℝ) (co : Fin 512 → Fin 512 → ℝ)
    (Wq : Fin 256 → Fin 256 → ℝ) (bq : Fin 256 → ℝ) (Wk : Fin 256 → Fin 256 → ℝ) (bk : Fin 256 → ℝ)
    (We1 : Fin 256 → Fin 2 → ℝ) (be1 : Fin 256 → ℝ) (We2 : Fin 1 → Fin 256 → ℝ) (be2 : Fin 1 → ℝ)
    (b : Fin 4) (i j : Fin 512) :
    mscore (fun b n d => (x b n d : EReal)) (fun b n => (area b n : EReal)) (fun i j => (co i j : EReal))
        (fun h d => (Wq h d : EReal)) (fun h => (bq h : EReal)) (fun h d => (Wk h d : EReal)) (fun h => (bk h : EReal))
        (fun h e => (We1 h e : EReal)) (fun h => (be1 h : EReal)) (fun o h => (We2 o h : EReal))
        (fun o => (be2 o : EReal)) b i j
      = ((mscoreR x area co Wq bq Wk bk We1 be1 We2 be2 b i j : ℝ) : EReal) := by
  show score
        (proj (fun d => (x b i d : EReal)) (fun h d => (Wq h d : EReal)) (fun h => (bq h : EReal)))
        (proj (fun d => (x b j d : EReal)) (fun h d => (Wk h d : EReal)) (fun h => (bk h : EReal)))
      * gate (elogit (area b i : EReal) (co i j : EReal) (fun h e => (We1 h e : EReal)) (fun h => (be1 h : EReal))
          (fun o h => (We2 o h : EReal)) (fun o => (be2 o : EReal))) = _
  have hq : proj (fun d => (x b i d : EReal)) (fun h d => (Wq h d : EReal)) (fun h => (bq h : EReal))
      = fun h => ((projR (x b i) Wq bq h : ℝ) : EReal) := funext fun h => proj_coe (x b i) Wq bq h
  have hk : proj (fun d => (x b j d : EReal)) (fun h d => (Wk h d : EReal)) (fun h => (bk h : EReal))
      = fun h => ((projR (x b j) Wk bk h : ℝ) : EReal) := funext fun h => proj_coe (x b j) Wk bk h
  rw [hq, hk, score_coe, elogit_coe, gate_coe, mscoreR, EReal.coe_mul]

/-! ## The same, as existence of a real value -/

theorem proj_real (x : Fin 256 → ℝ) (W : Fin 256 → Fin 256 → ℝ) (bias : Fin 256 → ℝ) (h : Fin 256) :
    ∃ r : ℝ, proj (fun d => (x d : EReal)) (fun h d => (W h d : EReal)) (fun h => (bias h : EReal)) h = (r : EReal) :=
  ⟨_, proj_coe x W bias h⟩

theorem score_real (q k : Fin 256 → ℝ) :
    ∃ r : ℝ, score (fun h => (q h : EReal)) (fun h => (k h : EReal)) = (r : EReal) :=
  ⟨_, score_coe q k⟩

theorem elogit_real (a c : ℝ) (We1 : Fin 256 → Fin 2 → ℝ) (be1 : Fin 256 → ℝ) (We2 : Fin 1 → Fin 256 → ℝ)
    (be2 : Fin 1 → ℝ) :
    ∃ r : ℝ, elogit (a : EReal) (c : EReal) (fun h e => (We1 h e : EReal)) (fun h => (be1 h : EReal))
        (fun o h => (We2 o h : EReal)) (fun o => (be2 o : EReal)) = (r : EReal) :=
  ⟨_, elogit_coe a c We1 be1 We2 be2⟩

theorem gate_real (t : ℝ) : ∃ r : ℝ, gate (t : EReal) = (r : EReal) := ⟨_, gate_coe t⟩

theorem mscore_real (x : Fin 4 → Fin 512 → Fin 256 → ℝ) (area : Fin 4 → Fin 512 → ℝ) (co : Fin 512 → Fin 512 → ℝ)
    (Wq : Fin 256 → Fin 256 → ℝ) (bq : Fin 256 → ℝ) (Wk : Fin 256 → Fin 256 → ℝ) (bk : Fin 256 → ℝ)
    (We1 : Fin 256 → Fin 2 → ℝ) (be1 : Fin 256 → ℝ) (We2 : Fin 1 → Fin 256 → ℝ) (be2 : Fin 1 → ℝ)
    (b : Fin 4) (i j : Fin 512) :
    ∃ r : ℝ, mscore (fun b n d => (x b n d : EReal)) (fun b n => (area b n : EReal)) (fun i j => (co i j : EReal))
        (fun h d => (Wq h d : EReal)) (fun h => (bq h : EReal)) (fun h d => (Wk h d : EReal)) (fun h => (bk h : EReal))
        (fun h e => (We1 h e : EReal)) (fun h => (be1 h : EReal)) (fun o h => (We2 o h : EReal))
        (fun o => (be2 o : EReal)) b i j = (r : EReal) :=
  ⟨_, mscore_coe x area co Wq bq Wk bk We1 be1 We2 be2 b i j⟩

/-! ## The block-by-block triple of any real-valued row -/

/-- For any row of scores S and values V that are real at every position, accumulator / normaliser after the
    four blocks is the softmax row. -/
theorem attn_of_real (S V : Fin 512 → EReal) (s v : Fin 512 → ℝ) (hS : ∀ j, S j = (s j : EReal))
    (hV : ∀ j, V j = (v j : EReal)) :
    Ideal.div (blockState S V 3).2.2 (blockState S V 3).2.1 = attnRow S V := by
  obtain rfl : S = fun j => (s j : EReal) := funext hS
  obtain rfl : V = fun j => (v j : EReal) := funext hV
  exact blockState_attn s v

/-- The same from bare existence of the real values. -/
theorem attn_of_exists_real (S V : Fin 512 → EReal) (hS : ∀ j, ∃ r : ℝ, S j = (r : EReal))
    (hV : ∀ j, ∃ r : ℝ, V j = (r : EReal)) :
    Ideal.div (blockState S V 3).2.2 (blockState S V 3).2.1 = attnRow S V := by
  choose s hs using hS
  choose v hv using hV
  exact attn_of_real S V s v hs hv

/-- THE COROLLARY: for real inputs, the block-by-block triple of the masked-score row of query (b, i) against
    value column h gives that row's softmax-weighted sum. -/
theorem blockState_attn_mscore (x : Fin 4 → Fin 512 → Fin 256 → ℝ) (area : Fin 4 → Fin 512 → ℝ)
    (co : Fin 512 → Fin 512 → ℝ)
    (Wq : Fin 256 → Fin 256 → ℝ) (bq : Fin 256 → ℝ) (Wk : Fin 256 → Fin 256 → ℝ) (bk : Fin 256 → ℝ)
    (Wv : Fin 256 → Fin 256 → ℝ) (bv : Fin 256 → ℝ)
    (We1 : Fin 256 → Fin 2 → ℝ) (be1 : Fin 256 → ℝ) (We2 : Fin 1 → Fin 256 → ℝ) (be2 : Fin 1 → ℝ)
    (b : Fin 4) (i : Fin 512) (h : Fin 256) :
    Ideal.div
        (blockState
          (fun j => mscore (fun b n d => (x b n d : EReal)) (fun b n => (area b n : EReal)) (fun i j => (co i j : EReal))
            (fun h d => (Wq h d : EReal)) (fun h => (bq h : EReal)) (fun h d => (Wk h d : EReal)) (fun h => (bk h : EReal))
            (fun h e => (We1 h e : EReal)) (fun h => (be1 h : EReal)) (fun o h => (We2 o h : EReal))
            (fun o => (be2 o : EReal)) b i j)
          (fun j => proj ((fun b n d => (x b n d : EReal)) b j) (fun h d => (Wv h d : EReal)) (fun h => (bv h : EReal)) h)
          3).2.2
        (blockState
          (fun j => mscore (fun b n d => (x b n d : EReal)) (fun b n => (area b n : EReal)) (fun i j => (co i j : EReal))
            (fun h d => (Wq h d : EReal)) (fun h => (bq h : EReal)) (fun h d => (Wk h d : EReal)) (fun h => (bk h : EReal))
            (fun h e => (We1 h e : EReal)) (fun h => (be1 h : EReal)) (fun o h => (We2 o h : EReal))
            (fun o => (be2 o : EReal)) b i j)
          (fun j => proj ((fun b n d => (x b n d : EReal)) b j) (fun h d => (Wv h d : EReal)) (fun h => (bv h : EReal)) h)
          3).2.1
      = attnRow
          (fun j => mscore (fun b n d => (x b n d : EReal)) (fun b n => (area b n : EReal)) (fun i j => (co i j : EReal))
            (fun h d => (Wq h d : EReal)) (fun h => (bq h : EReal)) (fun h d => (Wk h d : EReal)) (fun h => (bk h : EReal))
            (fun h e => (We1 h e : EReal)) (fun h => (be1 h : EReal)) (fun o h => (We2 o h : EReal))
            (fun o => (be2 o : EReal)) b i j)
          (fun j => proj ((fun b n d => (x b n d : EReal)) b j) (fun h d => (Wv h d : EReal)) (fun h => (bv h : EReal)) h) :=
  attn_of_real _ _ (fun j => mscoreR x area co Wq bq Wk bk We1 be1 We2 be2 b i j) (fun j => projR (x b j) Wv bv h)
    (fun j => mscore_coe x area co Wq bq Wk bk We1 be1 We2 be2 b i j) (fun j => proj_coe (x b j) Wv bv h)

end Cert.SpecMath

end
-- ==== Proof.MathGblk.lean ====
/-
  The result in its block-by-block form, and its agreement with the specification on real inputs.

  Gblk is G with every attention row replaced by the quotient accumulator / normaliser of the running triple
  over the four blocks of 128 keys.  When the thirteen arrays the attention reads (features, area, co-occurrence,
  the three projections and the edge network) hold a real number at every position, each masked score and each
  value is real, the quotient is the softmax row, and the two forms agree; the arrays of the epilogue play no part.
-/
import proofs.«116762_j61950608277594_2_alg».proof.Proof.MathReal
import proofs.«116762_j61950608277594_2_alg».proof.Proof.Curry

noncomputable section

namespace Cert.SpecMath

open Idealize.ShloMosaic Idealize.ShloMosaic.ValueIdx Cert.Spec

/-- The result with each attention row evaluated block by block. -/
def Gblk (x : Fin 4 → Fin 512 → Fin 256 → EReal) (area : Fin 4 → Fin 512 → EReal) (co : Fin 512 → Fin 512 → EReal)
    (Wq : Fin 256 → Fin 256 → EReal) (bq : Fin 256 → EReal) (Wk : Fin 256 → Fin 256 → EReal) (bk : Fin 256 → EReal)
    (Wv : Fin 256 → Fin 256 → EReal) (bv : Fin 256 → EReal)
    (We1 : Fin 256 → Fin 2 → EReal) (be1 : Fin 256 → EReal) (We2 : Fin 1 → Fin 256 → EReal) (be2 : Fin 1 → EReal)
    (Wo : Fin 256 → Fin 256 → EReal) (bo g_ot b_ot g1 b1 g2 b2 : Fin 256 → EReal)
    (b : Fin 4) (i : Fin 512) (h : Fin 256) : EReal :=
  epilogue
    (fun h' => Ideal.div
      (blockState (fun j => mscore x area co Wq bq Wk bk We1 be1 We2 be2 b i j) (fun j => proj (x b j) Wv bv h') 3).2.2
      (blockState (fun j => mscore x area co Wq bq Wk bk We1 be1 We2 be2 b i j) (fun j => proj (x b j) Wv bv h') 3).2.1)
    (x b i) Wo bo g_ot b_ot g1 b1 g2 b2 h

/-- On arrays that hold a real number at every position the block-by-block form is the specification. -/
theorem Gblk_eq_G (x : Fin 4 → Fin 512 → Fin 256 → EReal) (area : Fin 4 → Fin 512 → EReal)
    (co : Fin 512 → Fin 512 → EReal)
    (Wq : Fin 256 → Fin 256 → EReal) (bq : Fin 256 → EReal) (Wk : Fin 256 → Fin 256 → EReal) (bk : Fin 256 → EReal)
    (Wv : Fin 256 → Fin 256 → EReal) (bv : Fin 256 → EReal)
    (We1 : Fin 256 → Fin 2 → EReal) (be1 : Fin 256 → EReal) (We2 : Fin 1 → Fin 256 → EReal) (be2 : Fin 1 → EReal)
    (Wo : Fin 256 → Fin 256 → EReal) (bo g_ot b_ot g1 b1 g2 b2 : Fin 256 → EReal)
    (hx : ∀ b n d, ∃ r : ℝ, x b n d = (r : EReal)) (harea : ∀ b n, ∃ r : ℝ, area b n = (r : EReal))
    (hco : ∀ i j, ∃ r : ℝ, co i j = (r : EReal))
    (hWq : ∀ h d, ∃ r : ℝ, Wq h d = (r : EReal)) (hbq : ∀ h, ∃ r : ℝ, bq h = (r : EReal))
    (hWk : ∀ h d, ∃ r : ℝ, Wk h d = (r : EReal)) (hbk : ∀ h, ∃ r : ℝ, bk h = (r : EReal))
    (hWv : ∀ h d, ∃ r : ℝ, Wv h d = (r : EReal)) (hbv : ∀ h, ∃ r : ℝ, bv h = (r : EReal))
    (hWe1 : ∀ h e, ∃ r : ℝ, We1 h e = (r : EReal)) (hbe1 : ∀ h, ∃ r : ℝ, be1 h = (r : EReal))
    (hWe2 : ∀ o h, ∃ r : ℝ, We2 o h = (r : EReal)) (hbe2 : ∀ o, ∃ r : ℝ, be2 o = (r : EReal))
    (b : Fin 4) (i : Fin 512) (h : Fin 256) :
    Gblk x area co Wq bq Wk bk Wv bv We1 be1 We2 be2 Wo bo g_ot b_ot g1 b1 g2 b2 b i h
      = G x area co Wq bq Wk bk Wv bv We1 be1 We2 be2 Wo bo g_ot b_ot g1 b1 g2 b2 b i h := by
  choose xr hxr using hx
  choose arear harear using harea
  choose cor hcor using hco
  choose Wqr hWqr using hWq
  choose bqr hbqr using hbq
  choose Wkr hWkr using hWk
  choose bkr hbkr using hbk
  choose Wvr hWvr using hWv
  choose bvr hbvr using hbv
  choose We1r hWe1r using hWe1
  choose be1r hbe1r using hbe1
  choose We2r hWe2r using hWe2
  choose be2r hbe2r using hbe2
  obtain rfl : x = fun b n d => (xr b n d : EReal) := by funext b n d; exact hxr b n d
  obtain rfl : area = fun b n => (arear b n : EReal) := by funext b n; exact harear b n
  obtain rfl : co = fun i j => (cor i j : EReal) := by funext i j; exact hcor i j
  obtain rfl : Wq = fun h d => (Wqr h d : EReal) := by funext h d; exact hWqr h d
  obtain rfl : bq = fun h => (bqr h : EReal) := by funext h; exact hbqr h
  obtain rfl : Wk = fun h d => (Wkr h d : EReal) := by funext h d; exact hWkr h d
  obtain rfl : bk = fun h => (bkr h : EReal) := by funext h; exact hbkr h
  obtain rfl : Wv = fun h d => (Wvr h d : EReal) := by funext h d; exact hWvr h d
  obtain rfl : bv = fun h => (bvr h : EReal) := by funext h; exact hbvr h
  obtain rfl : We1 = fun h e => (We1r h e : EReal) := by funext h e; exact hWe1r h e
  obtain rfl : be1 = fun h => (be1r h : EReal) := by funext h; exact hbe1r h
  obtain rfl : We2 = fun o h => (We2r o h : EReal) := by funext o h; exact hWe2r o h
  obtain rfl : be2 = fun o => (be2r o : EReal) := by funext o; exact hbe2r o
  have key : (fun h' => Ideal.div
        (blockState
          (fun j => mscore (fun b n d => (xr b n d : EReal)) (fun b n => (arear b n : EReal))
            (fun i j => (cor i j : EReal)) (fun h d => (Wqr h d : EReal)) (fun h => (bqr h : EReal))
            (fun h d => (Wkr h d : EReal)) (fun h => (bkr h : EReal)) (fun h e => (We1r h e : EReal))
            (fun h => (be1r h : EReal)) (fun o h => (We2r o h : EReal)) (fun o => (be2r o : EReal)) b i j)
          (fun j => proj ((fun b n d => (xr b n d : EReal)) b j) (fun h d => (Wvr h d : EReal))
            (fun h => (bvr h : EReal)) h') 3).2.2
        (blockState
          (fun j => mscore (fun b n d => (xr b n d : EReal)) (fun b n => (arear b n : EReal))
            (fun i j => (cor i j : EReal)) (fun h d => (Wqr h d : EReal)) (fun h => (bqr h : EReal))
            (fun h d => (Wkr h d : EReal)) (fun h => (bkr h : EReal)) (fun h e => (We1r h e : EReal))
            (fun h => (be1r h : EReal)) (fun o h => (We2r o h : EReal)) (fun o => (be2r o : EReal)) b i j)
          (fun j => proj ((fun b n d => (xr b n d : EReal)) b j) (fun h d => (Wvr h d : EReal))
            (fun h => (bvr h : EReal)) h') 3).2.1)
      = fun h' => attnRow
          (fun j => mscore (fun b n d => (xr b n d : EReal)) (fun b n => (arear b n : EReal))
            (fun i j => (cor i j : EReal)) (fun h d => (Wqr h d : EReal)) (fun h => (bqr h : EReal))
            (fun h d => (Wkr h d : EReal)) (fun h => (bkr h : EReal)) (fun h e => (We1r h e : EReal))
            (fun h => (be1r h : EReal)) (fun o h => (We2r o h : EReal)) (fun o => (be2r o : EReal)) b i j)
          (fun j => proj ((fun b n d => (xr b n d : EReal)) b j) (fun h d => (Wvr h d : EReal))
            (fun h => (bvr h : EReal)) h') :=
    funext fun h' => blockState_attn_mscore xr arear cor Wqr bqr Wkr bkr Wvr bvr We1r be1r We2r be2r b i h'
  exact congrArg (fun o => epilogue o ((fun b n d => (xr b n d : EReal)) b i) Wo bo g_ot b_ot g1 b1 g2 b2 h) key

/-- The same for arrays given by their flat index, read through the currying of their coordinates. -/
theorem Gblk_eq_G_arrays
    (a0 : (⟨3, ![4, 512, 256]⟩ : Shape).Idx → EReal) (a1 : (⟨2, ![4, 512]⟩ : Shape).Idx → EReal)
    (a2 : (⟨2, ![512, 512]⟩ : Shape).Idx → EReal)
    (a3 : (⟨2, ![256, 256]⟩ : Shape).Idx → EReal) (a4 : (⟨1, ![256]⟩ : Shape).Idx → EReal)
    (a5 : (⟨2, ![256, 256]⟩ : Shape).Idx → EReal) (a6 : (⟨1, ![256]⟩ : Shape).Idx → EReal)
    (a7 : (⟨2, ![256, 256]⟩ : Shape).Idx → EReal) (a8 : (⟨1, ![256]⟩ : Shape).Idx → EReal)
    (a9 : (⟨2, ![256, 2]⟩ : Shape).Idx → EReal) (a10 : (⟨1, ![256]⟩ : Shape).Idx → EReal)
    (a11 : (⟨2, ![1, 256]⟩ : Shape).Idx → EReal) (a12 : (⟨1, ![1]⟩ : Shape).Idx → EReal)
    (a13 : (⟨2, ![256, 256]⟩ : Shape).Idx → EReal)
    (a14 a15 a16 a17 a18 a19 a20 : (⟨1, ![256]⟩ : Shape).Idx → EReal)
    (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal))
    (h4 : ∀ i, ∃ r : ℝ, a4 i = (r : EReal)) (h5 : ∀ i, ∃ r : ℝ, a5 i = (r : EReal))
    (h6 : ∀ i, ∃ r : ℝ, a6 i = (r : EReal)) (h7 : ∀ i, ∃ r : ℝ, a7 i = (r : EReal))
    (h8 : ∀ i, ∃ r : ℝ, a8 i = (r : EReal)) (h9 : ∀ i, ∃ r : ℝ, a9 i = (r : EReal))
    (h10 : ∀ i, ∃ r : ℝ, a10 i = (r : EReal)) (h11 : ∀ i, ∃ r : ℝ, a11 i = (r : EReal))
    (h12 : ∀ i, ∃ r : ℝ, a12 i = (r : EReal))
    (b : Fin 4) (i : Fin 512) (h : Fin 256) :
    Gblk (cur3 a0) (cur2 a1) (cur2 a2) (cur2 a3) (cur1 a4) (cur2 a5) (cur1 a6) (cur2 a7) (cur1 a8) (cur2 a9)
        (cur1 a10) (cur2 a11) (cur1 a12) (cur2 a13) (cur1 a14) (cur1 a15) (cur1 a16) (cur1 a17) (cur1 a18)
        (cur1 a19) (cur1 a20) b i h
      = G (cur3 a0) (cur2 a1) (cur2 a2) (cur2 a3) (cur1 a4) (cur2 a5) (cur1 a6) (cur2 a7) (cur1 a8) (cur2 a9)
        (cur1 a10) (cur2 a11) (cur1 a12) (cur2 a13) (cur1 a14) (cur1 a15) (cur1 a16) (cur1 a17) (cur1 a18)
        (cur1 a19) (cur1 a20) b i h :=
  Gblk_eq_G _ _ _ _ _ _ _ _ _ _ _ _ _ _ _ _ _ _ _ _ _
    (fun b n d => h0 (ix3 b n d)) (fun b n => h1 (ix2 b n)) (fun i j => h2 (ix2 i j))
    (fun h d => h3 (ix2 h d)) (fun h => h4 (ix1 h)) (fun h d => h5 (ix2 h d)) (fun h => h6 (ix1 h))
    (fun h d => h7 (ix2 h d)) (fun h => h8 (ix1 h)) (fun h e => h9 (ix2 h e)) (fun h => h10 (ix1 h))
    (fun o h => h11 (ix2 o h)) (fun o => h12 (ix1 o)) b i h

end Cert.SpecMath

end
-- ==== Proof.KI.PointValue.lean ====
/-
  One grid point's stores at the extended reals, in the specification's words over the argument arrays.
  At the point of batch b, query tile q and key tile k: the stored maximum, normaliser and accumulator of row r are
  the block step, from the triple found in the scratch, over the 128 keys of the tile, whose masked scores are those
  of query 32·q + r against keys 128·k + c and whose values are the value rows 128·k + c; at the last key tile the
  stored output row is the epilogue of accumulator / normaliser and the query's own features. With the induction over
  the four key tiles, the stored output row is the block-by-block form of the result.
-/
import proofs.«116762_j61950608277594_2_alg».proof.Proof.KI.Blocks
import proofs.«116762_j61950608277594_2_alg».proof.Proof.KI.EdgeScratch
import proofs.«116762_j61950608277594_2_alg».proof.Proof.KI.RowInduction
import proofs.«116762_j61950608277594_2_alg».proof.Proof.PayProj
import proofs.«116762_j61950608277594_2_alg».proof.Proof.PayEdge
import proofs.«116762_j61950608277594_2_alg».proof.Proof.PayScore
import proofs.«116762_j61950608277594_2_alg».proof.Proof.PayStep
import proofs.«116762_j61950608277594_2_alg».proof.Proof.PayEpi
import proofs.«116762_j61950608277594_2_alg».proof.Proof.MathGblk
import proofs.«116762_j61950608277594_2_alg».proof.Proof.Spec
import proofs.«116762_j61950608277594_2_alg».proof.Proof.Curry

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

/-! ## The tile's step over abstract blocks -/

section Glue
variable (a0 : S4x512x256.Idx → EReal) (a1 : S4x512.Idx → EReal) (a2 : S512x512.Idx → EReal)
  (a3 : S256x256.Idx → EReal) (a4 : S256.Idx → EReal) (a5 : S256x256.Idx → EReal) (a6 : S256.Idx → EReal)
  (a7 : S256x256.Idx → EReal) (a8 : S256.Idx → EReal) (a9 : S256x2.Idx → EReal) (a10 : S256.Idx → EReal)
  (a11 : S1x256.Idx → EReal) (a12 : S1.Idx → EReal)
  (b : Fin 4) (i : Fin 32 → Fin 512) (j : Fin 128 → Fin 512)
  (x0 : Vec Ideal S1x32x256 .f32) (x1 : Vec Ideal S1x128x256 .f32) (x2 : Vec Ideal S1x32x1 .f32) (x3 : Vec Ideal S32x128 .f32)
  (x4 : Vec Ideal S256x256 .f32) (x5 : Vec Ideal S256 .f32) (x6 : Vec Ideal S256x256 .f32) (x7 : Vec Ideal S256 .f32)
  (x8 : Vec Ideal S256x256 .f32) (x9 : Vec Ideal S256 .f32) (x10 : Vec Ideal S256x2 .f32) (x11 : Vec Ideal S256 .f32)
  (x12 : Vec Ideal S1x256 .f32) (x13 : Vec Ideal S1 .f32)
  (h0 : ∀ (r : Fin 32) (d : Fin 256), x0 (ix3 (0 : Fin 1) r d) = a0 (ix3 b (i r) d))
  (h1 : ∀ (cc : Fin 128) (d : Fin 256), x1 (ix3 (0 : Fin 1) cc d) = a0 (ix3 b (j cc) d))
  (h2 : ∀ r : Fin 32, x2 (ix3 (0 : Fin 1) r (0 : Fin 1)) = a1 (ix2 b (i r)))
  (h3 : ∀ (r : Fin 32) (cc : Fin 128), x3 (ix2 r cc) = a2 (ix2 (i r) (j cc)))
  (e4 : x4 = a3) (e5 : x5 = a4) (e6 : x6 = a5) (e7 : x7 = a6) (e8 : x8 = a7) (e9 : x9 = a8) (e10 : x10 = a9)
  (e11 : x11 = a10) (e12 : x12 = a11) (e13 : x13 = a12)
  (v50 : Vec Ideal S32x128 .f32)
  (hv50 : ∀ (r : Fin 32) (cc : Fin 128), v50 (ix2 r cc)
    = Spec.elogit (x2 (ix3 (0 : Fin 1) r (0 : Fin 1))) (x3 (ix2 r cc)) (Spec.cur2 x10) (Spec.cur1 x11) (Spec.cur2 x12)
        (Spec.cur1 x13))

include h0 h1 h2 h3 e4 e5 e6 e7 e10 e11 e12 e13 hv50 in
/-- The tile's gated score of row r against key c is the masked score of the array rows the blocks hold. -/
theorem glue_score (r : Fin 32) (cc : Fin 128) :
    k0_pay18 (k0_pay15 x0 x4 x5) (k0_pay16 x1 x6 x7) v50 (ix2 r cc)
      = Spec.mscore (Spec.cur3 a0) (Spec.cur2 a1) (Spec.cur2 a2) (Spec.cur2 a3) (Spec.cur1 a4) (Spec.cur2 a5) (Spec.cur1 a6)
          (Spec.cur2 a9) (Spec.cur1 a10) (Spec.cur2 a11) (Spec.cur1 a12) b (i r) (j cc) := by
  subst e4 e5 e6 e7 e10 e11 e12 e13
  have eq : (fun h : Fin 256 => k0_pay15 x0 x4 x5 (ix2 r h)) = Spec.proj (Spec.cur3 a0 b (i r)) (Spec.cur2 x4) (Spec.cur1 x5) :=
    funext fun h => (PayValue.pay15_apply x0 x4 x5 r h).trans
      (congrArg (fun f => Spec.proj f (Spec.cur2 x4) (Spec.cur1 x5) h) (funext fun d => h0 r d))
  have ek : (fun h : Fin 256 => k0_pay16 x1 x6 x7 (ix2 h cc)) = Spec.proj (Spec.cur3 a0 b (j cc)) (Spec.cur2 x6) (Spec.cur1 x7) :=
    funext fun h => (PayValue.pay16_apply x1 x6 x7 h cc).trans
      (congrArg (fun f => Spec.proj f (Spec.cur2 x6) (Spec.cur1 x7) h) (funext fun d => h1 cc d))
  rw [PayValue.pay18_apply, eq, ek, hv50 r cc, h2 r, h3 r cc]
  rfl

include h1 e8 e9 in
/-- The tile's value row c at channel h is the projected value of the array row the block holds. -/
theorem glue_value (cc : Fin 128) (h : Fin 256) :
    k0_pay14 x1 x8 x9 (ix2 cc h) = Spec.proj (Spec.cur3 a0 b (j cc)) (Spec.cur2 a7) (Spec.cur1 a8) h := by
  subst e8 e9
  exact (PayValue.pay14_apply x1 x8 x9 cc h).trans
    (congrArg (fun f => Spec.proj f (Spec.cur2 x8) (Spec.cur1 x9) h) (funext fun d => h1 cc d))

include h0 h1 h2 h3 e4 e5 e6 e7 e8 e9 e10 e11 e12 e13 hv50 in
/-- THE TILE'S STEP over abstract blocks: the stored triple of row r (at channel h) is the block step, from the
    triple found, over the tile's masked scores and values. -/
theorem glue_step (v53 v54 : Vec Ideal S32x1 .f32) (v55 : Vec Ideal S32x256 .f32) (r : Fin 32) (h : Fin 256) :
    (k0_pay1 (k0_pay19 (k0_pay15 x0 x4 x5) (k0_pay16 x1 x6 x7) v50 v53) (ix2 r (0 : Fin 1)),
      k0_pay2 (k0_pay22 (k0_pay15 x0 x4 x5) (k0_pay16 x1 x6 x7) v50 v53 v54) (ix2 r (0 : Fin 1)),
      k0_pay3 v55 (k0_pay23 (k0_pay14 x1 x8 x9) (k0_pay15 x0 x4 x5) (k0_pay16 x1 x6 x7) v50 v53)
        (k0_pay24 (k0_pay15 x0 x4 x5) (k0_pay16 x1 x6 x7) v50 v53) (ix2 r h))
      = Spec.blockStep
          (fun cc : Fin 128 => Spec.mscore (Spec.cur3 a0) (Spec.cur2 a1) (Spec.cur2 a2) (Spec.cur2 a3) (Spec.cur1 a4)
            (Spec.cur2 a5) (Spec.cur1 a6) (Spec.cur2 a9) (Spec.cur1 a10) (Spec.cur2 a11) (Spec.cur1 a12) b (i r) (j cc))
          (fun cc : Fin 128 => Spec.proj (Spec.cur3 a0 b (j cc)) (Spec.cur2 a7) (Spec.cur1 a8) h)
          (v53 (ix2 r (0 : Fin 1)), v54 (ix2 r (0 : Fin 1)), v55 (ix2 r h)) := by
  have eS : (fun cc : Fin 128 => k0_pay18 (k0_pay15 x0 x4 x5) (k0_pay16 x1 x6 x7) v50 (ix2 r cc))
      = fun cc : Fin 128 => Spec.mscore (Spec.cur3 a0) (Spec.cur2 a1) (Spec.cur2 a2) (Spec.cur2 a3) (Spec.cur1 a4)
          (Spec.cur2 a5) (Spec.cur1 a6) (Spec.cur2 a9) (Spec.cur1 a10) (Spec.cur2 a11) (Spec.cur1 a12) b (i r) (j cc) :=
    funext fun cc => glue_score a0 a1 a2 a3 a4 a5 a6 a9 a10 a11 a12 b i j x0 x1 x2 x3 x4 x5 x6 x7 x10 x11 x12 x13
      h0 h1 h2 h3 e4 e5 e6 e7 e10 e11 e12 e13 v50 hv50 r cc
  have eV : (fun cc : Fin 128 => k0_pay14 x1 x8 x9 (ix2 cc h))
      = fun cc : Fin 128 => Spec.proj (Spec.cur3 a0 b (j cc)) (Spec.cur2 a7) (Spec.cur1 a8) h :=
    funext fun cc => glue_value a0 a7 a8 b j x1 x8 x9 h1 e8 e9 cc h
  rw [← eS, ← eV]
  exact Prod.ext (PayValue.pay1_apply _ _ _ v50 v53 v54 v55 r h)
    (Prod.ext (PayValue.pay2_apply _ _ _ v50 v53 v54 v55 r h) (PayValue.pay3_apply _ _ _ v50 v53 v54 v55 r h))

end Glue

/-! ## The argument arrays and the two functions of the induction -/

section Point
variable (m : (ℓ : Loc nD τ sig) → Buf (Elt Ideal) ℓ) (c : Dev nD)

/-- Argument 0 as launched. -/
abbrev ar0 : S4x512x256.Idx → EReal := m ((c : Thread nD τ).loc main_arg0)
/-- Argument 1 as launched. -/
abbrev ar1 : S4x512.Idx → EReal := m ((c : Thread nD τ).loc main_arg1)
/-- Argument 2 as launched. -/
abbrev ar2 : S512x512.Idx → EReal := m ((c : Thread nD τ).loc main_arg2)
/-- Argument 3 as launched. -/
abbrev ar3 : S256x256.Idx → EReal := m ((c : Thread nD τ).loc main_arg3)
/-- Argument 4 as launched. -/
abbrev ar4 : S256.Idx → EReal := m ((c : Thread nD τ).loc main_arg4)
/-- Argument 5 as launched. -/
abbrev ar5 : S256x256.Idx → EReal := m ((c : Thread nD τ).loc main_arg5)
/-- Argument 6 as launched. -/
abbrev ar6 : S256.Idx → EReal := m ((c : Thread nD τ).loc main_arg6)
/-- Argument 7 as launched. -/
abbrev ar7 : S256x256.Idx → EReal := m ((c : Thread nD τ).loc main_arg7)
/-- Argument 8 as launched. -/
abbrev ar8 : S256.Idx → EReal := m ((c : Thread nD τ).loc main_arg8)
/-- Argument 9 as launched. -/
abbrev ar9 : S256x2.Idx → EReal := m ((c : Thread nD τ).loc main_arg9)
/-- Argument 10 as launched. -/
abbrev ar10 : S256.Idx → EReal := m ((c : Thread nD τ).loc main_arg10)
/-- Argument 11 as launched. -/
abbrev ar11 : S1x256.Idx → EReal := m ((c : Thread nD τ).loc main_arg11)
/-- Argument 12 as launched. -/
abbrev ar12 : S1.Idx → EReal := m ((c : Thread nD τ).loc main_arg12)
/-- Argument 13 as launched. -/
abbrev ar13 : S256x256.Idx → EReal := m ((c : Thread nD τ).loc main_arg13)
/-- Argument 14 as launched. -/
abbrev ar14 : S256.Idx → EReal := m ((c : Thread nD τ).loc main_arg14)
/-- Argument 15 as launched. -/
abbrev ar15 : S256.Idx → EReal := m ((c : Thread nD τ).loc main_arg15)
/-- Argument 16 as launched. -/
abbrev ar16 : S256.Idx → EReal := m ((c : Thread nD τ).loc main_arg16)
/-- Argument 17 as launched. -/
abbrev ar17 : S256.Idx → EReal := m ((c : Thread nD τ).loc main_arg17)
/-- Argument 18 as launched. -/
abbrev ar18 : S256.Idx → EReal := m ((c : Thread nD τ).loc main_arg18)
/-- Argument 19 as launched. -/
abbrev ar19 : S256.Idx → EReal := m ((c : Thread nD τ).loc main_arg19)
/-- Argument 20 as launched. -/
abbrev ar20 : S256.Idx → EReal := m ((c : Thread nD τ).loc main_arg20)

/-- The masked score of query i against key j of batch b, over the argument arrays. -/
abbrev SS (b : Fin 4) (i j : Fin 512) : EReal :=
  Spec.mscore (Spec.cur3 (ar0 m c)) (Spec.cur2 (ar1 m c)) (Spec.cur2 (ar2 m c)) (Spec.cur2 (ar3 m c)) (Spec.cur1 (ar4 m c)) (Spec.cur2 (ar5 m c)) (Spec.cur1 (ar6 m c)) (Spec.cur2 (ar9 m c)) (Spec.cur1 (ar10 m c)) (Spec.cur2 (ar11 m c)) (Spec.cur1 (ar12 m c)) b i j

/-- The projected value of key j of batch b at channel h, over the argument arrays. -/
abbrev WW (b : Fin 4) (j : Fin 512) (h : Fin 256) : EReal :=
  Spec.proj (Spec.cur3 (ar0 m c) b j) (Spec.cur2 (ar7 m c)) (Spec.cur1 (ar8 m c)) h

variable (t : Fin cfg0.N)

/-- Window 4 holds argument 3. -/
theorem blk4_eq : (iblk m c 4 t : S256x256.Idx → EReal) = ar3 m c :=
  (iblk4_eq m c t).trans (V_main_arg3 m c)
/-- Window 5 holds argument 4. -/
theorem blk5_eq : (iblk m c 5 t : S256.Idx → EReal) = ar4 m c :=
  (iblk5_eq m c t).trans (V_main_arg4 m c)
/-- Window 6 holds argument 5. -/
theorem blk6_eq : (iblk m c 6 t : S256x256.Idx → EReal) = ar5 m c :=
  (iblk6_eq m c t).trans (V_main_arg5 m c)
/-- Window 7 holds argument 6. -/
theorem blk7_eq : (iblk m c 7 t : S256.Idx → EReal) = ar6 m c :=
  (iblk7_eq m c t).trans (V_main_arg6 m c)
/-- Window 8 holds argument 7. -/
theorem blk8_eq : (iblk m c 8 t : S256x256.Idx → EReal) = ar7 m c :=
  (iblk8_eq m c t).trans (V_main_arg7 m c)
/-- Window 9 holds argument 8. -/
theorem blk9_eq : (iblk m c 9 t : S256.Idx → EReal) = ar8 m c :=
  (iblk9_eq m c t).trans (V_main_arg8 m c)
/-- Window 10 holds argument 9. -/
theorem blk10_eq : (iblk m c 10 t : S256x2.Idx → EReal) = ar9 m c :=
  (iblk10_eq m c t).trans (V_main_arg9 m c)
/-- Window 11 holds argument 10. -/
theorem blk11_eq : (iblk m c 11 t : S256.Idx → EReal) = ar10 m c :=
  (iblk11_eq m c t).trans (V_main_arg10 m c)
/-- Window 12 holds argument 11. -/
theorem blk12_eq : (iblk m c 12 t : S1x256.Idx → EReal) = ar11 m c :=
  (iblk12_eq m c t).trans (V_main_arg11 m c)
/-- Window 13 holds argument 12. -/
theorem blk13_eq : (iblk m c 13 t : S1.Idx → EReal) = ar12 m c :=
  (iblk13_eq m c t).trans (V_main_arg12 m c)
/-- Window 14 holds argument 13. -/
theorem blk14_eq : (iblk m c 14 t : S256x256.Idx → EReal) = ar13 m c :=
  (iblk14_eq m c t).trans (V_main_arg13 m c)
/-- Window 15 holds argument 14. -/
theorem blk15_eq : (iblk m c 15 t : S256.Idx → EReal) = ar14 m c :=
  (iblk15_eq m c t).trans (V_main_arg14 m c)
/-- Window 16 holds argument 15. -/
theorem blk16_eq : (iblk m c 16 t : S256.Idx → EReal) = ar15 m c :=
  (iblk16_eq m c t).trans (V_main_arg15 m c)
/-- Window 17 holds argument 16. -/
theorem blk17_eq : (iblk m c 17 t : S256.Idx → EReal) = ar16 m c :=
  (iblk17_eq m c t).trans (V_main_arg16 m c)
/-- Window 18 holds argument 17. -/
theorem blk18_eq : (iblk m c 18 t : S256.Idx → EReal) = ar17 m c :=
  (iblk18_eq m c t).trans (V_main_arg17 m c)
/-- Window 19 holds argument 18. -/
theorem blk19_eq : (iblk m c 19 t : S256.Idx → EReal) = ar18 m c :=
  (iblk19_eq m c t).trans (V_main_arg18 m c)
/-- Window 20 holds argument 19. -/
theorem blk20_eq : (iblk m c 20 t : S256.Idx → EReal) = ar19 m c :=
  (iblk20_eq m c t).trans (V_main_arg19 m c)
/-- Window 21 holds argument 20. -/
theorem blk21_eq : (iblk m c 21 t : S256.Idx → EReal) = ar20 m c :=
  (iblk21_eq m c t).trans (V_main_arg20 m c)

/-- THE TILE'S STEP AT A POINT: for any triple found in the scratch and any edge-logit tile that holds the edge
    logits of the point's area and co-occurrence blocks, the stored triple of row r (at channel h) is the block step
    over the masked scores of query 32·q + r against keys 128·k + c and the value rows 128·k + c. -/
theorem tile_step (v50 : Vec Ideal S32x128 .f32)
    (hv50 : ∀ (r : Fin 32) (cc : Fin 128), v50 (ix2 r cc)
      = Spec.elogit ((iblk m c 2 t : Vec Ideal S1x32x1 .f32) (ix3 (0 : Fin 1) r (0 : Fin 1)))
          ((iblk m c 3 t : Vec Ideal S32x128 .f32) (ix2 r cc)) (Spec.cur2 (iblk m c 10 t : Vec Ideal S256x2 .f32))
          (Spec.cur1 (iblk m c 11 t : Vec Ideal S256 .f32)) (Spec.cur2 (iblk m c 12 t : Vec Ideal S1x256 .f32))
          (Spec.cur1 (iblk m c 13 t : Vec Ideal S1 .f32)))
    (v53 v54 : Vec Ideal S32x1 .f32) (v55 : Vec Ideal S32x256 .f32) (r : Fin 32) (h : Fin 256) :
    (k0_pay1 (k0_pay19 (k0_pay15 (iblk m c 0 t) (iblk m c 4 t) (iblk m c 5 t))
        (k0_pay16 (iblk m c 1 t) (iblk m c 6 t) (iblk m c 7 t)) v50 v53) (ix2 r (0 : Fin 1)),
      k0_pay2 (k0_pay22 (k0_pay15 (iblk m c 0 t) (iblk m c 4 t) (iblk m c 5 t))
        (k0_pay16 (iblk m c 1 t) (iblk m c 6 t) (iblk m c 7 t)) v50 v53 v54) (ix2 r (0 : Fin 1)),
      k0_pay3 v55 (k0_pay23 (k0_pay14 (iblk m c 1 t) (iblk m c 8 t) (iblk m c 9 t))
          (k0_pay15 (iblk m c 0 t) (iblk m c 4 t) (iblk m c 5 t)) (k0_pay16 (iblk m c 1 t) (iblk m c 6 t) (iblk m c 7 t)) v50 v53)
        (k0_pay24 (k0_pay15 (iblk m c 0 t) (iblk m c 4 t) (iblk m c 5 t))
          (k0_pay16 (iblk m c 1 t) (iblk m c 6 t) (iblk m c 7 t)) v50 v53) (ix2 r h))
      = Spec.blockStep (fun cc : Fin 128 => SS m c (bt t) (qrow t r) (krow t cc))
          (fun cc : Fin 128 => WW m c (bt t) (krow t cc) h)
          (v53 (ix2 r (0 : Fin 1)), v54 (ix2 r (0 : Fin 1)), v55 (ix2 r h)) :=
  glue_step (ar0 m c) (ar1 m c) (ar2 m c) (ar3 m c) (ar4 m c) (ar5 m c) (ar6 m c) (ar7 m c) (ar8 m c) (ar9 m c)
    (ar10 m c) (ar11 m c) (ar12 m c) (bt t) (qrow t) (krow t)
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    (fun r d => (iblk0_apply m c t r d).trans (congrFun (V_main_arg0 m c) _))
    (fun cc d => (iblk1_apply m c t cc d).trans (congrFun (V_main_arg0 m c) _))
    (fun r => iblk2_area m c t r)
    (fun r cc => (iblk3_apply m c t r cc).trans (congrFun (V_main_arg2 m c) _))
    (blk4_eq m c t) (blk5_eq m c t) (blk6_eq m c t) (blk7_eq m c t) (blk8_eq m c t) (blk9_eq m c t) (blk10_eq m c t)
    (blk11_eq m c t) (blk12_eq m c t) (blk13_eq m c t) v50 hv50 v53 v54 v55 r h

/-- The three components of the tile's step. -/
theorem tile_step_max (v50 : Vec Ideal S32x128 .f32)
    (hv50 : ∀ (r : Fin 32) (cc : Fin 128), v50 (ix2 r cc)
      = Spec.elogit ((iblk m c 2 t : Vec Ideal S1x32x1 .f32) (ix3 (0 : Fin 1) r (0 : Fin 1)))
          ((iblk m c 3 t : Vec Ideal S32x128 .f32) (ix2 r cc)) (Spec.cur2 (iblk m c 10 t : Vec Ideal S256x2 .f32))
          (Spec.cur1 (iblk m c 11 t : Vec Ideal S256 .f32)) (Spec.cur2 (iblk m c 12 t : Vec Ideal S1x256 .f32))
          (Spec.cur1 (iblk m c 13 t : Vec Ideal S1 .f32)))
    (v53 v54 : Vec Ideal S32x1 .f32) (v55 : Vec Ideal S32x256 .f32) (r : Fin 32) (h : Fin 256) :
    k0_pay1 (k0_pay19 (k0_pay15 (iblk m c 0 t) (iblk m c 4 t) (iblk m c 5 t))
        (k0_pay16 (iblk m c 1 t) (iblk m c 6 t) (iblk m c 7 t)) v50 v53) (ix2 r (0 : Fin 1))
      = (Spec.blockStep (fun cc : Fin 128 => SS m c (bt t) (qrow t r) (krow t cc))
          (fun cc : Fin 128 => WW m c (bt t) (krow t cc) h)
          (v53 (ix2 r (0 : Fin 1)), v54 (ix2 r (0 : Fin 1)), v55 (ix2 r h))).1 :=
  congrArg (fun p : EReal × EReal × EReal => p.1) (tile_step m c t v50 hv50 v53 v54 v55 r h)

theorem tile_step_norm (v50 : Vec Ideal S32x128 .f32)
    (hv50 : ∀ (r : Fin 32) (cc : Fin 128), v50 (ix2 r cc)
      = Spec.elogit ((iblk m c 2 t : Vec Ideal S1x32x1 .f32) (ix3 (0 : Fin 1) r (0 : Fin 1)))
          ((iblk m c 3 t : Vec Ideal S32x128 .f32) (ix2 r cc)) (Spec.cur2 (iblk m c 10 t : Vec Ideal S256x2 .f32))
          (Spec.cur1 (iblk m c 11 t : Vec Ideal S256 .f32)) (Spec.cur2 (iblk m c 12 t : Vec Ideal S1x256 .f32))
          (Spec.cur1 (iblk m c 13 t : Vec Ideal S1 .f32)))
    (v53 v54 : Vec Ideal S32x1 .f32) (v55 : Vec Ideal S32x256 .f32) (r : Fin 32) (h : Fin 256) :
    k0_pay2 (k0_pay22 (k0_pay15 (iblk m c 0 t) (iblk m c 4 t) (iblk m c 5 t))
        (k0_pay16 (iblk m c 1 t) (iblk m c 6 t) (iblk m c 7 t)) v50 v53 v54) (ix2 r (0 : Fin 1))
      = (Spec.blockStep (fun cc : Fin 128 => SS m c (bt t) (qrow t r) (krow t cc))
          (fun cc : Fin 128 => WW m c (bt t) (krow t cc) h)
          (v53 (ix2 r (0 : Fin 1)), v54 (ix2 r (0 : Fin 1)), v55 (ix2 r h))).2.1 :=
  congrArg (fun p : EReal × EReal × EReal => p.2.1) (tile_step m c t v50 hv50 v53 v54 v55 r h)

theorem tile_step_acc (v50 : Vec Ideal S32x128 .f32)
    (hv50 : ∀ (r : Fin 32) (cc : Fin 128), v50 (ix2 r cc)
      = Spec.elogit ((iblk m c 2 t : Vec Ideal S1x32x1 .f32) (ix3 (0 : Fin 1) r (0 : Fin 1)))
          ((iblk m c 3 t : Vec Ideal S32x128 .f32) (ix2 r cc)) (Spec.cur2 (iblk m c 10 t : Vec Ideal S256x2 .f32))
          (Spec.cur1 (iblk m c 11 t : Vec Ideal S256 .f32)) (Spec.cur2 (iblk m c 12 t : Vec Ideal S1x256 .f32))
          (Spec.cur1 (iblk m c 13 t : Vec Ideal S1 .f32)))
    (v53 v54 : Vec Ideal S32x1 .f32) (v55 : Vec Ideal S32x256 .f32) (r : Fin 32) (h : Fin 256) :
    k0_pay3 v55 (k0_pay23 (k0_pay14 (iblk m c 1 t) (iblk m c 8 t) (iblk m c 9 t))
          (k0_pay15 (iblk m c 0 t) (iblk m c 4 t) (iblk m c 5 t)) (k0_pay16 (iblk m c 1 t) (iblk m c 6 t) (iblk m c 7 t)) v50 v53)
        (k0_pay24 (k0_pay15 (iblk m c 0 t) (iblk m c 4 t) (iblk m c 5 t))
          (k0_pay16 (iblk m c 1 t) (iblk m c 6 t) (iblk m c 7 t)) v50 v53) (ix2 r h)
      = (Spec.blockStep (fun cc : Fin 128 => SS m c (bt t) (qrow t r) (krow t cc))
          (fun cc : Fin 128 => WW m c (bt t) (krow t cc) h)
          (v53 (ix2 r (0 : Fin 1)), v54 (ix2 r (0 : Fin 1)), v55 (ix2 r h))).2.2 :=
  congrArg (fun p : EReal × EReal × EReal => p.2.2) (tile_step m c t v50 hv50 v53 v54 v55 r h)

/-- THE FIRST KEY TILE: from the triple it has just reset, the step is from (-∞, 0, 0). -/
theorem tile_step_first (v50 : Vec Ideal S32x128 .f32)
    (hv50 : ∀ (r : Fin 32) (cc : Fin 128), v50 (ix2 r cc)
      = Spec.elogit ((iblk m c 2 t : Vec Ideal S1x32x1 .f32) (ix3 (0 : Fin 1) r (0 : Fin 1)))
          ((iblk m c 3 t : Vec Ideal S32x128 .f32) (ix2 r cc)) (Spec.cur2 (iblk m c 10 t : Vec Ideal S256x2 .f32))
          (Spec.cur1 (iblk m c 11 t : Vec Ideal S256 .f32)) (Spec.cur2 (iblk m c 12 t : Vec Ideal S1x256 .f32))
          (Spec.cur1 (iblk m c 13 t : Vec Ideal S1 .f32)))
    (r : Fin 32) (h : Fin 256) :
    (k0_pay1 (k0_pay19 (k0_pay15 (iblk m c 0 t) (iblk m c 4 t) (iblk m c 5 t))
        (k0_pay16 (iblk m c 1 t) (iblk m c 6 t) (iblk m c 7 t)) v50 (k0_pay9 (F := Ideal))) (ix2 r (0 : Fin 1)),
      k0_pay2 (k0_pay22 (k0_pay15 (iblk m c 0 t) (iblk m c 4 t) (iblk m c 5 t))
        (k0_pay16 (iblk m c 1 t) (iblk m c 6 t) (iblk m c 7 t)) v50 (k0_pay9 (F := Ideal)) (k0_pay10 (F := Ideal)))
        (ix2 r (0 : Fin 1)),
      k0_pay3 (k0_pay11 (F := Ideal)) (k0_pay23 (k0_pay14 (iblk m c 1 t) (iblk m c 8 t) (iblk m c 9 t))
          (k0_pay15 (iblk m c 0 t) (iblk m c 4 t) (iblk m c 5 t)) (k0_pay16 (iblk m c 1 t) (iblk m c 6 t) (iblk m c 7 t)) v50
          (k0_pay9 (F := Ideal)))
        (k0_pay24 (k0_pay15 (iblk m c 0 t) (iblk m c 4 t) (iblk m c 5 t))
          (k0_pay16 (iblk m c 1 t) (iblk m c 6 t) (iblk m c 7 t)) v50 (k0_pay9 (F := Ideal))) (ix2 r h))
      = Spec.blockStep (fun cc : Fin 128 => SS m c (bt t) (qrow t r) (krow t cc))
          (fun cc : Fin 128 => WW m c (bt t) (krow t cc) h) (⊥, 0, 0) := by
  refine (tile_step m c t v50 hv50 (k0_pay9 (F := Ideal)) (k0_pay10 (F := Ideal)) (k0_pay11 (F := Ideal)) r h).trans ?_
  rw [PayValue.pay9_apply, PayValue.pay10_apply, PayValue.pay11_apply]

/-! ## The edge-logit tile the run loads -/

/-- The scratch after the loop, for whole area and co-occurrence staging memrefs holding the blocks x2 and x3: its
    entry (r, c) is the edge logit of x2's row r against x3's entry (r, c). -/
theorem hv50_of_scratch (𝒱 : Variants) (c' : Dev nD) (bd : Option 𝒱.V) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (v32 : FVec Ideal S128x256 .f32) (v33 : FVec Ideal S32x256 .bf16) (v35 : FVec Ideal S256x128 .bf16) (v39 : Vec Ideal S256x2 .f32) (v40 : Vec Ideal S256 .f32) (v45 : Vec Ideal S1x256 .f32) (v46 : Vec Ideal S1 .f32)
    (x2 : Vec Ideal S1x32x1 .f32) (x3 : Vec Ideal S32x128 .f32) (G : BufTy.Contents (Elt Ideal) arg29.view.ty)
    (r : Fin 32) (cc : Fin 128) :
    arg29.view.read (Elt Ideal) (arg29.view.writes (Elt Ideal) G (pb_k0_t1 (F := Ideal) 𝒱 c' bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v32 v33 v35 v39 v40 v45 v46 (harg5.unread (Val := Elt Ideal) x2) (harg6.unread (Val := Elt Ideal) x3) 4))
        (ix2 r cc)
      = Spec.elogit (x2 (ix3 (0 : Fin 1) r (0 : Fin 1))) (x3 (ix2 r cc)) (Spec.cur2 v39) (Spec.cur1 v40) (Spec.cur2 v45)
          (Spec.cur1 v46) := by
  refine (edge_entry 𝒱 c' bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v32 v33 v35 v39 v40 v45 v46 (harg5.unread (Val := Elt Ideal) x2) (harg6.unread (Val := Elt Ideal) x3) G r cc).trans ?_
  rw [harg5.read_unread, harg6.read_unread]

/-! ## The last key tile's output row -/

/-- THE EPILOGUE AT A POINT: for any accumulator and normaliser found in the scratch, the stored output row r is the
    epilogue of accumulator / normaliser and the features of query 32·q + r. -/
theorem epilogue_step (v86 : Vec Ideal S32x256 .f32) (v87 : Vec Ideal S32x1 .f32) (r : Fin 32) (h : Fin 256) :
    k0_pay4 (iblk m c 21 t)
        (k0_pay7 (k0_pay12 (iblk m c 0 t))
          (k0_pay5 v86 v87 (iblk m c 18 t) (iblk m c 19 t) (iblk m c 14 t) (iblk m c 15 t)) (iblk m c 16 t) (iblk m c 17 t)
          (k0_pay6 v86 v87 (iblk m c 18 t) (iblk m c 19 t) (iblk m c 14 t) (iblk m c 15 t)))
        (k0_pay8 (iblk m c 20 t)) (ix3 (0 : Fin 1) r h)
      = Spec.epilogue (fun h' : Fin 256 => Ideal.div (v86 (ix2 r h')) (v87 (ix2 r (0 : Fin 1))))
          (Spec.cur3 (ar0 m c) (bt t) (qrow t r)) (Spec.cur2 (ar13 m c)) (Spec.cur1 (ar14 m c)) (Spec.cur1 (ar15 m c)) (Spec.cur1 (ar16 m c)) (Spec.cur1 (ar17 m c)) (Spec.cur1 (ar18 m c)) (Spec.cur1 (ar19 m c)) (Spec.cur1 (ar20 m c)) h := by
  refine (PayValue.pay4_epilogue (k0_pay12 (iblk m c 0 t)) v86 v87 (iblk m c 18 t) (iblk m c 19 t) (iblk m c 14 t)
    (iblk m c 15 t) (iblk m c 16 t) (iblk m c 17 t) (iblk m c 20 t) (iblk m c 21 t) r h).trans ?_
  have ex : (fun h' : Fin 256 => k0_pay12 (iblk m c 0 t) (ix2 r h')) = Spec.cur3 (ar0 m c) (bt t) (qrow t r) :=
    funext fun h' => (PayValue.pay12_apply (iblk m c 0 t) r h').trans
      ((iblk0_apply m c t r h').trans (congrFun (V_main_arg0 m c) _))
  rw [ex, blk14_eq m c t, blk15_eq m c t, blk16_eq m c t, blk17_eq m c t, blk18_eq m c t, blk19_eq m c t,
    blk20_eq m c t, blk21_eq m c t]

/-! ## The output row is the block-by-block form of the result -/

/-- AT A WRITE-BACK POINT: if the points' carried triples are the block steps of the induction over the four key
    tiles, the epilogue of accumulator / normaliser is the block-by-block form of the result at (b, 32·q + r, h). -/
theorem epilogue_eq_Gblk (mT lT : Fin cfg0.N → Fin 32 → EReal) (accT : Fin cfg0.N → Fin 32 → Fin 256 → EReal)
    (hA : ∀ t : Fin cfg0.N, t.val % 4 = 0 → ∀ (r : Fin 32) (h : Fin 256), (mT t r, lT t r, accT t r h)
      = Spec.blockStep (fun cc : Fin 128 => SS m c (bt t) (qrow t r) (krow t cc))
          (fun cc : Fin 128 => WW m c (bt t) (krow t cc) h) (⊥, 0, 0))
    (hB : ∀ t : Fin cfg0.N, t.val % 4 ≠ 0 → ∀ (r : Fin 32) (h : Fin 256), (mT t r, lT t r, accT t r h)
      = Spec.blockStep (fun cc : Fin 128 => SS m c (bt t) (qrow t r) (krow t cc))
          (fun cc : Fin 128 => WW m c (bt t) (krow t cc) h)
          (mT (prevPt t) r, lT (prevPt t) r, accT (prevPt t) r h))
    (ht : t.val % 4 = 3) (r : Fin 32) (h : Fin 256) :
    Spec.epilogue (fun h' : Fin 256 => Ideal.div (accT t r h') (lT t r)) (Spec.cur3 (ar0 m c) (bt t) (qrow t r))
        (Spec.cur2 (ar13 m c)) (Spec.cur1 (ar14 m c)) (Spec.cur1 (ar15 m c)) (Spec.cur1 (ar16 m c)) (Spec.cur1 (ar17 m c)) (Spec.cur1 (ar18 m c)) (Spec.cur1 (ar19 m c)) (Spec.cur1 (ar20 m c)) h
      = Cert.SpecMath.Gblk (Spec.cur3 (ar0 m c)) (Spec.cur2 (ar1 m c)) (Spec.cur2 (ar2 m c)) (Spec.cur2 (ar3 m c)) (Spec.cur1 (ar4 m c)) (Spec.cur2 (ar5 m c)) (Spec.cur1 (ar6 m c)) (Spec.cur2 (ar7 m c)) (Spec.cur1 (ar8 m c)) (Spec.cur2 (ar9 m c)) (Spec.cur1 (ar10 m c)) (Spec.cur2 (ar11 m c)) (Spec.cur1 (ar12 m c)) (Spec.cur2 (ar13 m c)) (Spec.cur1 (ar14 m c)) (Spec.cur1 (ar15 m c)) (Spec.cur1 (ar16 m c)) (Spec.cur1 (ar17 m c)) (Spec.cur1 (ar18 m c)) (Spec.cur1 (ar19 m c)) (Spec.cur1 (ar20 m c)) (bt t) (qrow t r) h := by
  unfold Cert.SpecMath.Gblk
  exact congrArg (fun o => Spec.epilogue o (Spec.cur3 (ar0 m c) (bt t) (qrow t r)) (Spec.cur2 (ar13 m c)) (Spec.cur1 (ar14 m c)) (Spec.cur1 (ar15 m c)) (Spec.cur1 (ar16 m c)) (Spec.cur1 (ar17 m c)) (Spec.cur1 (ar18 m c)) (Spec.cur1 (ar19 m c)) (Spec.cur1 (ar20 m c)) h)
    (funext fun h' => div_at_last (SS m c) (WW m c) mT lT accT hA hB t ht r h' h')

end Point

end Cert.KernelIdeal.Hand

end
-- ==== Proof.KI.ValueCore.lean ====
/-
  From the three cases of a point to the output tile, over an abstract record of what each point leaves: if the
  first key tile's point leaves the tile's step from the reset triple, every later point the tile's step from what the
  point before left, and the last key tile's point the epilogue of its own accumulator and normaliser, then the
  output tile the last key tile's point leaves is, at (0, r, h), the block-by-block form of the result at
  (batch, 32·(query tile) + r, h).
-/
import proofs.«116762_j61950608277594_2_alg».proof.Proof.KI.PointValue

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

/-- The offsets of a load of a whole rank-2 buffer are zero. -/
theorem zeroOffsets2 : (![0, 0] : Fin 2 → ℕ) = fun _ => 0 := funext fun a => by fin_cases a <;> rfl

section Core
variable (m : (ℓ : Loc nD τ sig) → Buf (Elt Ideal) ℓ) (c : Dev nD)
  (outs : (n : ℕ) → n < cfg0.N →
    Vec Ideal S1x32x256 .f32 × Vec Ideal S32x1 .f32 × Vec Ideal S32x1 .f32 × Vec Ideal S32x256 .f32)
  (v50 : Fin cfg0.N → Vec Ideal S32x128 .f32)

/-- What the point before t left (for a point that is not the first of its four). -/
abbrev prevOuts (t : Fin cfg0.N) :
    Vec Ideal S1x32x256 .f32 × Vec Ideal S32x1 .f32 × Vec Ideal S32x1 .f32 × Vec Ideal S32x256 .f32 :=
  outs (t.val - 1) (Nat.lt_of_le_of_lt (Nat.sub_le _ _) t.isLt)

/-- THE OUTPUT TILE the last key tile's point leaves, at (0, r, h). -/
theorem out_eq_Gblk
    (hv50 : ∀ t : Fin cfg0.N, (∀ (r : Fin 32) (cc : Fin 128), v50 t (ix2 r cc)
      = Spec.elogit ((iblk m c 2 t : Vec Ideal S1x32x1 .f32) (ix3 (0 : Fin 1) r (0 : Fin 1)))
          ((iblk m c 3 t : Vec Ideal S32x128 .f32) (ix2 r cc)) (Spec.cur2 (iblk m c 10 t : Vec Ideal S256x2 .f32))
          (Spec.cur1 (iblk m c 11 t : Vec Ideal S256 .f32)) (Spec.cur2 (iblk m c 12 t : Vec Ideal S1x256 .f32))
          (Spec.cur1 (iblk m c 13 t : Vec Ideal S1 .f32))))
    (hA : ∀ t : Fin cfg0.N, t.val % 4 = 0 →
      (outs t.val t.isLt).2.1 = k0_pay1 (k0_pay19 (k0_pay15 (iblk m c 0 t) (iblk m c 4 t) (iblk m c 5 t)) (k0_pay16 (iblk m c 1 t) (iblk m c 6 t) (iblk m c 7 t)) (v50 t) (k0_pay9 (F := Ideal)))
      ∧ (outs t.val t.isLt).2.2.1
          = k0_pay2 (k0_pay22 (k0_pay15 (iblk m c 0 t) (iblk m c 4 t) (iblk m c 5 t)) (k0_pay16 (iblk m c 1 t) (iblk m c 6 t) (iblk m c 7 t)) (v50 t) (k0_pay9 (F := Ideal)) (k0_pay10 (F := Ideal)))
      ∧ (outs t.val t.isLt).2.2.2
          = k0_pay3 (k0_pay11 (F := Ideal)) (k0_pay23 (k0_pay14 (iblk m c 1 t) (iblk m c 8 t) (iblk m c 9 t)) (k0_pay15 (iblk m c 0 t) (iblk m c 4 t) (iblk m c 5 t)) (k0_pay16 (iblk m c 1 t) (iblk m c 6 t) (iblk m c 7 t)) (v50 t) (k0_pay9 (F := Ideal)))
              (k0_pay24 (k0_pay15 (iblk m c 0 t) (iblk m c 4 t) (iblk m c 5 t)) (k0_pay16 (iblk m c 1 t) (iblk m c 6 t) (iblk m c 7 t)) (v50 t) (k0_pay9 (F := Ideal))))
    (hB : ∀ t : Fin cfg0.N, t.val % 4 ≠ 0 →
      (outs t.val t.isLt).2.1 = k0_pay1 (k0_pay19 (k0_pay15 (iblk m c 0 t) (iblk m c 4 t) (iblk m c 5 t)) (k0_pay16 (iblk m c 1 t) (iblk m c 6 t) (iblk m c 7 t)) (v50 t) (prevOuts outs t).2.1)
      ∧ (outs t.val t.isLt).2.2.1
          = k0_pay2 (k0_pay22 (k0_pay15 (iblk m c 0 t) (iblk m c 4 t) (iblk m c 5 t)) (k0_pay16 (iblk m c 1 t) (iblk m c 6 t) (iblk m c 7 t)) (v50 t) (prevOuts outs t).2.1 (prevOuts outs t).2.2.1)
      ∧ (outs t.val t.isLt).2.2.2
          = k0_pay3 (prevOuts outs t).2.2.2 (k0_pay23 (k0_pay14 (iblk m c 1 t) (iblk m c 8 t) (iblk m c 9 t)) (k0_pay15 (iblk m c 0 t) (iblk m c 4 t) (iblk m c 5 t)) (k0_pay16 (iblk m c 1 t) (iblk m c 6 t) (iblk m c 7 t)) (v50 t) (prevOuts outs t).2.1)
              (k0_pay24 (k0_pay15 (iblk m c 0 t) (iblk m c 4 t) (iblk m c 5 t)) (k0_pay16 (iblk m c 1 t) (iblk m c 6 t) (iblk m c 7 t)) (v50 t) (prevOuts outs t).2.1))
    (hC : ∀ t : Fin cfg0.N, t.val % 4 = 3 →
      (outs t.val t.isLt).1
        = k0_pay4 (iblk m c 21 t)
            (k0_pay7 (k0_pay12 (iblk m c 0 t))
              (k0_pay5 (outs t.val t.isLt).2.2.2 (outs t.val t.isLt).2.2.1 (iblk m c 18 t) (iblk m c 19 t) (iblk m c 14 t)
                (iblk m c 15 t)) (iblk m c 16 t) (iblk m c 17 t)
              (k0_pay6 (outs t.val t.isLt).2.2.2 (outs t.val t.isLt).2.2.1 (iblk m c 18 t) (iblk m c 19 t) (iblk m c 14 t)
                (iblk m c 15 t)))
            (k0_pay8 (iblk m c 20 t)))
    (t : Fin cfg0.N) (ht : t.val % 4 = 3) (r : Fin 32) (h : Fin 256) :
    (outs t.val t.isLt).1 (ix3 (0 : Fin 1) r h)
      = Cert.SpecMath.Gblk (Spec.cur3 (ar0 m c)) (Spec.cur2 (ar1 m c)) (Spec.cur2 (ar2 m c)) (Spec.cur2 (ar3 m c)) (Spec.cur1 (ar4 m c)) (Spec.cur2 (ar5 m c)) (Spec.cur1 (ar6 m c)) (Spec.cur2 (ar7 m c)) (Spec.cur1 (ar8 m c)) (Spec.cur2 (ar9 m c)) (Spec.cur1 (ar10 m c)) (Spec.cur2 (ar11 m c)) (Spec.cur1 (ar12 m c)) (Spec.cur2 (ar13 m c)) (Spec.cur1 (ar14 m c)) (Spec.cur1 (ar15 m c)) (Spec.cur1 (ar16 m c)) (Spec.cur1 (ar17 m c)) (Spec.cur1 (ar18 m c)) (Spec.cur1 (ar19 m c)) (Spec.cur1 (ar20 m c)) (bt t) (qrow t r) h := by
  -- the carried triples, entry by entry
  have hA' : ∀ t : Fin cfg0.N, t.val % 4 = 0 → ∀ (r : Fin 32) (h : Fin 256),
      ((outs t.val t.isLt).2.1 (ix2 r (0 : Fin 1)), (outs t.val t.isLt).2.2.1 (ix2 r (0 : Fin 1)),
        (outs t.val t.isLt).2.2.2 (ix2 r h))
        = Spec.blockStep (fun cc : Fin 128 => SS m c (bt t) (qrow t r) (krow t cc))
            (fun cc : Fin 128 => WW m c (bt t) (krow t cc) h) (⊥, 0, 0) := by
    intro t ht r h
    rw [(hA t ht).1, (hA t ht).2.1, (hA t ht).2.2]
    exact tile_step_first m c t (v50 t) (hv50 t) r h
  have hB' : ∀ t : Fin cfg0.N, t.val % 4 ≠ 0 → ∀ (r : Fin 32) (h : Fin 256),
      ((outs t.val t.isLt).2.1 (ix2 r (0 : Fin 1)), (outs t.val t.isLt).2.2.1 (ix2 r (0 : Fin 1)),
        (outs t.val t.isLt).2.2.2 (ix2 r h))
        = Spec.blockStep (fun cc : Fin 128 => SS m c (bt t) (qrow t r) (krow t cc))
            (fun cc : Fin 128 => WW m c (bt t) (krow t cc) h)
            ((outs (prevPt t).val (prevPt t).isLt).2.1 (ix2 r (0 : Fin 1)),
              (outs (prevPt t).val (prevPt t).isLt).2.2.1 (ix2 r (0 : Fin 1)),
              (outs (prevPt t).val (prevPt t).isLt).2.2.2 (ix2 r h)) := by
    intro t ht r h
    rw [(hB t ht).1, (hB t ht).2.1, (hB t ht).2.2]
    exact tile_step m c t (v50 t) (hv50 t) (prevOuts outs t).2.1 (prevOuts outs t).2.2.1 (prevOuts outs t).2.2.2 r h
  rw [hC t ht]
  refine (epilogue_step m c t (outs t.val t.isLt).2.2.2 (outs t.val t.isLt).2.2.1 r h).trans ?_
  exact epilogue_eq_Gblk m c t
    (fun t r => (outs t.val t.isLt).2.1 (ix2 r (0 : Fin 1)))
    (fun t r => (outs t.val t.isLt).2.2.1 (ix2 r (0 : Fin 1)))
    (fun t r h => (outs t.val t.isLt).2.2.2 (ix2 r h)) hA' hB' ht r h

end Core

/-! ## The edge-logit tile through a load of the whole scratch -/

/-- The load of the whole scratch after the loop, for whole area and co-occurrence staging memrefs holding the
    blocks x2 and x3: its entry (r, c) is the edge logit of x2's row r against x3's entry (r, c). -/
theorem hv50_of_readAt (𝒱 : Variants) (c : Dev nD) (bd : Option 𝒱.V) (i : grid0.Coords) (arg3 : Memref sig .tc .vmem S1x32x256 .f32) (harg3 : arg3.IsWhole) (arg4 : Memref sig .tc .vmem S1x128x256 .f32) (harg4 : arg4.IsWhole) (arg5 : Memref sig .tc .vmem S1x32x1 .f32) (harg5 : arg5.IsWhole) (arg6 : Memref sig .tc .vmem S32x128 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x256 .f32) (harg11 : arg11.IsWhole) (arg12 : Memref sig .tc .vmem S256 .f32) (harg12 : arg12.IsWhole) (arg13 : Memref sig .tc .vmem S256x2 .f32) (harg13 : arg13.IsWhole) (arg14 : Memref sig .tc .vmem S256 .f32) (harg14 : arg14.IsWhole) (arg15 : Memref sig .tc .vmem S1x256 .f32) (harg15 : arg15.IsWhole) (arg16 : Memref sig .tc .vmem S1 .f32) (harg16 : arg16.IsWhole) (arg17 : Memref sig .tc .vmem S256x256 .f32) (harg17 : arg17.IsWhole) (arg18 : Memref sig .tc .vmem S256 .f32) (harg18 : arg18.IsWhole) (arg19 : Memref sig .tc .vmem S256 .f32) (harg19 : arg19.IsWhole) (arg20 : Memref sig .tc .vmem S256 .f32) (harg20 : arg20.IsWhole) (arg21 : Memref sig .tc .vmem S256 .f32) (harg21 : arg21.IsWhole) (arg22 : Memref sig .tc .vmem S256 .f32) (harg22 : arg22.IsWhole) (arg23 : Memref sig .tc .vmem S256 .f32) (harg23 : arg23.IsWhole) (arg24 : Memref sig .tc .vmem S256 .f32) (harg24 : arg24.IsWhole) (arg25 : Memref sig .tc .vmem S1x32x256 .f32) (harg25 : arg25.IsWhole) (arg26 : Memref sig .tc .vmem S32x1 .f32) (harg26 : arg26.IsWhole) (arg27 : Memref sig .tc .vmem S32x1 .f32) (harg27 : arg27.IsWhole) (arg28 : Memref sig .tc .vmem S32x256 .f32) (harg28 : arg28.IsWhole) (arg29 : Memref sig .tc .vmem S32x128 .f32) (harg29 : arg29.IsWhole) (v32 : FVec Ideal S128x256 .f32) (v33 : FVec Ideal S32x256 .bf16) (v35 : FVec Ideal S256x128 .bf16) (v39 : Vec Ideal S256x2 .f32) (v40 : Vec Ideal S256 .f32) (v45 : Vec Ideal S1x256 .f32) (v46 : Vec Ideal S1 .f32)
    (x2 : Vec Ideal S1x32x1 .f32) (x3 : Vec Ideal S32x128 .f32) (G : BufTy.Contents (Elt Ideal) arg29.view.ty)
    {off : Fin 2 → ℕ} (hoff : off = fun _ => 0) (inb : ∀ a, off a + S32x128.size a ≤ S32x128.size a)
    (r : Fin 32) (cc : Fin 128) :
    View.readAt (Elt Ideal) arg29.view (Rect.unit (s := S32x128) off S32x128.size inb).toLoadRect
        (arg29.view.writes (Elt Ideal) G (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v32 v33 v35 v39 v40 v45 v46 (harg5.unread (Val := Elt Ideal) x2) (harg6.unread (Val := Elt Ideal) x3) 4))
        (ix2 r cc)
      = Spec.elogit (x2 (ix3 (0 : Fin 1) r (0 : Fin 1))) (x3 (ix2 r cc)) (Spec.cur2 v39) (Spec.cur1 v40) (Spec.cur2 v45)
          (Spec.cur1 v46) := by
  rw [View.readAt_eq_ld, View.ld_unit_zero (S := S32x128) hoff]
  exact hv50_of_scratch 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v32 v33 v35 v39 v40 v45 v46 x2 x3 G r cc

end Cert.KernelIdeal.Hand

end
-- ==== Proof.KI.Value.lean ====
/-
  The output array after the run of the attention kernel. Each point's record (output tile, running maximum,
  normaliser, accumulator) is, by its case, the payloads of the point's blocks and of what the point before left;
  so the carried triple follows the block recurrence over the four key tiles, the tile written back at the last key
  tile is the block-by-block form of the result on its rows, and the sixty-four written tiles cover the output array.
-/
import proofs.«116762_j61950608277594_2_alg».proof.Proof.KI.Frame
import proofs.«116762_j61950608277594_2_alg».proof.Proof.KI.Pieces
import proofs.«116762_j61950608277594_2_alg».proof.Proof.KI.ValueCore

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (c : Dev nD)

/-- The edge-logit tile point t loads after its loop. -/
abbrev v50At (t : Fin cfg0.N) : Vec Ideal S32x128 .f32 :=
  (edgeV50 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (dflt3 (F := Ideal)))

/-- Its entry (r, c) is the edge logit of the point's area row r against its co-occurrence entry (r, c). -/
theorem hv50At (t : Fin cfg0.N) : (∀ (r : Fin 32) (cc : Fin 128), v50At m c t (ix2 r cc)
      = Spec.elogit ((iblk m c 2 t : Vec Ideal S1x32x1 .f32) (ix3 (0 : Fin 1) r (0 : Fin 1)))
          ((iblk m c 3 t : Vec Ideal S32x128 .f32) (ix2 r cc)) (Spec.cur2 (iblk m c 10 t : Vec Ideal S256x2 .f32))
          (Spec.cur1 (iblk m c 11 t : Vec Ideal S256 .f32)) (Spec.cur2 (iblk m c 12 t : Vec Ideal S1x256 .f32))
          (Spec.cur1 (iblk m c 13 t : Vec Ideal S1 .f32))) :=
  fun r cc => hv50_of_scratch Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (k0_pay14 (iblk m c 1 t) (iblk m c 8 t) (iblk m c 9 t)) (k0_pay15 (iblk m c 0 t) (iblk m c 4 t) (iblk m c 5 t)) (k0_pay16 (iblk m c 1 t) (iblk m c 6 t) (iblk m c 7 t)) (iblk m c 10 t) (iblk m c 11 t) (iblk m c 12 t) (iblk m c 13 t) (iblk m c 2 t) (iblk m c 3 t) _ r cc

/-- The first key tile's point leaves the tile's step from the reset triple. -/
theorem outs_first (t : Fin cfg0.N) (h0 : t.val % 4 = 0) :
    (outsAt0 m c t.val t.isLt).2.1 = k0_pay1 (k0_pay19 (k0_pay15 (iblk m c 0 t) (iblk m c 4 t) (iblk m c 5 t)) (k0_pay16 (iblk m c 1 t) (iblk m c 6 t) (iblk m c 7 t)) (v50At m c t) (k0_pay9 (F := Ideal)))
    ∧ (outsAt0 m c t.val t.isLt).2.2.1
        = k0_pay2 (k0_pay22 (k0_pay15 (iblk m c 0 t) (iblk m c 4 t) (iblk m c 5 t)) (k0_pay16 (iblk m c 1 t) (iblk m c 6 t) (iblk m c 7 t)) (v50At m c t) (k0_pay9 (F := Ideal)) (k0_pay10 (F := Ideal)))
    ∧ (outsAt0 m c t.val t.isLt).2.2.2
        = k0_pay3 (k0_pay11 (F := Ideal)) (k0_pay23 (k0_pay14 (iblk m c 1 t) (iblk m c 8 t) (iblk m c 9 t)) (k0_pay15 (iblk m c 0 t) (iblk m c 4 t) (iblk m c 5 t)) (k0_pay16 (iblk m c 1 t) (iblk m c 6 t) (iblk m c 7 t)) (v50At m c t) (k0_pay9 (F := Ideal)))
            (k0_pay24 (k0_pay15 (iblk m c 0 t) (iblk m c 4 t) (iblk m c 5 t)) (k0_pay16 (iblk m c 1 t) (iblk m c 6 t) (iblk m c 7 t)) (v50At m c t) (k0_pay9 (F := Ideal))) := by
  have h1 : ¬t.val % 4 = 3 := by omega
  rw [outsAt0_A m c t h0 h1]
  exact ⟨sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (dflt3 (F := Ideal)),
    sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (dflt3 (F := Ideal)),
    sout0_A_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (dflt3 (F := Ideal))⟩

/-- Every later point leaves the tile's step from what the point before left. -/
theorem outs_later (t : Fin cfg0.N) (h0 : t.val % 4 ≠ 0) :
    (outsAt0 m c t.val t.isLt).2.1
        = k0_pay1 (k0_pay19 (k0_pay15 (iblk m c 0 t) (iblk m c 4 t) (iblk m c 5 t)) (k0_pay16 (iblk m c 1 t) (iblk m c 6 t) (iblk m c 7 t)) (v50At m c t) (prevOuts (fun n hn => outsAt0 m c n hn) t).2.1)
    ∧ (outsAt0 m c t.val t.isLt).2.2.1
        = k0_pay2 (k0_pay22 (k0_pay15 (iblk m c 0 t) (iblk m c 4 t) (iblk m c 5 t)) (k0_pay16 (iblk m c 1 t) (iblk m c 6 t) (iblk m c 7 t)) (v50At m c t) (prevOuts (fun n hn => outsAt0 m c n hn) t).2.1
            (prevOuts (fun n hn => outsAt0 m c n hn) t).2.2.1)
    ∧ (outsAt0 m c t.val t.isLt).2.2.2
        = k0_pay3 (prevOuts (fun n hn => outsAt0 m c n hn) t).2.2.2
            (k0_pay23 (k0_pay14 (iblk m c 1 t) (iblk m c 8 t) (iblk m c 9 t)) (k0_pay15 (iblk m c 0 t) (iblk m c 4 t) (iblk m c 5 t)) (k0_pay16 (iblk m c 1 t) (iblk m c 6 t) (iblk m c 7 t)) (v50At m c t) (prevOuts (fun n hn => outsAt0 m c n hn) t).2.1)
            (k0_pay24 (k0_pay15 (iblk m c 0 t) (iblk m c 4 t) (iblk m c 5 t)) (k0_pay16 (iblk m c 1 t) (iblk m c 6 t) (iblk m c 7 t)) (v50At m c t) (prevOuts (fun n hn => outsAt0 m c n hn) t).2.1) := by
  by_cases h1 : t.val % 4 = 3
  · rw [outsAt0_C m c t h0 h1]
    exact ⟨sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (dflt3 (F := Ideal)),
      sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (dflt3 (F := Ideal)),
      sout0_C_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (dflt3 (F := Ideal))⟩
  · rw [outsAt0_B m c t h0 h1]
    exact ⟨sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (dflt3 (F := Ideal)),
      sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (dflt3 (F := Ideal)),
      sout0_B_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (dflt3 (F := Ideal))⟩

/-- The last key tile's point leaves, in the output tile, the epilogue of its own accumulator and normaliser. -/
theorem outs_last (t : Fin cfg0.N) (h1 : t.val % 4 = 3) :
    (outsAt0 m c t.val t.isLt).1
      = k0_pay4 (iblk m c 21 t)
          (k0_pay7 (k0_pay12 (iblk m c 0 t))
            (k0_pay5 (outsAt0 m c t.val t.isLt).2.2.2 (outsAt0 m c t.val t.isLt).2.2.1 (iblk m c 18 t) (iblk m c 19 t)
              (iblk m c 14 t) (iblk m c 15 t)) (iblk m c 16 t) (iblk m c 17 t)
            (k0_pay6 (outsAt0 m c t.val t.isLt).2.2.2 (outsAt0 m c t.val t.isLt).2.2.1 (iblk m c 18 t) (iblk m c 19 t)
              (iblk m c 14 t) (iblk m c 15 t)))
          (k0_pay8 (iblk m c 20 t)) := by
  have h0 : t.val % 4 ≠ 0 := by omega
  have e21 := (outs_later m c t h0).2.1
  have e22 := (outs_later m c t h0).2.2
  rw [e21, e22]
  refine (congrArg (fun p : Vec Ideal S1x32x256 .f32 × Vec Ideal S32x1 .f32 × Vec Ideal S32x1 .f32 × Vec Ideal S32x256 .f32 => p.1)
    (outsAt0_C m c t h0 h1)).trans ?_
  exact out0_C_22_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (dflt3 (F := Ideal))

/-- The result in its block-by-block form, as an array. -/
abbrev Gfull : Buf (Elt Ideal) ((c : Thread nD τ).loc main_v1) :=
  fun i : S4x512x256.Idx => Cert.SpecMath.Gblk (Spec.cur3 (ar0 m c)) (Spec.cur2 (ar1 m c)) (Spec.cur2 (ar2 m c)) (Spec.cur2 (ar3 m c)) (Spec.cur1 (ar4 m c)) (Spec.cur2 (ar5 m c)) (Spec.cur1 (ar6 m c)) (Spec.cur2 (ar7 m c)) (Spec.cur1 (ar8 m c)) (Spec.cur2 (ar9 m c)) (Spec.cur1 (ar10 m c)) (Spec.cur2 (ar11 m c)) (Spec.cur1 (ar12 m c)) (Spec.cur2 (ar13 m c)) (Spec.cur1 (ar14 m c)) (Spec.cur1 (ar15 m c)) (Spec.cur1 (ar16 m c)) (Spec.cur1 (ar17 m c)) (Spec.cur1 (ar18 m c)) (Spec.cur1 (ar19 m c)) (Spec.cur1 (ar20 m c)) (i 0) (i 1) (i 2)

/-- WHAT A WRITE-BACK POINT WRITES is its block of the block-by-block result. -/
theorem flushed22_eq (t : Fin cfg0.N) (hf : (cfg0.win 22).flush t = true) :
    (dats m 0 c).flushed 22 t = ((cfg0.win 22).blk t).view.read (Elt Ideal) (Gfull m c) := by
  have h1 : t.val % 4 = 3 := (flush0_22 t).mp hf
  show (cfg0.win 22).cut (grid0.coords t) ((dats m 0 c).after 22 t) = _
  rw [after0_22]
  funext y
  obtain ⟨u, r, h, rfl⟩ : ∃ (u : Fin 1) (r : Fin 32) (h : Fin 256), y = ix3 u r h := ⟨y 0, y 1, y 2, eq_ix3 y⟩
  obtain rfl : u = 0 := Subsingleton.elim _ _
  rw [View.read_apply, emb_blk22 t r h]
  show (outsAt0 m c t.val t.isLt).1 (ix3 (0 : Fin 1) r h) = _
  exact out_eq_Gblk m c (fun n hn => outsAt0 m c n hn) (v50At m c) (hv50At m c) (outs_first m c) (outs_later m c)
    (outs_last m c) t h1 r h

/-- THE OUTPUT ARRAY after the run: the block-by-block form of the result. -/
theorem final22 : (dats m 0 c).arrAt 22 cfg0.N = Gfull m c :=
  (dats m 0 c).arrAt_eq_of_cover 22 (Gfull m c) (fun t hf => flushed22_eq m c t hf) cover22

end Cert.KernelIdeal.Hand

end
-- ==== Proof.RefValueProj.lean ====
/-
  The reference's three projections and its scaled score, read entry by entry.

  Row n of batch b of q, k and v is the specification's projection row `proj` of x[b,n,·] against the weight matrix
  and the bias; entry (b,i,j) of the score array is `score` of the query row i and the key row j: their inner product
  divided by the square root of the constant 256.
-/
import proofs.«116762_j61950608277594_2_alg».proof.Proof.RefRead
import proofs.«116762_j61950608277594_2_alg».proof.Proof.Spec
import proofs.«116762_j61950608277594_2_alg».proof.Proof.Curry

noncomputable section

namespace Cert.RefValue

open Cert.ReferenceIdeal Cert.ReferenceIdeal.Gen Cert.ReferenceIdeal.Read Idealize.ShloMosaic Idealize.ShloMosaic.ValueIdx Cert.Spec

variable (a0 : (⟨S4x512x256, .f32⟩ : BufTy).Contents (Elt Ideal)) (a1 : (⟨S4x512, .f32⟩ : BufTy).Contents (Elt Ideal)) (a2 : (⟨S512x512, .f32⟩ : BufTy).Contents (Elt Ideal))
  (a3 : (⟨S256x256, .f32⟩ : BufTy).Contents (Elt Ideal)) (a4 : (⟨S256, .f32⟩ : BufTy).Contents (Elt Ideal)) (a5 : (⟨S256x256, .f32⟩ : BufTy).Contents (Elt Ideal)) (a6 : (⟨S256, .f32⟩ : BufTy).Contents (Elt Ideal))
  (a7 : (⟨S256x256, .f32⟩ : BufTy).Contents (Elt Ideal)) (a8 : (⟨S256, .f32⟩ : BufTy).Contents (Elt Ideal)) (a9 : (⟨S256x2, .f32⟩ : BufTy).Contents (Elt Ideal)) (a10 : (⟨S256, .f32⟩ : BufTy).Contents (Elt Ideal))
  (a11 : (⟨S1x256, .f32⟩ : BufTy).Contents (Elt Ideal)) (a12 : (⟨S1, .f32⟩ : BufTy).Contents (Elt Ideal)) (a13 : (⟨S256x256, .f32⟩ : BufTy).Contents (Elt Ideal))
  (a14 a15 a16 a17 a18 a19 a20 : (⟨S256, .f32⟩ : BufTy).Contents (Elt Ideal))

/-- Entry (b,n,h) of the query array: Σ_d x[b,n,d]·Wq[h,d] + bq[h]. -/
theorem q_eq (b : Fin 4) (n : Fin 512) (h : Fin 256) :
    val_main_v3 (F := Ideal) a0 a3 a4 (ix3 b n h) = proj (cur3 a0 b n) (cur2 a3) (cur1 a4) h := by
  have el : ∀ k : Fin 256, lidx_main_v0 (ix3 b n h) k = ix3 b n k := fun k => funext fun a => Fin.ext (by match a with | ⟨0, _⟩ => rfl | ⟨1, _⟩ => rfl | ⟨2, _⟩ => rfl)
  have er : ∀ k : Fin 256, ridx_main_v0 (ix3 b n h) k = ix2 h k := fun k => funext fun a => Fin.ext (by match a with | ⟨0, _⟩ => rfl | ⟨1, _⟩ => rfl)
  have eb : idx_main_v1 (idx_main_v2 (ix3 b n h)) = ix1 h := funext fun a => Fin.ext (by match a with | ⟨0, _⟩ => rfl)
  rw [val_main_v3_apply, val_main_v0_apply, val_main_v2_apply, val_main_v1_apply, eb]
  simp only [el, er]
  rfl

/-- Entry (b,n,h) of the key array: Σ_d x[b,n,d]·Wk[h,d] + bk[h]. -/
theorem k_eq (b : Fin 4) (n : Fin 512) (h : Fin 256) :
    val_main_v7 (F := Ideal) a0 a5 a6 (ix3 b n h) = proj (cur3 a0 b n) (cur2 a5) (cur1 a6) h := by
  have el : ∀ k : Fin 256, lidx_main_v4 (ix3 b n h) k = ix3 b n k := fun k => funext fun a => Fin.ext (by match a with | ⟨0, _⟩ => rfl | ⟨1, _⟩ => rfl | ⟨2, _⟩ => rfl)
  have er : ∀ k : Fin 256, ridx_main_v4 (ix3 b n h) k = ix2 h k := fun k => funext fun a => Fin.ext (by match a with | ⟨0, _⟩ => rfl | ⟨1, _⟩ => rfl)
  have eb : idx_main_v5 (idx_main_v6 (ix3 b n h)) = ix1 h := funext fun a => Fin.ext (by match a with | ⟨0, _⟩ => rfl)
  rw [val_main_v7_apply, val_main_v4_apply, val_main_v6_apply, val_main_v5_apply, eb]
  simp only [el, er]
  rfl

/-- Entry (b,n,h) of the value array: Σ_d x[b,n,d]·Wv[h,d] + bv[h]. -/
theorem v_eq (b : Fin 4) (n : Fin 512) (h : Fin 256) :
    val_main_v11 (F := Ideal) a0 a7 a8 (ix3 b n h) = proj (cur3 a0 b n) (cur2 a7) (cur1 a8) h := by
  have el : ∀ k : Fin 256, lidx_main_v8 (ix3 b n h) k = ix3 b n k := fun k => funext fun a => Fin.ext (by match a with | ⟨0, _⟩ => rfl | ⟨1, _⟩ => rfl | ⟨2, _⟩ => rfl)
  have er : ∀ k : Fin 256, ridx_main_v8 (ix3 b n h) k = ix2 h k := fun k => funext fun a => Fin.ext (by match a with | ⟨0, _⟩ => rfl | ⟨1, _⟩ => rfl)
  have eb : idx_main_v9 (idx_main_v10 (ix3 b n h)) = ix1 h := funext fun a => Fin.ext (by match a with | ⟨0, _⟩ => rfl)
  rw [val_main_v11_apply, val_main_v8_apply, val_main_v10_apply, val_main_v9_apply, eb]
  simp only [el, er]
  rfl

/-- Entry (b,i,j) of the scaled score array: (Σ_h q[b,i,h]·k[b,j,h]) / √256. -/
theorem score_eq (b : Fin 4) (i j : Fin 512) :
    val_main_v15 (F := Ideal) a0 a3 a4 a5 a6 (ix3 b i j)
      = score (proj (cur3 a0 b i) (cur2 a3) (cur1 a4)) (proj (cur3 a0 b j) (cur2 a5) (cur1 a6)) := by
  have el : ∀ k : Fin 256, lidx_main_v12 (ix3 b i j) k = ix3 b i k := fun k => funext fun a => Fin.ext (by match a with | ⟨0, _⟩ => rfl | ⟨1, _⟩ => rfl | ⟨2, _⟩ => rfl)
  have er : ∀ k : Fin 256, ridx_main_v12 (ix3 b i j) k = ix3 b j k := fun k => funext fun a => Fin.ext (by match a with | ⟨0, _⟩ => rfl | ⟨1, _⟩ => rfl | ⟨2, _⟩ => rfl)
  rw [val_main_v15_apply, val_main_v12_apply, val_main_v14_apply, val_main_v13_apply, val_main_cst_apply]
  simp only [el, er, q_eq, k_eq]
  rfl

end Cert.RefValue

end
-- ==== Proof.RefValueGate.lean ====
/-
  The reference's edge network, read entry by entry.

  The reference joins area[b,i] and co[i,j] into a pair along a last axis of length 2 and contracts that axis against
  We1[h,·]: the sum over the two positions is area[b,i]·We1[h,0] + co[i,j]·We1[h,1]. Adding be1[h] and taking the
  maximum with 0 gives the specification's hidden unit; contracting the hidden units against We2[0,·], adding be2[0]
  and applying 1/(1 + e^{-t}) gives the specification's gate of the edge logit.
-/
import proofs.«116762_j61950608277594_2_alg».proof.Proof.RefRead
import proofs.«116762_j61950608277594_2_alg».proof.Proof.Spec
import proofs.«116762_j61950608277594_2_alg».proof.Proof.Curry

noncomputable section

namespace Cert.RefValue

open Cert.ReferenceIdeal Cert.ReferenceIdeal.Gen Cert.ReferenceIdeal.Read Idealize.ShloMosaic Idealize.ShloMosaic.ValueIdx Cert.Spec

variable (a0 : (⟨S4x512x256, .f32⟩ : BufTy).Contents (Elt Ideal)) (a1 : (⟨S4x512, .f32⟩ : BufTy).Contents (Elt Ideal)) (a2 : (⟨S512x512, .f32⟩ : BufTy).Contents (Elt Ideal))
  (a3 : (⟨S256x256, .f32⟩ : BufTy).Contents (Elt Ideal)) (a4 : (⟨S256, .f32⟩ : BufTy).Contents (Elt Ideal)) (a5 : (⟨S256x256, .f32⟩ : BufTy).Contents (Elt Ideal)) (a6 : (⟨S256, .f32⟩ : BufTy).Contents (Elt Ideal))
  (a7 : (⟨S256x256, .f32⟩ : BufTy).Contents (Elt Ideal)) (a8 : (⟨S256, .f32⟩ : BufTy).Contents (Elt Ideal)) (a9 : (⟨S256x2, .f32⟩ : BufTy).Contents (Elt Ideal)) (a10 : (⟨S256, .f32⟩ : BufTy).Contents (Elt Ideal))
  (a11 : (⟨S1x256, .f32⟩ : BufTy).Contents (Elt Ideal)) (a12 : (⟨S1, .f32⟩ : BufTy).Contents (Elt Ideal)) (a13 : (⟨S256x256, .f32⟩ : BufTy).Contents (Elt Ideal))
  (a14 a15 a16 a17 a18 a19 a20 : (⟨S256, .f32⟩ : BufTy).Contents (Elt Ideal))

/-- The f32 word 0x3F800000 is the number 1. -/
theorem ofBits_one : Ideal.ofBits .f32 0x3F800000#32 = 1 := by
  simp [Ideal.ofBits, Ideal.ieee]
  rw [← EReal.coe_mul, ← EReal.coe_one]
  exact congrArg _ (by norm_num)

/-- Position 0 of the joined pair at (b,i,j) is area[b,i]. -/
theorem pair_left (b : Fin 4) (i j : Fin 512) :
    val_main_v22 (F := Ideal) a1 a2 (ix4 b i j (0 : Fin 2)) = cur2 a1 b i := by
  unfold val_main_v22
  refine (concatenate_pair_apply_left (s₁ := S4x512x512x1) (s₂ := S4x512x512x1) _ _ _ _ (ix4 b i j (0 : Fin 2)) rfl (ix4 b i j (0 : Fin 1))
    (fun c => by match c with | ⟨0, _⟩ => rfl | ⟨1, _⟩ => rfl | ⟨2, _⟩ => rfl | ⟨3, _⟩ => rfl)).trans ?_
  rw [val_main_v20_apply, val_main_v17_apply, val_main_v16_apply]
  exact congrArg a1 (funext fun a => Fin.ext (by match a with | ⟨0, _⟩ => rfl | ⟨1, _⟩ => rfl))

/-- Position 1 of the joined pair at (b,i,j) is co[i,j]. -/
theorem pair_right (b : Fin 4) (i j : Fin 512) :
    val_main_v22 (F := Ideal) a1 a2 (ix4 b i j (1 : Fin 2)) = cur2 a2 i j := by
  unfold val_main_v22
  refine (concatenate_pair_apply_right (s₁ := S4x512x512x1) (s₂ := S4x512x512x1) _ _ _ _ (ix4 b i j (1 : Fin 2)) rfl rfl (ix4 b i j (0 : Fin 1))
    (fun c hc => by
      match c, hc with
      | ⟨0, _⟩, _ => rfl
      | ⟨1, _⟩, _ => rfl
      | ⟨2, _⟩, _ => rfl
      | ⟨3, _⟩, hc => exact absurd rfl hc) rfl).trans ?_
  rw [val_main_v21_apply, val_main_v19_apply, val_main_v18_apply]
  exact congrArg a2 (funext fun a => Fin.ext (by match a with | ⟨0, _⟩ => rfl | ⟨1, _⟩ => rfl))

/-- Entry (b,i,j,h) of the first layer after the maximum with 0: the hidden unit h of the pair (area[b,i], co[i,j]). -/
theorem hidden_eq (b : Fin 4) (i j : Fin 512) (h : Fin 256) :
    val_main_v27 (F := Ideal) a1 a2 a9 a10 (ix4 b i j h) = hidden (cur2 a1 b i) (cur2 a2 i j) (cur2 a9) (cur1 a10) h := by
  have el : ∀ k : Fin 2, lidx_main_v23 (ix4 b i j h) k = ix4 b i j k := fun k => funext fun a => Fin.ext (by match a with | ⟨0, _⟩ => rfl | ⟨1, _⟩ => rfl | ⟨2, _⟩ => rfl | ⟨3, _⟩ => rfl)
  have er : ∀ k : Fin 2, ridx_main_v23 (ix4 b i j h) k = ix2 h k := fun k => funext fun a => Fin.ext (by match a with | ⟨0, _⟩ => rfl | ⟨1, _⟩ => rfl)
  have eb : idx_main_v24 (idx_main_v25 (ix4 b i j h)) = ix1 h := funext fun a => Fin.ext (by match a with | ⟨0, _⟩ => rfl)
  rw [val_main_v27_apply, val_main_v26_apply, val_main_v23_apply, val_main_v25_apply, val_main_v24_apply, eb,
    val_main_call0_v0_apply, val_main_call0_cst_apply, Fin.sum_univ_two, Ideal.ofBits_def, Ideal.ofBits_zero_f32]
  simp only [el, er, pair_left, pair_right]
  rfl

/-- Entry (b,i,j) of the gate array: 1/(1 + e^{-t}) at the edge logit t of the pair (area[b,i], co[i,j]). -/
theorem gate_eq (b : Fin 4) (i j : Fin 512) :
    val_main_v38 (F := Ideal) a1 a2 a9 a10 a11 a12 (ix3 b i j)
      = gate (elogit (cur2 a1 b i) (cur2 a2 i j) (cur2 a9) (cur1 a10) (cur2 a11) (cur1 a12)) := by
  have e38 : idx_main_v38 (ix3 b i j) = ix4 b i j (0 : Fin 1) := funext fun a => Fin.ext (by
    have hb := b.isLt; have hi := i.isLt; have hj := j.isLt
    match a with
    | ⟨0, _⟩ => show ((b.val * 512 + i.val) * 512 + j.val) / 262144 = b.val; omega
    | ⟨1, _⟩ => show ((b.val * 512 + i.val) * 512 + j.val) / 512 % 512 = i.val; omega
    | ⟨2, _⟩ => show ((b.val * 512 + i.val) * 512 + j.val) / 1 % 512 = j.val; omega
    | ⟨3, _⟩ => rfl)
  have el : ∀ k : Fin 256, lidx_main_v28 (ix4 b i j (0 : Fin 1)) k = ix4 b i j k := fun k => funext fun a => Fin.ext (by match a with | ⟨0, _⟩ => rfl | ⟨1, _⟩ => rfl | ⟨2, _⟩ => rfl | ⟨3, _⟩ => rfl)
  have er : ∀ k : Fin 256, ridx_main_v28 (ix4 b i j (0 : Fin 1)) k = ix2 (0 : Fin 1) k := fun k => funext fun a => Fin.ext (by match a with | ⟨0, _⟩ => rfl | ⟨1, _⟩ => rfl)
  have eb : idx_main_v29 (idx_main_v30 (ix4 b i j (0 : Fin 1))) = ix1 (0 : Fin 1) := funext fun a => Fin.ext (by match a with | ⟨0, _⟩ => rfl)
  rw [val_main_v38_apply, e38, val_main_v37_apply, val_main_v36_apply, val_main_cst_1_apply, val_main_v35_apply,
    val_main_v34_apply, val_main_cst_0_apply, val_main_v33_apply, val_main_v32_apply, val_main_v31_apply,
    val_main_v28_apply, val_main_v30_apply, val_main_v29_apply, eb, Ideal.ofBits_def, ofBits_one]
  simp only [el, er, hidden_eq]
  rfl

end Cert.RefValue

end
-- ==== Proof.RefValueAttn.lean ====
/-
  The reference's masked score, its row maximum and its attention output, read entry by entry.

  Entry (b,i,j) of the masked score is the specification's `mscore`: the scaled score times the gate. The reference's
  maximum over j is a fold of the maximum from -∞ over the 512 keys, followed by one more maximum with -∞, which changes
  nothing: it is the specification's `rowMax`. Entry (b,i,h) of the attention output is the sum over the keys j of
  exp(s_j - M) / Σ_j' exp(s_j' - M) times v[b,j,h]: the specification's `attnRow`.
-/
import proofs.«116762_j61950608277594_2_alg».proof.Proof.RefValueProj
import proofs.«116762_j61950608277594_2_alg».proof.Proof.RefValueGate

noncomputable section

namespace Cert.RefValue

open Cert.ReferenceIdeal Cert.ReferenceIdeal.Gen Cert.ReferenceIdeal.Read Idealize.ShloMosaic Idealize.ShloMosaic.ValueIdx Cert.Spec

variable (a0 : (⟨S4x512x256, .f32⟩ : BufTy).Contents (Elt Ideal)) (a1 : (⟨S4x512, .f32⟩ : BufTy).Contents (Elt Ideal)) (a2 : (⟨S512x512, .f32⟩ : BufTy).Contents (Elt Ideal))
  (a3 : (⟨S256x256, .f32⟩ : BufTy).Contents (Elt Ideal)) (a4 : (⟨S256, .f32⟩ : BufTy).Contents (Elt Ideal)) (a5 : (⟨S256x256, .f32⟩ : BufTy).Contents (Elt Ideal)) (a6 : (⟨S256, .f32⟩ : BufTy).Contents (Elt Ideal))
  (a7 : (⟨S256x256, .f32⟩ : BufTy).Contents (Elt Ideal)) (a8 : (⟨S256, .f32⟩ : BufTy).Contents (Elt Ideal)) (a9 : (⟨S256x2, .f32⟩ : BufTy).Contents (Elt Ideal)) (a10 : (⟨S256, .f32⟩ : BufTy).Contents (Elt Ideal))
  (a11 : (⟨S1x256, .f32⟩ : BufTy).Contents (Elt Ideal)) (a12 : (⟨S1, .f32⟩ : BufTy).Contents (Elt Ideal)) (a13 : (⟨S256x256, .f32⟩ : BufTy).Contents (Elt Ideal))
  (a14 a15 a16 a17 a18 a19 a20 : (⟨S256, .f32⟩ : BufTy).Contents (Elt Ideal))

/-- The f32 word 0xFF800000 is -∞. -/
theorem ofBits_negInf : Ideal.ofBits .f32 0xFF800000#32 = ⊥ := by
  simp [Ideal.ofBits, Ideal.ieee]

/-- Entry (b,i,j) of the masked score array: score · gate. -/
theorem mscore_eq (b : Fin 4) (i j : Fin 512) :
    val_main_v39 (F := Ideal) a0 a1 a2 a3 a4 a5 a6 a9 a10 a11 a12 (ix3 b i j) = mscore (cur3 a0) (cur2 a1) (cur2 a2) (cur2 a3) (cur1 a4) (cur2 a5) (cur1 a6) (cur2 a9) (cur1 a10) (cur2 a11) (cur1 a12) b i j := by
  rw [val_main_v39_apply, score_eq, gate_eq]
  rfl

/-- A maximum-reduction from -∞ over the last axis of a [4,512,512] array, at row (b,i): the fold of the maximum
    from -∞ over that row's 512 entries. -/
theorem hostMax_row (y : (⟨S4x512x512, .f32⟩ : BufTy).Contents (Elt Ideal)) (b : Fin 4) (i : Fin 512) :
    Host.reduce (FloatOps.maximumf (F := Ideal) (φ := .f32)) y (val_main_cst_2 (F := Ideal)) reducesTo_S4x512x512_S4x512_d2 h_S_ (ix2 b i)
      = rowMax (fun j : Fin 512 => y (ix3 b i j)) := by
  have hred : S4x512x512.Reduces [2] S4x512 := by decide
  rw [Host.reduce_eq_fold_single (FloatOps.maximumf (F := Ideal) (φ := .f32)) y _ reducesTo_S4x512x512_S4x512_d2 hred h_S_]
  have hbot : val_main_cst_2 (F := Ideal) (Shape.Idx.first h_S_) = ⊥ := by
    rw [val_main_cst_2_apply, Ideal.ofBits_def, ofBits_negInf]
  rw [hbot]
  have hf : (y ∘ hred.lift (ix2 b i)) = fun j : Fin 512 => y (ix3 b i j) :=
    funext fun k => congrArg y (funext fun a => Fin.ext (by match a with | ⟨0, _⟩ => rfl | ⟨1, _⟩ => rfl | ⟨2, _⟩ => rfl))
  exact congrArg (fun f => Finset.fold max ⊥ f (Finset.univ : Finset (Fin 512))) hf

/-- Entry (b,i) of the row maximum: the maximum from -∞ of the masked scores of row (b,i). -/
theorem rowmax_eq (b : Fin 4) (i : Fin 512) :
    val_main_v42 (F := Ideal) a0 a1 a2 a3 a4 a5 a6 a9 a10 a11 a12 (ix2 b i) = rowMax (fun j => mscore (cur3 a0) (cur2 a1) (cur2 a2) (cur2 a3) (cur1 a4) (cur2 a5) (cur1 a6) (cur2 a9) (cur1 a10) (cur2 a11) (cur1 a12) b i j) := by
  rw [val_main_v42_apply, val_main_v41_apply, val_main_cst_3_apply, Ideal.ofBits_def, ofBits_negInf]
  unfold val_main_v40
  rw [hostMax_row, Ideal.maximumf_def]
  simp only [mscore_eq]
  exact max_eq_right bot_le

/-- Entry (b,i,h) of the attention output: Σ_j softmax(s)_j · v[b,j,h] over the masked scores s of row (b,i). -/
theorem attn_eq (b : Fin 4) (i : Fin 512) (h : Fin 256) :
    val_main_v51 (F := Ideal) a0 a1 a2 a3 a4 a5 a6 a7 a8 a9 a10 a11 a12 (ix3 b i h)
      = attnRow (fun j => mscore (cur3 a0) (cur2 a1) (cur2 a2) (cur2 a3) (cur1 a4) (cur2 a5) (cur1 a6) (cur2 a9) (cur1 a10) (cur2 a11) (cur1 a12) b i j) (fun j => proj (cur3 a0 b j) (cur2 a7) (cur1 a8) h) := by
  have el : ∀ k : Fin 512, lidx_main_v51 (ix3 b i h) k = ix3 b i k := fun k => funext fun a => Fin.ext (by match a with | ⟨0, _⟩ => rfl | ⟨1, _⟩ => rfl | ⟨2, _⟩ => rfl)
  have er : ∀ k : Fin 512, ridx_main_v51 (ix3 b i h) k = ix3 b k h := fun k => funext fun a => Fin.ext (by match a with | ⟨0, _⟩ => rfl | ⟨1, _⟩ => rfl | ⟨2, _⟩ => rfl)
  have e44 : ∀ k : Fin 512, idx_main_v43 (idx_main_v44 (ix3 b i k)) = ix2 b i := fun k => funext fun a => Fin.ext (by match a with | ⟨0, _⟩ => rfl | ⟨1, _⟩ => rfl)
  have e49 : ∀ k : Fin 512, idx_main_v48 (idx_main_v49 (ix3 b i k)) = ix2 b i := fun k => funext fun a => Fin.ext (by match a with | ⟨0, _⟩ => rfl | ⟨1, _⟩ => rfl)
  have e47 : ∀ k : Fin 512, idx_main_v47 (ix2 b i) k = ix3 b i k := fun k => funext fun a => Fin.ext (by match a with | ⟨0, _⟩ => rfl | ⟨1, _⟩ => rfl | ⟨2, _⟩ => rfl)
  have hexp : ∀ k : Fin 512, val_main_v46 (F := Ideal) a0 a1 a2 a3 a4 a5 a6 a9 a10 a11 a12 (ix3 b i k)
      = Ideal.exp (mscore (cur3 a0) (cur2 a1) (cur2 a2) (cur2 a3) (cur1 a4) (cur2 a5) (cur1 a6) (cur2 a9) (cur1 a10) (cur2 a11) (cur1 a12) b i k - rowMax (fun j => mscore (cur3 a0) (cur2 a1) (cur2 a2) (cur2 a3) (cur1 a4) (cur2 a5) (cur1 a6) (cur2 a9) (cur1 a10) (cur2 a11) (cur1 a12) b i j)) := fun k => by
    rw [val_main_v46_apply, val_main_v45_apply, val_main_v44_apply, val_main_v43_apply, e44 k, rowmax_eq, mscore_eq]
    rfl
  have hsum : val_main_v47 (F := Ideal) a0 a1 a2 a3 a4 a5 a6 a9 a10 a11 a12 (ix2 b i)
      = ∑ k : Fin 512, Ideal.exp (mscore (cur3 a0) (cur2 a1) (cur2 a2) (cur2 a3) (cur1 a4) (cur2 a5) (cur1 a6) (cur2 a9) (cur1 a10) (cur2 a11) (cur1 a12) b i k - rowMax (fun j => mscore (cur3 a0) (cur2 a1) (cur2 a2) (cur2 a3) (cur1 a4) (cur2 a5) (cur1 a6) (cur2 a9) (cur1 a10) (cur2 a11) (cur1 a12) b i j)) := by
    rw [val_main_v47_apply, val_main_cst_4_apply, Ideal.ofBits_def, Ideal.ofBits_zero_f32, zero_add]
    simp only [e47, hexp]
  rw [val_main_v51_apply]
  simp only [el, er, val_main_v50_apply, val_main_v49_apply, val_main_v48_apply, e49, hsum, hexp, v_eq]
  rfl

end Cert.RefValue

end
-- ==== Proof.RefValueEpi.lean ====
/-
  The reference after the attention output, read entry by entry: a layer norm, the output projection, a second layer
  norm, the maximum with 0 plus the residual x, and a third layer norm.

  Each stage is stated relative to the array it reads: row (b,i) of its result is the specification's row function
  (`layerNorm`, `proj`) of row (b,i) of its operand. A layer norm of a row y is ((y_h - μ) · rsqrt(σ² + ε)) · g_h + b_h with
  μ = (Σ y)/256 and σ² = (Σ (y - μ)²)/256; the reference's sums start from the zero word, which is the number 0.
-/
import proofs.«116762_j61950608277594_2_alg».proof.Proof.RefRead
import proofs.«116762_j61950608277594_2_alg».proof.Proof.Spec
import proofs.«116762_j61950608277594_2_alg».proof.Proof.Curry

noncomputable section

namespace Cert.RefValue

open Cert.ReferenceIdeal Cert.ReferenceIdeal.Gen Cert.ReferenceIdeal.Read Idealize.ShloMosaic Idealize.ShloMosaic.ValueIdx Cert.Spec

variable (a0 : (⟨S4x512x256, .f32⟩ : BufTy).Contents (Elt Ideal)) (a1 : (⟨S4x512, .f32⟩ : BufTy).Contents (Elt Ideal)) (a2 : (⟨S512x512, .f32⟩ : BufTy).Contents (Elt Ideal))
  (a3 : (⟨S256x256, .f32⟩ : BufTy).Contents (Elt Ideal)) (a4 : (⟨S256, .f32⟩ : BufTy).Contents (Elt Ideal)) (a5 : (⟨S256x256, .f32⟩ : BufTy).Contents (Elt Ideal)) (a6 : (⟨S256, .f32⟩ : BufTy).Contents (Elt Ideal))
  (a7 : (⟨S256x256, .f32⟩ : BufTy).Contents (Elt Ideal)) (a8 : (⟨S256, .f32⟩ : BufTy).Contents (Elt Ideal)) (a9 : (⟨S256x2, .f32⟩ : BufTy).Contents (Elt Ideal)) (a10 : (⟨S256, .f32⟩ : BufTy).Contents (Elt Ideal))
  (a11 : (⟨S1x256, .f32⟩ : BufTy).Contents (Elt Ideal)) (a12 : (⟨S1, .f32⟩ : BufTy).Contents (Elt Ideal)) (a13 : (⟨S256x256, .f32⟩ : BufTy).Contents (Elt Ideal))
  (a14 a15 a16 a17 a18 a19 a20 : (⟨S256, .f32⟩ : BufTy).Contents (Elt Ideal))

/-- Row (b,i) of the first layer norm (gain g1, shift b1) is the layer norm of row (b,i) of the attention output. -/
theorem ln1_eq (b : Fin 4) (i : Fin 512) (h : Fin 256) :
    val_main_v75 (F := Ideal) a0 a1 a2 a3 a4 a5 a6 a7 a8 a9 a10 a11 a12 a17 a18 (ix3 b i h)
      = layerNorm (fun h' : Fin 256 => val_main_v51 (F := Ideal) a0 a1 a2 a3 a4 a5 a6 a7 a8 a9 a10 a11 a12 (ix3 b i h')) (cur1 a17) (cur1 a18) h := by
  have e_sum : ∀ k : Fin 256, idx_main_v52 (ix2 b i) k = ix3 b i k := fun k => funext fun a => Fin.ext (by match a with | ⟨0, _⟩ => rfl | ⟨1, _⟩ => rfl | ⟨2, _⟩ => rfl)
  have e_ssum : ∀ k : Fin 256, idx_main_v59 (ix2 b i) k = ix3 b i k := fun k => funext fun a => Fin.ext (by match a with | ⟨0, _⟩ => rfl | ⟨1, _⟩ => rfl | ⟨2, _⟩ => rfl)
  have e_bsum : idx_main_v53 (ix3 b i (0 : Fin 1)) = ix2 b i := funext fun a => Fin.ext (by match a with | ⟨0, _⟩ => rfl | ⟨1, _⟩ => rfl)
  have e_bssum : idx_main_v60 (ix3 b i (0 : Fin 1)) = ix2 b i := funext fun a => Fin.ext (by match a with | ⟨0, _⟩ => rfl | ⟨1, _⟩ => rfl)
  have e_bm1 : ∀ k : Fin 256, idx_main_v56 (ix3 b i k) = ix3 b i (0 : Fin 1) := fun k => funext fun a => Fin.ext (by match a with | ⟨0, _⟩ => rfl | ⟨1, _⟩ => rfl | ⟨2, _⟩ => rfl)
  have e_bm2 : idx_main_v63 (ix3 b i h) = ix3 b i (0 : Fin 1) := funext fun a => Fin.ext (by match a with | ⟨0, _⟩ => rfl | ⟨1, _⟩ => rfl | ⟨2, _⟩ => rfl)
  have e_brs : idx_main_v68 (ix3 b i h) = ix3 b i (0 : Fin 1) := funext fun a => Fin.ext (by match a with | ⟨0, _⟩ => rfl | ⟨1, _⟩ => rfl | ⟨2, _⟩ => rfl)
  have e_g : idx_main_v70 (idx_main_v71 (ix3 b i h)) = ix1 h := funext fun a => Fin.ext (by match a with | ⟨0, _⟩ => rfl)
  have e_b : idx_main_v73 (idx_main_v74 (ix3 b i h)) = ix1 h := funext fun a => Fin.ext (by match a with | ⟨0, _⟩ => rfl)
  -- the row's mean
  have hmean : val_main_v55 (F := Ideal) a0 a1 a2 a3 a4 a5 a6 a7 a8 a9 a10 a11 a12 (ix3 b i (0 : Fin 1)) = mean (fun h' : Fin 256 => val_main_v51 (F := Ideal) a0 a1 a2 a3 a4 a5 a6 a7 a8 a9 a10 a11 a12 (ix3 b i h')) := by
    rw [val_main_v55_apply, val_main_v53_apply, e_bsum, val_main_v52_apply, val_main_v54_apply,
      val_main_cst_6_apply, val_main_cst_5_apply]
    simp only [e_sum, Ideal.ofBits_def, Ideal.ofBits_zero_f32, zero_add]
    rfl
  -- the reciprocal root of the row's variance plus ε
  have hrs : val_main_v67 (F := Ideal) a0 a1 a2 a3 a4 a5 a6 a7 a8 a9 a10 a11 a12 (ix3 b i (0 : Fin 1))
      = Ideal.rsqrt (mean (fun h' : Fin 256 => ((fun h' : Fin 256 => val_main_v51 (F := Ideal) a0 a1 a2 a3 a4 a5 a6 a7 a8 a9 a10 a11 a12 (ix3 b i h')) h' - mean (fun h' : Fin 256 => val_main_v51 (F := Ideal) a0 a1 a2 a3 a4 a5 a6 a7 a8 a9 a10 a11 a12 (ix3 b i h'))) * ((fun h' : Fin 256 => val_main_v51 (F := Ideal) a0 a1 a2 a3 a4 a5 a6 a7 a8 a9 a10 a11 a12 (ix3 b i h')) h' - mean (fun h' : Fin 256 => val_main_v51 (F := Ideal) a0 a1 a2 a3 a4 a5 a6 a7 a8 a9 a10 a11 a12 (ix3 b i h')))) + cEps) := by
    rw [val_main_v67_apply, val_main_v66_apply, val_main_v62_apply, val_main_v60_apply, e_bssum,
      val_main_v59_apply, val_main_v61_apply, val_main_cst_8_apply, val_main_cst_7_apply, val_main_v65_apply, val_main_cst_9_apply]
    simp only [e_ssum, val_main_v58_apply, val_main_v57_apply, val_main_v56_apply, e_bm1, hmean,
      Ideal.ofBits_def, Ideal.ofBits_zero_f32, zero_add]
    rfl
  rw [val_main_v75_apply, val_main_v72_apply, val_main_v69_apply, val_main_v64_apply, val_main_v63_apply, e_bm2,
    hmean, val_main_v68_apply, e_brs, hrs, val_main_v71_apply, val_main_v70_apply, e_g, val_main_v74_apply,
    val_main_v73_apply, e_b]
  rfl

/-- Row (b,i) of the output projection: Σ_k y[b,i,k]·Wo[h,k] + bo[h] over the first layer norm's row y. -/
theorem projo_eq (b : Fin 4) (i : Fin 512) (h : Fin 256) :
    val_main_v79 (F := Ideal) a0 a1 a2 a3 a4 a5 a6 a7 a8 a9 a10 a11 a12 a13 a14 a17 a18 (ix3 b i h)
      = proj (fun h' : Fin 256 => val_main_v75 (F := Ideal) a0 a1 a2 a3 a4 a5 a6 a7 a8 a9 a10 a11 a12 a17 a18 (ix3 b i h')) (cur2 a13) (cur1 a14) h := by
  have el : ∀ k : Fin 256, lidx_main_v76 (ix3 b i h) k = ix3 b i k := fun k => funext fun a => Fin.ext (by match a with | ⟨0, _⟩ => rfl | ⟨1, _⟩ => rfl | ⟨2, _⟩ => rfl)
  have er : ∀ k : Fin 256, ridx_main_v76 (ix3 b i h) k = ix2 h k := fun k => funext fun a => Fin.ext (by match a with | ⟨0, _⟩ => rfl | ⟨1, _⟩ => rfl)
  have eb : idx_main_v77 (idx_main_v78 (ix3 b i h)) = ix1 h := funext fun a => Fin.ext (by match a with | ⟨0, _⟩ => rfl)
  rw [val_main_v79_apply, val_main_v76_apply, val_main_v78_apply, val_main_v77_apply, eb]
  simp only [el, er]
  rfl

/-- Row (b,i) of the second layer norm (gain g_ot, shift b_ot) is the layer norm of row (b,i) of the output projection. -/
theorem lnot_eq (b : Fin 4) (i : Fin 512) (h : Fin 256) :
    val_main_v103 (F := Ideal) a0 a1 a2 a3 a4 a5 a6 a7 a8 a9 a10 a11 a12 a13 a14 a15 a16 a17 a18 (ix3 b i h)
      = layerNorm (fun h' : Fin 256 => val_main_v79 (F := Ideal) a0 a1 a2 a3 a4 a5 a6 a7 a8 a9 a10 a11 a12 a13 a14 a17 a18 (ix3 b i h')) (cur1 a15) (cur1 a16) h := by
  have e_sum : ∀ k : Fin 256, idx_main_v80 (ix2 b i) k = ix3 b i k := fun k => funext fun a => Fin.ext (by match a with | ⟨0, _⟩ => rfl | ⟨1, _⟩ => rfl | ⟨2, _⟩ => rfl)
  have e_ssum : ∀ k : Fin 256, idx_main_v87 (ix2 b i) k = ix3 b i k := fun k => funext fun a => Fin.ext (by match a with | ⟨0, _⟩ => rfl | ⟨1, _⟩ => rfl | ⟨2, _⟩ => rfl)
  have e_bsum : idx_main_v81 (ix3 b i (0 : Fin 1)) = ix2 b i := funext fun a => Fin.ext (by match a with | ⟨0, _⟩ => rfl | ⟨1, _⟩ => rfl)
  have e_bssum : idx_main_v88 (ix3 b i (0 : Fin 1)) = ix2 b i := funext fun a => Fin.ext (by match a with | ⟨0, _⟩ => rfl | ⟨1, _⟩ => rfl)
  have e_bm1 : ∀ k : Fin 256, idx_main_v84 (ix3 b i k) = ix3 b i (0 : Fin 1) := fun k => funext fun a => Fin.ext (by match a with | ⟨0, _⟩ => rfl | ⟨1, _⟩ => rfl | ⟨2, _⟩ => rfl)
  have e_bm2 : idx_main_v91 (ix3 b i h) = ix3 b i (0 : Fin 1) := funext fun a => Fin.ext (by match a with | ⟨0, _⟩ => rfl | ⟨1, _⟩ => rfl | ⟨2, _⟩ => rfl)
  have e_brs : idx_main_v96 (ix3 b i h) = ix3 b i (0 : Fin 1) := funext fun a => Fin.ext (by match a with | ⟨0, _⟩ => rfl | ⟨1, _⟩ => rfl | ⟨2, _⟩ => rfl)
  have e_g : idx_main_v98 (idx_main_v99 (ix3 b i h)) = ix1 h := funext fun a => Fin.ext (by match a with | ⟨0, _⟩ => rfl)
  have e_b : idx_main_v101 (idx_main_v102 (ix3 b i h)) = ix1 h := funext fun a => Fin.ext (by match a with | ⟨0, _⟩ => rfl)
  -- the row's mean
  have hmean : val_main_v83 (F := Ideal) a0 a1 a2 a3 a4 a5 a6 a7 a8 a9 a10 a11 a12 a13 a14 a17 a18 (ix3 b i (0 : Fin 1)) = mean (fun h' : Fin 256 => val_main_v79 (F := Ideal) a0 a1 a2 a3 a4 a5 a6 a7 a8 a9 a10 a11 a12 a13 a14 a17 a18 (ix3 b i h')) := by
    rw [val_main_v83_apply, val_main_v81_apply, e_bsum, val_main_v80_apply, val_main_v82_apply,
      val_main_cst_11_apply, val_main_cst_10_apply]
    simp only [e_sum, Ideal.ofBits_def, Ideal.ofBits_zero_f32, zero_add]
    rfl
  -- the reciprocal root of the row's variance plus ε
  have hrs : val_main_v95 (F := Ideal) a0 a1 a2 a3 a4 a5 a6 a7 a8 a9 a10 a11 a12 a13 a14 a17 a18 (ix3 b i (0 : Fin 1))
      = Ideal.rsqrt (mean (fun h' : Fin 256 => ((fun h' : Fin 256 => val_main_v79 (F := Ideal) a0 a1 a2 a3 a4 a5 a6 a7 a8 a9 a10 a11 a12 a13 a14 a17 a18 (ix3 b i h')) h' - mean (fun h' : Fin 256 => val_main_v79 (F := Ideal) a0 a1 a2 a3 a4 a5 a6 a7 a8 a9 a10 a11 a12 a13 a14 a17 a18 (ix3 b i h'))) * ((fun h' : Fin 256 => val_main_v79 (F := Ideal) a0 a1 a2 a3 a4 a5 a6 a7 a8 a9 a10 a11 a12 a13 a14 a17 a18 (ix3 b i h')) h' - mean (fun h' : Fin 256 => val_main_v79 (F := Ideal) a0 a1 a2 a3 a4 a5 a6 a7 a8 a9 a10 a11 a12 a13 a14 a17 a18 (ix3 b i h')))) + cEps) := by
    rw [val_main_v95_apply, val_main_v94_apply, val_main_v90_apply, val_main_v88_apply, e_bssum,
      val_main_v87_apply, val_main_v89_apply, val_main_cst_13_apply, val_main_cst_12_apply, val_main_v93_apply, val_main_cst_14_apply]
    simp only [e_ssum, val_main_v86_apply, val_main_v85_apply, val_main_v84_apply, e_bm1, hmean,
      Ideal.ofBits_def, Ideal.ofBits_zero_f32, zero_add]
    rfl
  rw [val_main_v103_apply, val_main_v100_apply, val_main_v97_apply, val_main_v92_apply, val_main_v91_apply, e_bm2,
    hmean, val_main_v96_apply, e_brs, hrs, val_main_v99_apply, val_main_v98_apply, e_g, val_main_v102_apply,
    val_main_v101_apply, e_b]
  rfl

/-- Entry (b,i,h) after the maximum with 0 and the residual: max(z, 0) + x[b,i,h] at the second layer norm's entry z. -/
theorem res_eq (b : Fin 4) (i : Fin 512) (h : Fin 256) :
    val_main_v105 (F := Ideal) a0 a1 a2 a3 a4 a5 a6 a7 a8 a9 a10 a11 a12 a13 a14 a15 a16 a17 a18 (ix3 b i h)
      = max (val_main_v103 (F := Ideal) a0 a1 a2 a3 a4 a5 a6 a7 a8 a9 a10 a11 a12 a13 a14 a15 a16 a17 a18 (ix3 b i h)) 0 + cur3 a0 b i h := by
  rw [val_main_v105_apply, val_main_v104_apply, val_main_call1_v0_apply, val_main_call1_cst_apply, Ideal.ofBits_def,
    Ideal.ofBits_zero_f32]
  rfl

/-- Row (b,i) of the result, the third layer norm (gain g2, shift b2), is the layer norm of row (b,i) of the residual sum. -/
theorem ln2_eq (b : Fin 4) (i : Fin 512) (h : Fin 256) :
    val_main_v129 (F := Ideal) a0 a1 a2 a3 a4 a5 a6 a7 a8 a9 a10 a11 a12 a13 a14 a15 a16 a17 a18 a19 a20 (ix3 b i h)
      = layerNorm (fun h' : Fin 256 => val_main_v105 (F := Ideal) a0 a1 a2 a3 a4 a5 a6 a7 a8 a9 a10 a11 a12 a13 a14 a15 a16 a17 a18 (ix3 b i h')) (cur1 a19) (cur1 a20) h := by
  have e_sum : ∀ k : Fin 256, idx_main_v106 (ix2 b i) k = ix3 b i k := fun k => funext fun a => Fin.ext (by match a with | ⟨0, _⟩ => rfl | ⟨1, _⟩ => rfl | ⟨2, _⟩ => rfl)
  have e_ssum : ∀ k : Fin 256, idx_main_v113 (ix2 b i) k = ix3 b i k := fun k => funext fun a => Fin.ext (by match a with | ⟨0, _⟩ => rfl | ⟨1, _⟩ => rfl | ⟨2, _⟩ => rfl)
  have e_bsum : idx_main_v107 (ix3 b i (0 : Fin 1)) = ix2 b i := funext fun a => Fin.ext (by match a with | ⟨0, _⟩ => rfl | ⟨1, _⟩ => rfl)
  have e_bssum : idx_main_v114 (ix3 b i (0 : Fin 1)) = ix2 b i := funext fun a => Fin.ext (by match a with | ⟨0, _⟩ => rfl | ⟨1, _⟩ => rfl)
  have e_bm1 : ∀ k : Fin 256, idx_main_v110 (ix3 b i k) = ix3 b i (0 : Fin 1) := fun k => funext fun a => Fin.ext (by match a with | ⟨0, _⟩ => rfl | ⟨1, _⟩ => rfl | ⟨2, _⟩ => rfl)
  have e_bm2 : idx_main_v117 (ix3 b i h) = ix3 b i (0 : Fin 1) := funext fun a => Fin.ext (by match a with | ⟨0, _⟩ => rfl | ⟨1, _⟩ => rfl | ⟨2, _⟩ => rfl)
  have e_brs : idx_main_v122 (ix3 b i h) = ix3 b i (0 : Fin 1) := funext fun a => Fin.ext (by match a with | ⟨0, _⟩ => rfl | ⟨1, _⟩ => rfl | ⟨2, _⟩ => rfl)
  have e_g : idx_main_v124 (idx_main_v125 (ix3 b i h)) = ix1 h := funext fun a => Fin.ext (by match a with | ⟨0, _⟩ => rfl)
  have e_b : idx_main_v127 (idx_main_v128 (ix3 b i h)) = ix1 h := funext fun a => Fin.ext (by match a with | ⟨0, _⟩ => rfl)
  -- the row's mean
  have hmean : val_main_v109 (F := Ideal) a0 a1 a2 a3 a4 a5 a6 a7 a8 a9 a10 a11 a12 a13 a14 a15 a16 a17 a18 (ix3 b i (0 : Fin 1)) = mean (fun h' : Fin 256 => val_main_v105 (F := Ideal) a0 a1 a2 a3 a4 a5 a6 a7 a8 a9 a10 a11 a12 a13 a14 a15 a16 a17 a18 (ix3 b i h')) := by
    rw [val_main_v109_apply, val_main_v107_apply, e_bsum, val_main_v106_apply, val_main_v108_apply,
      val_main_cst_16_apply, val_main_cst_15_apply]
    simp only [e_sum, Ideal.ofBits_def, Ideal.ofBits_zero_f32, zero_add]
    rfl
  -- the reciprocal root of the row's variance plus ε
  have hrs : val_main_v121 (F := Ideal) a0 a1 a2 a3 a4 a5 a6 a7 a8 a9 a10 a11 a12 a13 a14 a15 a16 a17 a18 (ix3 b i (0 : Fin 1))
      = Ideal.rsqrt (mean (fun h' : Fin 256 => ((fun h' : Fin 256 => val_main_v105 (F := Ideal) a0 a1 a2 a3 a4 a5 a6 a7 a8 a9 a10 a11 a12 a13 a14 a15 a16 a17 a18 (ix3 b i h')) h' - mean (fun h' : Fin 256 => val_main_v105 (F := Ideal) a0 a1 a2 a3 a4 a5 a6 a7 a8 a9 a10 a11 a12 a13 a14 a15 a16 a17 a18 (ix3 b i h'))) * ((fun h' : Fin 256 => val_main_v105 (F := Ideal) a0 a1 a2 a3 a4 a5 a6 a7 a8 a9 a10 a11 a12 a13 a14 a15 a16 a17 a18 (ix3 b i h')) h' - mean (fun h' : Fin 256 => val_main_v105 (F := Ideal) a0 a1 a2 a3 a4 a5 a6 a7 a8 a9 a10 a11 a12 a13 a14 a15 a16 a17 a18 (ix3 b i h')))) + cEps) := by
    rw [val_main_v121_apply, val_main_v120_apply, val_main_v116_apply, val_main_v114_apply, e_bssum,
      val_main_v113_apply, val_main_v115_apply, val_main_cst_18_apply, val_main_cst_17_apply, val_main_v119_apply, val_main_cst_19_apply]
    simp only [e_ssum, val_main_v112_apply, val_main_v111_apply, val_main_v110_apply, e_bm1, hmean,
      Ideal.ofBits_def, Ideal.ofBits_zero_f32, zero_add]
    rfl
  rw [val_main_v129_apply, val_main_v126_apply, val_main_v123_apply, val_main_v118_apply, val_main_v117_apply, e_bm2,
    hmean, val_main_v122_apply, e_brs, hrs, val_main_v125_apply, val_main_v124_apply, e_g, val_main_v128_apply,
    val_main_v127_apply, e_b]
  rfl

end Cert.RefValue

end
-- ==== Proof.RefValue.lean ====
/-
  The reference program computes the specification: its result array, as a function of the twenty-one argument
  arrays, is entry by entry the specification's `G` of the arrays read through their coordinates.

  The stages chain: the attention output is `attnRow` of the masked scores and the value rows; the first layer norm,
  the output projection, the second layer norm, the maximum with 0 plus the residual, and the third layer norm are the
  specification's `epilogue` of that row.
-/
import proofs.«116762_j61950608277594_2_alg».proof.Proof.RefValueAttn
import proofs.«116762_j61950608277594_2_alg».proof.Proof.RefValueEpi

noncomputable section

namespace Cert.RefValue

open Cert.ReferenceIdeal Cert.ReferenceIdeal.Gen Cert.ReferenceIdeal.Read Idealize.ShloMosaic Idealize.ShloMosaic.ValueIdx Cert.Spec

/-- The reference's result is `G` of its arguments at every index. -/
theorem ref_is_G
    (a0 : (⟨S4x512x256, .f32⟩ : BufTy).Contents (Elt Ideal)) (a1 : (⟨S4x512, .f32⟩ : BufTy).Contents (Elt Ideal)) (a2 : (⟨S512x512, .f32⟩ : BufTy).Contents (Elt Ideal))
    (a3 : (⟨S256x256, .f32⟩ : BufTy).Contents (Elt Ideal)) (a4 : (⟨S256, .f32⟩ : BufTy).Contents (Elt Ideal)) (a5 : (⟨S256x256, .f32⟩ : BufTy).Contents (Elt Ideal)) (a6 : (⟨S256, .f32⟩ : BufTy).Contents (Elt Ideal))
    (a7 : (⟨S256x256, .f32⟩ : BufTy).Contents (Elt Ideal)) (a8 : (⟨S256, .f32⟩ : BufTy).Contents (Elt Ideal)) (a9 : (⟨S256x2, .f32⟩ : BufTy).Contents (Elt Ideal)) (a10 : (⟨S256, .f32⟩ : BufTy).Contents (Elt Ideal))
    (a11 : (⟨S1x256, .f32⟩ : BufTy).Contents (Elt Ideal)) (a12 : (⟨S1, .f32⟩ : BufTy).Contents (Elt Ideal)) (a13 : (⟨S256x256, .f32⟩ : BufTy).Contents (Elt Ideal))
    (a14 a15 a16 a17 a18 a19 a20 : (⟨S256, .f32⟩ : BufTy).Contents (Elt Ideal)) :
    val_main_v129 (F := Ideal) a0 a1 a2 a3 a4 a5 a6 a7 a8 a9 a10 a11 a12 a13 a14 a15 a16 a17 a18 a19 a20
      = fun i => Cert.Spec.G (cur3 a0) (cur2 a1) (cur2 a2) (cur2 a3) (cur1 a4) (cur2 a5) (cur1 a6) (cur2 a7) (cur1 a8)
          (cur2 a9) (cur1 a10) (cur2 a11) (cur1 a12) (cur2 a13) (cur1 a14) (cur1 a15) (cur1 a16) (cur1 a17) (cur1 a18)
          (cur1 a19) (cur1 a20) (i 0) (i 1) (i 2) := by
  funext i
  obtain ⟨b, n, h, rfl⟩ : ∃ (b : Fin 4) (n : Fin 512) (h : Fin 256), i = ix3 b n h := ⟨i 0, i 1, i 2, eq_ix3 i⟩
  show val_main_v129 (F := Ideal) a0 a1 a2 a3 a4 a5 a6 a7 a8 a9 a10 a11 a12 a13 a14 a15 a16 a17 a18 a19 a20 (ix3 b n h)
    = Cert.Spec.G (cur3 a0) (cur2 a1) (cur2 a2) (cur2 a3) (cur1 a4) (cur2 a5) (cur1 a6) (cur2 a7) (cur1 a8)
        (cur2 a9) (cur1 a10) (cur2 a11) (cur1 a12) (cur2 a13) (cur1 a14) (cur1 a15) (cur1 a16) (cur1 a17) (cur1 a18)
        (cur1 a19) (cur1 a20) b n h
  rw [ln2_eq]
  simp only [res_eq, lnot_eq, projo_eq, ln1_eq, attn_eq]
  rfl

end Cert.RefValue

end
-- ==== Proof.RefResult.lean ====
/-
  The reference's result buffer after the run is the last stage function of the argument arrays.

  The run leaves the result buffer at the fold of the 155 host operations over the launch contents; read operation by
  operation, that fold at the result buffer is the composition of the stage functions, which is the last stage.
-/
import proofs.«116762_j61950608277594_2_alg».proof.Proof.RefRead

noncomputable section

namespace Cert.RefValue

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 8192 in
set_option maxHeartbeats 62000000 in
/-- The result buffer's contents after the run: the last stage function of the arguments' launch contents. -/
theorem val_main_v129_eq (m : (ℓ : Loc nD τ sig) → Buf (Elt F) ℓ) (c : Dev nD) :
    Cert.ReferenceIdeal.Value.res_main_v129 m c = val_main_v129 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  unfold Cert.ReferenceIdeal.Value.res_main_v129; after_results_simp <;> rfl

end Cert.RefValue

end
-- ==== Proof.FiniteInputs.lean ====
/-
  The precondition decoded. The printed predicate is the conjunction, over the twenty-one argument arrays, of
  "every entry x has |x| < +∞" (an elementwise comparison against the word of +∞, reduced by "and" over all axes
  from the constant true). Read over the extended reals, |x| is max x (-x), the word 0x7F800000 is ⊤, and
  max x (-x) < ⊤ excludes exactly the two infinities: every entry of every argument array is a real number.
-/
import proofs.«116762_j61950608277594_2_alg».proof.Proof.Gen.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic Idealize.ShloMosaic.ValueIdx Cert.Pre_finite_inputs

/-- The scalar shape has one index. -/
instance subsingleton_scalar_idx : Subsingleton S_.Idx := ⟨fun a b => funext fun d => d.elim0⟩

/-- An extended real whose absolute value max x (-x) is below +∞ is a real: at -∞ and at +∞ the maximum is +∞. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The f32 word of +∞ read as an extended real is ⊤. -/
theorem ofBits_inf_f32 : Ideal.ofBits .f32 0x7F800000#32 = ⊤ := by simp [Ideal.ofBits, Ideal.ieee]

/-- One conjunct of the predicate, for an array of any shape: if "all entries have |x| < +∞" evaluates to true,
    every entry is a real. -/
theorem real_of_all {S : Shape} {axes : List (Fin S.rank)} (a : FVec Ideal S .f32)
    (hb : S_.BroadcastsInDim S (![] : Fin 0 → Fin S.rank)) (hr : S.ReducesTo axes S_) (hS : 0 < S_.numel)
    (e : Host.reduce IntOp.andi
          (cmpf .olt (Host.absf a) (broadcastInDim S ![] hb (constant (F := Ideal) S_ .f32 0x7F800000#32)))
          (constantI S_ 1 1#1) hr hS ix0 = 1#1) (i : S.Idx) : ∃ r : ℝ, a i = (r : EReal) := by
  have h1 := Host.reduce_andi_all _ _ hr hS ix0 e i
  have h2 : Ideal.cmp .olt (max (a i) (-(a i))) (Ideal.ofBits .f32 0x7F800000#32) = 1#1 := h1
  rw [ofBits_inf_f32] at h2
  refine real_of_abs_lt_top _ ?_
  have h3 : BitVec.ofBool (decide (max (a i) (-(a i)) < ⊤)) = 1#1 := h2
  by_contra hn
  rw [decide_eq_false hn] at h3
  exact absurd h3 (by decide)

/-- THE PRECONDITION DECODED: if the printed predicate of the twenty-one argument arrays is all ones, every entry of
    every array is a real number. -/
theorem finite_of_pre [Facts] (a0 : FVec Ideal S4x512x256 .f32) (a1 : FVec Ideal S4x512 .f32) (a2 : FVec Ideal S512x512 .f32) (a3 : FVec Ideal S256x256 .f32) (a4 : FVec Ideal S256 .f32) (a5 : FVec Ideal S256x256 .f32) (a6 : FVec Ideal S256 .f32) (a7 : FVec Ideal S256x256 .f32) (a8 : FVec Ideal S256 .f32) (a9 : FVec Ideal S256x2 .f32) (a10 : FVec Ideal S256 .f32) (a11 : FVec Ideal S1x256 .f32) (a12 : FVec Ideal S1 .f32) (a13 : FVec Ideal S256x256 .f32) (a14 : FVec Ideal S256 .f32) (a15 : FVec Ideal S256 .f32) (a16 : FVec Ideal S256 .f32) (a17 : FVec Ideal S256 .f32) (a18 : FVec Ideal S256 .f32) (a19 : FVec Ideal S256 .f32) (a20 : FVec Ideal S256 .f32)
    (h : fn (F := Ideal) a0 a1 a2 a3 a4 a5 a6 a7 a8 a9 a10 a11 a12 a13 a14 a15 a16 a17 a18 a19 a20 = fun _ => 1#1) :
    (∀ i, ∃ r : ℝ, a0 i = (r : EReal))
      ∧ (∀ i, ∃ r : ℝ, a1 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal))
      ∧ (∀ i, ∃ r : ℝ, a12 i = (r : EReal))
      ∧ (∀ i, ∃ r : ℝ, a13 i = (r : EReal))
      ∧ (∀ i, ∃ r : ℝ, a14 i = (r : EReal))
      ∧ (∀ i, ∃ r : ℝ, a15 i = (r : EReal))
      ∧ (∀ i, ∃ r : ℝ, a16 i = (r : EReal))
      ∧ (∀ i, ∃ r : ℝ, a17 i = (r : EReal))
      ∧ (∀ i, ∃ r : ℝ, a18 i = (r : EReal))
      ∧ (∀ i, ∃ r : ℝ, a19 i = (r : EReal))
      ∧ (∀ i, ∃ r : ℝ, a20 i = (r : EReal)) := by
  have h0 := congrFun h ix0
  dsimp only [fn, fn_part1, fn_part2, fn_part3, fn_part4, fn_part5, fn_part6, andi] at h0
  simp only [IntOp.andi_eq_one] at h0
  obtain ⟨⟨⟨⟨⟨⟨⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩, e15⟩, e16⟩, e17⟩, e18⟩, e19⟩, e20⟩ := h0
  exact ⟨fun i => real_of_all a0 _ _ _ e0 i,
    fun i => real_of_all a1 _ _ _ e1 i,
    fun i => real_of_all a2 _ _ _ e2 i,
    fun i => real_of_all a3 _ _ _ e3 i,
    fun i => real_of_all a4 _ _ _ e4 i,
    fun i => real_of_all a5 _ _ _ e5 i,
    fun i => real_of_all a6 _ _ _ e6 i,
    fun i => real_of_all a7 _ _ _ e7 i,
    fun i => real_of_all a8 _ _ _ e8 i,
    fun i => real_of_all a9 _ _ _ e9 i,
    fun i => real_of_all a10 _ _ _ e10 i,
    fun i => real_of_all a11 _ _ _ e11 i,
    fun i => real_of_all a12 _ _ _ e12 i,
    fun i => real_of_all a13 _ _ _ e13 i,
    fun i => real_of_all a14 _ _ _ e14 i,
    fun i => real_of_all a15 _ _ _ e15 i,
    fun i => real_of_all a16 _ _ _ e16 i,
    fun i => real_of_all a17 _ _ _ e17 i,
    fun i => real_of_all a18 _ _ _ e18 i,
    fun i => real_of_all a19 _ _ _ e19 i,
    fun i => real_of_all a20 _ _ _ e20 i⟩

end Cert.FiniteInputs

end
-- ==== Proof.Claims.lean ====
/-
  The five claims, assembled.

  Frames: the two kernel programs run to the end with their arguments unchanged by the launch theorem for kernels whose
  input windows share an array; the reference by its run, the result dropped. The idealization rewrote nothing, so
  nothing is to be preserved.

  The value claim: the idealized kernel ends with its output array at the blocked form of the specification
  (a running maximum, normaliser and accumulator over four blocks of 128 keys, divided at the end), the reference
  with its result at the specification itself (one softmax over 512 keys); under the precondition every entry of every
  input is a real number, and on reals the two forms of an attention row are one number. The other stages
  (projections, scaled scores, the edge network's gate, the three layer norms) are the same function on both sides.
-/
import proofs.«116762_j61950608277594_2_alg».proof.Defs
import proofs.«116762_j61950608277594_2_alg».proof.Proof.K.Launch
import proofs.«116762_j61950608277594_2_alg».proof.Proof.KI.Launch
import proofs.«116762_j61950608277594_2_alg».proof.Proof.KI.Value
import proofs.«116762_j61950608277594_2_alg».proof.Proof.RefRead
import proofs.«116762_j61950608277594_2_alg».proof.Proof.RefValue
import proofs.«116762_j61950608277594_2_alg».proof.Proof.RefResult
import proofs.«116762_j61950608277594_2_alg».proof.Proof.MathGblk
import proofs.«116762_j61950608277594_2_alg».proof.Proof.FiniteInputs

noncomputable section

namespace Cert.Proof.Claims

open Idealize.ShloMosaic Idealize.ShloMosaic.TcCoe Idealize.SL.Sem Cert.Spec

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The common result on core c: the specification at the kernel's argument arrays. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v1) :=
  fun i => Spec.G (cur3 (m ((c.tc : Thread Cert.KernelIdeal.nD Cert.KernelIdeal.τ).loc Cert.KernelIdeal.main_arg0))) (cur2 (m ((c.tc : Thread Cert.KernelIdeal.nD Cert.KernelIdeal.τ).loc Cert.KernelIdeal.main_arg1))) (cur2 (m ((c.tc : Thread Cert.KernelIdeal.nD Cert.KernelIdeal.τ).loc Cert.KernelIdeal.main_arg2))) (cur2 (m ((c.tc : Thread Cert.KernelIdeal.nD Cert.KernelIdeal.τ).loc Cert.KernelIdeal.main_arg3))) (cur1 (m ((c.tc : Thread Cert.KernelIdeal.nD Cert.KernelIdeal.τ).loc Cert.KernelIdeal.main_arg4))) (cur2 (m ((c.tc : Thread Cert.KernelIdeal.nD Cert.KernelIdeal.τ).loc Cert.KernelIdeal.main_arg5))) (cur1 (m ((c.tc : Thread Cert.KernelIdeal.nD Cert.KernelIdeal.τ).loc Cert.KernelIdeal.main_arg6))) (cur2 (m ((c.tc : Thread Cert.KernelIdeal.nD Cert.KernelIdeal.τ).loc Cert.KernelIdeal.main_arg7))) (cur1 (m ((c.tc : Thread Cert.KernelIdeal.nD Cert.KernelIdeal.τ).loc Cert.KernelIdeal.main_arg8))) (cur2 (m ((c.tc : Thread Cert.KernelIdeal.nD Cert.KernelIdeal.τ).loc Cert.KernelIdeal.main_arg9))) (cur1 (m ((c.tc : Thread Cert.KernelIdeal.nD Cert.KernelIdeal.τ).loc Cert.KernelIdeal.main_arg10))) (cur2 (m ((c.tc : Thread Cert.KernelIdeal.nD Cert.KernelIdeal.τ).loc Cert.KernelIdeal.main_arg11))) (cur1 (m ((c.tc : Thread Cert.KernelIdeal.nD Cert.KernelIdeal.τ).loc Cert.KernelIdeal.main_arg12))) (cur2 (m ((c.tc : Thread Cert.KernelIdeal.nD Cert.KernelIdeal.τ).loc Cert.KernelIdeal.main_arg13))) (cur1 (m ((c.tc : Thread Cert.KernelIdeal.nD Cert.KernelIdeal.τ).loc Cert.KernelIdeal.main_arg14))) (cur1 (m ((c.tc : Thread Cert.KernelIdeal.nD Cert.KernelIdeal.τ).loc Cert.KernelIdeal.main_arg15))) (cur1 (m ((c.tc : Thread Cert.KernelIdeal.nD Cert.KernelIdeal.τ).loc Cert.KernelIdeal.main_arg16))) (cur1 (m ((c.tc : Thread Cert.KernelIdeal.nD Cert.KernelIdeal.τ).loc Cert.KernelIdeal.main_arg17))) (cur1 (m ((c.tc : Thread Cert.KernelIdeal.nD Cert.KernelIdeal.τ).loc Cert.KernelIdeal.main_arg18))) (cur1 (m ((c.tc : Thread Cert.KernelIdeal.nD Cert.KernelIdeal.τ).loc Cert.KernelIdeal.main_arg19))) (cur1 (m ((c.tc : Thread Cert.KernelIdeal.nD Cert.KernelIdeal.τ).loc Cert.KernelIdeal.main_arg20))) (i 0) (i 1) (i 2)

theorem algebraic : Cert.algebraic_KernelIdeal_ReferenceIdeal := by
  intro m ρ m' ρ' hpre hagree
  refine ⟨result m, ?_, ?_⟩
  · -- the kernel: the blocked form, then reals
    refine (θ_run Cert.KernelIdeal.defs _ _).mono (fun r h c => ⟨?_, Cert.KernelIdeal.Hand.args_kept m r h c⟩)
      (Cert.KernelIdeal.Hand.run_main (F := Ideal) m ρ)
    refine ((h c).1 22).trans ((Cert.KernelIdeal.Hand.final22 m c).trans ?_)
    obtain ⟨h0, h1, h2, h3, h4, h5, h6, h7, h8, h9, h10, h11, h12, -⟩ := Cert.FiniteInputs.finite_of_pre _ _ _ _ _ _ _ _ _ _ _ _ _ _ _ _ _ _ _ _ _ (hpre c)
    funext i
    exact Cert.SpecMath.Gblk_eq_G_arrays _ _ _ _ _ _ _ _ _ _ _ _ _ _ _ _ _ _ _ _ _ h0 h1 h2 h3 h4 h5 h6 h7 h8 h9 h10 h11 h12 (i 0) (i 1) (i 2)
  · -- the reference: its run, read stage by stage, is the specification
    refine (θ_run Cert.ReferenceIdeal.defs _ _).mono (fun r h c => ⟨?_, (h c).2⟩)
      (Cert.ReferenceIdeal.Value.run (F := Ideal) m' ρ')
    rw [(h c).1, Cert.RefValue.val_main_v129_eq, Cert.RefValue.ref_is_G]
    obtain ⟨e0, e1, e2, e3, e4, e5, e6, e7, e8, e9, e10, e11, e12, e13, e14, e15, e16, e17, e18, e19, e20⟩ := hagree c
    rw [e0, e1, e2, e3, e4, e5, e6, e7, e8, e9, e10, e11, e12, e13, e14, e15, e16, e17, e18, e19, e20]
    rfl

end Cert.Proof.Claims

end
-- ==== Proof.lean ====
/-
  The certificate's proof: a graph-attention layer (projections, scaled scores gated by a two-layer edge network,
  a softmax over 512 keys, the weighted values, then three layer norms around an output projection) computed by a
  kernel that walks the keys in four blocks of 128 with a running maximum, normaliser and accumulator, against the
  same layer written with one softmax per row. The pieces are in the modules under Proof/: the specification
  (Spec), the mathematics joining the blocked and the plain softmax on real rows (MathBlocks, MathReal, MathGblk),
  the reference read stage by stage (RefRun, RefRead, RefValue…), the kernel's arithmetic read at an entry
  (Pay…), its frame and launch at both instances (K/, KI/), the kernel's final array (KI/Value), and the
  assembly of the five claims (Claims).
-/
import proofs.«116762_j61950608277594_2_alg».proof.Defs
import proofs.«116762_j61950608277594_2_alg».proof.Proof.Claims
import proofs.«116762_j61950608277594_2_alg».proof.Proof.Gen.Kernel
import proofs.«116762_j61950608277594_2_alg».proof.Proof.Gen.KernelIdeal
import proofs.«116762_j61950608277594_2_alg».proof.Proof.Gen.ReferenceIdeal
import proofs.«116762_j61950608277594_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
